-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v141)) (v1 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_v142) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v241) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S256x256x256x1 : Shape := ⟨4, ![256, 256, 256, 1]⟩
abbrev S65536x16 : Shape := ⟨2, ![65536, 16]⟩
abbrev S16x64 : Shape := ⟨2, ![16, 64]⟩
abbrev S64x16 : Shape := ⟨2, ![64, 16]⟩
abbrev S31x64 : Shape := ⟨2, ![31, 64]⟩
abbrev S64x64 : Shape := ⟨2, ![64, 64]⟩
abbrev S64x3 : Shape := ⟨2, ![64, 3]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S256x256x256x1 : S_.BroadcastsInDim S256x256x256x1 (![] : Fin 0 → Fin S256x256x256x1.rank)
  reducesTo_S256x256x256x1_S_d0_1_2_3 : S256x256x256x1.ReducesTo [0, 1, 2, 3] S_
  bcast_S_S65536x16 : S_.BroadcastsInDim S65536x16 (![] : Fin 0 → Fin S65536x16.rank)
  reducesTo_S65536x16_S_d0_1 : S65536x16.ReducesTo [0, 1] S_
  bcast_S_S16x64 : S_.BroadcastsInDim S16x64 (![] : Fin 0 → Fin S16x64.rank)
  reducesTo_S16x64_S_d0_1 : S16x64.ReducesTo [0, 1] S_
  bcast_S_S64x16 : S_.BroadcastsInDim S64x16 (![] : Fin 0 → Fin S64x16.rank)
  reducesTo_S64x16_S_d0_1 : S64x16.ReducesTo [0, 1] S_
  bcast_S_S31x64 : S_.BroadcastsInDim S31x64 (![] : Fin 0 → Fin S31x64.rank)
  reducesTo_S31x64_S_d0_1 : S31x64.ReducesTo [0, 1] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_

variable [Facts]

def fn_part2 {F : FTy → Type} [FloatOps F] (main_arg7 : FVec F S64x64 .f32) (main_arg8 : FVec F S64x3 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x3 .f32 := Host.absf main_arg8
  let main_cst_14 : FVec F S_ .f32 := constant S_ .f32 0x7F800000#32
  let main_v40 : FVec F S64x3 .f32 := broadcastInDim S64x3 ![] bcast_S_S64x3 main_cst_14
  let main_v41 : IVec S64x3 1 := cmpf .olt main_v39 main_v40
  let main_c_15 : IVec S_ 1 := constantI S_ 1 1#1
  let main_v42 : IVec S_ 1 := (fun x v => Host.reduce IntOp.andi x v reducesTo_S64x3_S_d0_1 h_S_) main_v41 main_c_15
  let main_v43 : IVec S_ 1 := andi main_v38 main_v42
  main_v43

def fn_part1 {F : FTy → Type} [FloatOps F] (main_arg4 : FVec F S16x64 .f32) (main_arg5 : FVec F S64x16 .f32) (main_arg6 : FVec F S31x64 .f32) (main_arg7 : FVec F S64x64 .f32) (main_arg8 : FVec F S64x3 .f32) (main_v13 : IVec S_ 1) (main_v16 : IVec S65536x16 1) : IVec S_ 1 :=
  let main_c_5 : IVec S_ 1 := constantI S_ 1 1#1
  let main_v17 : IVec S_ 1 := (fun x v => Host.reduce IntOp.andi x v reducesTo_S65536x16_S_d0_1 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64x16 .f32 := Host.absf main_arg5
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S31x64 .f32 := Host.absf main_arg6
  let main_cst_10 : FVec F S_ .f32 := constant S_ .f32 0x7F800000#32
  let main_v30 : FVec F S31x64 .f32 := broadcastInDim S31x64 ![] bcast_S_S31x64 main_cst_10
  let main_v31 : IVec S31x64 1 := cmpf .olt main_v29 main_v30
  let main_c_11 : IVec S_ 1 := constantI S_ 1 1#1
  let main_v32 : IVec S_ 1 := (fun x v => Host.reduce IntOp.andi x v reducesTo_S31x64_S_d0_1 h_S_) main_v31 main_c_11
  let main_v33 : IVec S_ 1 := andi main_v28 main_v32
  fn_part2 (F := F) main_arg7 main_arg8 main_v33

def fn {F : FTy → Type} [FloatOps F] (main_arg0 : FVec F S1000000x3 .f32) (main_arg1 : FVec F S1000000x3 .f32) (main_arg2 : FVec F S256x256x256x1 .f32) (main_arg3 : FVec F S65536x16 .f32) (main_arg4 : FVec F S16x64 .f32) (main_arg5 : FVec F S64x16 .f32) (main_arg6 : FVec F S31x64 .f32) (main_arg7 : FVec F S64x64 .f32) (main_arg8 : FVec F S64x3 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S1000000x3 .f32 := Host.absf main_arg1
  let main_cst_0 : FVec F S_ .f32 := constant S_ .f32 0x7F800000#32
  let main_v5 : FVec F S1000000x3 .f32 := broadcastInDim S1000000x3 ![] bcast_S_S1000000x3 main_cst_0
  let main_v6 : IVec S1000000x3 1 := cmpf .olt main_v4 main_v5
  let main_c_1 : IVec S_ 1 := constantI S_ 1 1#1
  let main_v7 : IVec S_ 1 := (fun x v => Host.reduce IntOp.andi x v reducesTo_S1000000x3_S_d0_1 h_S_) main_v6 main_c_1
  let main_v8 : IVec S_ 1 := andi main_v3 main_v7
  let main_v9 : FVec F S256x256x256x1 .f32 := Host.absf main_arg2
  let main_cst_2 : FVec F S_ .f32 := constant S_ .f32 0x7F800000#32
  let main_v10 : FVec F S256x256x256x1 .f32 := broadcastInDim S256x256x256x1 ![] bcast_S_S256x256x256x1 main_cst_2
  let main_v11 : IVec S256x256x256x1 1 := cmpf .olt main_v9 main_v10
  let main_c_3 : IVec S_ 1 := constantI S_ 1 1#1
  let main_v12 : IVec S_ 1 := (fun x v => Host.reduce IntOp.andi x v reducesTo_S256x256x256x1_S_d0_1_2_3 h_S_) main_v11 main_c_3
  let main_v13 : IVec S_ 1 := andi main_v8 main_v12
  let main_v14 : FVec F S65536x16 .f32 := Host.absf main_arg3
  let main_cst_4 : FVec F S_ .f32 := constant S_ .f32 0x7F800000#32
  let main_v15 : FVec F S65536x16 .f32 := broadcastInDim S65536x16 ![] bcast_S_S65536x16 main_cst_4
  let main_v16 : IVec S65536x16 1 := cmpf .olt main_v14 main_v15
  fn_part1 (F := F) main_arg4 main_arg5 main_arg6 main_arg7 main_arg8 main_v13 main_v16
-- ==== Kernel.lean ====
abbrev S1000000x3 : Shape := ⟨2, ![1000000, 3]⟩
abbrev S256x256x256x1 : Shape := ⟨4, ![256, 256, 256, 1]⟩
abbrev S65536x16 : Shape := ⟨2, ![65536, 16]⟩
abbrev S16x64 : Shape := ⟨2, ![16, 64]⟩
abbrev S64x16 : Shape := ⟨2, ![64, 16]⟩
abbrev S31x64 : Shape := ⟨2, ![31, 64]⟩
abbrev S64x64 : Shape := ⟨2, ![64, 64]⟩
abbrev S64x3 : Shape := ⟨2, ![64, 3]⟩
abbrev S8x3 : Shape := ⟨2, ![8, 3]⟩
abbrev S1000000x1x3 : Shape := ⟨3, ![1000000, 1, 3]⟩
abbrev S1x8x3 : Shape := ⟨3, ![1, 8, 3]⟩
abbrev S_ : Shape := ⟨0, ![]⟩
abbrev S1000000x8x3 : Shape := ⟨3, ![1000000, 8, 3]⟩
abbrev S256x256x256 : Shape := ⟨3, ![256, 256, 256]⟩
abbrev S1000000x8x1 : Shape := ⟨3, ![1000000, 8, 1]⟩
abbrev S1000000x8 : Shape := ⟨2, ![1000000, 8]⟩
abbrev S1000000x1 : Shape := ⟨2, ![1000000, 1]⟩
abbrev S1000000 : Shape := ⟨1, ![1000000]⟩
abbrev S8000000 : Shape := ⟨1, ![8000000]⟩
abbrev S8000000x1 : Shape := ⟨2, ![8000000, 1]⟩
abbrev S8000000x16 : Shape := ⟨2, ![8000000, 16]⟩
abbrev S1000000x8x16 : Shape := ⟨3, ![1000000, 8, 16]⟩
abbrev S1000000x16 : Shape := ⟨2, ![1000000, 16]⟩
abbrev S1000000x4 : Shape := ⟨2, ![1000000, 4]⟩
abbrev S4000x16 : Shape := ⟨2, ![4000, 16]⟩
abbrev S4000x3 : Shape := ⟨2, ![4000, 3]⟩
abbrev S4000x4 : Shape := ⟨2, ![4000, 4]⟩
abbrev S4000x64 : Shape := ⟨2, ![4000, 64]⟩
abbrev S4000x1 : Shape := ⟨2, ![4000, 1]⟩
abbrev S4000 : Shape := ⟨1, ![4000]⟩
abbrev S4000x15 : Shape := ⟨2, ![4000, 15]⟩
abbrev S4000x31 : Shape := ⟨2, ![4000, 31]⟩

abbrev nBuf : Space → Nat
  | .hbm => 208
  | .vmem => 11
  | .smem => 0
  | _ => 0

abbrev hbmTy0_0 (i : Nat) : BufTy := match i % 128 with
  | 0 => ⟨S1000000x3, .f32⟩
  | 1 => ⟨S1000000x3, .f32⟩
  | 2 => ⟨S256x256x256x1, .f32⟩
  | 3 => ⟨S65536x16, .f32⟩
  | 4 => ⟨S16x64, .f32⟩
  | 5 => ⟨S64x16, .f32⟩
  | 6 => ⟨S31x64, .f32⟩
  | 7 => ⟨S64x64, .f32⟩
  | 8 => ⟨S64x3, .f32⟩
  | 9 => ⟨S8x3, .f32⟩
  | 10 => ⟨S1000000x1x3, .f32⟩
  | 11 => ⟨S1x8x3, .f32⟩
  | 12 => ⟨S_, .f32⟩
  | 13 => ⟨S1x8x3, .f32⟩
  | 14 => ⟨S1x8x3, .f32⟩
  | 15 => ⟨S1000000x8x3, .f32⟩
  | 16 => ⟨S1000000x8x3, .f32⟩
  | 17 => ⟨S1000000x8x3, .f32⟩
  | 18 => ⟨S1000000x8x3, .f32⟩
  | 19 => ⟨S_, .f32⟩
  | 20 => ⟨S_, .i32⟩
  | 21 => ⟨S_, .f32⟩
  | 22 => ⟨S1000000x8x3, .f32⟩
  | 23 => ⟨S1000000x8x3, .f32⟩
  | 24 => ⟨S_, .f32⟩
  | 25 => ⟨S1000000x8x3, .f32⟩
  | 26 => ⟨S1000000x8x3, .f32⟩
  | 27 => ⟨S1000000x1x3, .f32⟩
  | 28 => ⟨S1000000x3, .f32⟩
  | 29 => ⟨S1000000x3, .f32⟩
  | 30 => ⟨S1000000x8x3, .i32⟩
  | 31 => ⟨S256x256x256, .f32⟩
  | 32 => ⟨S1000000x8x1, .i32⟩
  | 33 => ⟨S1000000x8, .i32⟩
  | 34 => ⟨S1000000x8x1, .i32⟩
  | 35 => ⟨S1000000x8, .i32⟩
  | 36 => ⟨S1000000x8x1, .i32⟩
  | 37 => ⟨S1000000x8, .i32⟩
  | 38 => ⟨S_, .i32⟩
  | 39 => ⟨S1000000x8, .i32⟩
  | 40 => ⟨S1000000x8, .i1⟩
  | 41 => ⟨S_, .i32⟩
  | 42 => ⟨S1000000x8, .i32⟩
  | 43 => ⟨S1000000x8, .i32⟩
  | 44 => ⟨S1000000x8, .i32⟩
  | 45 => ⟨S_, .i32⟩
  | 46 => ⟨S1000000x8, .i32⟩
  | 47 => ⟨S1000000x8, .i1⟩
  | 48 => ⟨S_, .i32⟩
  | 49 => ⟨S1000000x8, .i32⟩
  | 50 => ⟨S1000000x8, .i32⟩
  | 51 => ⟨S1000000x8, .i32⟩
  | 52 => ⟨S_, .i32⟩
  | 53 => ⟨S1000000x8, .i32⟩
  | 54 => ⟨S1000000x8, .i1⟩
  | 55 => ⟨S_, .i32⟩
  | 56 => ⟨S1000000x8, .i32⟩
  | 57 => ⟨S1000000x8, .i32⟩
  | 58 => ⟨S1000000x8, .i32⟩
  | 59 => ⟨S1000000x8x1, .i32⟩
  | 60 => ⟨S1000000x8x1, .i32⟩
  | 61 => ⟨S1000000x8x1, .i32⟩
  | 62 => ⟨S1000000x8x3, .i32⟩
  | 63 => ⟨S1000000x8, .f32⟩
  | 64 => ⟨S1000000x1, .f32⟩
  | 65 => ⟨S1000000, .f32⟩
  | 66 => ⟨S1000000x1, .f32⟩
  | 67 => ⟨S1000000, .f32⟩
  | 68 => ⟨S1000000x1, .f32⟩
  | 69 => ⟨S1000000, .f32⟩
  | 70 => ⟨S_, .f32⟩
  | 71 => ⟨S1000000, .f32⟩
  | 72 => ⟨S1000000, .f32⟩
  | 73 => ⟨S_, .f32⟩
  | 74 => ⟨S1000000, .f32⟩
  | 75 => ⟨S1000000, .f32⟩
  | 76 => ⟨S1000000, .f32⟩
  | 77 => ⟨S_, .f32⟩
  | 78 => ⟨S1000000, .f32⟩
  | 79 => ⟨S1000000, .f32⟩
  | 80 => ⟨S1000000, .f32⟩
  | 81 => ⟨S_, .f32⟩
  | 82 => ⟨S1000000, .f32⟩
  | 83 => ⟨S1000000, .f32⟩
  | 84 => ⟨S_, .f32⟩
  | 85 => ⟨S1000000, .f32⟩
  | 86 => ⟨S1000000, .f32⟩
  | 87 => ⟨S1000000, .f32⟩
  | 88 => ⟨S1000000, .f32⟩
  | 89 => ⟨S_, .f32⟩
  | 90 => ⟨S1000000, .f32⟩
  | 91 => ⟨S1000000, .f32⟩
  | 92 => ⟨S1000000, .f32⟩
  | 93 => ⟨S_, .f32⟩
  | 94 => ⟨S1000000, .f32⟩
  | 95 => ⟨S1000000, .f32⟩
  | 96 => ⟨S1000000, .f32⟩
  | 97 => ⟨S_, .f32⟩
  | 98 => ⟨S1000000, .f32⟩
  | 99 => ⟨S1000000, .f32⟩
  | 100 => ⟨S1000000, .f32⟩
  | 101 => ⟨S1000000, .f32⟩
  | 102 => ⟨S_, .f32⟩
  | 103 => ⟨S1000000, .f32⟩
  | 104 => ⟨S1000000, .f32⟩
  | 105 => ⟨S1000000, .f32⟩
  | 106 => ⟨S_, .f32⟩
  | 107 => ⟨S1000000, .f32⟩
  | 108 => ⟨S1000000, .f32⟩
  | 109 => ⟨S1000000, .f32⟩
  | 110 => ⟨S_, .f32⟩
  | 111 => ⟨S1000000, .f32⟩
  | 112 => ⟨S1000000, .f32⟩
  | 113 => ⟨S1000000, .f32⟩
  | 114 => ⟨S1000000, .f32⟩
  | 115 => ⟨S1000000, .f32⟩
  | 116 => ⟨S_, .f32⟩
  | 117 => ⟨S1000000, .f32⟩
  | 118 => ⟨S1000000, .f32⟩
  | 119 => ⟨S1000000, .f32⟩
  | 120 => ⟨S1000000, .f32⟩
  | 121 => ⟨S1000000, .f32⟩
  | 122 => ⟨S1000000x1, .f32⟩
  | 123 => ⟨S1000000x1, .f32⟩
  | 124 => ⟨S1000000x1, .f32⟩
  | 125 => ⟨S1000000x1, .f32⟩
  | 126 => ⟨S1000000x1, .f32⟩
  | 127 => ⟨S1000000x1, .f32⟩
  | _ => ⟨S1000000x3, .f32⟩

abbrev hbmTy0_1 (i : Nat) : BufTy := match i % 128 with
  | 0 => ⟨S1000000x1, .f32⟩
  | 1 => ⟨S1000000x1, .f32⟩
  | 2 => ⟨S1000000x8, .f32⟩
  | 3 => ⟨S_, .f32⟩
  | 4 => ⟨S_, .f32⟩
  | 5 => ⟨S_, .f32⟩
  | 6 => ⟨S1000000x8, .f32⟩
  | 7 => ⟨S1000000x8, .f32⟩
  | 8 => ⟨S_, .f32⟩
  | 9 => ⟨S1000000x8, .f32⟩
  | 10 => ⟨S1000000x8, .f32⟩
  | 11 => ⟨S_, .f32⟩
  | 12 => ⟨S1000000x8, .f32⟩
  | 13 => ⟨S1000000x8, .f32⟩
  | 14 => ⟨S_, .f32⟩
  | 15 => ⟨S1000000x8, .f32⟩
  | 16 => ⟨S1000000x8, .f32⟩
  | 17 => ⟨S_, .f32⟩
  | 18 => ⟨S1000000x8, .f32⟩
  | 19 => ⟨S1000000x8, .f32⟩
  | 20 => ⟨S8000000, .f32⟩
  | 21 => ⟨S8000000, .f32⟩
  | 22 => ⟨S_, .i32⟩
  | 23 => ⟨S_, .i32⟩
  | 24 => ⟨S_, .f32⟩
  | 25 => ⟨S8000000, .f32⟩
  | 26 => ⟨S8000000, .f32⟩
  | 27 => ⟨S_, .f32⟩
  | 28 => ⟨S8000000, .f32⟩
  | 29 => ⟨S8000000, .f32⟩
  | 30 => ⟨S8000000, .f32⟩
  | 31 => ⟨S_, .i32⟩
  | 32 => ⟨S_, .i32⟩
  | 33 => ⟨S_, .f32⟩
  | 34 => ⟨S8000000, .f32⟩
  | 35 => ⟨S8000000, .f32⟩
  | 36 => ⟨S_, .f32⟩
  | 37 => ⟨S8000000, .f32⟩
  | 38 => ⟨S8000000, .f32⟩
  | 39 => ⟨S8000000, .i32⟩
  | 40 => ⟨S_, .i32⟩
  | 41 => ⟨S8000000, .i32⟩
  | 42 => ⟨S8000000, .i1⟩
  | 43 => ⟨S_, .i32⟩
  | 44 => ⟨S8000000, .i32⟩
  | 45 => ⟨S8000000, .i32⟩
  | 46 => ⟨S8000000, .i32⟩
  | 47 => ⟨S8000000x1, .i32⟩
  | 48 => ⟨S8000000x16, .f32⟩
  | 49 => ⟨S1000000x8x16, .f32⟩
  | 50 => ⟨S8000000, .f32⟩
  | 51 => ⟨S1000000x8x1, .f32⟩
  | 52 => ⟨S1000000x8x16, .f32⟩
  | 53 => ⟨S1000000x8x16, .f32⟩
  | 54 => ⟨S8000000, .i32⟩
  | 55 => ⟨S_, .i32⟩
  | 56 => ⟨S8000000, .i32⟩
  | 57 => ⟨S8000000, .i1⟩
  | 58 => ⟨S_, .i32⟩
  | 59 => ⟨S8000000, .i32⟩
  | 60 => ⟨S8000000, .i32⟩
  | 61 => ⟨S8000000, .i32⟩
  | 62 => ⟨S8000000x1, .i32⟩
  | 63 => ⟨S8000000x16, .f32⟩
  | 64 => ⟨S1000000x8x16, .f32⟩
  | 65 => ⟨S8000000, .f32⟩
  | 66 => ⟨S1000000x8x1, .f32⟩
  | 67 => ⟨S1000000x8x16, .f32⟩
  | 68 => ⟨S1000000x8x16, .f32⟩
  | 69 => ⟨S1000000x8x16, .f32⟩
  | 70 => ⟨S1000000x8x1, .f32⟩
  | 71 => ⟨S1000000x8x16, .f32⟩
  | 72 => ⟨S1000000x8x16, .f32⟩
  | 73 => ⟨S_, .f32⟩
  | 74 => ⟨S1000000x16, .f32⟩
  | 75 => ⟨S1000000x16, .bf16⟩
  | 76 => ⟨S1000000x4, .f32⟩
  | 77 => ⟨S1000000x1, .f32⟩
  | 78 => ⟨S1000000, .f32⟩
  | 79 => ⟨S1000000x3, .f32⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | .local _ .vmem, ⟨0, _⟩ => ⟨S4000x16, .bf16⟩
  | .local _ .vmem, ⟨1, _⟩ => ⟨S4000x16, .bf16⟩
  | .local _ .vmem, ⟨2, _⟩ => ⟨S4000x3, .f32⟩
  | .local _ .vmem, ⟨3, _⟩ => ⟨S4000x3, .f32⟩
  | .local _ .vmem, ⟨4, _⟩ => ⟨S16x64, .f32⟩
  | .local _ .vmem, ⟨5, _⟩ => ⟨S64x16, .f32⟩
  | .local _ .vmem, ⟨6, _⟩ => ⟨S31x64, .f32⟩
  | .local _ .vmem, ⟨7, _⟩ => ⟨S64x64, .f32⟩
  | .local _ .vmem, ⟨8, _⟩ => ⟨S64x3, .f32⟩
  | .local _ .vmem, ⟨9, _⟩ => ⟨S4000x4, .f32⟩
  | .local _ .vmem, ⟨10, _⟩ => ⟨S4000x4, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_14 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_15 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_16 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_17 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_18 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_19 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_20 : Ref sig .tc := ⟨.hbm, 131, rfl⟩
abbrev main_cst_21 : Ref sig .tc := ⟨.hbm, 132, rfl⟩
abbrev main_call1_v0 : Ref sig .tc := ⟨.hbm, 133, rfl⟩
abbrev main_call1_v1 : Ref sig .tc := ⟨.hbm, 134, rfl⟩
abbrev main_call1_v2 : Ref sig .tc := ⟨.hbm, 135, rfl⟩
abbrev main_call1_v3 : Ref sig .tc := ⟨.hbm, 136, rfl⟩
abbrev main_call1_v4 : Ref sig .tc := ⟨.hbm, 137, rfl⟩
abbrev main_v95 : Ref sig .tc := ⟨.hbm, 138, rfl⟩
abbrev main_cst_22 : Ref sig .tc := ⟨.hbm, 139, rfl⟩
abbrev main_v96 : Ref sig .tc := ⟨.hbm, 140, rfl⟩
abbrev main_v97 : Ref sig .tc := ⟨.hbm, 141, rfl⟩
abbrev main_cst_23 : Ref sig .tc := ⟨.hbm, 142, rfl⟩
abbrev main_v98 : Ref sig .tc := ⟨.hbm, 143, rfl⟩
abbrev main_v99 : Ref sig .tc := ⟨.hbm, 144, rfl⟩
abbrev main_cst_24 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_c_25 : Ref sig .tc := ⟨.hbm, 150, rfl⟩
abbrev main_c_26 : Ref sig .tc := ⟨.hbm, 151, rfl⟩
abbrev main_call2_v0 : Ref sig .tc := ⟨.hbm, 152, rfl⟩
abbrev main_call2_v1 : Ref sig .tc := ⟨.hbm, 153, rfl⟩
abbrev main_call2_v2 : Ref sig .tc := ⟨.hbm, 154, rfl⟩
abbrev main_call2_v3 : Ref sig .tc := ⟨.hbm, 155, rfl⟩
abbrev main_call2_v4 : Ref sig .tc := ⟨.hbm, 156, rfl⟩
abbrev main_v104 : Ref sig .tc := ⟨.hbm, 157, rfl⟩
abbrev main_v105 : Ref sig .tc := ⟨.hbm, 158, rfl⟩
abbrev main_c_27 : Ref sig .tc := ⟨.hbm, 159, rfl⟩
abbrev main_c_28 : Ref sig .tc := ⟨.hbm, 160, rfl⟩
abbrev main_call3_v0 : Ref sig .tc := ⟨.hbm, 161, rfl⟩
abbrev main_call3_v1 : Ref sig .tc := ⟨.hbm, 162, rfl⟩
abbrev main_call3_v2 : Ref sig .tc := ⟨.hbm, 163, rfl⟩
abbrev main_call3_v3 : Ref sig .tc := ⟨.hbm, 164, rfl⟩
abbrev main_call3_v4 : Ref sig .tc := ⟨.hbm, 165, rfl⟩
abbrev main_v106 : Ref sig .tc := ⟨.hbm, 166, rfl⟩
abbrev main_v107 : Ref sig .tc := ⟨.hbm, 167, rfl⟩
abbrev main_c_29 : Ref sig .tc := ⟨.hbm, 168, rfl⟩
abbrev main_v108 : Ref sig .tc := ⟨.hbm, 169, rfl⟩
abbrev main_v109 : Ref sig .tc := ⟨.hbm, 170, rfl⟩
abbrev main_c_30 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_c_31 : Ref sig .tc := ⟨.hbm, 183, rfl⟩
abbrev main_v121 : Ref sig .tc := ⟨.hbm, 184, rfl⟩
abbrev main_v122 : Ref sig .tc := ⟨.hbm, 185, rfl⟩
abbrev main_c_32 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_cst_33 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S31x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S1000000x3_S1000000x1x3_0_2 : S1000000x3.BroadcastsInDim S1000000x1x3 (![0, 2] : Fin 2 → Fin S1000000x1x3.rank)
  bcast_S8x3_S1x8x3_1_2 : S8x3.BroadcastsInDim S1x8x3 (![1, 2] : Fin 2 → Fin S1x8x3.rank)
  bcast_S_S1x8x3 : S_.BroadcastsInDim S1x8x3 (![] : Fin 0 → Fin S1x8x3.rank)
  bcast_S1000000x1x3_S1000000x8x3_0_1_2 : S1000000x1x3.BroadcastsInDim S1000000x8x3 (![0, 1, 2] : Fin 3 → Fin S1000000x8x3.rank)
  bcast_S1x8x3_S1000000x8x3_0_1_2 : S1x8x3.BroadcastsInDim S1000000x8x3 (![0, 1, 2] : Fin 3 → Fin S1000000x8x3.rank)
  bcast_S_S1000000x8x3 : S_.BroadcastsInDim S1000000x8x3 (![] : Fin 0 → Fin S1000000x8x3.rank)
  slices_S1000000x8x3_S1000000x1x3_0_0_0 : S1000000x8x3.Slices ![0, 0, 0] S1000000x1x3
  shapeCasts_S1000000x1x3_S1000000x3 : S1000000x1x3.ShapeCasts S1000000x3
  shapeCasts_S256x256x256x1_S256x256x256 : S256x256x256x1.ShapeCasts S256x256x256
  slices_S1000000x8x3_S1000000x8x1_0_0_0 : S1000000x8x3.Slices ![0, 0, 0] S1000000x8x1
  shapeCasts_S1000000x8x1_S1000000x8 : S1000000x8x1.ShapeCasts S1000000x8
  slices_S1000000x8x3_S1000000x8x1_0_0_1 : S1000000x8x3.Slices ![0, 0, 1] S1000000x8x1
  slices_S1000000x8x3_S1000000x8x1_0_0_2 : S1000000x8x3.Slices ![0, 0, 2] S1000000x8x1
  bcast_S_S1000000x8 : S_.BroadcastsInDim S1000000x8 (![] : Fin 0 → Fin S1000000x8.rank)
  bcast_S1000000x8_S1000000x8x1_0_1 : S1000000x8.BroadcastsInDim S1000000x8x1 (![0, 1] : Fin 2 → Fin S1000000x8x1.rank)
  concatenates_S1000000x8x1_S1000000x8x1_S1000000x8x1_S1000000x8x3_d2 : Shape.Concatenates [S1000000x8x1, S1000000x8x1, S1000000x8x1] S1000000x8x3 2
  slices_S1000000x3_S1000000x1_0_0 : S1000000x3.Slices ![0, 0] S1000000x1
  shapeCasts_S1000000x1_S1000000 : S1000000x1.ShapeCasts S1000000
  slices_S1000000x3_S1000000x1_0_1 : S1000000x3.Slices ![0, 1] S1000000x1
  slices_S1000000x3_S1000000x1_0_2 : S1000000x3.Slices ![0, 2] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x1_S1000000x1_S1000000x1_S1000000x1_S1000000x1_S1000000x1_S1000000x8_d1 : Shape.Concatenates [S1000000x1, S1000000x1, S1000000x1, S1000000x1, S1000000x1, S1000000x1, S1000000x1, S1000000x1] S1000000x8 1
  shapeCasts_S1000000x8_S8000000 : S1000000x8.ShapeCasts S8000000
  bcast_S_S8000000 : S_.BroadcastsInDim S8000000 (![] : Fin 0 → Fin S8000000.rank)
  bcast_S8000000_S8000000x1_0 : S8000000.BroadcastsInDim S8000000x1 (![0] : Fin 1 → Fin S8000000x1.rank)
  shapeCasts_S8000000x16_S1000000x8x16 : S8000000x16.ShapeCasts S1000000x8x16
  shapeCasts_S8000000_S1000000x8x1 : S8000000.ShapeCasts S1000000x8x1
  bcast_S1000000x8x1_S1000000x8x16_0_1_2 : S1000000x8x1.BroadcastsInDim S1000000x8x16 (![0, 1, 2] : Fin 3 → Fin S1000000x8x16.rank)
  reducesTo_S1000000x8x16_S1000000x16_d1 : S1000000x8x16.ReducesTo [1] S1000000x16
  h_S_ : 0 < S_.numel
  bitsLt_bf16_f32 : FTy.bits .bf16 < FTy.bits .f32
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  inb_S16x64_S16x64_0_0 : ∀ a, (![0, 0] : Fin 2 → Nat) a + S16x64.size a ≤ S16x64.size a
  h_S16x64 : 0 < S16x64.numel
  inb_S64x16_S64x16_0_0 : ∀ a, (![0, 0] : Fin 2 → Nat) a + S64x16.size a ≤ S64x16.size a
  h_S64x16 : 0 < S64x16.numel
  slices_S4000x16_o0_0_S4000x1 : S4000x16.Slices ![0, 0] S4000x1
  inb_S4000x3_S4000x3_0_0 : ∀ a, (![0, 0] : Fin 2 → Nat) a + S4000x3.size a ≤ S4000x3.size a
  h_S4000x3 : 0 < S4000x3.numel
  slices_S4000x3_o0_0_S4000x1 : S4000x3.Slices ![0, 0] S4000x1
  shapeCasts_S4000x1_S4000 : S4000x1.ShapeCasts S4000
  slices_S4000x3_o0_1_S4000x1 : S4000x3.Slices ![0, 1] S4000x1
  slices_S4000x3_o0_2_S4000x1 : S4000x3.Slices ![0, 2] S4000x1
  shapeCasts_S4000_S4000x1 : S4000.ShapeCasts S4000x1
  concatenates_S4000x1_S4000x1_S4000x1_S4000x1_S4000x1_S4000x1_S4000x1_S4000x1_S4000x1_S4000x1_S4000x1_S4000x1_S4000x1_S4000x1_S4000x1_S4000x1_S4000x16_d1 : Shape.Concatenates [S4000x1, S4000x1, S4000x1, S4000x1, S4000x1, S4000x1, S4000x1, S4000x1, S4000x1, S4000x1, S4000x1, S4000x1, S4000x1, S4000x1, S4000x1, S4000x1] S4000x16 1
  slices_S4000x16_o0_1_S4000x15 : S4000x16.Slices ![0, 1] S4000x15
  concatenates_S4000x16_S4000x15_S4000x31_d1 : Shape.Concatenates [S4000x16, S4000x15] S4000x31 1
  inb_S31x64_S31x64_0_0 : ∀ a, (![0, 0] : Fin 2 → Nat) a + S31x64.size a ≤ S31x64.size a
  h_S31x64 : 0 < S31x64.numel
  inb_S64x64_S64x64_0_0 : ∀ a, (![0, 0] : Fin 2 → Nat) a + S64x64.size a ≤ S64x64.size a
  h_S64x64 : 0 < S64x64.numel
  inb_S64x3_S64x3_0_0 : ∀ a, (![0, 0] : Fin 2 → Nat) a + S64x3.size a ≤ S64x3.size a
  h_S64x3 : 0 < S64x3.numel
  concatenates_S4000x1_S4000x3_S4000x4_d1 : Shape.Concatenates [S4000x1, S4000x3] S4000x4 1
  inb_S4000x4_S4000x4_0_0 : ∀ a, (![0, 0] : Fin 2 → Nat) a + S4000x4.size a ≤ S4000x4.size a
  h_S4000x4 : 0 < S4000x4.numel
  slices_S1000000x4_S1000000x1_0_0 : S1000000x4.Slices ![0, 0] S1000000x1
  slices_S1000000x4_S1000000x3_0_1 : S1000000x4.Slices ![0, 1] S1000000x3
  gather_S256x256x256_S1000000x8x3_S1000000x8_n_012_n_n_012_2_111_wf : GatherDims.WF S256x256x256 S1000000x8x3 S1000000x8 [] [0, 1, 2] [] [0, 1, 2] [] 2 ![1, 1, 1]
  gather_S65536x16_S8000000x1_S8000000x16_1_0_n_n_0_1_116_wf : GatherDims.WF S65536x16 S8000000x1 S8000000x16 [1] [0] [] [0] [] 1 ![1, 16]
  dot_S4000x16_S16x64_S4000x64_1_0_0_1_n_n_wf : DotDims.WF S4000x16 S16x64 S4000x64 [1] [0] [0] [1] [] []
  dot_S4000x64_S64x16_S4000x16_1_0_0_1_n_n_wf : DotDims.WF S4000x64 S64x16 S4000x16 [1] [0] [0] [1] [] []
  dot_S4000x31_S31x64_S4000x64_1_0_0_1_n_n_wf : DotDims.WF S4000x31 S31x64 S4000x64 [1] [0] [0] [1] [] []
  dot_S4000x64_S64x64_S4000x64_1_0_0_1_n_n_wf : DotDims.WF S4000x64 S64x64 S4000x64 [1] [0] [0] [1] [] []
  dot_S4000x64_S64x3_S4000x3_1_0_0_1_n_n_wf : DotDims.WF S4000x64 S64x3 S4000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S1000000x16.size a
  hwx0_0 : ∀ i : grid0.Coords, EltTy.bits .bf16 = 32 ∨ (Rect.block (s := S1000000x16) S4000x16.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x3.size a ≤ S1000000x3.size a
  hwx0_1 : ∀ i : grid0.Coords, EltTy.bits .f32 = 32 ∨ (Rect.block (s := S1000000x3) S4000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S31x64.size a ≤ S31x64.size a
  hwx0_4 : ∀ i : grid0.Coords, EltTy.bits .f32 = 32 ∨ (Rect.block (s := S31x64) S31x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x3.size a ≤ S64x3.size a
  hwx0_6 : ∀ i : grid0.Coords, EltTy.bits .f32 = 32 ∨ (Rect.block (s := S64x3) S64x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x4.size a ≤ S1000000x4.size a
  hwx0_7 : ∀ i : grid0.Coords, EltTy.bits .f32 = 32 ∨ (Rect.block (s := S1000000x4) S4000x4.size (cc0_transform_7 i) (hinb0_7 i)).WholeWords (EltTy.packing .f32)

variable [Facts₀]

def gather_S256x256x256_S1000000x8x3_S1000000x8_n_012_n_n_012_2_111 : GatherDims S256x256x256 S1000000x8x3 S1000000x8 where
  offsetDims := []
  collapsedSliceDims := [0, 1, 2]
  operandBatchingDims := []
  startIndicesBatchingDims := []
  startIndexMap := [0, 1, 2]
  indexVectorDim := 2
  sliceSizes := ![1, 1, 1]
  wf := gather_S256x256x256_S1000000x8x3_S1000000x8_n_012_n_n_012_2_111_wf
def gather_S65536x16_S8000000x1_S8000000x16_1_0_n_n_0_1_116 : GatherDims S65536x16 S8000000x1 S8000000x16 where
  offsetDims := [1]
  collapsedSliceDims := [0]
  operandBatchingDims := []
  startIndicesBatchingDims := []
  startIndexMap := [0]
  indexVectorDim := 1
  sliceSizes := ![1, 16]
  wf := gather_S65536x16_S8000000x1_S8000000x16_1_0_n_n_0_1_116_wf
def dot_S4000x16_S16x64_S4000x64_1_0_0_1_n_n : DotDims S4000x16 S16x64 S4000x64 where
  lhsContracting := [1]
  rhsContracting := [0]
  lhsNonContracting := [0]
  rhsNonContracting := [1]
  lhsBatch := []
  rhsBatch := []
  wf := dot_S4000x16_S16x64_S4000x64_1_0_0_1_n_n_wf
def dot_S4000x64_S64x16_S4000x16_1_0_0_1_n_n : DotDims S4000x64 S64x16 S4000x16 where
  lhsContracting := [1]
  rhsContracting := [0]
  lhsNonContracting := [0]
  rhsNonContracting := [1]
  lhsBatch := []
  rhsBatch := []
  wf := dot_S4000x64_S64x16_S4000x16_1_0_0_1_n_n_wf
def dot_S4000x31_S31x64_S4000x64_1_0_0_1_n_n : DotDims S4000x31 S31x64 S4000x64 where
  lhsContracting := [1]
  rhsContracting := [0]
  lhsNonContracting := [0]
  rhsNonContracting := [1]
  lhsBatch := []
  rhsBatch := []
  wf := dot_S4000x31_S31x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x3_S4000x3_1_0_0_1_n_n : DotDims S4000x64 S64x3 S4000x3 where
  lhsContracting := [1]
  rhsContracting := [0]
  lhsNonContracting := [0]
  rhsNonContracting := [1]
  lhsBatch := []
  rhsBatch := []
  wf := dot_S4000x64_S64x3_S4000x3_1_0_0_1_n_n_wf

abbrev win0_0 : Pipeline.Window sig grid0 :=
  Pipeline.Window.ofSpec (Memref.whole main_v138) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S31x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v139) S4000x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S256x256x256x1 : Shape := ⟨4, ![256, 256, 256, 1]⟩
abbrev S65536x16 : Shape := ⟨2, ![65536, 16]⟩
abbrev S16x64 : Shape := ⟨2, ![16, 64]⟩
abbrev S64x16 : Shape := ⟨2, ![64, 16]⟩
abbrev S31x64 : Shape := ⟨2, ![31, 64]⟩
abbrev S64x64 : Shape := ⟨2, ![64, 64]⟩
abbrev S64x3 : Shape := ⟨2, ![64, 3]⟩
abbrev S8x3 : Shape := ⟨2, ![8, 3]⟩
abbrev S1000000x1x3 : Shape := ⟨3, ![1000000, 1, 3]⟩
abbrev S1x8x3 : Shape := ⟨3, ![1, 8, 3]⟩
abbrev S_ : Shape := ⟨0, ![]⟩
abbrev S1000000x8x3 : Shape := ⟨3, ![1000000, 8, 3]⟩
abbrev S1000000x8x1 : Shape := ⟨3, ![1000000, 8, 1]⟩
abbrev S1000000x8 : Shape := ⟨2, ![1000000, 8]⟩
abbrev S1000000x8x4 : Shape := ⟨3, ![1000000, 8, 4]⟩
abbrev S1000000x1 : Shape := ⟨2, ![1000000, 1]⟩
abbrev S1000000 : Shape := ⟨1, ![1000000]⟩
abbrev S8000000 : Shape := ⟨1, ![8000000]⟩
abbrev S8000000x1 : Shape := ⟨2, ![8000000, 1]⟩
abbrev S8000000x16 : Shape := ⟨2, ![8000000, 16]⟩
abbrev S1000000x8x16 : Shape := ⟨3, ![1000000, 8, 16]⟩
abbrev S1000000x16 : Shape := ⟨2, ![1000000, 16]⟩
abbrev S1000000x64 : Shape := ⟨2, ![1000000, 64]⟩
abbrev S1000000x15 : Shape := ⟨2, ![1000000, 15]⟩
abbrev S1000000x31 : Shape := ⟨2, ![1000000, 31]⟩

abbrev nBuf : Space → Nat
  | .hbm => 339
  | .vmem => 0
  | .smem => 0
  | _ => 0

abbrev hbmTy0_0 (i : Nat) : BufTy := match i % 128 with
  | 0 => ⟨S1000000x3, .f32⟩
  | 1 => ⟨S1000000x3, .f32⟩
  | 2 => ⟨S256x256x256x1, .f32⟩
  | 3 => ⟨S65536x16, .f32⟩
  | 4 => ⟨S16x64, .f32⟩
  | 5 => ⟨S64x16, .f32⟩
  | 6 => ⟨S31x64, .f32⟩
  | 7 => ⟨S64x64, .f32⟩
  | 8 => ⟨S64x3, .f32⟩
  | 9 => ⟨S8x3, .f32⟩
  | 10 => ⟨S1000000x1x3, .f32⟩
  | 11 => ⟨S1x8x3, .f32⟩
  | 12 => ⟨S_, .f32⟩
  | 13 => ⟨S1x8x3, .f32⟩
  | 14 => ⟨S1x8x3, .f32⟩
  | 15 => ⟨S1000000x8x3, .f32⟩
  | 16 => ⟨S1000000x8x3, .f32⟩
  | 17 => ⟨S1000000x8x3, .f32⟩
  | 18 => ⟨S1000000x8x3, .f32⟩
  | 19 => ⟨S_, .f32⟩
  | 20 => ⟨S_, .i32⟩
  | 21 => ⟨S_, .f32⟩
  | 22 => ⟨S1000000x8x3, .f32⟩
  | 23 => ⟨S1000000x8x3, .f32⟩
  | 24 => ⟨S_, .f32⟩
  | 25 => ⟨S1000000x8x3, .f32⟩
  | 26 => ⟨S1000000x8x3, .f32⟩
  | 27 => ⟨S1000000x1x3, .f32⟩
  | 28 => ⟨S1000000x3, .f32⟩
  | 29 => ⟨S1000000x3, .f32⟩
  | 30 => ⟨S1000000x8x3, .i32⟩
  | 31 => ⟨S1000000x8x1, .i32⟩
  | 32 => ⟨S1000000x8, .i32⟩
  | 33 => ⟨S1000000x8x1, .i32⟩
  | 34 => ⟨S1000000x8, .i32⟩
  | 35 => ⟨S1000000x8x1, .i32⟩
  | 36 => ⟨S1000000x8, .i32⟩
  | 37 => ⟨S_, .i32⟩
  | 38 => ⟨S1000000x8, .i32⟩
  | 39 => ⟨S1000000x8, .i1⟩
  | 40 => ⟨S_, .i32⟩
  | 41 => ⟨S1000000x8, .i32⟩
  | 42 => ⟨S1000000x8, .i32⟩
  | 43 => ⟨S1000000x8, .i32⟩
  | 44 => ⟨S_, .i32⟩
  | 45 => ⟨S1000000x8, .i32⟩
  | 46 => ⟨S1000000x8, .i1⟩
  | 47 => ⟨S_, .i32⟩
  | 48 => ⟨S1000000x8, .i32⟩
  | 49 => ⟨S1000000x8, .i32⟩
  | 50 => ⟨S1000000x8, .i32⟩
  | 51 => ⟨S_, .i32⟩
  | 52 => ⟨S1000000x8, .i32⟩
  | 53 => ⟨S1000000x8, .i1⟩
  | 54 => ⟨S_, .i32⟩
  | 55 => ⟨S1000000x8, .i32⟩
  | 56 => ⟨S1000000x8, .i32⟩
  | 57 => ⟨S1000000x8, .i32⟩
  | 58 => ⟨S_, .i32⟩
  | 59 => ⟨S1000000x8, .i32⟩
  | 60 => ⟨S1000000x8, .i32⟩
  | 61 => ⟨S1000000x8x1, .i32⟩
  | 62 => ⟨S1000000x8x1, .i32⟩
  | 63 => ⟨S1000000x8x1, .i32⟩
  | 64 => ⟨S1000000x8x1, .i32⟩
  | 65 => ⟨S1000000x8x4, .i32⟩
  | 66 => ⟨S1000000x8, .f32⟩
  | 67 => ⟨S1000000x1, .f32⟩
  | 68 => ⟨S1000000, .f32⟩
  | 69 => ⟨S1000000x1, .f32⟩
  | 70 => ⟨S1000000, .f32⟩
  | 71 => ⟨S1000000x1, .f32⟩
  | 72 => ⟨S1000000, .f32⟩
  | 73 => ⟨S_, .f32⟩
  | 74 => ⟨S1000000, .f32⟩
  | 75 => ⟨S1000000, .f32⟩
  | 76 => ⟨S_, .f32⟩
  | 77 => ⟨S1000000, .f32⟩
  | 78 => ⟨S1000000, .f32⟩
  | 79 => ⟨S1000000, .f32⟩
  | 80 => ⟨S_, .f32⟩
  | 81 => ⟨S1000000, .f32⟩
  | 82 => ⟨S1000000, .f32⟩
  | 83 => ⟨S1000000, .f32⟩
  | 84 => ⟨S_, .f32⟩
  | 85 => ⟨S1000000, .f32⟩
  | 86 => ⟨S1000000, .f32⟩
  | 87 => ⟨S_, .f32⟩
  | 88 => ⟨S1000000, .f32⟩
  | 89 => ⟨S1000000, .f32⟩
  | 90 => ⟨S1000000, .f32⟩
  | 91 => ⟨S1000000, .f32⟩
  | 92 => ⟨S_, .f32⟩
  | 93 => ⟨S1000000, .f32⟩
  | 94 => ⟨S1000000, .f32⟩
  | 95 => ⟨S1000000, .f32⟩
  | 96 => ⟨S_, .f32⟩
  | 97 => ⟨S1000000, .f32⟩
  | 98 => ⟨S1000000, .f32⟩
  | 99 => ⟨S1000000, .f32⟩
  | 100 => ⟨S_, .f32⟩
  | 101 => ⟨S1000000, .f32⟩
  | 102 => ⟨S1000000, .f32⟩
  | 103 => ⟨S1000000, .f32⟩
  | 104 => ⟨S1000000, .f32⟩
  | 105 => ⟨S_, .f32⟩
  | 106 => ⟨S1000000, .f32⟩
  | 107 => ⟨S1000000, .f32⟩
  | 108 => ⟨S1000000, .f32⟩
  | 109 => ⟨S_, .f32⟩
  | 110 => ⟨S1000000, .f32⟩
  | 111 => ⟨S1000000, .f32⟩
  | 112 => ⟨S1000000, .f32⟩
  | 113 => ⟨S_, .f32⟩
  | 114 => ⟨S1000000, .f32⟩
  | 115 => ⟨S1000000, .f32⟩
  | 116 => ⟨S1000000, .f32⟩
  | 117 => ⟨S1000000, .f32⟩
  | 118 => ⟨S1000000, .f32⟩
  | 119 => ⟨S_, .f32⟩
  | 120 => ⟨S1000000, .f32⟩
  | 121 => ⟨S1000000, .f32⟩
  | 122 => ⟨S1000000, .f32⟩
  | 123 => ⟨S1000000, .f32⟩
  | 124 => ⟨S1000000, .f32⟩
  | 125 => ⟨S1000000x1, .f32⟩
  | 126 => ⟨S1000000x1, .f32⟩
  | 127 => ⟨S1000000x1, .f32⟩
  | _ => ⟨S1000000x3, .f32⟩

abbrev hbmTy0_1 (i : Nat) : BufTy := match i % 128 with
  | 0 => ⟨S1000000x1, .f32⟩
  | 1 => ⟨S1000000x1, .f32⟩
  | 2 => ⟨S1000000x1, .f32⟩
  | 3 => ⟨S1000000x1, .f32⟩
  | 4 => ⟨S1000000x1, .f32⟩
  | 5 => ⟨S1000000x8, .f32⟩
  | 6 => ⟨S_, .f32⟩
  | 7 => ⟨S_, .f32⟩
  | 8 => ⟨S_, .f32⟩
  | 9 => ⟨S1000000x8, .f32⟩
  | 10 => ⟨S1000000x8, .f32⟩
  | 11 => ⟨S_, .f32⟩
  | 12 => ⟨S1000000x8, .f32⟩
  | 13 => ⟨S1000000x8, .f32⟩
  | 14 => ⟨S_, .f32⟩
  | 15 => ⟨S1000000x8, .f32⟩
  | 16 => ⟨S1000000x8, .f32⟩
  | 17 => ⟨S_, .f32⟩
  | 18 => ⟨S1000000x8, .f32⟩
  | 19 => ⟨S1000000x8, .f32⟩
  | 20 => ⟨S_, .f32⟩
  | 21 => ⟨S1000000x8, .f32⟩
  | 22 => ⟨S1000000x8, .f32⟩
  | 23 => ⟨S8000000, .f32⟩
  | 24 => ⟨S8000000, .f32⟩
  | 25 => ⟨S_, .i32⟩
  | 26 => ⟨S_, .i32⟩
  | 27 => ⟨S_, .f32⟩
  | 28 => ⟨S8000000, .f32⟩
  | 29 => ⟨S8000000, .f32⟩
  | 30 => ⟨S_, .f32⟩
  | 31 => ⟨S8000000, .f32⟩
  | 32 => ⟨S8000000, .f32⟩
  | 33 => ⟨S8000000, .f32⟩
  | 34 => ⟨S_, .i32⟩
  | 35 => ⟨S_, .i32⟩
  | 36 => ⟨S_, .f32⟩
  | 37 => ⟨S8000000, .f32⟩
  | 38 => ⟨S8000000, .f32⟩
  | 39 => ⟨S_, .f32⟩
  | 40 => ⟨S8000000, .f32⟩
  | 41 => ⟨S8000000, .f32⟩
  | 42 => ⟨S8000000, .i32⟩
  | 43 => ⟨S_, .i32⟩
  | 44 => ⟨S8000000, .i32⟩
  | 45 => ⟨S8000000, .i1⟩
  | 46 => ⟨S_, .i32⟩
  | 47 => ⟨S8000000, .i32⟩
  | 48 => ⟨S8000000, .i32⟩
  | 49 => ⟨S8000000, .i32⟩
  | 50 => ⟨S8000000x1, .i32⟩
  | 51 => ⟨S8000000x16, .f32⟩
  | 52 => ⟨S1000000x8x16, .f32⟩
  | 53 => ⟨S8000000, .f32⟩
  | 54 => ⟨S1000000x8x1, .f32⟩
  | 55 => ⟨S1000000x8x16, .f32⟩
  | 56 => ⟨S1000000x8x16, .f32⟩
  | 57 => ⟨S8000000, .i32⟩
  | 58 => ⟨S_, .i32⟩
  | 59 => ⟨S8000000, .i32⟩
  | 60 => ⟨S8000000, .i1⟩
  | 61 => ⟨S_, .i32⟩
  | 62 => ⟨S8000000, .i32⟩
  | 63 => ⟨S8000000, .i32⟩
  | 64 => ⟨S8000000, .i32⟩
  | 65 => ⟨S8000000x1, .i32⟩
  | 66 => ⟨S8000000x16, .f32⟩
  | 67 => ⟨S1000000x8x16, .f32⟩
  | 68 => ⟨S8000000, .f32⟩
  | 69 => ⟨S1000000x8x1, .f32⟩
  | 70 => ⟨S1000000x8x16, .f32⟩
  | 71 => ⟨S1000000x8x16, .f32⟩
  | 72 => ⟨S1000000x8x16, .f32⟩
  | 73 => ⟨S1000000x8x1, .f32⟩
  | 74 => ⟨S1000000x8x16, .f32⟩
  | 75 => ⟨S1000000x8x16, .f32⟩
  | 76 => ⟨S_, .f32⟩
  | 77 => ⟨S1000000x16, .f32⟩
  | 78 => ⟨S1000000x64, .f32⟩
  | 79 => ⟨S_, .f32⟩
  | 80 => ⟨S1000000x64, .f32⟩
  | 81 => ⟨S1000000x64, .f32⟩
  | 82 => ⟨S1000000x16, .f32⟩
  | 83 => ⟨S1000000x1, .f32⟩
  | 84 => ⟨S1000000, .f32⟩
  | 85 => ⟨S1000000x1, .f32⟩
  | 86 => ⟨S1000000, .f32⟩
  | 87 => ⟨S1000000x1, .f32⟩
  | 88 => ⟨S1000000, .f32⟩
  | 89 => ⟨S1000000x1, .f32⟩
  | 90 => ⟨S1000000, .f32⟩
  | 91 => ⟨S1000000, .f32⟩
  | 92 => ⟨S1000000, .f32⟩
  | 93 => ⟨S1000000, .f32⟩
  | 94 => ⟨S1000000, .f32⟩
  | 95 => ⟨S1000000, .f32⟩
  | 96 => ⟨S1000000, .f32⟩
  | 97 => ⟨S_, .f32⟩
  | 98 => ⟨S1000000, .f32⟩
  | 99 => ⟨S_, .f32⟩
  | 100 => ⟨S1000000, .f32⟩
  | 101 => ⟨S1000000, .f32⟩
  | 102 => ⟨S_, .f32⟩
  | 103 => ⟨S1000000, .f32⟩
  | 104 => ⟨S1000000, .f32⟩
  | 105 => ⟨S_, .f32⟩
  | 106 => ⟨S1000000, .f32⟩
  | 107 => ⟨S1000000, .f32⟩
  | 108 => ⟨S_, .f32⟩
  | 109 => ⟨S1000000, .f32⟩
  | 110 => ⟨S1000000, .f32⟩
  | 111 => ⟨S_, .f32⟩
  | 112 => ⟨S1000000, .f32⟩
  | 113 => ⟨S1000000, .f32⟩
  | 114 => ⟨S_, .f32⟩
  | 115 => ⟨S1000000, .f32⟩
  | 116 => ⟨S1000000, .f32⟩
  | 117 => ⟨S_, .f32⟩
  | 118 => ⟨S1000000, .f32⟩
  | 119 => ⟨S1000000, .f32⟩
  | 120 => ⟨S_, .f32⟩
  | 121 => ⟨S1000000, .f32⟩
  | 122 => ⟨S1000000, .f32⟩
  | 123 => ⟨S1000000, .f32⟩
  | 124 => ⟨S_, .f32⟩
  | 125 => ⟨S1000000, .f32⟩
  | 126 => ⟨S1000000, .f32⟩
  | 127 => ⟨S_, .f32⟩
  | _ => ⟨S1000000x3, .f32⟩

abbrev hbmTy0_2 (i : Nat) : BufTy := match i % 128 with
  | 0 => ⟨S1000000, .f32⟩
  | 1 => ⟨S1000000, .f32⟩
  | 2 => ⟨S_, .f32⟩
  | 3 => ⟨S1000000, .f32⟩
  | 4 => ⟨S1000000, .f32⟩
  | 5 => ⟨S1000000, .f32⟩
  | 6 => ⟨S1000000, .f32⟩
  | 7 => ⟨S_, .f32⟩
  | 8 => ⟨S1000000, .f32⟩
  | 9 => ⟨S1000000, .f32⟩
  | 10 => ⟨S1000000, .f32⟩
  | 11 => ⟨S_, .f32⟩
  | 12 => ⟨S1000000, .f32⟩
  | 13 => ⟨S1000000, .f32⟩
  | 14 => ⟨S_, .f32⟩
  | 15 => ⟨S1000000, .f32⟩
  | 16 => ⟨S1000000, .f32⟩
  | 17 => ⟨S_, .f32⟩
  | 18 => ⟨S1000000, .f32⟩
  | 19 => ⟨S1000000, .f32⟩
  | 20 => ⟨S1000000, .f32⟩
  | 21 => ⟨S_, .f32⟩
  | 22 => ⟨S1000000, .f32⟩
  | 23 => ⟨S1000000, .f32⟩
  | 24 => ⟨S_, .f32⟩
  | 25 => ⟨S1000000, .f32⟩
  | 26 => ⟨S1000000, .f32⟩
  | 27 => ⟨S_, .f32⟩
  | 28 => ⟨S1000000, .f32⟩
  | 29 => ⟨S1000000, .f32⟩
  | 30 => ⟨S1000000, .f32⟩
  | 31 => ⟨S_, .f32⟩
  | 32 => ⟨S1000000, .f32⟩
  | 33 => ⟨S1000000, .f32⟩
  | 34 => ⟨S_, .f32⟩
  | 35 => ⟨S1000000, .f32⟩
  | 36 => ⟨S1000000, .f32⟩
  | 37 => ⟨S_, .f32⟩
  | 38 => ⟨S1000000, .f32⟩
  | 39 => ⟨S1000000, .f32⟩
  | 40 => ⟨S1000000, .f32⟩
  | 41 => ⟨S_, .f32⟩
  | 42 => ⟨S1000000, .f32⟩
  | 43 => ⟨S1000000, .f32⟩
  | 44 => ⟨S1000000, .f32⟩
  | 45 => ⟨S1000000, .f32⟩
  | 46 => ⟨S_, .f32⟩
  | 47 => ⟨S1000000, .f32⟩
  | 48 => ⟨S1000000, .f32⟩
  | 49 => ⟨S1000000, .f32⟩
  | 50 => ⟨S_, .f32⟩
  | 51 => ⟨S1000000, .f32⟩
  | 52 => ⟨S1000000, .f32⟩
  | 53 => ⟨S1000000, .f32⟩
  | 54 => ⟨S1000000, .f32⟩
  | 55 => ⟨S1000000x1, .f32⟩
  | 56 => ⟨S1000000x1, .f32⟩
  | 57 => ⟨S1000000x1, .f32⟩
  | 58 => ⟨S1000000x1, .f32⟩
  | 59 => ⟨S1000000x1, .f32⟩
  | 60 => ⟨S1000000x1, .f32⟩
  | 61 => ⟨S1000000x1, .f32⟩
  | 62 => ⟨S1000000x1, .f32⟩
  | 63 => ⟨S1000000x1, .f32⟩
  | 64 => ⟨S1000000x1, .f32⟩
  | 65 => ⟨S1000000x1, .f32⟩
  | 66 => ⟨S1000000x1, .f32⟩
  | 67 => ⟨S1000000x1, .f32⟩
  | 68 => ⟨S1000000x1, .f32⟩
  | 69 => ⟨S1000000x1, .f32⟩
  | 70 => ⟨S1000000x1, .f32⟩
  | 71 => ⟨S1000000x16, .f32⟩
  | 72 => ⟨S1000000x15, .f32⟩
  | 73 => ⟨S1000000x31, .f32⟩
  | 74 => ⟨S1000000x64, .f32⟩
  | 75 => ⟨S_, .f32⟩
  | 76 => ⟨S1000000x64, .f32⟩
  | 77 => ⟨S1000000x64, .f32⟩
  | 78 => ⟨S1000000x64, .f32⟩
  | 79 => ⟨S_, .f32⟩
  | 80 => ⟨S1000000x64, .f32⟩
  | 81 => ⟨S1000000x64, .f32⟩
  | 82 => ⟨S1000000x3, .f32⟩
  | _ => ⟨S1000000x3, .f32⟩

abbrev hbmTy (i : Nat) : BufTy := match i / 128 with
  | 0 => hbmTy0_0 i
  | 1 => hbmTy0_1 i
  | 2 => hbmTy0_2 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_15 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_17 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_18 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_19 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_20 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_21 : Ref sig .tc := ⟨.hbm, 134, rfl⟩
abbrev main_cst_22 : Ref sig .tc := ⟨.hbm, 135, rfl⟩
abbrev main_call1_v0 : Ref sig .tc := ⟨.hbm, 136, rfl⟩
abbrev main_call1_v1 : Ref sig .tc := ⟨.hbm, 137, rfl⟩
abbrev main_call1_v2 : Ref sig .tc := ⟨.hbm, 138, rfl⟩
abbrev main_call1_v3 : Ref sig .tc := ⟨.hbm, 139, rfl⟩
abbrev main_call1_v4 : Ref sig .tc := ⟨.hbm, 140, rfl⟩
abbrev main_v97 : Ref sig .tc := ⟨.hbm, 141, rfl⟩
abbrev main_cst_23 : Ref sig .tc := ⟨.hbm, 142, rfl⟩
abbrev main_v98 : Ref sig .tc := ⟨.hbm, 143, rfl⟩
abbrev main_v99 : Ref sig .tc := ⟨.hbm, 144, rfl⟩
abbrev main_cst_24 : Ref sig .tc := ⟨.hbm, 145, rfl⟩
abbrev main_v100 : Ref sig .tc := ⟨.hbm, 146, rfl⟩
abbrev main_v101 : Ref sig .tc := ⟨.hbm, 147, rfl⟩
abbrev main_cst_25 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_c_26 : Ref sig .tc := ⟨.hbm, 153, rfl⟩
abbrev main_c_27 : Ref sig .tc := ⟨.hbm, 154, rfl⟩
abbrev main_call2_v0 : Ref sig .tc := ⟨.hbm, 155, rfl⟩
abbrev main_call2_v1 : Ref sig .tc := ⟨.hbm, 156, rfl⟩
abbrev main_call2_v2 : Ref sig .tc := ⟨.hbm, 157, rfl⟩
abbrev main_call2_v3 : Ref sig .tc := ⟨.hbm, 158, rfl⟩
abbrev main_call2_v4 : Ref sig .tc := ⟨.hbm, 159, rfl⟩
abbrev main_v106 : Ref sig .tc := ⟨.hbm, 160, rfl⟩
abbrev main_v107 : Ref sig .tc := ⟨.hbm, 161, rfl⟩
abbrev main_c_28 : Ref sig .tc := ⟨.hbm, 162, rfl⟩
abbrev main_c_29 : Ref sig .tc := ⟨.hbm, 163, rfl⟩
abbrev main_call3_v0 : Ref sig .tc := ⟨.hbm, 164, rfl⟩
abbrev main_call3_v1 : Ref sig .tc := ⟨.hbm, 165, rfl⟩
abbrev main_call3_v2 : Ref sig .tc := ⟨.hbm, 166, rfl⟩
abbrev main_call3_v3 : Ref sig .tc := ⟨.hbm, 167, rfl⟩
abbrev main_call3_v4 : Ref sig .tc := ⟨.hbm, 168, rfl⟩
abbrev main_v108 : Ref sig .tc := ⟨.hbm, 169, rfl⟩
abbrev main_v109 : Ref sig .tc := ⟨.hbm, 170, rfl⟩
abbrev main_c_30 : Ref sig .tc := ⟨.hbm, 171, rfl⟩
abbrev main_v110 : Ref sig .tc := ⟨.hbm, 172, rfl⟩
abbrev main_v111 : Ref sig .tc := ⟨.hbm, 173, rfl⟩
abbrev main_c_31 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_c_32 : Ref sig .tc := ⟨.hbm, 186, rfl⟩
abbrev main_v123 : Ref sig .tc := ⟨.hbm, 187, rfl⟩
abbrev main_v124 : Ref sig .tc := ⟨.hbm, 188, rfl⟩
abbrev main_c_33 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_cst_34 : Ref sig .tc := ⟨.hbm, 204, rfl⟩
abbrev main_v139 : Ref sig .tc := ⟨.hbm, 205, rfl⟩
abbrev main_v140 : Ref sig .tc := ⟨.hbm, 206, rfl⟩
abbrev main_call4_cst : Ref sig .tc := ⟨.hbm, 207, rfl⟩
abbrev main_call4_v0 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_cst_35 : Ref sig .tc := ⟨.hbm, 225, rfl⟩
abbrev main_v157 : Ref sig .tc := ⟨.hbm, 226, rfl⟩
abbrev main_cst_36 : Ref sig .tc := ⟨.hbm, 227, rfl⟩
abbrev main_v158 : Ref sig .tc := ⟨.hbm, 228, rfl⟩
abbrev main_v159 : Ref sig .tc := ⟨.hbm, 229, rfl⟩
abbrev main_cst_37 : Ref sig .tc := ⟨.hbm, 230, rfl⟩
abbrev main_v160 : Ref sig .tc := ⟨.hbm, 231, rfl⟩
abbrev main_v161 : Ref sig .tc := ⟨.hbm, 232, rfl⟩
abbrev main_cst_38 : Ref sig .tc := ⟨.hbm, 233, rfl⟩
abbrev main_v162 : Ref sig .tc := ⟨.hbm, 234, rfl⟩
abbrev main_v163 : Ref sig .tc := ⟨.hbm, 235, rfl⟩
abbrev main_cst_39 : Ref sig .tc := ⟨.hbm, 236, rfl⟩
abbrev main_v164 : Ref sig .tc := ⟨.hbm, 237, rfl⟩
abbrev main_v165 : Ref sig .tc := ⟨.hbm, 238, rfl⟩
abbrev main_cst_40 : Ref sig .tc := ⟨.hbm, 239, rfl⟩
abbrev main_v166 : Ref sig .tc := ⟨.hbm, 240, rfl⟩
abbrev main_v167 : Ref sig .tc := ⟨.hbm, 241, rfl⟩
abbrev main_cst_41 : Ref sig .tc := ⟨.hbm, 242, rfl⟩
abbrev main_v168 : Ref sig .tc := ⟨.hbm, 243, rfl⟩
abbrev main_v169 : Ref sig .tc := ⟨.hbm, 244, rfl⟩
abbrev main_cst_42 : Ref sig .tc := ⟨.hbm, 245, rfl⟩
abbrev main_v170 : Ref sig .tc := ⟨.hbm, 246, rfl⟩
abbrev main_v171 : Ref sig .tc := ⟨.hbm, 247, rfl⟩
abbrev main_cst_43 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_cst_44 : Ref sig .tc := ⟨.hbm, 252, rfl⟩
abbrev main_v175 : Ref sig .tc := ⟨.hbm, 253, rfl⟩
abbrev main_v176 : Ref sig .tc := ⟨.hbm, 254, rfl⟩
abbrev main_cst_45 : Ref sig .tc := ⟨.hbm, 255, rfl⟩
abbrev main_v177 : Ref sig .tc := ⟨.hbm, 256, rfl⟩
abbrev main_v178 : Ref sig .tc := ⟨.hbm, 257, rfl⟩
abbrev main_cst_46 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_cst_47 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_cst_48 : Ref sig .tc := ⟨.hbm, 267, rfl⟩
abbrev main_v186 : Ref sig .tc := ⟨.hbm, 268, rfl⟩
abbrev main_v187 : Ref sig .tc := ⟨.hbm, 269, rfl⟩
abbrev main_cst_49 : Ref sig .tc := ⟨.hbm, 270, rfl⟩
abbrev main_v188 : Ref sig .tc := ⟨.hbm, 271, rfl⟩
abbrev main_v189 : Ref sig .tc := ⟨.hbm, 272, rfl⟩
abbrev main_cst_50 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_cst_51 : Ref sig .tc := ⟨.hbm, 277, rfl⟩
abbrev main_v193 : Ref sig .tc := ⟨.hbm, 278, rfl⟩
abbrev main_v194 : Ref sig .tc := ⟨.hbm, 279, rfl⟩
abbrev main_cst_52 : Ref sig .tc := ⟨.hbm, 280, rfl⟩
abbrev main_v195 : Ref sig .tc := ⟨.hbm, 281, rfl⟩
abbrev main_v196 : Ref sig .tc := ⟨.hbm, 282, rfl⟩
abbrev main_cst_53 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_cst_54 : Ref sig .tc := ⟨.hbm, 287, rfl⟩
abbrev main_v200 : Ref sig .tc := ⟨.hbm, 288, rfl⟩
abbrev main_v201 : Ref sig .tc := ⟨.hbm, 289, rfl⟩
abbrev main_cst_55 : Ref sig .tc := ⟨.hbm, 290, rfl⟩
abbrev main_v202 : Ref sig .tc := ⟨.hbm, 291, rfl⟩
abbrev main_v203 : Ref sig .tc := ⟨.hbm, 292, rfl⟩
abbrev main_cst_56 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_cst_57 : Ref sig .tc := ⟨.hbm, 297, rfl⟩
abbrev main_v207 : Ref sig .tc := ⟨.hbm, 298, rfl⟩
abbrev main_v208 : Ref sig .tc := ⟨.hbm, 299, rfl⟩
abbrev main_v209 : Ref sig .tc := ⟨.hbm, 300, rfl⟩
abbrev main_v210 : Ref sig .tc := ⟨.hbm, 301, rfl⟩
abbrev main_cst_58 : Ref sig .tc := ⟨.hbm, 302, rfl⟩
abbrev main_v211 : Ref sig .tc := ⟨.hbm, 303, rfl⟩
abbrev main_v212 : Ref sig .tc := ⟨.hbm, 304, rfl⟩
abbrev main_v213 : Ref sig .tc := ⟨.hbm, 305, rfl⟩
abbrev main_cst_59 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_v222 : Ref sig .tc := ⟨.hbm, 315, rfl⟩
abbrev main_v223 : Ref sig .tc := ⟨.hbm, 316, rfl⟩
abbrev main_v224 : Ref sig .tc := ⟨.hbm, 317, rfl⟩
abbrev main_v225 : Ref sig .tc := ⟨.hbm, 318, rfl⟩
abbrev main_v226 : Ref sig .tc := ⟨.hbm, 319, rfl⟩
abbrev main_v227 : Ref sig .tc := ⟨.hbm, 320, rfl⟩
abbrev main_v228 : Ref sig .tc := ⟨.hbm, 321, rfl⟩
abbrev main_v229 : Ref sig .tc := ⟨.hbm, 322, rfl⟩
abbrev main_v230 : Ref sig .tc := ⟨.hbm, 323, rfl⟩
abbrev main_v231 : Ref sig .tc := ⟨.hbm, 324, rfl⟩
abbrev main_v232 : Ref sig .tc := ⟨.hbm, 325, rfl⟩
abbrev main_v233 : Ref sig .tc := ⟨.hbm, 326, rfl⟩
abbrev main_v234 : Ref sig .tc := ⟨.hbm, 327, rfl⟩
abbrev main_v235 : Ref sig .tc := ⟨.hbm, 328, rfl⟩
abbrev main_v236 : Ref sig .tc := ⟨.hbm, 329, rfl⟩
abbrev main_v237 : Ref sig .tc := ⟨.hbm, 330, rfl⟩
abbrev main_call5_cst : Ref sig .tc := ⟨.hbm, 331, rfl⟩
abbrev main_call5_v0 : Ref sig .tc := ⟨.hbm, 332, rfl⟩
abbrev main_v238 : Ref sig .tc := ⟨.hbm, 333, rfl⟩
abbrev main_v239 : Ref sig .tc := ⟨.hbm, 334, rfl⟩
abbrev main_call6_cst : Ref sig .tc := ⟨.hbm, 335, rfl⟩
abbrev main_call6_v0 : Ref sig .tc := ⟨.hbm, 336, rfl⟩
abbrev main_v240 : Ref sig .tc := ⟨.hbm, 337, rfl⟩
abbrev main_v241 : Ref sig .tc := ⟨.hbm, 338, rfl⟩

abbrev nD : Nat := 1
abbrev τ : Topo := Topo.v7x

variable {F : FTy → Type} [FloatOps F]

class Facts₀ : Prop where
  bcast_S1000000x3_S1000000x1x3_0_2 : S1000000x3.BroadcastsInDim S1000000x1x3 (![0, 2] : Fin 2 → Fin S1000000x1x3.rank)
  bcast_S8x3_S1x8x3_1_2 : S8x3.BroadcastsInDim S1x8x3 (![1, 2] : Fin 2 → Fin S1x8x3.rank)
  bcast_S_S1x8x3 : S_.BroadcastsInDim S1x8x3 (![] : Fin 0 → Fin S1x8x3.rank)
  bcast_S1000000x1x3_S1000000x8x3_0_1_2 : S1000000x1x3.BroadcastsInDim S1000000x8x3 (![0, 1, 2] : Fin 3 → Fin S1000000x8x3.rank)
  bcast_S1x8x3_S1000000x8x3_0_1_2 : S1x8x3.BroadcastsInDim S1000000x8x3 (![0, 1, 2] : Fin 3 → Fin S1000000x8x3.rank)
  bcast_S_S1000000x8x3 : S_.BroadcastsInDim S1000000x8x3 (![] : Fin 0 → Fin S1000000x8x3.rank)
  slices_S1000000x8x3_S1000000x1x3_0_0_0 : S1000000x8x3.Slices ![0, 0, 0] S1000000x1x3
  shapeCasts_S1000000x1x3_S1000000x3 : S1000000x1x3.ShapeCasts S1000000x3
  slices_S1000000x8x3_S1000000x8x1_0_0_0 : S1000000x8x3.Slices ![0, 0, 0] S1000000x8x1
  shapeCasts_S1000000x8x1_S1000000x8 : S1000000x8x1.ShapeCasts S1000000x8
  slices_S1000000x8x3_S1000000x8x1_0_0_1 : S1000000x8x3.Slices ![0, 0, 1] S1000000x8x1
  slices_S1000000x8x3_S1000000x8x1_0_0_2 : S1000000x8x3.Slices ![0, 0, 2] S1000000x8x1
  bcast_S_S1000000x8 : S_.BroadcastsInDim S1000000x8 (![] : Fin 0 → Fin S1000000x8.rank)
  bcast_S1000000x8_S1000000x8x1_0_1 : S1000000x8.BroadcastsInDim S1000000x8x1 (![0, 1] : Fin 2 → Fin S1000000x8x1.rank)
  concatenates_S1000000x8x1_S1000000x8x1_S1000000x8x1_S1000000x8x1_S1000000x8x4_d2 : Shape.Concatenates [S1000000x8x1, S1000000x8x1, S1000000x8x1, S1000000x8x1] S1000000x8x4 2
  slices_S1000000x3_S1000000x1_0_0 : S1000000x3.Slices ![0, 0] S1000000x1
  shapeCasts_S1000000x1_S1000000 : S1000000x1.ShapeCasts S1000000
  slices_S1000000x3_S1000000x1_0_1 : S1000000x3.Slices ![0, 1] S1000000x1
  slices_S1000000x3_S1000000x1_0_2 : S1000000x3.Slices ![0, 2] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x1_S1000000x1_S1000000x1_S1000000x1_S1000000x1_S1000000x1_S1000000x8_d1 : Shape.Concatenates [S1000000x1, S1000000x1, S1000000x1, S1000000x1, S1000000x1, S1000000x1, S1000000x1, S1000000x1] S1000000x8 1
  shapeCasts_S1000000x8_S8000000 : S1000000x8.ShapeCasts S8000000
  bcast_S_S8000000 : S_.BroadcastsInDim S8000000 (![] : Fin 0 → Fin S8000000.rank)
  bcast_S8000000_S8000000x1_0 : S8000000.BroadcastsInDim S8000000x1 (![0] : Fin 1 → Fin S8000000x1.rank)
  shapeCasts_S8000000x16_S1000000x8x16 : S8000000x16.ShapeCasts S1000000x8x16
  shapeCasts_S8000000_S1000000x8x1 : S8000000.ShapeCasts S1000000x8x1
  bcast_S1000000x8x1_S1000000x8x16_0_1_2 : S1000000x8x1.BroadcastsInDim S1000000x8x16 (![0, 1, 2] : Fin 3 → Fin S1000000x8x16.rank)
  reducesTo_S1000000x8x16_S1000000x16_d1 : S1000000x8x16.ReducesTo [1] S1000000x16
  h_S_ : 0 < S_.numel
  bcast_S_S1000000x64 : S_.BroadcastsInDim S1000000x64 (![] : Fin 0 → Fin S1000000x64.rank)
  slices_S1000000x16_S1000000x1_0_0 : S1000000x16.Slices ![0, 0] S1000000x1
  concatenates_S1000000x1_S1000000x1_S1000000x1_S1000000x1_S1000000x1_S1000000x1_S1000000x1_S1000000x1_S1000000x1_S1000000x1_S1000000x1_S1000000x1_S1000000x1_S1000000x1_S1000000x1_S1000000x1_S1000000x16_d1 : Shape.Concatenates [S1000000x1, S1000000x1, S1000000x1, S1000000x1, S1000000x1, S1000000x1, S1000000x1, S1000000x1, S1000000x1, S1000000x1, S1000000x1, S1000000x1, S1000000x1, S1000000x1, S1000000x1, S1000000x1] S1000000x16 1
  slices_S1000000x16_S1000000x15_0_1 : S1000000x16.Slices ![0, 1] S1000000x15
  concatenates_S1000000x16_S1000000x15_S1000000x31_d1 : Shape.Concatenates [S1000000x16, S1000000x15] S1000000x31 1
  gather_S256x256x256x1_S1000000x8x4_S1000000x8_n_0123_n_n_0123_2_1111_wf : GatherDims.WF S256x256x256x1 S1000000x8x4 S1000000x8 [] [0, 1, 2, 3] [] [0, 1, 2, 3] [] 2 ![1, 1, 1, 1]
  gather_S65536x16_S8000000x1_S8000000x16_1_0_n_n_0_1_116_wf : GatherDims.WF S65536x16 S8000000x1 S8000000x16 [1] [0] [] [0] [] 1 ![1, 16]
  dot_S1000000x16_S16x64_S1000000x64_1_0_0_1_n_n_wf : DotDims.WF S1000000x16 S16x64 S1000000x64 [1] [0] [0] [1] [] []
  dot_S1000000x64_S64x16_S1000000x16_1_0_0_1_n_n_wf : DotDims.WF S1000000x64 S64x16 S1000000x16 [1] [0] [0] [1] [] []
  dot_S1000000x31_S31x64_S1000000x64_1_0_0_1_n_n_wf : DotDims.WF S1000000x31 S31x64 S1000000x64 [1] [0] [0] [1] [] []
  dot_S1000000x64_S64x64_S1000000x64_1_0_0_1_n_n_wf : DotDims.WF S1000000x64 S64x64 S1000000x64 [1] [0] [0] [1] [] []
  dot_S1000000x64_S64x3_S1000000x3_1_0_0_1_n_n_wf : DotDims.WF S1000000x64 S64x3 S1000000x3 [1] [0] [0] [1] [] []

variable [Facts₀]

def gather_S256x256x256x1_S1000000x8x4_S1000000x8_n_0123_n_n_0123_2_1111 : GatherDims S256x256x256x1 S1000000x8x4 S1000000x8 where
  offsetDims := []
  collapsedSliceDims := [0, 1, 2, 3]
  operandBatchingDims := []
  startIndicesBatchingDims := []
  startIndexMap := [0, 1, 2, 3]
  indexVectorDim := 2
  sliceSizes := ![1, 1, 1, 1]
  wf := gather_S256x256x256x1_S1000000x8x4_S1000000x8_n_0123_n_n_0123_2_1111_wf
def gather_S65536x16_S8000000x1_S8000000x16_1_0_n_n_0_1_116 : GatherDims S65536x16 S8000000x1 S8000000x16 where
  offsetDims := [1]
  collapsedSliceDims := [0]
  operandBatchingDims := []
  startIndicesBatchingDims := []
  startIndexMap := [0]
  indexVectorDim := 1
  sliceSizes := ![1, 16]
  wf := gather_S65536x16_S8000000x1_S8000000x16_1_0_n_n_0_1_116_wf
def dot_S1000000x16_S16x64_S1000000x64_1_0_0_1_n_n : DotDims S1000000x16 S16x64 S1000000x64 where
  lhsContracting := [1]
  rhsContracting := [0]
  lhsNonContracting := [0]
  rhsNonContracting := [1]
  lhsBatch := []
  rhsBatch := []
  wf := dot_S1000000x16_S16x64_S1000000x64_1_0_0_1_n_n_wf
def dot_S1000000x64_S64x16_S1000000x16_1_0_0_1_n_n : DotDims S1000000x64 S64x16 S1000000x16 where
  lhsContracting := [1]
  rhsContracting := [0]
  lhsNonContracting := [0]
  rhsNonContracting := [1]
  lhsBatch := []
  rhsBatch := []
  wf := dot_S1000000x64_S64x16_S1000000x16_1_0_0_1_n_n_wf
def dot_S1000000x31_S31x64_S1000000x64_1_0_0_1_n_n : DotDims S1000000x31 S31x64 S1000000x64 where
  lhsContracting := [1]
  rhsContracting := [0]
  lhsNonContracting := [0]
  rhsNonContracting := [1]
  lhsBatch := []
  rhsBatch := []
  wf := dot_S1000000x31_S31x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x3_S1000000x3_1_0_0_1_n_n : DotDims S1000000x64 S64x3 S1000000x3 where
  lhsContracting := [1]
  rhsContracting := [0]
  lhsNonContracting := [0]
  rhsNonContracting := [1]
  lhsBatch := []
  rhsBatch := []
  wf := dot_S1000000x64_S64x3_S1000000x3_1_0_0_1_n_n_wf

class Facts : Prop extends Facts₀ where

variable [Facts]
-- ==== Proof.KFrame.lean ====
import proofs.«133790_j23845658428386_2_alg».proof.Proof.Gen.Kernel.Launch
import proofs.«133790_j23845658428386_2_alg».proof.Proof.Gen.Kernel.Skeleton
import proofs.«133790_j23845658428386_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # The frame of the program around its one pipelined region

The entry function is nine stretches of host operations, one pipelined region over a grid of 250 points
with eight windows (seven inputs, one output), and one closing stretch of three host operations.
This module states what each core's buffers hold when the region is entered, what every window's
staging buffer holds before and after the body at each grid point, the body's triple, and from these the
run of the whole entry function: it terminates, every array of the pipeline ends at what the write-backs
leave, and every argument array ends as launched. -/

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the region -/

/-- The contents of core `c`'s buffers at the region's entry: the launch contents rewritten by the nine
    stretches of host operations, in order. -/
abbrev V0 (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same, read at a reference of the core. -/
abbrev V (c : Dev nD) (b : Ref sig .tc) : Buf (Elt F) ((c : Thread nD τ).loc b) := V0 m c (Proc.devRef .tc b)

/-- No operation of this stretch allocates a buffer. -/
theorem hostOps0_fresh : (hostOps0 : List (HloOp τ sig (Elt F))).Forall fun op => op.fresh = ∅ := by
  simp only [List.Forall]; repeat' constructor
/-- No operation of this stretch allocates a buffer. -/
theorem hostOps0_1_fresh : (hostOps0_1 : List (HloOp τ sig (Elt F))).Forall fun op => op.fresh = ∅ := by
  simp only [List.Forall]; repeat' constructor
set_option maxHeartbeats 4000000 in
/-- No operation of this stretch allocates a buffer. -/
theorem hostOps0_2_fresh : (hostOps0_2 : List (HloOp τ sig (Elt F))).Forall fun op => op.fresh = ∅ := by
  simp only [List.Forall]; repeat' constructor
/-- No operation of this stretch allocates a buffer. -/
theorem hostOps0_3_fresh : (hostOps0_3 : List (HloOp τ sig (Elt F))).Forall fun op => op.fresh = ∅ := by
  simp only [List.Forall]; repeat' constructor
/-- No operation of this stretch allocates a buffer. -/
theorem hostOps0_4_fresh : (hostOps0_4 : List (HloOp τ sig (Elt F))).Forall fun op => op.fresh = ∅ := by
  simp only [List.Forall]; repeat' constructor
/-- No operation of this stretch allocates a buffer. -/
theorem hostOps0_5_fresh : (hostOps0_5 : List (HloOp τ sig (Elt F))).Forall fun op => op.fresh = ∅ := by
  simp only [List.Forall]; repeat' constructor
/-- No operation of this stretch allocates a buffer. -/
theorem hostOps0_6_fresh : (hostOps0_6 : List (HloOp τ sig (Elt F))).Forall fun op => op.fresh = ∅ := by
  simp only [List.Forall]; repeat' constructor
/-- No operation of this stretch allocates a buffer. -/
theorem hostOps0_7_fresh : (hostOps0_7 : List (HloOp τ sig (Elt F))).Forall fun op => op.fresh = ∅ := by
  simp only [List.Forall]; repeat' constructor
set_option maxHeartbeats 4000000 in
/-- No operation of this stretch allocates a buffer. -/
theorem hostOps0_8_fresh : (hostOps0_8 : List (HloOp τ sig (Elt F))).Forall fun op => op.fresh = ∅ := by
  simp only [List.Forall]; repeat' constructor
/-- No operation of this stretch allocates a buffer. -/
theorem hostOps1_fresh : (hostOps1 : List (HloOp τ sig (Elt F))).Forall fun op => op.fresh = ∅ := by
  simp only [List.Forall]; repeat' constructor

/-- The entry function is its nine leading stretches, the region, and the closing stretch: run from the launch
    contents it reaches the region with the buffers at `V`, and continues after it with the closing stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The closing stretch touches unscoped references of the core only; with nothing prefetched, each of these is an
    array of the pipeline or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes no array of the pipeline: each of its three operations writes its own result buffer, which is none of
    the eight arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays at the region's entry and at the end -/

set_option maxHeartbeats 4000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Argument 0 is no array of the pipeline and no operation of the closing stretch writes it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Argument 2 is no array of the pipeline and no operation of the closing stretch writes it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Argument 3 is no array of the pipeline and no operation of the closing stretch writes it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Argument 1 is the array of input window 1: the closing stretch does not write it, the region never writes an
    input's array back, so for proof data whose arrays are the entry contents it ends as launched. -/
theorem W_main_arg1 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide)))]
  exact (Pipeline.withArrays_arr spec0 launch0.win.arr_inj c (V0 m c) _ 1).trans
    (((dats 0 c).arrAt_in 1 rfl _).trans ((hA c 1).trans (V_main_arg1 m c)))
/-- Argument 4 is the array of input window 2: the closing stretch does not write it, the region never writes an
    input's array back, so for proof data whose arrays are the entry contents it ends as launched. -/
theorem W_main_arg4 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide)))]
  exact (Pipeline.withArrays_arr spec0 launch0.win.arr_inj c (V0 m c) _ 2).trans
    (((dats 0 c).arrAt_in 2 rfl _).trans ((hA c 2).trans (V_main_arg4 m c)))
/-- Argument 5 is the array of input window 3: the closing stretch does not write it, the region never writes an
    input's array back, so for proof data whose arrays are the entry contents it ends as launched. -/
theorem W_main_arg5 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide)))]
  exact (Pipeline.withArrays_arr spec0 launch0.win.arr_inj c (V0 m c) _ 3).trans
    (((dats 0 c).arrAt_in 3 rfl _).trans ((hA c 3).trans (V_main_arg5 m c)))
/-- Argument 6 is the array of input window 4: the closing stretch does not write it, the region never writes an
    input's array back, so for proof data whose arrays are the entry contents it ends as launched. -/
theorem W_main_arg6 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide)))]
  exact (Pipeline.withArrays_arr spec0 launch0.win.arr_inj c (V0 m c) _ 4).trans
    (((dats 0 c).arrAt_in 4 rfl _).trans ((hA c 4).trans (V_main_arg6 m c)))
/-- Argument 7 is the array of input window 5: the closing stretch does not write it, the region never writes an
    input's array back, so for proof data whose arrays are the entry contents it ends as launched. -/
theorem W_main_arg7 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide)))]
  exact (Pipeline.withArrays_arr spec0 launch0.win.arr_inj c (V0 m c) _ 5).trans
    (((dats 0 c).arrAt_in 5 rfl _).trans ((hA c 5).trans (V_main_arg7 m c)))
/-- Argument 8 is the array of input window 6: the closing stretch does not write it, the region never writes an
    input's array back, so for proof data whose arrays are the entry contents it ends as launched. -/
theorem W_main_arg8 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide)))]
  exact (Pipeline.withArrays_arr spec0 launch0.win.arr_inj c (V0 m c) _ 6).trans
    (((dats 0 c).arrAt_in 6 rfl _).trans ((hA c 6).trans (V_main_arg8 m c)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether it was fetched there or not
    (when it was not, its block index has not moved since the last fetch), for any proof data over the entry contents
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether it was fetched there or not
    (when it was not, its block index has not moved since the last fetch), for any proof data over the entry contents
    whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether it was fetched there or not
    (when it was not, its block index has not moved since the last fetch), for any proof data over the entry contents
    whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether it was fetched there or not
    (when it was not, its block index has not moved since the last fetch), for any proof data over the entry contents
    whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether it was fetched there or not
    (when it was not, its block index has not moved since the last fetch), for any proof data over the entry contents
    whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether it was fetched there or not
    (when it was not, its block index has not moved since the last fetch), for any proof data over the entry contents
    whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether it was fetched there or not
    (when it was not, its block index has not moved since the last fetch), for any proof data over the entry contents
    whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, for any proof data whose arrays are the entry contents, every argument array
    ends as launched: an input window's array is never written back and was not written before the region; an array no
    window stages bypasses the region and is written neither before nor after it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).1 1).trans (((dats 0 c).arrAt_in 1 rfl _).trans ((hA c 1).trans (V_main_arg1 m c))),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).1 6).trans (((dats 0 c).arrAt_in 6 rfl _).trans ((hA c 6).trans (V_main_arg8 m c)))⟩) h

/-! ## The body's accesses -/

/-- The whole of window 0's staging buffer, as a rectangle. -/
abbrev r0_0 : Rect S4000x16 := Rect.unit (s := S4000x16) ![0, 0] S4000x16.size inb_S4000x16_S4000x16_0_0
/-- The whole of window 1's staging buffer, as a rectangle. -/
abbrev r0_1 : Rect S4000x3 := Rect.unit (s := S4000x3) ![0, 0] S4000x3.size inb_S4000x3_S4000x3_0_0
/-- The whole of window 2's staging buffer, as a rectangle. -/
abbrev r0_2 : Rect S16x64 := Rect.unit (s := S16x64) ![0, 0] S16x64.size inb_S16x64_S16x64_0_0
/-- The whole of window 3's staging buffer, as a rectangle. -/
abbrev r0_3 : Rect S64x16 := Rect.unit (s := S64x16) ![0, 0] S64x16.size inb_S64x16_S64x16_0_0
/-- The whole of window 4's staging buffer, as a rectangle. -/
abbrev r0_4 : Rect S31x64 := Rect.unit (s := S31x64) ![0, 0] S31x64.size inb_S31x64_S31x64_0_0
/-- The whole of window 5's staging buffer, as a rectangle. -/
abbrev r0_5 : Rect S64x64 := Rect.unit (s := S64x64) ![0, 0] S64x64.size inb_S64x64_S64x64_0_0
/-- The whole of window 6's staging buffer, as a rectangle. -/
abbrev r0_6 : Rect S64x3 := Rect.unit (s := S64x3) ![0, 0] S64x3.size inb_S64x3_S64x3_0_0
/-- The whole of window 7's staging buffer, as a rectangle. -/
abbrev r0_7 : Rect S4000x4 := Rect.unit (s := S4000x4) ![0, 0] S4000x4.size inb_S4000x4_S4000x4_0_0

/-! ## What the body leaves in the output window's buffer -/

/-- Window 7's staging buffer after the body, from the seven input blocks: the body's one store, which covers the
    whole buffer, written over the values the body reads (each input block whole) and the pure values it
    computes from them. -/
def out0_7 (x0 : Vec F S4000x16 .bf16) (x1 : Vec F S4000x3 .f32) (x2 : Vec F S16x64 .f32) (x3 : Vec F S64x16 .f32) (x4 : Vec F S31x64 .f32) (x5 : Vec F S64x64 .f32) (x6 : Vec F S64x3 .f32) : Vec F S4000x4 .f32 :=
  View.canon [⟨r0_7, k0_pay3 (k0_pay4 (View.ld x0 r0_0) (View.ld x2 r0_2) (View.ld x3 r0_3)) (k0_pay5 (View.ld x0 r0_0) (View.ld x2 r0_2) (View.ld x3 r0_3))
      (k0_pay2 (k0_pay14 (F := F)) (k0_pay15 (View.ld x1 r0_1)) (k0_pay16 (View.ld x1 r0_1)) (k0_pay17 (View.ld x1 r0_1)) (k0_pay18 (View.ld x1 r0_1)) (k0_pay19 (View.ld x1 r0_1)) (k0_pay20 (View.ld x1 r0_1)) (k0_pay21 (k0_pay13 (View.ld x1 r0_1))) (k0_pay22 (k0_pay9 (View.ld x1 r0_1)) (k0_pay10 (View.ld x1 r0_1))) (k0_pay23 (k0_pay7 (View.ld x1 r0_1)) (k0_pay9 (View.ld x1 r0_1)) (k0_pay10 (View.ld x1 r0_1))) (k0_pay24 (k0_pay8 (View.ld x1 r0_1)) (k0_pay12 (View.ld x1 r0_1))) (k0_pay25 (k0_pay7 (View.ld x1 r0_1)) (k0_pay11 (View.ld x1 r0_1))) (k0_pay26 (k0_pay8 (View.ld x1 r0_1)) (k0_pay11 (View.ld x1 r0_1))) (k0_pay27 (k0_pay6 (View.ld x1 r0_1)) (k0_pay11 (View.ld x1 r0_1))) (k0_pay28 (k0_pay8 (View.ld x1 r0_1)) (k0_pay9 (View.ld x1 r0_1)) (k0_pay10 (View.ld x1 r0_1))) (k0_pay1 (k0_pay10 (View.ld x1 r0_1)) (k0_pay29 (k0_pay6 (View.ld x1 r0_1))) (k0_pay30 (k0_pay9 (View.ld x1 r0_1)))))
      (View.ld x4 r0_4) (View.ld x5 r0_5) (View.ld x6 r0_6)⟩]

/-- The one store's rectangle is the whole buffer, so it covers it. -/
theorem cover0_7 (p0 : Vec F S4000x4 .f32) (y : S4000x4.Idx) :
    ∃ pc ∈ ([⟨r0_7, p0⟩] : List (View.Piece (Elt F) S4000x4 .f32)), y ∈ pc.1.set :=
  View.cover_of_tiled [⟨r0_7, p0⟩] S4000x4.size (by rfl) y

/-! ## The body's triple -/

set_option maxHeartbeats 4000000 in
/-- The kernel body on whole staging memrefs — each input's at contents `xW`, the output's at anything — runs to the
    continuation with each input's buffer as it was and the output's at `out0_7` of the inputs: the body is seven whole-buffer
    loads, a load of the output buffer whose value is not used, pure computation, and one whole-buffer store. -/
theorem sound_kernel (c : Dev nD) (E : Set ℕ) (i : grid0.Coords) (arg1 : Memref sig .tc .vmem S4000x16 .bf16) (harg1 : arg1.IsWhole) (arg2 : Memref sig .tc .vmem S4000x3 .f32) (harg2 : arg2.IsWhole) (arg3 : Memref sig .tc .vmem S16x64 .f32) (harg3 : arg3.IsWhole) (arg4 : Memref sig .tc .vmem S64x16 .f32) (harg4 : arg4.IsWhole) (arg5 : Memref sig .tc .vmem S31x64 .f32) (harg5 : arg5.IsWhole) (arg6 : Memref sig .tc .vmem S64x64 .f32) (harg6 : arg6.IsWhole) (arg7 : Memref sig .tc .vmem S64x3 .f32) (harg7 : arg7.IsWhole) (arg8 : Memref sig .tc .vmem S4000x4 .f32) (harg8 : arg8.IsWhole)
    (x0 : Vec F S4000x16 .bf16) (x1 : Vec F S4000x3 .f32) (x2 : Vec F S16x64 .f32) (x3 : Vec F S64x16 .f32) (x4 : Vec F S31x64 .f32) (x5 : Vec F S64x64 .f32) (x6 : Vec F S64x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-! ## The pipeline's proof data -/

/-- The proof data of the pipeline on core `c`: the arrays as the region finds them; after the body at point `t` each
    input's buffer at its block and the output's at `out0_7` of the input blocks; the invariant the plain one (the
    scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the entry contents (the definition projected, the entry contents never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 2000000 in
/-- The body at any point: the inputs' memrefs hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the entry
    function on the cores terminates, and every final state has every array of the pipeline at what the write-backs
    leave and every other unscoped buffer as the closing stretch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every argument array ends as launched: the frame claim of this program, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.HFrame

end
-- ==== Proof.KIFrame.lean ====
import proofs.«133790_j23845658428386_2_alg».proof.Proof.Gen.KernelIdeal.Launch
import proofs.«133790_j23845658428386_2_alg».proof.Proof.Gen.KernelIdeal.Skeleton
import proofs.«133790_j23845658428386_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # The frame of the program around its one pipelined region

The entry function is nine stretches of host operations, one pipelined region over a grid of 250 points
with eight windows (seven inputs, one output), and one closing stretch of three host operations.
This module states what each core's buffers hold when the region is entered, what every window's
staging buffer holds before and after the body at each grid point, the body's triple, and from these the
run of the whole entry function: it terminates, every array of the pipeline ends at what the write-backs
leave, and every argument array ends as launched. -/

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the region -/

/-- The contents of core `c`'s buffers at the region's entry: the launch contents rewritten by the nine
    stretches of host operations, in order. -/
abbrev V0 (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same, read at a reference of the core. -/
abbrev V (c : Dev nD) (b : Ref sig .tc) : Buf (Elt F) ((c : Thread nD τ).loc b) := V0 m c (Proc.devRef .tc b)

/-- No operation of this stretch allocates a buffer. -/
theorem hostOps0_fresh : (hostOps0 : List (HloOp τ sig (Elt F))).Forall fun op => op.fresh = ∅ := by
  simp only [List.Forall]; repeat' constructor
/-- No operation of this stretch allocates a buffer. -/
theorem hostOps0_1_fresh : (hostOps0_1 : List (HloOp τ sig (Elt F))).Forall fun op => op.fresh = ∅ := by
  simp only [List.Forall]; repeat' constructor
set_option maxHeartbeats 4000000 in
/-- No operation of this stretch allocates a buffer. -/
theorem hostOps0_2_fresh : (hostOps0_2 : List (HloOp τ sig (Elt F))).Forall fun op => op.fresh = ∅ := by
  simp only [List.Forall]; repeat' constructor
/-- No operation of this stretch allocates a buffer. -/
theorem hostOps0_3_fresh : (hostOps0_3 : List (HloOp τ sig (Elt F))).Forall fun op => op.fresh = ∅ := by
  simp only [List.Forall]; repeat' constructor
/-- No operation of this stretch allocates a buffer. -/
theorem hostOps0_4_fresh : (hostOps0_4 : List (HloOp τ sig (Elt F))).Forall fun op => op.fresh = ∅ := by
  simp only [List.Forall]; repeat' constructor
/-- No operation of this stretch allocates a buffer. -/
theorem hostOps0_5_fresh : (hostOps0_5 : List (HloOp τ sig (Elt F))).Forall fun op => op.fresh = ∅ := by
  simp only [List.Forall]; repeat' constructor
/-- No operation of this stretch allocates a buffer. -/
theorem hostOps0_6_fresh : (hostOps0_6 : List (HloOp τ sig (Elt F))).Forall fun op => op.fresh = ∅ := by
  simp only [List.Forall]; repeat' constructor
/-- No operation of this stretch allocates a buffer. -/
theorem hostOps0_7_fresh : (hostOps0_7 : List (HloOp τ sig (Elt F))).Forall fun op => op.fresh = ∅ := by
  simp only [List.Forall]; repeat' constructor
set_option maxHeartbeats 4000000 in
/-- No operation of this stretch allocates a buffer. -/
theorem hostOps0_8_fresh : (hostOps0_8 : List (HloOp τ sig (Elt F))).Forall fun op => op.fresh = ∅ := by
  simp only [List.Forall]; repeat' constructor
/-- No operation of this stretch allocates a buffer. -/
theorem hostOps1_fresh : (hostOps1 : List (HloOp τ sig (Elt F))).Forall fun op => op.fresh = ∅ := by
  simp only [List.Forall]; repeat' constructor

/-- The entry function is its nine leading stretches, the region, and the closing stretch: run from the launch
    contents it reaches the region with the buffers at `V`, and continues after it with the closing stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The closing stretch touches unscoped references of the core only; with nothing prefetched, each of these is an
    array of the pipeline or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes no array of the pipeline: each of its three operations writes its own result buffer, which is none of
    the eight arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays at the region's entry and at the end -/

set_option maxHeartbeats 4000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Argument 0 is no array of the pipeline and no operation of the closing stretch writes it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Argument 2 is no array of the pipeline and no operation of the closing stretch writes it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Argument 3 is no array of the pipeline and no operation of the closing stretch writes it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Argument 1 is the array of input window 1: the closing stretch does not write it, the region never writes an
    input's array back, so for proof data whose arrays are the entry contents it ends as launched. -/
theorem W_main_arg1 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide)))]
  exact (Pipeline.withArrays_arr spec0 launch0.win.arr_inj c (V0 m c) _ 1).trans
    (((dats 0 c).arrAt_in 1 rfl _).trans ((hA c 1).trans (V_main_arg1 m c)))
/-- Argument 4 is the array of input window 2: the closing stretch does not write it, the region never writes an
    input's array back, so for proof data whose arrays are the entry contents it ends as launched. -/
theorem W_main_arg4 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide)))]
  exact (Pipeline.withArrays_arr spec0 launch0.win.arr_inj c (V0 m c) _ 2).trans
    (((dats 0 c).arrAt_in 2 rfl _).trans ((hA c 2).trans (V_main_arg4 m c)))
/-- Argument 5 is the array of input window 3: the closing stretch does not write it, the region never writes an
    input's array back, so for proof data whose arrays are the entry contents it ends as launched. -/
theorem W_main_arg5 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide)))]
  exact (Pipeline.withArrays_arr spec0 launch0.win.arr_inj c (V0 m c) _ 3).trans
    (((dats 0 c).arrAt_in 3 rfl _).trans ((hA c 3).trans (V_main_arg5 m c)))
/-- Argument 6 is the array of input window 4: the closing stretch does not write it, the region never writes an
    input's array back, so for proof data whose arrays are the entry contents it ends as launched. -/
theorem W_main_arg6 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide)))]
  exact (Pipeline.withArrays_arr spec0 launch0.win.arr_inj c (V0 m c) _ 4).trans
    (((dats 0 c).arrAt_in 4 rfl _).trans ((hA c 4).trans (V_main_arg6 m c)))
/-- Argument 7 is the array of input window 5: the closing stretch does not write it, the region never writes an
    input's array back, so for proof data whose arrays are the entry contents it ends as launched. -/
theorem W_main_arg7 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide)))]
  exact (Pipeline.withArrays_arr spec0 launch0.win.arr_inj c (V0 m c) _ 5).trans
    (((dats 0 c).arrAt_in 5 rfl _).trans ((hA c 5).trans (V_main_arg7 m c)))
/-- Argument 8 is the array of input window 6: the closing stretch does not write it, the region never writes an
    input's array back, so for proof data whose arrays are the entry contents it ends as launched. -/
theorem W_main_arg8 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide)))]
  exact (Pipeline.withArrays_arr spec0 launch0.win.arr_inj c (V0 m c) _ 6).trans
    (((dats 0 c).arrAt_in 6 rfl _).trans ((hA c 6).trans (V_main_arg8 m c)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether it was fetched there or not
    (when it was not, its block index has not moved since the last fetch), for any proof data over the entry contents
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether it was fetched there or not
    (when it was not, its block index has not moved since the last fetch), for any proof data over the entry contents
    whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether it was fetched there or not
    (when it was not, its block index has not moved since the last fetch), for any proof data over the entry contents
    whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether it was fetched there or not
    (when it was not, its block index has not moved since the last fetch), for any proof data over the entry contents
    whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether it was fetched there or not
    (when it was not, its block index has not moved since the last fetch), for any proof data over the entry contents
    whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether it was fetched there or not
    (when it was not, its block index has not moved since the last fetch), for any proof data over the entry contents
    whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether it was fetched there or not
    (when it was not, its block index has not moved since the last fetch), for any proof data over the entry contents
    whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, for any proof data whose arrays are the entry contents, every argument array
    ends as launched: an input window's array is never written back and was not written before the region; an array no
    window stages bypasses the region and is written neither before nor after it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).1 1).trans (((dats 0 c).arrAt_in 1 rfl _).trans ((hA c 1).trans (V_main_arg1 m c))),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).1 6).trans (((dats 0 c).arrAt_in 6 rfl _).trans ((hA c 6).trans (V_main_arg8 m c)))⟩) h

/-! ## The body's accesses -/

/-- The whole of window 0's staging buffer, as a rectangle. -/
abbrev r0_0 : Rect S4000x16 := Rect.unit (s := S4000x16) ![0, 0] S4000x16.size inb_S4000x16_S4000x16_0_0
/-- The whole of window 1's staging buffer, as a rectangle. -/
abbrev r0_1 : Rect S4000x3 := Rect.unit (s := S4000x3) ![0, 0] S4000x3.size inb_S4000x3_S4000x3_0_0
/-- The whole of window 2's staging buffer, as a rectangle. -/
abbrev r0_2 : Rect S16x64 := Rect.unit (s := S16x64) ![0, 0] S16x64.size inb_S16x64_S16x64_0_0
/-- The whole of window 3's staging buffer, as a rectangle. -/
abbrev r0_3 : Rect S64x16 := Rect.unit (s := S64x16) ![0, 0] S64x16.size inb_S64x16_S64x16_0_0
/-- The whole of window 4's staging buffer, as a rectangle. -/
abbrev r0_4 : Rect S31x64 := Rect.unit (s := S31x64) ![0, 0] S31x64.size inb_S31x64_S31x64_0_0
/-- The whole of window 5's staging buffer, as a rectangle. -/
abbrev r0_5 : Rect S64x64 := Rect.unit (s := S64x64) ![0, 0] S64x64.size inb_S64x64_S64x64_0_0
/-- The whole of window 6's staging buffer, as a rectangle. -/
abbrev r0_6 : Rect S64x3 := Rect.unit (s := S64x3) ![0, 0] S64x3.size inb_S64x3_S64x3_0_0
/-- The whole of window 7's staging buffer, as a rectangle. -/
abbrev r0_7 : Rect S4000x4 := Rect.unit (s := S4000x4) ![0, 0] S4000x4.size inb_S4000x4_S4000x4_0_0

/-! ## What the body leaves in the output window's buffer -/

/-- Window 7's staging buffer after the body, from the seven input blocks: the body's one store, which covers the
    whole buffer, written over the values the body reads (each input block whole) and the pure values it
    computes from them. -/
def out0_7 (x0 : Vec F S4000x16 .bf16) (x1 : Vec F S4000x3 .f32) (x2 : Vec F S16x64 .f32) (x3 : Vec F S64x16 .f32) (x4 : Vec F S31x64 .f32) (x5 : Vec F S64x64 .f32) (x6 : Vec F S64x3 .f32) : Vec F S4000x4 .f32 :=
  View.canon [⟨r0_7, k0_pay3 (k0_pay4 (View.ld x0 r0_0) (View.ld x2 r0_2) (View.ld x3 r0_3)) (k0_pay5 (View.ld x0 r0_0) (View.ld x2 r0_2) (View.ld x3 r0_3))
      (k0_pay2 (k0_pay14 (F := F)) (k0_pay15 (View.ld x1 r0_1)) (k0_pay16 (View.ld x1 r0_1)) (k0_pay17 (View.ld x1 r0_1)) (k0_pay18 (View.ld x1 r0_1)) (k0_pay19 (View.ld x1 r0_1)) (k0_pay20 (View.ld x1 r0_1)) (k0_pay21 (k0_pay13 (View.ld x1 r0_1))) (k0_pay22 (k0_pay9 (View.ld x1 r0_1)) (k0_pay10 (View.ld x1 r0_1))) (k0_pay23 (k0_pay7 (View.ld x1 r0_1)) (k0_pay9 (View.ld x1 r0_1)) (k0_pay10 (View.ld x1 r0_1))) (k0_pay24 (k0_pay8 (View.ld x1 r0_1)) (k0_pay12 (View.ld x1 r0_1))) (k0_pay25 (k0_pay7 (View.ld x1 r0_1)) (k0_pay11 (View.ld x1 r0_1))) (k0_pay26 (k0_pay8 (View.ld x1 r0_1)) (k0_pay11 (View.ld x1 r0_1))) (k0_pay27 (k0_pay6 (View.ld x1 r0_1)) (k0_pay11 (View.ld x1 r0_1))) (k0_pay28 (k0_pay8 (View.ld x1 r0_1)) (k0_pay9 (View.ld x1 r0_1)) (k0_pay10 (View.ld x1 r0_1))) (k0_pay1 (k0_pay10 (View.ld x1 r0_1)) (k0_pay29 (k0_pay6 (View.ld x1 r0_1))) (k0_pay30 (k0_pay9 (View.ld x1 r0_1)))))
      (View.ld x4 r0_4) (View.ld x5 r0_5) (View.ld x6 r0_6)⟩]

/-- The one store's rectangle is the whole buffer, so it covers it. -/
theorem cover0_7 (p0 : Vec F S4000x4 .f32) (y : S4000x4.Idx) :
    ∃ pc ∈ ([⟨r0_7, p0⟩] : List (View.Piece (Elt F) S4000x4 .f32)), y ∈ pc.1.set :=
  View.cover_of_tiled [⟨r0_7, p0⟩] S4000x4.size (by rfl) y

/-! ## The body's triple -/

set_option maxHeartbeats 4000000 in
/-- The kernel body on whole staging memrefs — each input's at contents `xW`, the output's at anything — runs to the
    continuation with each input's buffer as it was and the output's at `out0_7` of the inputs: the body is seven whole-buffer
    loads, a load of the output buffer whose value is not used, pure computation, and one whole-buffer store. -/
theorem sound_kernel (c : Dev nD) (E : Set ℕ) (i : grid0.Coords) (arg1 : Memref sig .tc .vmem S4000x16 .bf16) (harg1 : arg1.IsWhole) (arg2 : Memref sig .tc .vmem S4000x3 .f32) (harg2 : arg2.IsWhole) (arg3 : Memref sig .tc .vmem S16x64 .f32) (harg3 : arg3.IsWhole) (arg4 : Memref sig .tc .vmem S64x16 .f32) (harg4 : arg4.IsWhole) (arg5 : Memref sig .tc .vmem S31x64 .f32) (harg5 : arg5.IsWhole) (arg6 : Memref sig .tc .vmem S64x64 .f32) (harg6 : arg6.IsWhole) (arg7 : Memref sig .tc .vmem S64x3 .f32) (harg7 : arg7.IsWhole) (arg8 : Memref sig .tc .vmem S4000x4 .f32) (harg8 : arg8.IsWhole)
    (x0 : Vec F S4000x16 .bf16) (x1 : Vec F S4000x3 .f32) (x2 : Vec F S16x64 .f32) (x3 : Vec F S64x16 .f32) (x4 : Vec F S31x64 .f32) (x5 : Vec F S64x64 .f32) (x6 : Vec F S64x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-! ## The pipeline's proof data -/

/-- The proof data of the pipeline on core `c`: the arrays as the region finds them; after the body at point `t` each
    input's buffer at its block and the output's at `out0_7` of the input blocks; the invariant the plain one (the
    scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the entry contents (the definition projected, the entry contents never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 2000000 in
/-- The body at any point: the inputs' memrefs hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the entry
    function on the cores terminates, and every final state has every array of the pipeline at what the write-backs
    leave and every other unscoped buffer as the closing stretch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every argument array ends as launched: the frame claim of this program, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.HFrame

end
-- ==== Proof.RowSpec.lean ====
/-
  The network that both programs apply to one sample, as plain functions on the extended reals.

  A sample is a row of sixteen blended grid features and a row of three direction coordinates.  The density head
  sends the feature row through two dense layers (16 → 64, a cut at zero, 64 → 16); entry 0 of the result is the
  density.  The colour head joins the sixteen degree-four spherical-harmonic coefficients of the direction with
  entries 1 … 15 of that result into a row of 31, and sends it through three dense layers (31 → 64, cut at zero,
  64 → 64, cut at zero, 64 → 3).  Every entry below is a finite sum of products, so nothing here depends on the
  order in which a program adds them up, nor on how many samples it handles at a time: `rowOut` reads only row `r`
  of the two sample arrays, whatever their number of rows `A`.
-/
import Idealize.ShloMosaic.PureOps.Ideal
import Idealize.ShloMosaic.Lib.ValueIdx

noncomputable section

namespace Cert.RowSpec

open Idealize.ShloMosaic Idealize.ShloMosaic.ValueIdx

/-- An array of extended reals with `a` rows and `b` columns. -/
abbrev Arr (a b : Nat) : Type := (⟨2, ![a, b]⟩ : Shape).Idx → EReal

/-- The word of a single-precision constant, read as an extended real. -/
abbrev lit (w : BitVec 32) : EReal := Ideal.ofBits .f32 w

/-- An array read as a family of rows. -/
def rows {A B : Nat} (X : Arr A B) : Fin A → Fin B → EReal := fun r q => X (ix2 r q)

/-- One dense layer at row `r`, column `q`: the sum over the `K` inputs of input times weight. -/
def dense {A K B : Nat} (X : Fin A → Fin K → EReal) (W : Arr K B) : Fin A → Fin B → EReal :=
  fun r q => ∑ k : Fin K, X r k * W (ix2 k q)

/-- The cut at zero, entry by entry. -/
def cut {A B : Nat} (X : Fin A → Fin B → EReal) : Fin A → Fin B → EReal := fun r q => max (X r q) 0

/-- The density head's sixteen outputs for every sample. -/
def feat {A : Nat} (Fv : Arr A 16) (W1 : Arr 16 64) (W2 : Arr 64 16) : Fin A → Fin 16 → EReal :=
  dense (cut (dense (rows Fv) W1)) W2

/-- The sixteen spherical-harmonic coefficients of the direction `(x, y, z)`, degree four, with the
    single-precision constants both programs carry. -/
def sh (x y z : EReal) : Fin 16 → EReal :=
  ![lit 0x3E906EBB#32,
    lit 0xBEFA2A1C#32 * y,
    lit 0x3EFA2A1C#32 * z,
    lit 0xBEFA2A1C#32 * x,
    lit 0x3F8BD8A1#32 * (x * y),
    lit 0xBF8BD8A1#32 * (y * z),
    lit 0x3F723881#32 * (z * z) - lit 0x3EA17B01#32,
    lit 0xBF8BD8A1#32 * (x * z),
    lit 0x3F0BD8A1#32 * (x * x - y * y),
    lit 0x3F170D19#32 * y * (lit 0xC0400000#32 * (x * x) + y * y),
    lit 0x4038FFC7#32 * (x * y) * z,
    lit 0x3EEA01E8#32 * y * (lit 0x3F800000#32 - lit 0x40A00000#32 * (z * z)),
    lit 0x3EBF10F8#32 * z * (lit 0x40A00000#32 * (z * z) - lit 0x40400000#32),
    lit 0x3EEA01E8#32 * x * (lit 0x3F800000#32 - lit 0x40A00000#32 * (z * z)),
    lit 0x3FB8FFC7#32 * z * (x * x - y * y),
    lit 0x3F170D19#32 * x * (-(x * x) + lit 0x40400000#32 * (y * y))]

/-- The colour head's input rows: the sixteen coefficients of the sample's direction, then entries 1 … 15 of the
    density head's output. -/
def joined {A : Nat} (Fv : Arr A 16) (D : Arr A 3) (W1 : Arr 16 64) (W2 : Arr 64 16) : Fin A → Fin 31 → EReal :=
  fun r p =>
    if h : p.val < 16 then sh (D (ix2 r 0)) (D (ix2 r 1)) (D (ix2 r 2)) ⟨p.val, h⟩
    else feat Fv W1 W2 r ⟨p.val - 15, by have := p.isLt; omega⟩

/-- The three colour outputs of every sample. -/
def colour {A : Nat} (Fv : Arr A 16) (D : Arr A 3) (W1 : Arr 16 64) (W2 : Arr 64 16) (C1 : Arr 31 64)
    (C2 : Arr 64 64) (C3 : Arr 64 3) : Fin A → Fin 3 → EReal :=
  dense (cut (dense (cut (dense (joined Fv D W1 W2) C1)) C2)) C3

/-- The four outputs of sample `r`: the density, then the three colours. -/
def rowOut {A : Nat} (Fv : Arr A 16) (D : Arr A 3) (W1 : Arr 16 64) (W2 : Arr 64 16) (C1 : Arr 31 64)
    (C2 : Arr 64 64) (C3 : Arr 64 3) (r : Fin A) (q : Fin 4) : EReal :=
  if q.val = 0 then feat Fv W1 W2 r 0
  else colour Fv D W1 W2 C1 C2 C3 r ⟨q.val - 1, by have := q.isLt; omega⟩

/-- A dense layer's row `r` depends on its input's row `r` only. -/
theorem dense_congr {A A' K B : Nat} {X : Fin A → Fin K → EReal} {X' : Fin A' → Fin K → EReal} (W : Arr K B)
    {r : Fin A} {r' : Fin A'} (h : X r = X' r') : dense X W r = dense X' W r' := by
  funext q; simp only [dense, h]

/-- So does the cut's. -/
theorem cut_congr {A A' B : Nat} {X : Fin A → Fin B → EReal} {X' : Fin A' → Fin B → EReal}
    {r : Fin A} {r' : Fin A'} (h : X r = X' r') : cut X r = cut X' r' := by
  funext q; simp only [cut, h]

/-- Row `r` of the outputs depends on row `r` of the two sample arrays only: two pairs of sample arrays, of any
    numbers of rows, that agree on one row each give that row the same four outputs. -/
theorem rowOut_congr {A A' : Nat} (Fv : Arr A 16) (D : Arr A 3) (Fv' : Arr A' 16) (D' : Arr A' 3)
    (W1 : Arr 16 64) (W2 : Arr 64 16) (C1 : Arr 31 64) (C2 : Arr 64 64) (C3 : Arr 64 3) (r : Fin A) (r' : Fin A')
    (hF : ∀ j : Fin 16, Fv (ix2 r j) = Fv' (ix2 r' j)) (hD : ∀ j : Fin 3, D (ix2 r j) = D' (ix2 r' j)) (q : Fin 4) :
    rowOut Fv D W1 W2 C1 C2 C3 r q = rowOut Fv' D' W1 W2 C1 C2 C3 r' q := by
  have hrows : rows Fv r = rows Fv' r' := funext hF
  have hfeat : feat Fv W1 W2 r = feat Fv' W1 W2 r' := dense_congr W2 (cut_congr (dense_congr W1 hrows))
  have hjoin : joined Fv D W1 W2 r = joined Fv' D' W1 W2 r' := by
    funext p
    simp only [joined, hD, hfeat]
  have hcol : colour Fv D W1 W2 C1 C2 C3 r = colour Fv' D' W1 W2 C1 C2 C3 r' :=
    dense_congr C3 (cut_congr (dense_congr C2 (cut_congr (dense_congr C1 hjoin))))
  simp only [rowOut, hfeat, hcol]

end Cert.RowSpec

end
-- ==== Proof.LibPlainProduct.lean ====
/-
  A matrix product of an m × k by a k × n array of extended reals, read at one entry, in the two spellings the
  programs use: the matrix unit's product added into a zero accumulator, and the host's general dot product with
  the plain dimension numbers (rows × contraction times contraction × columns).  Both are the sum over the
  contracted coordinate of the products of the entries; on the extended reals that sum has no rounding and no order.
-/
import Idealize.ShloMosaic.PureOps.Ideal.Laws
import Idealize.ShloMosaic.Lib.ValueIdx
import Idealize.ShloMosaic.Lib.StackMember

noncomputable section

namespace Cert.LibPlainProduct

open Idealize.ShloMosaic Idealize.ShloMosaic.ValueIdx

/-- The host's plain product at entry (a, b): the sum over the contracted coordinate. -/
theorem dotGeneral_plain_entry {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

/-- The matrix unit's plain product into the zero accumulator at entry (a, b): the same sum.  Both products are
    the sum over the contraction index of the operands' products, so the matrix unit's is the host's. -/
theorem matmul_plain_entry {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [← dotGeneral_plain_entry prec A B a b]
  show FloatOps.matmul (DotDims.plain m k n) prec A B (constant ⟨2, ![m, n]⟩ .f32 0x00000000#32) (ix2 a b)
    = FloatOps.dotGeneral (DotDims.plain m k n) prec _ A B (ix2 a b)
  rw [Ideal.matmul_constant_zero_apply, Ideal.dotGeneral_apply]

end Cert.LibPlainProduct

end
-- ==== Proof.KernelRow.lean ====
/-
  What the kernel's body stores for one block of 4000 samples, read at one entry.

  The body's one store writes a 4000 × 4 block: column 0 is column 0 of the density head's output, columns 1 … 3 the
  colour head's output.  Every operation of the body acts on the block row by row — the matrix products contract over
  the feature axis, the spherical-harmonic terms are pointwise in the three direction coordinates of the row, the
  joins place columns side by side — so entry (r, q) of the stored block is output q of the network applied to row r
  of the feature block and row r of the direction block (`Cert.RowSpec.rowOut`).  The changes of number format
  around the matrix unit are the identity on the extended reals.
-/
import proofs.«133790_j23845658428386_2_alg».proof.Proof.Gen.KernelIdeal.Skeleton
import proofs.«133790_j23845658428386_2_alg».proof.Proof.RowSpec
import proofs.«133790_j23845658428386_2_alg».proof.Proof.LibPlainProduct
import Idealize.ShloMosaic.Lib.Pipeline.Value
import Idealize.ShloMosaic.Lib.ValueLayout
import Idealize.ShloMosaic.Lib.ValueIdx

noncomputable section

namespace Cert.KernelIdeal.Row

open Idealize.ShloMosaic Idealize.ShloMosaic.ValueIdx Cert.KernelIdeal Cert.KernelIdeal.Gen Cert.RowSpec Cert.LibPlainProduct

variable [Facts]

/-- A product into the zero accumulator whose dimension numbers are the plain ones, at entry (a, b). -/
theorem mm_entry {m k n : Nat} {φ₁ φ₂ : FTy} (d : DotDims ⟨2, ![m, k]⟩ ⟨2, ![k, n]⟩ ⟨2, ![m, n]⟩) (hd : d = DotDims.plain m k n)
    (A : FVec Ideal ⟨2, ![m, k]⟩ φ₁) (B : FVec Ideal ⟨2, ![k, n]⟩ φ₂) (a : Fin m) (b : Fin n) :
    matmul d none A B (constant ⟨2, ![m, n]⟩ .f32 0x00000000#32) (ix2 a b) = ∑ c : Fin k, A (ix2 a c) * B (ix2 c b) := by
  subst hd; exact matmul_plain_entry none A B a b

/-- A length-n vector stood up as an n × 1 column reads, in row r, the vector's entry r. -/
theorem column_entry {α : Type} {n : Nat} (v : (⟨1, ![n]⟩ : Shape).Idx → α) (h : (⟨1, ![n]⟩ : Shape).ShapeCasts ⟨2, ![n, 1]⟩)
    (r : Fin n) : shapeCast ⟨2, ![n, 1]⟩ v h (ix2 r (0 : Fin 1)) = v (ix1 r) :=
  shapeCast_apply v h _ _ (by
    rw [Shape.rowMajor_val_two, Shape.rowMajor_val_one]
    show r.val = r.val * 1 + 0
    omega)

/-- Column c of an n × 3 array, cut out and flattened, reads at r the array's entry (r, c). -/
theorem coord_entry {α : Type} {n : Nat} (o : Nat) (X : (⟨2, ![n, 3]⟩ : Shape).Idx → α)
    (h : (⟨2, ![n, 3]⟩ : Shape).Slices ![0, o] ⟨2, ![n, 1]⟩) (h' : (⟨2, ![n, 1]⟩ : Shape).ShapeCasts ⟨1, ![n]⟩)
    (r : Fin n) (c : Fin 3) (hc : c.val = o) :
    shapeCast ⟨1, ![n]⟩ (extractStridedSlice ⟨2, ![n, 1]⟩ ![0, o] X h) h' (ix1 r) = X (ix2 r c) :=
  (shapeCast_apply _ h' (ix1 r) (ix2 r (0 : Fin 1)) (by
    rw [Shape.rowMajor_val_two, Shape.rowMajor_val_one]
    show r.val * 1 + 0 = r.val
    omega)).trans (slice2_axis1_apply o X h r (0 : Fin 1) c (by rw [hc]; rfl))

variable (x0 : Vec Ideal S4000x16 .bf16) (x1 : Vec Ideal S4000x3 .f32) (x2 : Vec Ideal S16x64 .f32) (x3 : Vec Ideal S64x16 .f32)
  (x4 : Vec Ideal S31x64 .f32) (x5 : Vec Ideal S64x64 .f32) (x6 : Vec Ideal S64x3 .f32)

/-- The density head on the block: entry (r, q) of its output. -/
theorem pay4_entry (r : Fin 4000) (q : Fin 16) : k0_pay4 (F := Ideal) x0 x2 x3 (ix2 r q) = feat x0 x2 x3 r q := by
  unfold k0_pay4
  refine (mm_entry dot_S4000x64_S64x16_S4000x16_1_0_0_1_n_n rfl _ _ r q).trans ?_
  show _ = ∑ k : Fin 64, cut (dense (rows x0) x2) r k * x3 (ix2 k q)
  refine Finset.sum_congr rfl fun c _ => ?_
  show max (matmul dot_S4000x16_S16x64_S4000x64_1_0_0_1_n_n none (shapeCast S4000x16 x0 shapeCasts_S4000x16_S4000x16)
      (truncf FTy.bf16 x2 bitsLt_bf16_f32) (constant S4000x64 FTy.f32 0#32) (ix2 r c)) (Ideal.ofBits .f32 0#32) * x3 (ix2 c q)
    = max (∑ j : Fin 16, x0 (ix2 r j) * x2 (ix2 j c)) 0 * x3 (ix2 c q)
  rw [mm_entry dot_S4000x16_S16x64_S4000x64_1_0_0_1_n_n rfl, shapeCast_self, Ideal.ofBits_zero_f32]
  rfl

/-- The three direction coordinates of row r. -/
theorem pay6_entry (r : Fin 4000) : k0_pay6 (F := Ideal) x1 (ix1 r) = x1 (ix2 r 0) := by
  unfold k0_pay6; exact coord_entry 0 x1 _ _ r 0 rfl
theorem pay7_entry (r : Fin 4000) : k0_pay7 (F := Ideal) x1 (ix1 r) = x1 (ix2 r 1) := by
  unfold k0_pay7; exact coord_entry 1 x1 _ _ r 1 rfl
theorem pay8_entry (r : Fin 4000) : k0_pay8 (F := Ideal) x1 (ix1 r) = x1 (ix2 r 2) := by
  unfold k0_pay8; exact coord_entry 2 x1 _ _ r 2 rfl

/-- The sixteen coefficient vectors the body joins, in order. -/
def cols : Fin 16 → FVec Ideal S4000 .f32 :=
  ![k0_pay14 (F := Ideal), k0_pay15 x1, k0_pay16 x1, k0_pay17 x1, k0_pay18 x1, k0_pay19 x1, k0_pay20 x1,
    k0_pay21 (k0_pay13 x1), k0_pay22 (k0_pay9 x1) (k0_pay10 x1), k0_pay23 (k0_pay7 x1) (k0_pay9 x1) (k0_pay10 x1),
    k0_pay24 (k0_pay8 x1) (k0_pay12 x1), k0_pay25 (k0_pay7 x1) (k0_pay11 x1), k0_pay26 (k0_pay8 x1) (k0_pay11 x1),
    k0_pay27 (k0_pay6 x1) (k0_pay11 x1), k0_pay28 (k0_pay8 x1) (k0_pay9 x1) (k0_pay10 x1),
    k0_pay1 (k0_pay10 x1) (k0_pay29 (k0_pay6 x1)) (k0_pay30 (k0_pay9 x1))]

/-- Each coefficient vector at row r, in the row's three direction coordinates; in the last one the body's
    `0 - x²` is `-(x²)`. -/
theorem col0_entry (r : Fin 4000) : (k0_pay14 (F := Ideal)) (ix1 r) = lit 0x3E906EBB#32 := by
  simp only [k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay1, k0_pay9, k0_pay10, k0_pay11, k0_pay12,
    k0_pay13, mulf_apply, addf_apply, subf_apply, broadcast_apply, pay6_entry, pay7_entry, pay8_entry, lit, Scalar.ofBits,
    Ideal.ofBits_def, Ideal.ofBits_zero_f32, zero_sub]
theorem col1_entry (r : Fin 4000) : (k0_pay15 x1) (ix1 r) = lit 0xBEFA2A1C#32 * x1 (ix2 r 1) := by
  simp only [k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay1, k0_pay9, k0_pay10, k0_pay11, k0_pay12,
    k0_pay13, mulf_apply, addf_apply, subf_apply, broadcast_apply, pay6_entry, pay7_entry, pay8_entry, lit, Scalar.ofBits,
    Ideal.ofBits_def, Ideal.ofBits_zero_f32, zero_sub]
theorem col2_entry (r : Fin 4000) : (k0_pay16 x1) (ix1 r) = lit 0x3EFA2A1C#32 * x1 (ix2 r 2) := by
  simp only [k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay1, k0_pay9, k0_pay10, k0_pay11, k0_pay12,
    k0_pay13, mulf_apply, addf_apply, subf_apply, broadcast_apply, pay6_entry, pay7_entry, pay8_entry, lit, Scalar.ofBits,
    Ideal.ofBits_def, Ideal.ofBits_zero_f32, zero_sub]
theorem col3_entry (r : Fin 4000) : (k0_pay17 x1) (ix1 r) = lit 0xBEFA2A1C#32 * x1 (ix2 r 0) := by
  simp only [k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay1, k0_pay9, k0_pay10, k0_pay11, k0_pay12,
    k0_pay13, mulf_apply, addf_apply, subf_apply, broadcast_apply, pay6_entry, pay7_entry, pay8_entry, lit, Scalar.ofBits,
    Ideal.ofBits_def, Ideal.ofBits_zero_f32, zero_sub]
theorem col4_entry (r : Fin 4000) : (k0_pay18 x1) (ix1 r) = lit 0x3F8BD8A1#32 * (x1 (ix2 r 0) * x1 (ix2 r 1)) := by
  simp only [k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay1, k0_pay9, k0_pay10, k0_pay11, k0_pay12,
    k0_pay13, mulf_apply, addf_apply, subf_apply, broadcast_apply, pay6_entry, pay7_entry, pay8_entry, lit, Scalar.ofBits,
    Ideal.ofBits_def, Ideal.ofBits_zero_f32, zero_sub]
theorem col5_entry (r : Fin 4000) : (k0_pay19 x1) (ix1 r) = lit 0xBF8BD8A1#32 * (x1 (ix2 r 1) * x1 (ix2 r 2)) := by
  simp only [k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay1, k0_pay9, k0_pay10, k0_pay11, k0_pay12,
    k0_pay13, mulf_apply, addf_apply, subf_apply, broadcast_apply, pay6_entry, pay7_entry, pay8_entry, lit, Scalar.ofBits,
    Ideal.ofBits_def, Ideal.ofBits_zero_f32, zero_sub]
theorem col6_entry (r : Fin 4000) : (k0_pay20 x1) (ix1 r) = lit 0x3F723881#32 * (x1 (ix2 r 2) * x1 (ix2 r 2)) - lit 0x3EA17B01#32 := by
  simp only [k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay1, k0_pay9, k0_pay10, k0_pay11, k0_pay12,
    k0_pay13, mulf_apply, addf_apply, subf_apply, broadcast_apply, pay6_entry, pay7_entry, pay8_entry, lit, Scalar.ofBits,
    Ideal.ofBits_def, Ideal.ofBits_zero_f32, zero_sub]
theorem col7_entry (r : Fin 4000) : (k0_pay21 (k0_pay13 x1)) (ix1 r) = lit 0xBF8BD8A1#32 * (x1 (ix2 r 0) * x1 (ix2 r 2)) := by
  simp only [k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay1, k0_pay9, k0_pay10, k0_pay11, k0_pay12,
    k0_pay13, mulf_apply, addf_apply, subf_apply, broadcast_apply, pay6_entry, pay7_entry, pay8_entry, lit, Scalar.ofBits,
    Ideal.ofBits_def, Ideal.ofBits_zero_f32, zero_sub]
theorem col8_entry (r : Fin 4000) : (k0_pay22 (k0_pay9 x1) (k0_pay10 x1)) (ix1 r) = lit 0x3F0BD8A1#32 * (x1 (ix2 r 0) * x1 (ix2 r 0) - x1 (ix2 r 1) * x1 (ix2 r 1)) := by
  simp only [k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay1, k0_pay9, k0_pay10, k0_pay11, k0_pay12,
    k0_pay13, mulf_apply, addf_apply, subf_apply, broadcast_apply, pay6_entry, pay7_entry, pay8_entry, lit, Scalar.ofBits,
    Ideal.ofBits_def, Ideal.ofBits_zero_f32, zero_sub]
theorem col9_entry (r : Fin 4000) : (k0_pay23 (k0_pay7 x1) (k0_pay9 x1) (k0_pay10 x1)) (ix1 r) = lit 0x3F170D19#32 * x1 (ix2 r 1) * (lit 0xC0400000#32 * (x1 (ix2 r 0) * x1 (ix2 r 0)) + x1 (ix2 r 1) * x1 (ix2 r 1)) := by
  simp only [k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay1, k0_pay9, k0_pay10, k0_pay11, k0_pay12,
    k0_pay13, mulf_apply, addf_apply, subf_apply, broadcast_apply, pay6_entry, pay7_entry, pay8_entry, lit, Scalar.ofBits,
    Ideal.ofBits_def, Ideal.ofBits_zero_f32, zero_sub]
theorem col10_entry (r : Fin 4000) : (k0_pay24 (k0_pay8 x1) (k0_pay12 x1)) (ix1 r) = lit 0x4038FFC7#32 * (x1 (ix2 r 0) * x1 (ix2 r 1)) * x1 (ix2 r 2) := by
  simp only [k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay1, k0_pay9, k0_pay10, k0_pay11, k0_pay12,
    k0_pay13, mulf_apply, addf_apply, subf_apply, broadcast_apply, pay6_entry, pay7_entry, pay8_entry, lit, Scalar.ofBits,
    Ideal.ofBits_def, Ideal.ofBits_zero_f32, zero_sub]
theorem col11_entry (r : Fin 4000) : (k0_pay25 (k0_pay7 x1) (k0_pay11 x1)) (ix1 r) = lit 0x3EEA01E8#32 * x1 (ix2 r 1) * (lit 0x3F800000#32 - lit 0x40A00000#32 * (x1 (ix2 r 2) * x1 (ix2 r 2))) := by
  simp only [k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay1, k0_pay9, k0_pay10, k0_pay11, k0_pay12,
    k0_pay13, mulf_apply, addf_apply, subf_apply, broadcast_apply, pay6_entry, pay7_entry, pay8_entry, lit, Scalar.ofBits,
    Ideal.ofBits_def, Ideal.ofBits_zero_f32, zero_sub]
theorem col12_entry (r : Fin 4000) : (k0_pay26 (k0_pay8 x1) (k0_pay11 x1)) (ix1 r) = lit 0x3EBF10F8#32 * x1 (ix2 r 2) * (lit 0x40A00000#32 * (x1 (ix2 r 2) * x1 (ix2 r 2)) - lit 0x40400000#32) := by
  simp only [k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay1, k0_pay9, k0_pay10, k0_pay11, k0_pay12,
    k0_pay13, mulf_apply, addf_apply, subf_apply, broadcast_apply, pay6_entry, pay7_entry, pay8_entry, lit, Scalar.ofBits,
    Ideal.ofBits_def, Ideal.ofBits_zero_f32, zero_sub]
theorem col13_entry (r : Fin 4000) : (k0_pay27 (k0_pay6 x1) (k0_pay11 x1)) (ix1 r) = lit 0x3EEA01E8#32 * x1 (ix2 r 0) * (lit 0x3F800000#32 - lit 0x40A00000#32 * (x1 (ix2 r 2) * x1 (ix2 r 2))) := by
  simp only [k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay1, k0_pay9, k0_pay10, k0_pay11, k0_pay12,
    k0_pay13, mulf_apply, addf_apply, subf_apply, broadcast_apply, pay6_entry, pay7_entry, pay8_entry, lit, Scalar.ofBits,
    Ideal.ofBits_def, Ideal.ofBits_zero_f32, zero_sub]
theorem col14_entry (r : Fin 4000) : (k0_pay28 (k0_pay8 x1) (k0_pay9 x1) (k0_pay10 x1)) (ix1 r) = lit 0x3FB8FFC7#32 * x1 (ix2 r 2) * (x1 (ix2 r 0) * x1 (ix2 r 0) - x1 (ix2 r 1) * x1 (ix2 r 1)) := by
  simp only [k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay1, k0_pay9, k0_pay10, k0_pay11, k0_pay12,
    k0_pay13, mulf_apply, addf_apply, subf_apply, broadcast_apply, pay6_entry, pay7_entry, pay8_entry, lit, Scalar.ofBits,
    Ideal.ofBits_def, Ideal.ofBits_zero_f32, zero_sub]
theorem col15_entry (r : Fin 4000) : (k0_pay1 (k0_pay10 x1) (k0_pay29 (k0_pay6 x1)) (k0_pay30 (k0_pay9 x1))) (ix1 r) = lit 0x3F170D19#32 * x1 (ix2 r 0) * (-(x1 (ix2 r 0) * x1 (ix2 r 0)) + lit 0x40400000#32 * (x1 (ix2 r 1) * x1 (ix2 r 1))) := by
  simp only [k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay1, k0_pay9, k0_pay10, k0_pay11, k0_pay12,
    k0_pay13, mulf_apply, addf_apply, subf_apply, broadcast_apply, pay6_entry, pay7_entry, pay8_entry, lit, Scalar.ofBits,
    Ideal.ofBits_def, Ideal.ofBits_zero_f32, zero_sub]

/-- Together: coefficient vector n at row r is coefficient n of the row's direction. -/
theorem cols_entry (r : Fin 4000) (n : Fin 16) :
    cols x1 n (ix1 r) = sh (x1 (ix2 r 0)) (x1 (ix2 r 1)) (x1 (ix2 r 2)) n := by
  fin_cases n
  · exact col0_entry r
  · exact col1_entry x1 r
  · exact col2_entry x1 r
  · exact col3_entry x1 r
  · exact col4_entry x1 r
  · exact col5_entry x1 r
  · exact col6_entry x1 r
  · exact col7_entry x1 r
  · exact col8_entry x1 r
  · exact col9_entry x1 r
  · exact col10_entry x1 r
  · exact col11_entry x1 r
  · exact col12_entry x1 r
  · exact col13_entry x1 r
  · exact col14_entry x1 r
  · exact col15_entry x1 r

/-- The body's join of the sixteen coefficient vectors, stood up as columns: a 4000 × 16 block. -/
def encBlock : FVec Ideal S4000x16 .f32 :=
  k0_pay2 (F := Ideal) (k0_pay14 (F := Ideal)) (k0_pay15 x1) (k0_pay16 x1) (k0_pay17 x1) (k0_pay18 x1) (k0_pay19 x1) (k0_pay20 x1)
    (k0_pay21 (k0_pay13 x1)) (k0_pay22 (k0_pay9 x1) (k0_pay10 x1)) (k0_pay23 (k0_pay7 x1) (k0_pay9 x1) (k0_pay10 x1))
    (k0_pay24 (k0_pay8 x1) (k0_pay12 x1)) (k0_pay25 (k0_pay7 x1) (k0_pay11 x1)) (k0_pay26 (k0_pay8 x1) (k0_pay11 x1))
    (k0_pay27 (k0_pay6 x1) (k0_pay11 x1)) (k0_pay28 (k0_pay8 x1) (k0_pay9 x1) (k0_pay10 x1))
    (k0_pay1 (k0_pay10 x1) (k0_pay29 (k0_pay6 x1)) (k0_pay30 (k0_pay9 x1)))

/-- Entry (r, q) of the joined block is coefficient q of row r's direction: column q of the join is the q-th vector
    stood up as a column. -/
theorem encBlock_entry (r : Fin 4000) (q : Fin 16) :
    encBlock x1 (ix2 r q) = sh (x1 (ix2 r 0)) (x1 (ix2 r 1)) (x1 (ix2 r 2)) q := by
  unfold encBlock k0_pay2
  show concatenate S4000x16 1 (List.ofFn fun n : Fin 16 =>
      (⟨S4000x1, shapeCast S4000x1 (cols x1 n) shapeCasts_S4000_S4000x1⟩ : (s : Shape) × (s.Idx → EReal))) _ (ix2 r q) = _
  refine (concatenate_ofFn_unit_apply (t := S4000x16) (s₁ := S4000x1) 1
    (fun n : Fin 16 => shapeCast S4000x1 (cols x1 n) shapeCasts_S4000_S4000x1) _ rfl rfl (ix2 r q) q rfl
    (ix2 r (0 : Fin 1)) (fun b hb => ?_)).trans ?_
  · match b with
    | ⟨0, _⟩ => rfl
    | ⟨1, _⟩ => exact absurd rfl hb
  · exact (column_entry _ _ r).trans (cols_entry x1 r q)

/-- One layer of the colour head on a block: product into the zero accumulator, then the cut at zero, at entry
    (a, b) — the operands' changes of number format being the identity. -/
theorem cutLayer_entry {m k n : Nat} (d : DotDims ⟨2, ![m, k]⟩ ⟨2, ![k, n]⟩ ⟨2, ![m, n]⟩) (hd : d = DotDims.plain m k n)
    (X : FVec Ideal ⟨2, ![m, k]⟩ .f32) (W : FVec Ideal ⟨2, ![k, n]⟩ .f32) (hX hW : FTy.bf16.bits < FTy.f32.bits)
    (a : Fin m) (b : Fin n) :
    maximumf (matmul d none (truncf .bf16 X hX) (truncf .bf16 W hW) (constant ⟨2, ![m, n]⟩ .f32 0x00000000#32))
        (broadcast ⟨2, ![m, n]⟩ (FloatOps.ofBits .f32 0x00000000#32)) (ix2 a b)
      = max (∑ c : Fin k, X (ix2 a c) * W (ix2 c b)) 0 := by
  show max (matmul d none (truncf .bf16 X hX) (truncf .bf16 W hW) (constant ⟨2, ![m, n]⟩ .f32 0x00000000#32) (ix2 a b))
    (Ideal.ofBits .f32 0x00000000#32) = _
  rw [mm_entry d hd, Ideal.ofBits_zero_f32]
  rfl

/-- The colour head's input block: the coefficient block, then columns 1 … 15 of the density head's output.
    Entry (r, p) is entry p of row r's joined input. -/
theorem joinBlock_entry (r : Fin 4000) (p : Fin 31) :
    concatenate S4000x31 1 [⟨S4000x16, encBlock x1⟩,
        ⟨S4000x15, extractStridedSlice S4000x15 ![0, 1] (k0_pay4 (F := Ideal) x0 x2 x3) slices_S4000x16_o0_1_S4000x15⟩]
      concatenates_S4000x16_S4000x15_S4000x31_d1 (ix2 r p) = joined x0 x1 x2 x3 r p := by
  unfold joined
  by_cases hp : p.val < 16
  · rw [dif_pos hp]
    refine (concatenate_pair_apply_left (t := S4000x31) (s₁ := S4000x16) (s₂ := S4000x15) 1 _ _ _ (ix2 r p) rfl (ix2 r (⟨p.val, hp⟩ : Fin 16)) (fun b => ?_)).trans ?_
    · match b with
      | ⟨0, _⟩ => rfl
      | ⟨1, _⟩ => rfl
    · exact encBlock_entry x1 r ⟨p.val, hp⟩
  · rw [dif_neg hp]
    have hp31 := p.isLt
    refine (concatenate_pair_apply_right (t := S4000x31) (s₁ := S4000x16) (s₂ := S4000x15) 1 _ _ _ (ix2 r p) rfl rfl (ix2 r (⟨p.val - 16, by omega⟩ : Fin 15))
      (fun b hb => ?_) ?_).trans ?_
    · match b with
      | ⟨0, _⟩ => rfl
      | ⟨1, _⟩ => exact absurd rfl hb
    · show p.val - 16 + 16 = p.val
      omega
    · refine (slice2_axis1_apply 1 _ _ r (⟨p.val - 16, by omega⟩ : Fin 15) (⟨p.val - 15, by omega⟩ : Fin 16)
        (by show p.val - 15 = 1 + (p.val - 16); omega)).trans ?_
      exact pay4_entry x0 x2 x3 r _

/-- The block the body stores. -/
def blockOut : FVec Ideal S4000x4 .f32 :=
  k0_pay3 (F := Ideal) (k0_pay4 x0 x2 x3) (k0_pay5 x0 x2 x3) (encBlock x1) x4 x5 x6

/-- Entry (r, q) of the stored block is output q of the network on row r of the two sample blocks. -/
theorem blockOut_entry (r : Fin 4000) (q : Fin 4) :
    blockOut x0 x1 x2 x3 x4 x5 x6 (ix2 r q) = rowOut x0 x1 x2 x3 x4 x5 x6 r q := by
  unfold blockOut k0_pay3 rowOut
  by_cases hq : q.val = 0
  · rw [if_pos hq]
    refine (concatenate_pair_apply_left (t := S4000x4) (s₁ := S4000x1) (s₂ := S4000x3) 1 _ _ _ (ix2 r q) rfl (ix2 r (0 : Fin 1)) (fun b => ?_)).trans ?_
    · match b with
      | ⟨0, _⟩ => rfl
      | ⟨1, _⟩ => exact hq.symm
    · unfold k0_pay5
      exact (slice2_axis1_apply 0 _ _ r (0 : Fin 1) (0 : Fin 16) rfl).trans (pay4_entry x0 x2 x3 r 0)
  · rw [if_neg hq]
    have hq4 := q.isLt
    refine (concatenate_pair_apply_right (t := S4000x4) (s₁ := S4000x1) (s₂ := S4000x3) 1 _ _ _ (ix2 r q) rfl rfl (ix2 r (⟨q.val - 1, by omega⟩ : Fin 3))
      (fun b hb => ?_) ?_).trans ?_
    · match b with
      | ⟨0, _⟩ => rfl
      | ⟨1, _⟩ => exact absurd rfl hb
    · show q.val - 1 + 1 = q.val
      omega
    · refine (mm_entry dot_S4000x64_S64x3_S4000x3_1_0_0_1_n_n rfl _ _ r _).trans ?_
      show _ = ∑ k : Fin 64, cut (dense (cut (dense (joined x0 x1 x2 x3) x4)) x5) r k * x6 (ix2 k _)
      refine Finset.sum_congr rfl fun c _ => congrArg (· * x6 (ix2 c _)) ?_
      refine (cutLayer_entry dot_S4000x64_S64x64_S4000x64_1_0_0_1_n_n rfl _ x5 _ _ r c).trans ?_
      show _ = max (∑ k : Fin 64, cut (dense (joined x0 x1 x2 x3) x4) r k * x5 (ix2 k c)) 0
      refine congrArg (max · 0) (Finset.sum_congr rfl fun c2 _ => congrArg (· * x5 (ix2 c2 c)) ?_)
      refine (cutLayer_entry dot_S4000x31_S31x64_S4000x64_1_0_0_1_n_n rfl _ x4 _ _ r c2).trans ?_
      show _ = max (∑ k : Fin 31, joined x0 x1 x2 x3 r k * x4 (ix2 k c2)) 0
      refine congrArg (max · 0) (Finset.sum_congr rfl fun p _ => congrArg (· * x4 (ix2 p c2)) ?_)
      exact joinBlock_entry x0 x1 x2 x3 r p

end Cert.KernelIdeal.Row

end
-- ==== Proof.ValueK.lean ====
/-
  What the kernel program returns, as functions of its argument arrays.

  The region's output array has one row of four numbers per sample.  Grid point t handles samples 4000 t … 4000 t + 3999:
  it is handed rows 4000 t … of the blended feature array and of the directions, and the five weight matrices whole,
  and writes back the 4000 × 4 block whose row r is the network's four outputs on sample 4000 t + r
  (`Cert.KernelIdeal.Row.blockOut_entry`).  The 250 blocks tile the array, so after the run row n of the array
  holds the network's outputs on sample n.  The two lines after the region cut column 0 out as the density vector and
  columns 1 … 3 as the colour array.
-/
import proofs.«133790_j23845658428386_2_alg».proof.Proof.KIFrame
import proofs.«133790_j23845658428386_2_alg».proof.Proof.KernelRow
import Idealize.ShloMosaic.Lib.Pipeline.Value
import Idealize.ShloMosaic.Lib.ValueLayout
import Idealize.ShloMosaic.Lib.StableHlo.Run

set_option maxRecDepth 16384

noncomputable section

namespace Cert.KernelIdeal.HValue

open Cert.KernelIdeal Cert.KernelIdeal.Gen Cert.KernelIdeal.HFrame Cert.KernelIdeal.Row Cert.RowSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block the body's one store leaves, a whole-buffer store of a function of whole-buffer loads, is that
    function of the buffers' contents. -/
theorem out0_7_eq (x0 : Vec Ideal S4000x16 .bf16) (x1 : Vec Ideal S4000x3 .f32) (x2 : Vec Ideal S16x64 .f32)
    (x3 : Vec Ideal S64x16 .f32) (x4 : Vec Ideal S31x64 .f32) (x5 : Vec Ideal S64x64 .f32) (x6 : Vec Ideal S64x3 .f32) :
    out0_7 (F := Ideal) x0 x1 x2 x3 x4 x5 x6 = blockOut x0 x1 x2 x3 x4 x5 x6 := by
  unfold out0_7
  rw [View.canon_unit_zero hz]
  simp only [View.ld_unit_zero (S := S4000x16) hz, View.ld_unit_zero (S := S4000x3) hz, View.ld_unit_zero (S := S16x64) hz,
    View.ld_unit_zero (S := S64x16) hz, View.ld_unit_zero (S := S31x64) hz, View.ld_unit_zero (S := S64x64) hz,
    View.ld_unit_zero (S := S64x3) hz]
  rfl

/-- The windows' block indices over the grid: the two sample windows and the output window move one block of rows
    per point; the five weight windows stay at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem N_lt (t : Fin cfg0.N) : t.val < 250 := by have := t.isLt; have hN : cfg0.N = 250 := N_0; omega

/-- The feature window's block at point t, read off any array: rows 4000 t … of it. -/
theorem blk0_read (A : S1000000x16.Idx → Elt Ideal .bf16) (t : Fin cfg0.N) (r : Fin 4000) (j : Fin 16) :
    ((cfg0.win 0).blk t).view.read (Elt Ideal) A (ix2 r j)
      = A (ix2 (⟨4000 * t.val + r.val, by have := N_lt t; omega⟩ : Fin 1000000) j) := by
  obtain ⟨e0, e1, -⟩ := idx_facts t
  rw [View.read_apply]
  refine congrArg A (funext fun a => Fin.ext ?_)
  match a with
  | ⟨0, _⟩ => show win0_0.index t (0 : Fin 2) * 4000 + 1 * r.val = 4000 * t.val + r.val; rw [e0]; omega
  | ⟨1, _⟩ => show win0_0.index t (1 : Fin 2) * 16 + 1 * j.val = j.val; rw [e1]; omega

/-- The direction window's block at point t, read off any array: rows 4000 t … of it. -/
theorem blk1_read (A : S1000000x3.Idx → Elt Ideal .f32) (t : Fin cfg0.N) (r : Fin 4000) (j : Fin 3) :
    ((cfg0.win 1).blk t).view.read (Elt Ideal) A (ix2 r j)
      = A (ix2 (⟨4000 * t.val + r.val, by have := N_lt t; omega⟩ : Fin 1000000) j) := by
  obtain ⟨-, -, e0, e1, -⟩ := idx_facts t
  rw [View.read_apply]
  refine congrArg A (funext fun a => Fin.ext ?_)
  match a with
  | ⟨0, _⟩ => show win0_1.index t (0 : Fin 2) * 4000 + 1 * r.val = 4000 * t.val + r.val; rw [e0]; omega
  | ⟨1, _⟩ => show win0_1.index t (1 : Fin 2) * 3 + 1 * j.val = j.val; rw [e1]; omega

/-- A weight window's one block, read off any array, is the whole array. -/
theorem blk2_read (A : S16x64.Idx → Elt Ideal .f32) (t : Fin cfg0.N) : ((cfg0.win 2).blk t).view.read (Elt Ideal) A = A := by
  obtain ⟨-, -, -, -, -, -, e0, e1, -⟩ := idx_facts t
  funext y
  rw [View.read_apply]
  refine congrArg A (funext fun a => Fin.ext ?_)
  match a with
  | ⟨0, _⟩ => show win0_2.index t (0 : Fin 2) * 16 + 1 * (y 0).val = (y 0).val; rw [e0]; omega
  | ⟨1, _⟩ => show win0_2.index t (1 : Fin 2) * 64 + 1 * (y 1).val = (y 1).val; rw [e1]; omega
theorem blk3_read (A : S64x16.Idx → Elt Ideal .f32) (t : Fin cfg0.N) : ((cfg0.win 3).blk t).view.read (Elt Ideal) A = A := by
  obtain ⟨-, -, -, -, -, -, -, -, e0, e1, -⟩ := idx_facts t
  funext y
  rw [View.read_apply]
  refine congrArg A (funext fun a => Fin.ext ?_)
  match a with
  | ⟨0, _⟩ => show win0_3.index t (0 : Fin 2) * 64 + 1 * (y 0).val = (y 0).val; rw [e0]; omega
  | ⟨1, _⟩ => show win0_3.index t (1 : Fin 2) * 16 + 1 * (y 1).val = (y 1).val; rw [e1]; omega
theorem blk4_read (A : S31x64.Idx → Elt Ideal .f32) (t : Fin cfg0.N) : ((cfg0.win 4).blk t).view.read (Elt Ideal) A = A := by
  obtain ⟨-, -, -, -, -, -, -, -, -, -, e0, e1, -⟩ := idx_facts t
  funext y
  rw [View.read_apply]
  refine congrArg A (funext fun a => Fin.ext ?_)
  match a with
  | ⟨0, _⟩ => show win0_4.index t (0 : Fin 2) * 31 + 1 * (y 0).val = (y 0).val; rw [e0]; omega
  | ⟨1, _⟩ => show win0_4.index t (1 : Fin 2) * 64 + 1 * (y 1).val = (y 1).val; rw [e1]; omega
theorem blk5_read (A : S64x64.Idx → Elt Ideal .f32) (t : Fin cfg0.N) : ((cfg0.win 5).blk t).view.read (Elt Ideal) A = A := by
  obtain ⟨-, -, -, -, -, -, -, -, -, -, -, -, e0, e1, -⟩ := idx_facts t
  funext y
  rw [View.read_apply]
  refine congrArg A (funext fun a => Fin.ext ?_)
  match a with
  | ⟨0, _⟩ => show win0_5.index t (0 : Fin 2) * 64 + 1 * (y 0).val = (y 0).val; rw [e0]; omega
  | ⟨1, _⟩ => show win0_5.index t (1 : Fin 2) * 64 + 1 * (y 1).val = (y 1).val; rw [e1]; omega
theorem blk6_read (A : S64x3.Idx → Elt Ideal .f32) (t : Fin cfg0.N) : ((cfg0.win 6).blk t).view.read (Elt Ideal) A = A := by
  obtain ⟨-, -, -, -, -, -, -, -, -, -, -, -, -, -, e0, e1⟩ := idx_facts t
  funext y
  rw [View.read_apply]
  refine congrArg A (funext fun a => Fin.ext ?_)
  match a with
  | ⟨0, _⟩ => show win0_6.index t (0 : Fin 2) * 64 + 1 * (y 0).val = (y 0).val; rw [e0]; omega
  | ⟨1, _⟩ => show win0_6.index t (1 : Fin 2) * 3 + 1 * (y 1).val = (y 1).val; rw [e1]; omega

/-- Where entry (r, q) of point t's output block sits in the output array: row 4000 t + r, column q. -/
theorem emb7 (t : Fin cfg0.N) (r : Fin 4000) (q : Fin 4) :
    ((((cfg0.win 7).blk t).view.emb (ix2 r q)) 0).val = 4000 * t.val + r.val
      ∧ ((((cfg0.win 7).blk t).view.emb (ix2 r q)) 1).val = q.val := by
  obtain ⟨-, -, -, -, e0, e1, -⟩ := idx_facts t
  constructor
  · show win0_7.index t (0 : Fin 2) * 4000 + 1 * r.val = _; rw [e0]; omega
  · show win0_7.index t (1 : Fin 2) * 4 + 1 * q.val = _; rw [e1]; omega

/-- Entry (r, q) of the block the body leaves: output q of the network on row r of the two sample blocks. -/
theorem block_row (x0 : Vec Ideal S4000x16 .bf16) (x1 : Vec Ideal S4000x3 .f32) (x2 : Vec Ideal S16x64 .f32)
    (x3 : Vec Ideal S64x16 .f32) (x4 : Vec Ideal S31x64 .f32) (x5 : Vec Ideal S64x64 .f32) (x6 : Vec Ideal S64x3 .f32)
    (r : Fin 4000) (q : Fin 4) :
    out0_7 (F := Ideal) x0 x1 x2 x3 x4 x5 x6 (ix2 r q) = rowOut x0 x1 x2 x3 x4 x5 x6 r q :=
  (congrFun (out0_7_eq x0 x1 x2 x3 x4 x5 x6) (ix2 r q)).trans (blockOut_entry x0 x1 x2 x3 x4 x5 x6 r q)

/-- The output array after the run: row n holds the network's four outputs on row n of the feature array and of the
    directions, with the weight matrices as the region finds them. -/
def G (c : Dev nD) : S1000000x4.Idx → EReal := fun i =>
  rowOut (V m c main_v138 : S1000000x16.Idx → Elt Ideal .bf16) (V m c main_arg1 : S1000000x3.Idx → Elt Ideal .f32)
    (V m c main_arg4 : S16x64.Idx → Elt Ideal .f32) (V m c main_arg5 : S64x16.Idx → Elt Ideal .f32)
    (V m c main_arg6 : S31x64.Idx → Elt Ideal .f32) (V m c main_arg7 : S64x64.Idx → Elt Ideal .f32)
    (V m c main_arg8 : S64x3.Idx → Elt Ideal .f32) (⟨(i 0).val, idx2_lt0 i⟩ : Fin 1000000) (⟨(i 1).val, idx2_lt1 i⟩ : Fin 4)

/-- What point t writes back is block t of that array. -/
theorem flushed7_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after0_7]
  funext y
  obtain ⟨r, q, rfl⟩ : ∃ (r : Fin 4000) (q : Fin 4), y = ix2 r q := ⟨y 0, y 1, eq_ix2 y⟩
  obtain ⟨hrow, hcol⟩ := emb7 t r q
  have h2 : (iblk m c 2 t : Vec Ideal S16x64 .f32) = V m c main_arg4 := blk2_read (V m c main_arg4) t
  have h3 : (iblk m c 3 t : Vec Ideal S64x16 .f32) = V m c main_arg5 := blk3_read (V m c main_arg5) t
  have h4 : (iblk m c 4 t : Vec Ideal S31x64 .f32) = V m c main_arg6 := blk4_read (V m c main_arg6) t
  have h5 : (iblk m c 5 t : Vec Ideal S64x64 .f32) = V m c main_arg7 := blk5_read (V m c main_arg7) t
  have h6 : (iblk m c 6 t : Vec Ideal S64x3 .f32) = V m c main_arg8 := blk6_read (V m c main_arg8) t
  show out0_7 (iblk m c 0 t) (iblk m c 1 t) (iblk m c 2 t) (iblk m c 3 t) (iblk m c 4 t) (iblk m c 5 t) (iblk m c 6 t) (ix2 r q)
    = G m c (((cfg0.win 7).blk t).view.emb (ix2 r q))
  refine (block_row (iblk m c 0 t) (iblk m c 1 t) (iblk m c 2 t) (iblk m c 3 t) (iblk m c 4 t) (iblk m c 5 t) (iblk m c 6 t) r q).trans ?_
  rw [h2, h3, h4, h5, h6]
  unfold G
  have hq : (⟨((((cfg0.win 7).blk t).view.emb (ix2 r q)) 1).val, idx2_lt1 _⟩ : Fin 4) = q := Fin.ext hcol
  have hr : (⟨((((cfg0.win 7).blk t).view.emb (ix2 r q)) 0).val, idx2_lt0 _⟩ : Fin 1000000)
      = ⟨4000 * t.val + r.val, by have := N_lt t; omega⟩ := Fin.ext hrow
  rw [hq, hr]
  exact rowOut_congr (iblk m c 0 t) (iblk m c 1 t) (V m c main_v138) (V m c main_arg1) (V m c main_arg4) (V m c main_arg5)
    (V m c main_arg6) (V m c main_arg7) (V m c main_arg8) r _ (fun j => blk0_read (V m c main_v138) t r j)
    (fun j => blk1_read (V m c main_arg1) t r j) q

/-- An index of the array is in point t's block iff each coordinate is in the block's range on its axis. -/
theorem mem_blk7 (t : Fin cfg0.N) (i : S1000000x4.Idx) :
    i ∈ ((cfg0.win 7).blk t).view.set ↔ ∀ a : Fin 2, win0_7.index t a * S4000x4.size a ≤ (i a).val ∧ (i a).val < win0_7.index t a * S4000x4.size a + S4000x4.size a := by
  show i ∈ ((View.whole main_v139).slice (win0_7.rect t)).set ↔ _
  rw [View.set_slice_whole, Rect.mem_set_unit]
  exact Iff.rfl

/-- The blocks tile the array (sample n is in the block of point n / 4000), so it ends holding `G`. -/
theorem final7 (c : Dev nD) : (dats m 0 c).arrAt 7 cfg0.N = G m c :=
  (dats m 0 c).arrAt_eq_of_cover 7 (G m c) (fun t _ => flushed7_eq m c t) fun i => by
    have hi0 : (i 0).val < 1000000 := (i 0).isLt
    have hi1 : (i 1).val < 4 := (i 1).isLt
    have hN : cfg0.N = 250 := N_0
    obtain ⟨-, -, -, -, e0, e1, -⟩ := idx_facts (⟨(i 0).val / 4000, by rw [hN]; omega⟩ : Fin cfg0.N)
    refine ⟨⟨(i 0).val / 4000, by rw [hN]; omega⟩, flush0_7 _, ?_⟩
    rw [mem_blk7]
    intro a
    match a with
    | ⟨0, _⟩ =>
      show win0_7.index _ (0 : Fin 2) * 4000 ≤ (i 0).val ∧ (i 0).val < win0_7.index _ (0 : Fin 2) * 4000 + 4000
      rw [e0]; show (i 0).val / 4000 * 4000 ≤ (i 0).val ∧ (i 0).val < (i 0).val / 4000 * 4000 + 4000; omega
    | ⟨1, _⟩ =>
      show win0_7.index _ (1 : Fin 2) * 4 ≤ (i 1).val ∧ (i 1).val < win0_7.index _ (1 : Fin 2) * 4 + 4
      rw [e1]; omega

/-- Column 0 of an n × 4 array, cut out and flattened, reads at r the array's entry (r, 0). -/
theorem coord_entry0 {α : Type} {n : Nat} (X : (⟨2, ![n, 4]⟩ : Shape).Idx → α)
    (h : (⟨2, ![n, 4]⟩ : Shape).Slices ![0, 0] ⟨2, ![n, 1]⟩) (h' : (⟨2, ![n, 1]⟩ : Shape).ShapeCasts ⟨1, ![n]⟩) (r : Fin n) :
    shapeCast ⟨1, ![n]⟩ (extractStridedSlice ⟨2, ![n, 1]⟩ ![0, 0] X h) h' (ix1 r) = X (ix2 r (0 : Fin 4)) :=
  (shapeCast_apply _ h' (ix1 r) (ix2 r (0 : Fin 1)) (by
    rw [Shape.rowMajor_val_two, Shape.rowMajor_val_one]
    show r.val * 1 + 0 = r.val
    omega)).trans (slice2_axis1_apply 0 X h r (0 : Fin 1) (0 : Fin 4) rfl)

/-- The density vector the program returns: column 0 of the output array, flattened. -/
def sigK (c : Dev nD) : S1000000.Idx → EReal :=
  shapeCast S1000000 (extractStridedSlice S1000000x1 ![0, 0] (G m c) slices_S1000000x4_S1000000x1_0_0) shapeCasts_S1000000x1_S1000000

/-- The colour array the program returns: columns 1 … 3 of the output array. -/
def colK (c : Dev nD) : S1000000x3.Idx → EReal :=
  extractStridedSlice S1000000x3 ![0, 1] (G m c) slices_S1000000x4_S1000000x3_0_1

/-- The lines after the region find the output array at `G`. -/
theorem tail_array (c : Dev nD) :
    Pipeline.withArrays (cfgs 0).spec c (V0 m c) (fun w => (dats m 0 c).arrAt w (cfgs 0).N) (Proc.tc.devRef main_v139) = G m c :=
  (Pipeline.withArrays_arr spec0 launch0.win.arr_inj c _ _ 7).trans (final7 m c)

/-- What the lines after the region leave in the two result buffers. -/
theorem tail141 (c : Dev nD) :
    (Pipeline.afterTail₀ cfgs (dats m) 0 (V0 m) [hostOps1] c main_v141 : S1000000.Idx → Elt Ideal .f32) = sigK m c := by
  unfold Pipeline.afterTail₀
  show StableHlo.after hostOps1 _ (Proc.devRef .tc main_v141) = _
  after_results
  rw [tail_array]
  rfl
theorem tail142 (c : Dev nD) :
    (Pipeline.afterTail₀ cfgs (dats m) 0 (V0 m) [hostOps1] c main_v142 : S1000000x3.Idx → Elt Ideal .f32) = colK m c := by
  unfold Pipeline.afterTail₀
  show StableHlo.after hostOps1 _ (Proc.devRef .tc main_v142) = _
  after_results
  rw [tail_array]
  rfl

/-- Entry n of the density vector: the density head's output 0 on sample n. -/
theorem sigK_entry (c : Dev nD) (n : Fin 1000000) :
    sigK m c (ix1 n) = feat (V m c main_v138 : S1000000x16.Idx → Elt Ideal .bf16) (V m c main_arg4 : S16x64.Idx → Elt Ideal .f32)
      (V m c main_arg5 : S64x16.Idx → Elt Ideal .f32) n 0 := by
  unfold sigK
  refine (coord_entry0 (G m c) _ _ n).trans ?_
  show rowOut _ _ _ _ _ _ _ n (0 : Fin 4) = _
  rfl

/-- Entry (n, j) of the colour array: the colour head's output j on sample n. -/
theorem colK_entry (c : Dev nD) (n : Fin 1000000) (j : Fin 3) :
    colK m c (ix2 n j) = colour (V m c main_v138 : S1000000x16.Idx → Elt Ideal .bf16) (V m c main_arg1 : S1000000x3.Idx → Elt Ideal .f32)
      (V m c main_arg4 : S16x64.Idx → Elt Ideal .f32) (V m c main_arg5 : S64x16.Idx → Elt Ideal .f32)
      (V m c main_arg6 : S31x64.Idx → Elt Ideal .f32) (V m c main_arg7 : S64x64.Idx → Elt Ideal .f32)
      (V m c main_arg8 : S64x3.Idx → Elt Ideal .f32) n j := by
  unfold colK
  refine (slice2_axis1_apply 1 (G m c) _ n j (⟨j.val + 1, by have := j.isLt; omega⟩ : Fin 4) (by show j.val + 1 = 1 + j.val; omega)).trans ?_
  show rowOut _ _ _ _ _ _ _ n (⟨j.val + 1, _⟩ : Fin 4) = _
  unfold rowOut
  rw [if_neg (by show ¬ (j.val + 1 = 0); omega)]
  rfl

/-- THE KERNEL PROGRAM'S RUN, READ: every weakly fair execution terminates with the two results at the density vector
    and the colour array above, and every argument array as launched. -/
theorem run : θ_run defs (onTc (τ := τ) (main (F := Ideal))) ⟨m, fun _ => 0, ρ⟩ fun r => ∀ c : Dev nD,
      (r.2.mem ((c.tc : Thread nD τ).loc main_v141) : S1000000.Idx → Elt Ideal .f32) = sigK m c
      ∧ (r.2.mem ((c.tc : Thread nD τ).loc main_v142) : S1000000x3.Idx → Elt Ideal .f32) = colK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v141 (Pipeline.mem_restRefs_of main_v141 (by decide) (by decide))).trans (tail141 m c),
      ((h c).2 main_v142 (Pipeline.mem_restRefs_of main_v142 (by decide) (by decide))).trans (tail142 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c))),
      ((h c).1 6).trans (((dats m 0 c).arrAt_in 6 rfl _).trans ((A_eq m c 6).trans (V_main_arg8 m c)))⟩)
    (run_main m ρ)

end Cert.KernelIdeal.HValue

end
-- ==== Proof.RefRun.lean ====
/- The reference program's host function as a list of its 330 operations (the seven calls of the
   outlined functions written out in place over their calls' buffers), the program's equality with that
   list run in order, and its run read back: every weakly fair execution terminates with each buffer at the
   fold of the operations' results over the launch contents. The list is cut after the operation that
   writes the sixteen encoding columns (the sum across the eight corners): `opsA` up to and including it,
   `opsB` after it. -/
import proofs.«133790_j23845658428386_2_alg».proof.Proof.Gen.ReferenceIdeal
import Idealize.ShloMosaic.Lib.StableHlo.Run
import Idealize.ShloMosaic.Lib.Pipeline.Frame

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 1 … 65 of 330, in order. -/
abbrev ops0 : List (HloOp τ sig (Elt F)) :=
  [ nullary main_cst (fun i => FloatOps.ofBits .f32 (lit0 (S8x3.rowMajor i))),
    unary main_arg0 main_v0 (broadcastInDim S1000000x1x3 ![0, 2] bcast_S1000000x3_S1000000x1x3_0_2 : (⟨S1000000x3, .f32⟩ : BufTy).Contents (Elt F) → (⟨S1000000x1x3, .f32⟩ : BufTy).Contents (Elt F)),
    unary main_cst main_v1 (broadcastInDim S1x8x3 ![1, 2] bcast_S8x3_S1x8x3_1_2 : (⟨S8x3, .f32⟩ : BufTy).Contents (Elt F) → (⟨S1x8x3, .f32⟩ : BufTy).Contents (Elt F)),
    nullary main_cst_0 (constant S_ .f32 0x40000000#32),
    unary main_cst_0 main_v2 (broadcastInDim S1x8x3 ![] bcast_S_S1x8x3 : (⟨S_, .f32⟩ : BufTy).Contents (Elt F) → (⟨S1x8x3, .f32⟩ : BufTy).Contents (Elt F)),
    binary main_v1 main_v2 main_v3 (Host.divf : (⟨S1x8x3, .f32⟩ : BufTy).Contents (Elt F) → (⟨S1x8x3, .f32⟩ : BufTy).Contents (Elt F) → (⟨S1x8x3, .f32⟩ : BufTy).Contents (Elt F)),
    unary main_v0 main_v4 (broadcastInDim S1000000x8x3 ![0, 1, 2] bcast_S1000000x1x3_S1000000x8x3_0_1_2 : (⟨S1000000x1x3, .f32⟩ : BufTy).Contents (Elt F) → (⟨S1000000x8x3, .f32⟩ : BufTy).Contents (Elt F)),
    unary main_v3 main_v5 (broadcastInDim S1000000x8x3 ![0, 1, 2] bcast_S1x8x3_S1000000x8x3_0_1_2 : (⟨S1x8x3, .f32⟩ : BufTy).Contents (Elt F) → (⟨S1000000x8x3, .f32⟩ : BufTy).Contents (Elt F)),
    binary main_v4 main_v5 main_v6 (addf : (⟨S1000000x8x3, .f32⟩ : BufTy).Contents (Elt F) → (⟨S1000000x8x3, .f32⟩ : BufTy).Contents (Elt F) → (⟨S1000000x8x3, .f32⟩ : BufTy).Contents (Elt F)),
    unary main_v6 main_v7 (Host.floor : (⟨S1000000x8x3, .f32⟩ : BufTy).Contents (Elt F) → (⟨S1000000x8x3, .f32⟩ : BufTy).Contents (Elt F)),
    nullary main_cst_1 (constant S_ .f32 0x00000000#32),
    nullary main_c (constantI S_ 32 255#32),
    TRef.unary (.of main_cst_1 : TRef sig ⟨S_, .f32⟩) (.of main_call0_v0 : TRef sig ⟨S_, .f32⟩) id,
    TRef.unary (.of main_call0_v0 : TRef sig ⟨S_, .f32⟩) (.of main_call0_v1 : TRef sig ⟨S1000000x8x3, .f32⟩) (broadcastInDim S1000000x8x3 ![] bcast_S_S1000000x8x3),
    TRef.binary (.of main_call0_v1 : TRef sig ⟨S1000000x8x3, .f32⟩) (.of main_v7 : TRef sig ⟨S1000000x8x3, .f32⟩) (.of main_call0_v2 : TRef sig ⟨S1000000x8x3, .f32⟩) maximumf,
    TRef.unary (.of main_c : TRef sig ⟨S_, .i32⟩) (.of main_call0_v3 : TRef sig ⟨S_, .f32⟩) (sitofp .f32),
    TRef.unary (.of main_call0_v3 : TRef sig ⟨S_, .f32⟩) (.of main_call0_v4 : TRef sig ⟨S1000000x8x3, .f32⟩) (broadcastInDim S1000000x8x3 ![] bcast_S_S1000000x8x3),
    TRef.binary (.of main_call0_v4 : TRef sig ⟨S1000000x8x3, .f32⟩) (.of main_call0_v2 : TRef sig ⟨S1000000x8x3, .f32⟩) (.of main_v8 : TRef sig ⟨S1000000x8x3, .f32⟩) minimumf,
    unary main_v8 main_v9 ((extractStridedSlice S1000000x1x3 ![0, 0, 0] · slices_S1000000x8x3_S1000000x1x3_0_0_0) : (⟨S1000000x8x3, .f32⟩ : BufTy).Contents (Elt F) → (⟨S1000000x1x3, .f32⟩ : BufTy).Contents (Elt F)),
    reshape main_v9 main_v10 rfl shapeCasts_S1000000x1x3_S1000000x3,
    binary main_arg0 main_v10 main_v11 (subf : (⟨S1000000x3, .f32⟩ : BufTy).Contents (Elt F) → (⟨S1000000x3, .f32⟩ : BufTy).Contents (Elt F) → (⟨S1000000x3, .f32⟩ : BufTy).Contents (Elt F)),
    unary main_v8 main_v12 (fptosi 32 : (⟨S1000000x8x3, .f32⟩ : BufTy).Contents (Elt F) → (⟨S1000000x8x3, .i32⟩ : BufTy).Contents (Elt F)),
    unary main_v12 main_v13 ((extractStridedSlice S1000000x8x1 ![0, 0, 0] · slices_S1000000x8x3_S1000000x8x1_0_0_0) : (⟨S1000000x8x3, .i32⟩ : BufTy).Contents (Elt F) → (⟨S1000000x8x1, .i32⟩ : BufTy).Contents (Elt F)),
    reshape main_v13 main_v14 rfl shapeCasts_S1000000x8x1_S1000000x8,
    unary main_v12 main_v15 ((extractStridedSlice S1000000x8x1 ![0, 0, 1] · slices_S1000000x8x3_S1000000x8x1_0_0_1) : (⟨S1000000x8x3, .i32⟩ : BufTy).Contents (Elt F) → (⟨S1000000x8x1, .i32⟩ : BufTy).Contents (Elt F)),
    reshape main_v15 main_v16 rfl shapeCasts_S1000000x8x1_S1000000x8,
    unary main_v12 main_v17 ((extractStridedSlice S1000000x8x1 ![0, 0, 2] · slices_S1000000x8x3_S1000000x8x1_0_0_2) : (⟨S1000000x8x3, .i32⟩ : BufTy).Contents (Elt F) → (⟨S1000000x8x1, .i32⟩ : BufTy).Contents (Elt F)),
    reshape main_v17 main_v18 rfl shapeCasts_S1000000x8x1_S1000000x8,
    nullary main_c_2 (constantI S_ 32 0#32),
    unary main_c_2 main_v19 (broadcastInDim S1000000x8 ![] bcast_S_S1000000x8 : (⟨S_, .i32⟩ : BufTy).Contents (Elt F) → (⟨S1000000x8, .i32⟩ : BufTy).Contents (Elt F)),
    binary main_v14 main_v19 main_v20 (cmpi .slt : (⟨S1000000x8, .i32⟩ : BufTy).Contents (Elt F) → (⟨S1000000x8, .i32⟩ : BufTy).Contents (Elt F) → (⟨S1000000x8, .i1⟩ : BufTy).Contents (Elt F)),
    nullary main_c_3 (constantI S_ 32 256#32),
    unary main_c_3 main_v21 (broadcastInDim S1000000x8 ![] bcast_S_S1000000x8 : (⟨S_, .i32⟩ : BufTy).Contents (Elt F) → (⟨S1000000x8, .i32⟩ : BufTy).Contents (Elt F)),
    binary main_v14 main_v21 main_v22 (addi : (⟨S1000000x8, .i32⟩ : BufTy).Contents (Elt F) → (⟨S1000000x8, .i32⟩ : BufTy).Contents (Elt F) → (⟨S1000000x8, .i32⟩ : BufTy).Contents (Elt F)),
    ternary main_v20 main_v22 main_v14 main_v23 (select : (⟨S1000000x8, .i1⟩ : BufTy).Contents (Elt F) → (⟨S1000000x8, .i32⟩ : BufTy).Contents (Elt F) → (⟨S1000000x8, .i32⟩ : BufTy).Contents (Elt F) → (⟨S1000000x8, .i32⟩ : BufTy).Contents (Elt F)),
    nullary main_c_4 (constantI S_ 32 0#32),
    unary main_c_4 main_v24 (broadcastInDim S1000000x8 ![] bcast_S_S1000000x8 : (⟨S_, .i32⟩ : BufTy).Contents (Elt F) → (⟨S1000000x8, .i32⟩ : BufTy).Contents (Elt F)),
    binary main_v16 main_v24 main_v25 (cmpi .slt : (⟨S1000000x8, .i32⟩ : BufTy).Contents (Elt F) → (⟨S1000000x8, .i32⟩ : BufTy).Contents (Elt F) → (⟨S1000000x8, .i1⟩ : BufTy).Contents (Elt F)),
    nullary main_c_5 (constantI S_ 32 256#32),
    unary main_c_5 main_v26 (broadcastInDim S1000000x8 ![] bcast_S_S1000000x8 : (⟨S_, .i32⟩ : BufTy).Contents (Elt F) → (⟨S1000000x8, .i32⟩ : BufTy).Contents (Elt F)),
    binary main_v16 main_v26 main_v27 (addi : (⟨S1000000x8, .i32⟩ : BufTy).Contents (Elt F) → (⟨S1000000x8, .i32⟩ : BufTy).Contents (Elt F) → (⟨S1000000x8, .i32⟩ : BufTy).Contents (Elt F)),
    ternary main_v25 main_v27 main_v16 main_v28 (select : (⟨S1000000x8, .i1⟩ : BufTy).Contents (Elt F) → (⟨S1000000x8, .i32⟩ : BufTy).Contents (Elt F) → (⟨S1000000x8, .i32⟩ : BufTy).Contents (Elt F) → (⟨S1000000x8, .i32⟩ : BufTy).Contents (Elt F)),
    nullary main_c_6 (constantI S_ 32 0#32),
    unary main_c_6 main_v29 (broadcastInDim S1000000x8 ![] bcast_S_S1000000x8 : (⟨S_, .i32⟩ : BufTy).Contents (Elt F) → (⟨S1000000x8, .i32⟩ : BufTy).Contents (Elt F)),
    binary main_v18 main_v29 main_v30 (cmpi .slt : (⟨S1000000x8, .i32⟩ : BufTy).Contents (Elt F) → (⟨S1000000x8, .i32⟩ : BufTy).Contents (Elt F) → (⟨S1000000x8, .i1⟩ : BufTy).Contents (Elt F)),
    nullary main_c_7 (constantI S_ 32 256#32),
    unary main_c_7 main_v31 (broadcastInDim S1000000x8 ![] bcast_S_S1000000x8 : (⟨S_, .i32⟩ : BufTy).Contents (Elt F) → (⟨S1000000x8, .i32⟩ : BufTy).Contents (Elt F)),
    binary main_v18 main_v31 main_v32 (addi : (⟨S1000000x8, .i32⟩ : BufTy).Contents (Elt F) → (⟨S1000000x8, .i32⟩ : BufTy).Contents (Elt F) → (⟨S1000000x8, .i32⟩ : BufTy).Contents (Elt F)),
    ternary main_v30 main_v32 main_v18 main_v33 (select : (⟨S1000000x8, .i1⟩ : BufTy).Contents (Elt F) → (⟨S1000000x8, .i32⟩ : BufTy).Contents (Elt F) → (⟨S1000000x8, .i32⟩ : BufTy).Contents (Elt F) → (⟨S1000000x8, .i32⟩ : BufTy).Contents (Elt F)),
    nullary main_c_8 (constantI S_ 32 0#32),
    unary main_c_8 main_v34 (broadcastInDim S1000000x8 ![] bcast_S_S1000000x8 : (⟨S_, .i32⟩ : BufTy).Contents (Elt F) → (⟨S1000000x8, .i32⟩ : BufTy).Contents (Elt F)),
    unary main_v34 main_v35 (id : (⟨S1000000x8, .i32⟩ : BufTy).Contents (Elt F) → (⟨S1000000x8, .i32⟩ : BufTy).Contents (Elt F)),
    unary main_v23 main_v36 (broadcastInDim S1000000x8x1 ![0, 1] bcast_S1000000x8_S1000000x8x1_0_1 : (⟨S1000000x8, .i32⟩ : BufTy).Contents (Elt F) → (⟨S1000000x8x1, .i32⟩ : BufTy).Contents (Elt F)),
    unary main_v28 main_v37 (broadcastInDim S1000000x8x1 ![0, 1] bcast_S1000000x8_S1000000x8x1_0_1 : (⟨S1000000x8, .i32⟩ : BufTy).Contents (Elt F) → (⟨S1000000x8x1, .i32⟩ : BufTy).Contents (Elt F)),
    unary main_v33 main_v38 (broadcastInDim S1000000x8x1 ![0, 1] bcast_S1000000x8_S1000000x8x1_0_1 : (⟨S1000000x8, .i32⟩ : BufTy).Contents (Elt F) → (⟨S1000000x8x1, .i32⟩ : BufTy).Contents (Elt F)),
    unary main_v35 main_v39 (broadcastInDim S1000000x8x1 ![0, 1] bcast_S1000000x8_S1000000x8x1_0_1 : (⟨S1000000x8, .i32⟩ : BufTy).Contents (Elt F) → (⟨S1000000x8x1, .i32⟩ : BufTy).Contents (Elt F)),
    nary ![main_v36, main_v37, main_v38, main_v39] main_v40 (fun u => concatenate S1000000x8x4 2 [⟨S1000000x8x1, u 0⟩, ⟨S1000000x8x1, u 1⟩, ⟨S1000000x8x1, u 2⟩, ⟨S1000000x8x1, u 3⟩] concatenates_S1000000x8x1_S1000000x8x1_S1000000x8x1_S1000000x8x1_S1000000x8x4_d2),
    binary main_arg2 main_v40 main_v41 ((fun x i => Host.gather gather_S256x256x256x1_S1000000x8x4_S1000000x8_n_0123_n_n_0123_2_1111 x i) : (⟨S256x256x256x1, .f32⟩ : BufTy).Contents (Elt F) → (⟨S1000000x8x4, .i32⟩ : BufTy).Contents (Elt F) → (⟨S1000000x8, .f32⟩ : BufTy).Contents (Elt F)),
    unary main_v11 main_v42 ((extractStridedSlice S1000000x1 ![0, 0] · slices_S1000000x3_S1000000x1_0_0) : (⟨S1000000x3, .f32⟩ : BufTy).Contents (Elt F) → (⟨S1000000x1, .f32⟩ : BufTy).Contents (Elt F)),
    reshape main_v42 main_v43 rfl shapeCasts_S1000000x1_S1000000,
    unary main_v11 main_v44 ((extractStridedSlice S1000000x1 ![0, 1] · slices_S1000000x3_S1000000x1_0_1) : (⟨S1000000x3, .f32⟩ : BufTy).Contents (Elt F) → (⟨S1000000x1, .f32⟩ : BufTy).Contents (Elt F)),
    reshape main_v44 main_v45 rfl shapeCasts_S1000000x1_S1000000,
    unary main_v11 main_v46 ((extractStridedSlice S1000000x1 ![0, 2] · slices_S1000000x3_S1000000x1_0_2) : (⟨S1000000x3, .f32⟩ : BufTy).Contents (Elt F) → (⟨S1000000x1, .f32⟩ : BufTy).Contents (Elt F)),
    reshape main_v46 main_v47 rfl shapeCasts_S1000000x1_S1000000,
    nullary main_cst_9 (constant S_ .f32 0x3F800000#32) ]

set_option maxHeartbeats 40000000 in
/-- Operations 66 … 125 of 330, in order. -/
abbrev ops1 : List (HloOp τ sig (Elt F)) :=
  [ unary main_cst_9 main_v48 (broadcastInDim S1000000 ![] bcast_S_S1000000 : (⟨S_, .f32⟩ : BufTy).Contents (Elt F) → (⟨S1000000, .f32⟩ : BufTy).Contents (Elt F)),
    binary main_v48 main_v43 main_v49 (subf : (⟨S1000000, .f32⟩ : BufTy).Contents (Elt F) → (⟨S1000000, .f32⟩ : BufTy).Contents (Elt F) → (⟨S1000000, .f32⟩ : BufTy).Contents (Elt F)),
    nullary main_cst_10 (constant S_ .f32 0x3F800000#32),
    unary main_cst_10 main_v50 (broadcastInDim S1000000 ![] bcast_S_S1000000 : (⟨S_, .f32⟩ : BufTy).Contents (Elt F) → (⟨S1000000, .f32⟩ : BufTy).Contents (Elt F)),
    binary main_v50 main_v45 main_v51 (subf : (⟨S1000000, .f32⟩ : BufTy).Contents (Elt F) → (⟨S1000000, .f32⟩ : BufTy).Contents (Elt F) → (⟨S1000000, .f32⟩ : BufTy).Contents (Elt F)),
    binary main_v49 main_v51 main_v52 (mulf : (⟨S1000000, .f32⟩ : BufTy).Contents (Elt F) → (⟨S1000000, .f32⟩ : BufTy).Contents (Elt F) → (⟨S1000000, .f32⟩ : BufTy).Contents (Elt F)),
    nullary main_cst_11 (constant S_ .f32 0x3F800000#32),
    unary main_cst_11 main_v53 (broadcastInDim S1000000 ![] bcast_S_S1000000 : (⟨S_, .f32⟩ : BufTy).Contents (Elt F) → (⟨S1000000, .f32⟩ : BufTy).Contents (Elt F)),
    binary main_v53 main_v47 main_v54 (subf : (⟨S1000000, .f32⟩ : BufTy).Contents (Elt F) → (⟨S1000000, .f32⟩ : BufTy).Contents (Elt F) → (⟨S1000000, .f32⟩ : BufTy).Contents (Elt F)),
    binary main_v52 main_v54 main_v55 (mulf : (⟨S1000000, .f32⟩ : BufTy).Contents (Elt F) → (⟨S1000000, .f32⟩ : BufTy).Contents (Elt F) → (⟨S1000000, .f32⟩ : BufTy).Contents (Elt F)),
    nullary main_cst_12 (constant S_ .f32 0x3F800000#32),
    unary main_cst_12 main_v56 (broadcastInDim S1000000 ![] bcast_S_S1000000 : (⟨S_, .f32⟩ : BufTy).Contents (Elt F) → (⟨S1000000, .f32⟩ : BufTy).Contents (Elt F)),
    binary main_v56 main_v43 main_v57 (subf : (⟨S1000000, .f32⟩ : BufTy).Contents (Elt F) → (⟨S1000000, .f32⟩ : BufTy).Contents (Elt F) → (⟨S1000000, .f32⟩ : BufTy).Contents (Elt F)),
    nullary main_cst_13 (constant S_ .f32 0x3F800000#32),
    unary main_cst_13 main_v58 (broadcastInDim S1000000 ![] bcast_S_S1000000 : (⟨S_, .f32⟩ : BufTy).Contents (Elt F) → (⟨S1000000, .f32⟩ : BufTy).Contents (Elt F)),
    binary main_v58 main_v45 main_v59 (subf : (⟨S1000000, .f32⟩ : BufTy).Contents (Elt F) → (⟨S1000000, .f32⟩ : BufTy).Contents (Elt F) → (⟨S1000000, .f32⟩ : BufTy).Contents (Elt F)),
    binary main_v57 main_v59 main_v60 (mulf : (⟨S1000000, .f32⟩ : BufTy).Contents (Elt F) → (⟨S1000000, .f32⟩ : BufTy).Contents (Elt F) → (⟨S1000000, .f32⟩ : BufTy).Contents (Elt F)),
    binary main_v60 main_v47 main_v61 (mulf : (⟨S1000000, .f32⟩ : BufTy).Contents (Elt F) → (⟨S1000000, .f32⟩ : BufTy).Contents (Elt F) → (⟨S1000000, .f32⟩ : BufTy).Contents (Elt F)),
    nullary main_cst_14 (constant S_ .f32 0x3F800000#32),
    unary main_cst_14 main_v62 (broadcastInDim S1000000 ![] bcast_S_S1000000 : (⟨S_, .f32⟩ : BufTy).Contents (Elt F) → (⟨S1000000, .f32⟩ : BufTy).Contents (Elt F)),
    binary main_v62 main_v43 main_v63 (subf : (⟨S1000000, .f32⟩ : BufTy).Contents (Elt F) → (⟨S1000000, .f32⟩ : BufTy).Contents (Elt F) → (⟨S1000000, .f32⟩ : BufTy).Contents (Elt F)),
    binary main_v63 main_v45 main_v64 (mulf : (⟨S1000000, .f32⟩ : BufTy).Contents (Elt F) → (⟨S1000000, .f32⟩ : BufTy).Contents (Elt F) → (⟨S1000000, .f32⟩ : BufTy).Contents (Elt F)),
    nullary main_cst_15 (constant S_ .f32 0x3F800000#32),
    unary main_cst_15 main_v65 (broadcastInDim S1000000 ![] bcast_S_S1000000 : (⟨S_, .f32⟩ : BufTy).Contents (Elt F) → (⟨S1000000, .f32⟩ : BufTy).Contents (Elt F)),
    binary main_v65 main_v47 main_v66 (subf : (⟨S1000000, .f32⟩ : BufTy).Contents (Elt F) → (⟨S1000000, .f32⟩ : BufTy).Contents (Elt F) → (⟨S1000000, .f32⟩ : BufTy).Contents (Elt F)),
    binary main_v64 main_v66 main_v67 (mulf : (⟨S1000000, .f32⟩ : BufTy).Contents (Elt F) → (⟨S1000000, .f32⟩ : BufTy).Contents (Elt F) → (⟨S1000000, .f32⟩ : BufTy).Contents (Elt F)),
    nullary main_cst_16 (constant S_ .f32 0x3F800000#32),
    unary main_cst_16 main_v68 (broadcastInDim S1000000 ![] bcast_S_S1000000 : (⟨S_, .f32⟩ : BufTy).Contents (Elt F) → (⟨S1000000, .f32⟩ : BufTy).Contents (Elt F)),
    binary main_v68 main_v43 main_v69 (subf : (⟨S1000000, .f32⟩ : BufTy).Contents (Elt F) → (⟨S1000000, .f32⟩ : BufTy).Contents (Elt F) → (⟨S1000000, .f32⟩ : BufTy).Contents (Elt F)),
    binary main_v69 main_v45 main_v70 (mulf : (⟨S1000000, .f32⟩ : BufTy).Contents (Elt F) → (⟨S1000000, .f32⟩ : BufTy).Contents (Elt F) → (⟨S1000000, .f32⟩ : BufTy).Contents (Elt F)),
    binary main_v70 main_v47 main_v71 (mulf : (⟨S1000000, .f32⟩ : BufTy).Contents (Elt F) → (⟨S1000000, .f32⟩ : BufTy).Contents (Elt F) → (⟨S1000000, .f32⟩ : BufTy).Contents (Elt F)),
    nullary main_cst_17 (constant S_ .f32 0x3F800000#32),
    unary main_cst_17 main_v72 (broadcastInDim S1000000 ![] bcast_S_S1000000 : (⟨S_, .f32⟩ : BufTy).Contents (Elt F) → (⟨S1000000, .f32⟩ : BufTy).Contents (Elt F)),
    binary main_v72 main_v45 main_v73 (subf : (⟨S1000000, .f32⟩ : BufTy).Contents (Elt F) → (⟨S1000000, .f32⟩ : BufTy).Contents (Elt F) → (⟨S1000000, .f32⟩ : BufTy).Contents (Elt F)),
    binary main_v43 main_v73 main_v74 (mulf : (⟨S1000000, .f32⟩ : BufTy).Contents (Elt F) → (⟨S1000000, .f32⟩ : BufTy).Contents (Elt F) → (⟨S1000000, .f32⟩ : BufTy).Contents (Elt F)),
    nullary main_cst_18 (constant S_ .f32 0x3F800000#32),
    unary main_cst_18 main_v75 (broadcastInDim S1000000 ![] bcast_S_S1000000 : (⟨S_, .f32⟩ : BufTy).Contents (Elt F) → (⟨S1000000, .f32⟩ : BufTy).Contents (Elt F)),
    binary main_v75 main_v47 main_v76 (subf : (⟨S1000000, .f32⟩ : BufTy).Contents (Elt F) → (⟨S1000000, .f32⟩ : BufTy).Contents (Elt F) → (⟨S1000000, .f32⟩ : BufTy).Contents (Elt F)),
    binary main_v74 main_v76 main_v77 (mulf : (⟨S1000000, .f32⟩ : BufTy).Contents (Elt F) → (⟨S1000000, .f32⟩ : BufTy).Contents (Elt F) → (⟨S1000000, .f32⟩ : BufTy).Contents (Elt F)),
    nullary main_cst_19 (constant S_ .f32 0x3F800000#32),
    unary main_cst_19 main_v78 (broadcastInDim S1000000 ![] bcast_S_S1000000 : (⟨S_, .f32⟩ : BufTy).Contents (Elt F) → (⟨S1000000, .f32⟩ : BufTy).Contents (Elt F)),
    binary main_v78 main_v45 main_v79 (subf : (⟨S1000000, .f32⟩ : BufTy).Contents (Elt F) → (⟨S1000000, .f32⟩ : BufTy).Contents (Elt F) → (⟨S1000000, .f32⟩ : BufTy).Contents (Elt F)),
    binary main_v43 main_v79 main_v80 (mulf : (⟨S1000000, .f32⟩ : BufTy).Contents (Elt F) → (⟨S1000000, .f32⟩ : BufTy).Contents (Elt F) → (⟨S1000000, .f32⟩ : BufTy).Contents (Elt F)),
    binary main_v80 main_v47 main_v81 (mulf : (⟨S1000000, .f32⟩ : BufTy).Contents (Elt F) → (⟨S1000000, .f32⟩ : BufTy).Contents (Elt F) → (⟨S1000000, .f32⟩ : BufTy).Contents (Elt F)),
    binary main_v43 main_v45 main_v82 (mulf : (⟨S1000000, .f32⟩ : BufTy).Contents (Elt F) → (⟨S1000000, .f32⟩ : BufTy).Contents (Elt F) → (⟨S1000000, .f32⟩ : BufTy).Contents (Elt F)),
    nullary main_cst_20 (constant S_ .f32 0x3F800000#32),
    unary main_cst_20 main_v83 (broadcastInDim S1000000 ![] bcast_S_S1000000 : (⟨S_, .f32⟩ : BufTy).Contents (Elt F) → (⟨S1000000, .f32⟩ : BufTy).Contents (Elt F)),
    binary main_v83 main_v47 main_v84 (subf : (⟨S1000000, .f32⟩ : BufTy).Contents (Elt F) → (⟨S1000000, .f32⟩ : BufTy).Contents (Elt F) → (⟨S1000000, .f32⟩ : BufTy).Contents (Elt F)),
    binary main_v82 main_v84 main_v85 (mulf : (⟨S1000000, .f32⟩ : BufTy).Contents (Elt F) → (⟨S1000000, .f32⟩ : BufTy).Contents (Elt F) → (⟨S1000000, .f32⟩ : BufTy).Contents (Elt F)),
    binary main_v43 main_v45 main_v86 (mulf : (⟨S1000000, .f32⟩ : BufTy).Contents (Elt F) → (⟨S1000000, .f32⟩ : BufTy).Contents (Elt F) → (⟨S1000000, .f32⟩ : BufTy).Contents (Elt F)),
    binary main_v86 main_v47 main_v87 (mulf : (⟨S1000000, .f32⟩ : BufTy).Contents (Elt F) → (⟨S1000000, .f32⟩ : BufTy).Contents (Elt F) → (⟨S1000000, .f32⟩ : BufTy).Contents (Elt F)),
    unary main_v55 main_v88 (broadcastInDim S1000000x1 ![0] bcast_S1000000_S1000000x1_0 : (⟨S1000000, .f32⟩ : BufTy).Contents (Elt F) → (⟨S1000000x1, .f32⟩ : BufTy).Contents (Elt F)),
    unary main_v61 main_v89 (broadcastInDim S1000000x1 ![0] bcast_S1000000_S1000000x1_0 : (⟨S1000000, .f32⟩ : BufTy).Contents (Elt F) → (⟨S1000000x1, .f32⟩ : BufTy).Contents (Elt F)),
    unary main_v67 main_v90 (broadcastInDim S1000000x1 ![0] bcast_S1000000_S1000000x1_0 : (⟨S1000000, .f32⟩ : BufTy).Contents (Elt F) → (⟨S1000000x1, .f32⟩ : BufTy).Contents (Elt F)),
    unary main_v71 main_v91 (broadcastInDim S1000000x1 ![0] bcast_S1000000_S1000000x1_0 : (⟨S1000000, .f32⟩ : BufTy).Contents (Elt F) → (⟨S1000000x1, .f32⟩ : BufTy).Contents (Elt F)),
    unary main_v77 main_v92 (broadcastInDim S1000000x1 ![0] bcast_S1000000_S1000000x1_0 : (⟨S1000000, .f32⟩ : BufTy).Contents (Elt F) → (⟨S1000000x1, .f32⟩ : BufTy).Contents (Elt F)),
    unary main_v81 main_v93 (broadcastInDim S1000000x1 ![0] bcast_S1000000_S1000000x1_0 : (⟨S1000000, .f32⟩ : BufTy).Contents (Elt F) → (⟨S1000000x1, .f32⟩ : BufTy).Contents (Elt F)),
    unary main_v85 main_v94 (broadcastInDim S1000000x1 ![0] bcast_S1000000_S1000000x1_0 : (⟨S1000000, .f32⟩ : BufTy).Contents (Elt F) → (⟨S1000000x1, .f32⟩ : BufTy).Contents (Elt F)),
    unary main_v87 main_v95 (broadcastInDim S1000000x1 ![0] bcast_S1000000_S1000000x1_0 : (⟨S1000000, .f32⟩ : BufTy).Contents (Elt F) → (⟨S1000000x1, .f32⟩ : BufTy).Contents (Elt F)),
    nary ![main_v88, main_v89, main_v90, main_v91, main_v92, main_v93, main_v94, main_v95] main_v96 (fun u => concatenate S1000000x8 1 [⟨S1000000x1, u 0⟩, ⟨S1000000x1, u 1⟩, ⟨S1000000x1, u 2⟩, ⟨S1000000x1, u 3⟩, ⟨S1000000x1, u 4⟩, ⟨S1000000x1, u 5⟩, ⟨S1000000x1, u 6⟩, ⟨S1000000x1, u 7⟩] concatenates_S1000000x1_S1000000x1_S1000000x1_S1000000x1_S1000000x1_S1000000x1_S1000000x1_S1000000x1_S1000000x8_d1) ]

set_option maxHeartbeats 40000000 in
/-- Operations 126 … 197 of 330, in order. -/
abbrev ops2a : List (HloOp τ sig (Elt F)) :=
  [ nullary main_cst_21 (constant S_ .f32 0xBF800000#32),
    nullary main_cst_22 (constant S_ .f32 0x3F800000#32),
    TRef.unary (.of main_cst_21 : TRef sig ⟨S_, .f32⟩) (.of main_call1_v0 : TRef sig ⟨S_, .f32⟩) id,
    TRef.unary (.of main_call1_v0 : TRef sig ⟨S_, .f32⟩) (.of main_call1_v1 : TRef sig ⟨S1000000x8, .f32⟩) (broadcastInDim S1000000x8 ![] bcast_S_S1000000x8),
    TRef.binary (.of main_call1_v1 : TRef sig ⟨S1000000x8, .f32⟩) (.of main_v41 : TRef sig ⟨S1000000x8, .f32⟩) (.of main_call1_v2 : TRef sig ⟨S1000000x8, .f32⟩) maximumf,
    TRef.unary (.of main_cst_22 : TRef sig ⟨S_, .f32⟩) (.of main_call1_v3 : TRef sig ⟨S_, .f32⟩) id,
    TRef.unary (.of main_call1_v3 : TRef sig ⟨S_, .f32⟩) (.of main_call1_v4 : TRef sig ⟨S1000000x8, .f32⟩) (broadcastInDim S1000000x8 ![] bcast_S_S1000000x8),
    TRef.binary (.of main_call1_v4 : TRef sig ⟨S1000000x8, .f32⟩) (.of main_call1_v2 : TRef sig ⟨S1000000x8, .f32⟩) (.of main_v97 : TRef sig ⟨S1000000x8, .f32⟩) minimumf,
    nullary main_cst_23 (constant S_ .f32 0x3F800000#32),
    unary main_cst_23 main_v98 (broadcastInDim S1000000x8 ![] bcast_S_S1000000x8 : (⟨S_, .f32⟩ : BufTy).Contents (Elt F) → (⟨S1000000x8, .f32⟩ : BufTy).Contents (Elt F)),
    binary main_v97 main_v98 main_v99 (addf : (⟨S1000000x8, .f32⟩ : BufTy).Contents (Elt F) → (⟨S1000000x8, .f32⟩ : BufTy).Contents (Elt F) → (⟨S1000000x8, .f32⟩ : BufTy).Contents (Elt F)),
    nullary main_cst_24 (constant S_ .f32 0x47800000#32),
    unary main_cst_24 main_v100 (broadcastInDim S1000000x8 ![] bcast_S_S1000000x8 : (⟨S_, .f32⟩ : BufTy).Contents (Elt F) → (⟨S1000000x8, .f32⟩ : BufTy).Contents (Elt F)),
    binary main_v99 main_v100 main_v101 (mulf : (⟨S1000000x8, .f32⟩ : BufTy).Contents (Elt F) → (⟨S1000000x8, .f32⟩ : BufTy).Contents (Elt F) → (⟨S1000000x8, .f32⟩ : BufTy).Contents (Elt F)),
    nullary main_cst_25 (constant S_ .f32 0x40000000#32),
    unary main_cst_25 main_v102 (broadcastInDim S1000000x8 ![] bcast_S_S1000000x8 : (⟨S_, .f32⟩ : BufTy).Contents (Elt F) → (⟨S1000000x8, .f32⟩ : BufTy).Contents (Elt F)),
    binary main_v101 main_v102 main_v103 (Host.divf : (⟨S1000000x8, .f32⟩ : BufTy).Contents (Elt F) → (⟨S1000000x8, .f32⟩ : BufTy).Contents (Elt F) → (⟨S1000000x8, .f32⟩ : BufTy).Contents (Elt F)),
    reshape main_v103 main_v104 rfl shapeCasts_S1000000x8_S8000000,
    unary main_v104 main_v105 (Host.floor : (⟨S8000000, .f32⟩ : BufTy).Contents (Elt F) → (⟨S8000000, .f32⟩ : BufTy).Contents (Elt F)),
    nullary main_c_26 (constantI S_ 32 0#32),
    nullary main_c_27 (constantI S_ 32 65535#32),
    TRef.unary (.of main_c_26 : TRef sig ⟨S_, .i32⟩) (.of main_call2_v0 : TRef sig ⟨S_, .f32⟩) (sitofp .f32),
    TRef.unary (.of main_call2_v0 : TRef sig ⟨S_, .f32⟩) (.of main_call2_v1 : TRef sig ⟨S8000000, .f32⟩) (broadcastInDim S8000000 ![] bcast_S_S8000000),
    TRef.binary (.of main_call2_v1 : TRef sig ⟨S8000000, .f32⟩) (.of main_v105 : TRef sig ⟨S8000000, .f32⟩) (.of main_call2_v2 : TRef sig ⟨S8000000, .f32⟩) maximumf,
    TRef.unary (.of main_c_27 : TRef sig ⟨S_, .i32⟩) (.of main_call2_v3 : TRef sig ⟨S_, .f32⟩) (sitofp .f32),
    TRef.unary (.of main_call2_v3 : TRef sig ⟨S_, .f32⟩) (.of main_call2_v4 : TRef sig ⟨S8000000, .f32⟩) (broadcastInDim S8000000 ![] bcast_S_S8000000),
    TRef.binary (.of main_call2_v4 : TRef sig ⟨S8000000, .f32⟩) (.of main_call2_v2 : TRef sig ⟨S8000000, .f32⟩) (.of main_v106 : TRef sig ⟨S8000000, .f32⟩) minimumf,
    unary main_v104 main_v107 (Host.ceil : (⟨S8000000, .f32⟩ : BufTy).Contents (Elt F) → (⟨S8000000, .f32⟩ : BufTy).Contents (Elt F)),
    nullary main_c_28 (constantI S_ 32 0#32),
    nullary main_c_29 (constantI S_ 32 65535#32),
    TRef.unary (.of main_c_28 : TRef sig ⟨S_, .i32⟩) (.of main_call3_v0 : TRef sig ⟨S_, .f32⟩) (sitofp .f32),
    TRef.unary (.of main_call3_v0 : TRef sig ⟨S_, .f32⟩) (.of main_call3_v1 : TRef sig ⟨S8000000, .f32⟩) (broadcastInDim S8000000 ![] bcast_S_S8000000),
    TRef.binary (.of main_call3_v1 : TRef sig ⟨S8000000, .f32⟩) (.of main_v107 : TRef sig ⟨S8000000, .f32⟩) (.of main_call3_v2 : TRef sig ⟨S8000000, .f32⟩) maximumf,
    TRef.unary (.of main_c_29 : TRef sig ⟨S_, .i32⟩) (.of main_call3_v3 : TRef sig ⟨S_, .f32⟩) (sitofp .f32),
    TRef.unary (.of main_call3_v3 : TRef sig ⟨S_, .f32⟩) (.of main_call3_v4 : TRef sig ⟨S8000000, .f32⟩) (broadcastInDim S8000000 ![] bcast_S_S8000000),
    TRef.binary (.of main_call3_v4 : TRef sig ⟨S8000000, .f32⟩) (.of main_call3_v2 : TRef sig ⟨S8000000, .f32⟩) (.of main_v108 : TRef sig ⟨S8000000, .f32⟩) minimumf,
    unary main_v106 main_v109 (fptosi 32 : (⟨S8000000, .f32⟩ : BufTy).Contents (Elt F) → (⟨S8000000, .i32⟩ : BufTy).Contents (Elt F)),
    nullary main_c_30 (constantI S_ 32 0#32),
    unary main_c_30 main_v110 (broadcastInDim S8000000 ![] bcast_S_S8000000 : (⟨S_, .i32⟩ : BufTy).Contents (Elt F) → (⟨S8000000, .i32⟩ : BufTy).Contents (Elt F)),
    binary main_v109 main_v110 main_v111 (cmpi .slt : (⟨S8000000, .i32⟩ : BufTy).Contents (Elt F) → (⟨S8000000, .i32⟩ : BufTy).Contents (Elt F) → (⟨S8000000, .i1⟩ : BufTy).Contents (Elt F)),
    nullary main_c_31 (constantI S_ 32 65536#32),
    unary main_c_31 main_v112 (broadcastInDim S8000000 ![] bcast_S_S8000000 : (⟨S_, .i32⟩ : BufTy).Contents (Elt F) → (⟨S8000000, .i32⟩ : BufTy).Contents (Elt F)),
    binary main_v109 main_v112 main_v113 (addi : (⟨S8000000, .i32⟩ : BufTy).Contents (Elt F) → (⟨S8000000, .i32⟩ : BufTy).Contents (Elt F) → (⟨S8000000, .i32⟩ : BufTy).Contents (Elt F)),
    ternary main_v111 main_v113 main_v109 main_v114 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    unary main_v114 main_v115 (broadcastInDim S8000000x1 ![0] bcast_S8000000_S8000000x1_0 : (⟨S8000000, .i32⟩ : BufTy).Contents (Elt F) → (⟨S8000000x1, .i32⟩ : BufTy).Contents (Elt F)),
    binary main_arg3 main_v115 main_v116 ((fun x i => Host.gather gather_S65536x16_S8000000x1_S8000000x16_1_0_n_n_0_1_116 x i) : (⟨S65536x16, .f32⟩ : BufTy).Contents (Elt F) → (⟨S8000000x1, .i32⟩ : BufTy).Contents (Elt F) → (⟨S8000000x16, .f32⟩ : BufTy).Contents (Elt F)),
    reshape main_v116 main_v117 rfl shapeCasts_S8000000x16_S1000000x8x16,
    binary main_v108 main_v104 main_v118 (subf : (⟨S8000000, .f32⟩ : BufTy).Contents (Elt F) → (⟨S8000000, .f32⟩ : BufTy).Contents (Elt F) → (⟨S8000000, .f32⟩ : BufTy).Contents (Elt F)),
    reshape main_v118 main_v119 rfl shapeCasts_S8000000_S1000000x8x1,
    unary main_v119 main_v120 (broadcastInDim S1000000x8x16 ![0, 1, 2] bcast_S1000000x8x1_S1000000x8x16_0_1_2 : (⟨S1000000x8x1, .f32⟩ : BufTy).Contents (Elt F) → (⟨S1000000x8x16, .f32⟩ : BufTy).Contents (Elt F)),
    binary main_v117 main_v120 main_v121 (mulf : (⟨S1000000x8x16, .f32⟩ : BufTy).Contents (Elt F) → (⟨S1000000x8x16, .f32⟩ : BufTy).Contents (Elt F) → (⟨S1000000x8x16, .f32⟩ : BufTy).Contents (Elt F)),
    unary main_v108 main_v122 (fptosi 32 : (⟨S8000000, .f32⟩ : BufTy).Contents (Elt F) → (⟨S8000000, .i32⟩ : BufTy).Contents (Elt F)),
    nullary main_c_32 (constantI S_ 32 0#32),
    unary main_c_32 main_v123 (broadcastInDim S8000000 ![] bcast_S_S8000000 : (⟨S_, .i32⟩ : BufTy).Contents (Elt F) → (⟨S8000000, .i32⟩ : BufTy).Contents (Elt F)),
    binary main_v122 main_v123 main_v124 (cmpi .slt : (⟨S8000000, .i32⟩ : BufTy).Contents (Elt F) → (⟨S8000000, .i32⟩ : BufTy).Contents (Elt F) → (⟨S8000000, .i1⟩ : BufTy).Contents (Elt F)),
    nullary main_c_33 (constantI S_ 32 65536#32),
    unary main_c_33 main_v125 (broadcastInDim S8000000 ![] bcast_S_S8000000 : (⟨S_, .i32⟩ : BufTy).Contents (Elt F) → (⟨S8000000, .i32⟩ : BufTy).Contents (Elt F)),
    binary main_v122 main_v125 main_v126 (addi : (⟨S8000000, .i32⟩ : BufTy).Contents (Elt F) → (⟨S8000000, .i32⟩ : BufTy).Contents (Elt F) → (⟨S8000000, .i32⟩ : BufTy).Contents (Elt F)),
    ternary main_v124 main_v126 main_v122 main_v127 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    unary main_v127 main_v128 (broadcastInDim S8000000x1 ![0] bcast_S8000000_S8000000x1_0 : (⟨S8000000, .i32⟩ : BufTy).Contents (Elt F) → (⟨S8000000x1, .i32⟩ : BufTy).Contents (Elt F)),
    binary main_arg3 main_v128 main_v129 ((fun x i => Host.gather gather_S65536x16_S8000000x1_S8000000x16_1_0_n_n_0_1_116 x i) : (⟨S65536x16, .f32⟩ : BufTy).Contents (Elt F) → (⟨S8000000x1, .i32⟩ : BufTy).Contents (Elt F) → (⟨S8000000x16, .f32⟩ : BufTy).Contents (Elt F)),
    reshape main_v129 main_v130 rfl shapeCasts_S8000000x16_S1000000x8x16,
    binary main_v104 main_v106 main_v131 (subf : (⟨S8000000, .f32⟩ : BufTy).Contents (Elt F) → (⟨S8000000, .f32⟩ : BufTy).Contents (Elt F) → (⟨S8000000, .f32⟩ : BufTy).Contents (Elt F)),
    reshape main_v131 main_v132 rfl shapeCasts_S8000000_S1000000x8x1,
    unary main_v132 main_v133 (broadcastInDim S1000000x8x16 ![0, 1, 2] bcast_S1000000x8x1_S1000000x8x16_0_1_2 : (⟨S1000000x8x1, .f32⟩ : BufTy).Contents (Elt F) → (⟨S1000000x8x16, .f32⟩ : BufTy).Contents (Elt F)),
    binary main_v130 main_v133 main_v134 (mulf : (⟨S1000000x8x16, .f32⟩ : BufTy).Contents (Elt F) → (⟨S1000000x8x16, .f32⟩ : BufTy).Contents (Elt F) → (⟨S1000000x8x16, .f32⟩ : BufTy).Contents (Elt F)),
    binary main_v121 main_v134 main_v135 (addf : (⟨S1000000x8x16, .f32⟩ : BufTy).Contents (Elt F) → (⟨S1000000x8x16, .f32⟩ : BufTy).Contents (Elt F) → (⟨S1000000x8x16, .f32⟩ : BufTy).Contents (Elt F)),
    unary main_v96 main_v136 (broadcastInDim S1000000x8x1 ![0, 1] bcast_S1000000x8_S1000000x8x1_0_1 : (⟨S1000000x8, .f32⟩ : BufTy).Contents (Elt F) → (⟨S1000000x8x1, .f32⟩ : BufTy).Contents (Elt F)),
    unary main_v136 main_v137 (broadcastInDim S1000000x8x16 ![0, 1, 2] bcast_S1000000x8x1_S1000000x8x16_0_1_2 : (⟨S1000000x8x1, .f32⟩ : BufTy).Contents (Elt F) → (⟨S1000000x8x16, .f32⟩ : BufTy).Contents (Elt F)),
    binary main_v137 main_v135 main_v138 (mulf : (⟨S1000000x8x16, .f32⟩ : BufTy).Contents (Elt F) → (⟨S1000000x8x16, .f32⟩ : BufTy).Contents (Elt F) → (⟨S1000000x8x16, .f32⟩ : BufTy).Contents (Elt F)),
    nullary main_cst_34 (constant S_ .f32 0x00000000#32),
    binary main_v138 main_cst_34 main_v139 ((fun x v => Host.reduceAdd x v reducesTo_S1000000x8x16_S1000000x16_d1 h_S_) : (⟨S1000000x8x16, .f32⟩ : BufTy).Contents (Elt F) → (⟨S_, .f32⟩ : BufTy).Contents (Elt F) → (⟨S1000000x16, .f32⟩ : BufTy).Contents (Elt F)) ]

set_option maxHeartbeats 40000000 in
/-- Operations 198 … 202 of 330, in order. -/
abbrev ops2b : List (HloOp τ sig (Elt F)) :=
  [ binary main_v139 main_arg4 main_v140 ((fun l r => Host.dotGeneral dot_S1000000x16_S16x64_S1000000x64_1_0_0_1_n_n none l r) : (⟨S1000000x16, .f32⟩ : BufTy).Contents (Elt F) → (⟨S16x64, .f32⟩ : BufTy).Contents (Elt F) → (⟨S1000000x64, .f32⟩ : BufTy).Contents (Elt F)),
    TRef.nullary (.of main_call4_cst : TRef sig ⟨S_, .f32⟩) (constant S_ .f32 0x00000000#32),
    TRef.unary (.of main_call4_cst : TRef sig ⟨S_, .f32⟩) (.of main_call4_v0 : TRef sig ⟨S1000000x64, .f32⟩) (broadcastInDim S1000000x64 ![] bcast_S_S1000000x64),
    TRef.binary (.of main_v140 : TRef sig ⟨S1000000x64, .f32⟩) (.of main_call4_v0 : TRef sig ⟨S1000000x64, .f32⟩) (.of main_v141 : TRef sig ⟨S1000000x64, .f32⟩) maximumf,
    binary main_v141 main_arg5 main_v142 ((fun l r => Host.dotGeneral dot_S1000000x64_S64x16_S1000000x16_1_0_0_1_n_n none l r) : (⟨S1000000x64, .f32⟩ : BufTy).Contents (Elt F) → (⟨S64x16, .f32⟩ : BufTy).Contents (Elt F) → (⟨S1000000x16, .f32⟩ : BufTy).Contents (Elt F)) ]

set_option maxHeartbeats 40000000 in
/-- Operations 203 … 262 of 330, in order. -/
abbrev ops3 : List (HloOp τ sig (Elt F)) :=
  [ unary main_v142 main_v143 ((extractStridedSlice S1000000x1 ![0, 0] · slices_S1000000x16_S1000000x1_0_0) : (⟨S1000000x16, .f32⟩ : BufTy).Contents (Elt F) → (⟨S1000000x1, .f32⟩ : BufTy).Contents (Elt F)),
    reshape main_v143 main_v144 rfl shapeCasts_S1000000x1_S1000000,
    unary main_arg1 main_v145 ((extractStridedSlice S1000000x1 ![0, 0] · slices_S1000000x3_S1000000x1_0_0) : (⟨S1000000x3, .f32⟩ : BufTy).Contents (Elt F) → (⟨S1000000x1, .f32⟩ : BufTy).Contents (Elt F)),
    reshape main_v145 main_v146 rfl shapeCasts_S1000000x1_S1000000,
    unary main_arg1 main_v147 ((extractStridedSlice S1000000x1 ![0, 1] · slices_S1000000x3_S1000000x1_0_1) : (⟨S1000000x3, .f32⟩ : BufTy).Contents (Elt F) → (⟨S1000000x1, .f32⟩ : BufTy).Contents (Elt F)),
    reshape main_v147 main_v148 rfl shapeCasts_S1000000x1_S1000000,
    unary main_arg1 main_v149 ((extractStridedSlice S1000000x1 ![0, 2] · slices_S1000000x3_S1000000x1_0_2) : (⟨S1000000x3, .f32⟩ : BufTy).Contents (Elt F) → (⟨S1000000x1, .f32⟩ : BufTy).Contents (Elt F)),
    reshape main_v149 main_v150 rfl shapeCasts_S1000000x1_S1000000,
    binary main_v146 main_v146 main_v151 (mulf : (⟨S1000000, .f32⟩ : BufTy).Contents (Elt F) → (⟨S1000000, .f32⟩ : BufTy).Contents (Elt F) → (⟨S1000000, .f32⟩ : BufTy).Contents (Elt F)),
    binary main_v148 main_v148 main_v152 (mulf : (⟨S1000000, .f32⟩ : BufTy).Contents (Elt F) → (⟨S1000000, .f32⟩ : BufTy).Contents (Elt F) → (⟨S1000000, .f32⟩ : BufTy).Contents (Elt F)),
    binary main_v150 main_v150 main_v153 (mulf : (⟨S1000000, .f32⟩ : BufTy).Contents (Elt F) → (⟨S1000000, .f32⟩ : BufTy).Contents (Elt F) → (⟨S1000000, .f32⟩ : BufTy).Contents (Elt F)),
    binary main_v146 main_v148 main_v154 (mulf : (⟨S1000000, .f32⟩ : BufTy).Contents (Elt F) → (⟨S1000000, .f32⟩ : BufTy).Contents (Elt F) → (⟨S1000000, .f32⟩ : BufTy).Contents (Elt F)),
    binary main_v148 main_v150 main_v155 (mulf : (⟨S1000000, .f32⟩ : BufTy).Contents (Elt F) → (⟨S1000000, .f32⟩ : BufTy).Contents (Elt F) → (⟨S1000000, .f32⟩ : BufTy).Contents (Elt F)),
    binary main_v146 main_v150 main_v156 (mulf : (⟨S1000000, .f32⟩ : BufTy).Contents (Elt F) → (⟨S1000000, .f32⟩ : BufTy).Contents (Elt F) → (⟨S1000000, .f32⟩ : BufTy).Contents (Elt F)),
    nullary main_cst_35 (constant S_ .f32 0x3E906EBB#32),
    unary main_cst_35 main_v157 (broadcastInDim S1000000 ![] bcast_S_S1000000 : (⟨S_, .f32⟩ : BufTy).Contents (Elt F) → (⟨S1000000, .f32⟩ : BufTy).Contents (Elt F)),
    nullary main_cst_36 (constant S_ .f32 0xBEFA2A1C#32),
    unary main_cst_36 main_v158 (broadcastInDim S1000000 ![] bcast_S_S1000000 : (⟨S_, .f32⟩ : BufTy).Contents (Elt F) → (⟨S1000000, .f32⟩ : BufTy).Contents (Elt F)),
    binary main_v158 main_v148 main_v159 (mulf : (⟨S1000000, .f32⟩ : BufTy).Contents (Elt F) → (⟨S1000000, .f32⟩ : BufTy).Contents (Elt F) → (⟨S1000000, .f32⟩ : BufTy).Contents (Elt F)),
    nullary main_cst_37 (constant S_ .f32 0x3EFA2A1C#32),
    unary main_cst_37 main_v160 (broadcastInDim S1000000 ![] bcast_S_S1000000 : (⟨S_, .f32⟩ : BufTy).Contents (Elt F) → (⟨S1000000, .f32⟩ : BufTy).Contents (Elt F)),
    binary main_v160 main_v150 main_v161 (mulf : (⟨S1000000, .f32⟩ : BufTy).Contents (Elt F) → (⟨S1000000, .f32⟩ : BufTy).Contents (Elt F) → (⟨S1000000, .f32⟩ : BufTy).Contents (Elt F)),
    nullary main_cst_38 (constant S_ .f32 0xBEFA2A1C#32),
    unary main_cst_38 main_v162 (broadcastInDim S1000000 ![] bcast_S_S1000000 : (⟨S_, .f32⟩ : BufTy).Contents (Elt F) → (⟨S1000000, .f32⟩ : BufTy).Contents (Elt F)),
    binary main_v162 main_v146 main_v163 (mulf : (⟨S1000000, .f32⟩ : BufTy).Contents (Elt F) → (⟨S1000000, .f32⟩ : BufTy).Contents (Elt F) → (⟨S1000000, .f32⟩ : BufTy).Contents (Elt F)),
    nullary main_cst_39 (constant S_ .f32 0x3F8BD8A1#32),
    unary main_cst_39 main_v164 (broadcastInDim S1000000 ![] bcast_S_S1000000 : (⟨S_, .f32⟩ : BufTy).Contents (Elt F) → (⟨S1000000, .f32⟩ : BufTy).Contents (Elt F)),
    binary main_v164 main_v154 main_v165 (mulf : (⟨S1000000, .f32⟩ : BufTy).Contents (Elt F) → (⟨S1000000, .f32⟩ : BufTy).Contents (Elt F) → (⟨S1000000, .f32⟩ : BufTy).Contents (Elt F)),
    nullary main_cst_40 (constant S_ .f32 0xBF8BD8A1#32),
    unary main_cst_40 main_v166 (broadcastInDim S1000000 ![] bcast_S_S1000000 : (⟨S_, .f32⟩ : BufTy).Contents (Elt F) → (⟨S1000000, .f32⟩ : BufTy).Contents (Elt F)),
    binary main_v166 main_v155 main_v167 (mulf : (⟨S1000000, .f32⟩ : BufTy).Contents (Elt F) → (⟨S1000000, .f32⟩ : BufTy).Contents (Elt F) → (⟨S1000000, .f32⟩ : BufTy).Contents (Elt F)),
    nullary main_cst_41 (constant S_ .f32 0x3F723881#32),
    unary main_cst_41 main_v168 (broadcastInDim S1000000 ![] bcast_S_S1000000 : (⟨S_, .f32⟩ : BufTy).Contents (Elt F) → (⟨S1000000, .f32⟩ : BufTy).Contents (Elt F)),
    binary main_v168 main_v153 main_v169 (mulf : (⟨S1000000, .f32⟩ : BufTy).Contents (Elt F) → (⟨S1000000, .f32⟩ : BufTy).Contents (Elt F) → (⟨S1000000, .f32⟩ : BufTy).Contents (Elt F)),
    nullary main_cst_42 (constant S_ .f32 0x3EA17B01#32),
    unary main_cst_42 main_v170 (broadcastInDim S1000000 ![] bcast_S_S1000000 : (⟨S_, .f32⟩ : BufTy).Contents (Elt F) → (⟨S1000000, .f32⟩ : BufTy).Contents (Elt F)),
    binary main_v169 main_v170 main_v171 (subf : (⟨S1000000, .f32⟩ : BufTy).Contents (Elt F) → (⟨S1000000, .f32⟩ : BufTy).Contents (Elt F) → (⟨S1000000, .f32⟩ : BufTy).Contents (Elt F)),
    nullary main_cst_43 (constant S_ .f32 0xBF8BD8A1#32),
    unary main_cst_43 main_v172 (broadcastInDim S1000000 ![] bcast_S_S1000000 : (⟨S_, .f32⟩ : BufTy).Contents (Elt F) → (⟨S1000000, .f32⟩ : BufTy).Contents (Elt F)),
    binary main_v172 main_v156 main_v173 (mulf : (⟨S1000000, .f32⟩ : BufTy).Contents (Elt F) → (⟨S1000000, .f32⟩ : BufTy).Contents (Elt F) → (⟨S1000000, .f32⟩ : BufTy).Contents (Elt F)),
    binary main_v151 main_v152 main_v174 (subf : (⟨S1000000, .f32⟩ : BufTy).Contents (Elt F) → (⟨S1000000, .f32⟩ : BufTy).Contents (Elt F) → (⟨S1000000, .f32⟩ : BufTy).Contents (Elt F)),
    nullary main_cst_44 (constant S_ .f32 0x3F0BD8A1#32),
    unary main_cst_44 main_v175 (broadcastInDim S1000000 ![] bcast_S_S1000000 : (⟨S_, .f32⟩ : BufTy).Contents (Elt F) → (⟨S1000000, .f32⟩ : BufTy).Contents (Elt F)),
    binary main_v175 main_v174 main_v176 (mulf : (⟨S1000000, .f32⟩ : BufTy).Contents (Elt F) → (⟨S1000000, .f32⟩ : BufTy).Contents (Elt F) → (⟨S1000000, .f32⟩ : BufTy).Contents (Elt F)),
    nullary main_cst_45 (constant S_ .f32 0x3F170D19#32),
    unary main_cst_45 main_v177 (broadcastInDim S1000000 ![] bcast_S_S1000000 : (⟨S_, .f32⟩ : BufTy).Contents (Elt F) → (⟨S1000000, .f32⟩ : BufTy).Contents (Elt F)),
    binary main_v177 main_v148 main_v178 (mulf : (⟨S1000000, .f32⟩ : BufTy).Contents (Elt F) → (⟨S1000000, .f32⟩ : BufTy).Contents (Elt F) → (⟨S1000000, .f32⟩ : BufTy).Contents (Elt F)),
    nullary main_cst_46 (constant S_ .f32 0xC0400000#32),
    unary main_cst_46 main_v179 (broadcastInDim S1000000 ![] bcast_S_S1000000 : (⟨S_, .f32⟩ : BufTy).Contents (Elt F) → (⟨S1000000, .f32⟩ : BufTy).Contents (Elt F)),
    binary main_v179 main_v151 main_v180 (mulf : (⟨S1000000, .f32⟩ : BufTy).Contents (Elt F) → (⟨S1000000, .f32⟩ : BufTy).Contents (Elt F) → (⟨S1000000, .f32⟩ : BufTy).Contents (Elt F)),
    binary main_v180 main_v152 main_v181 (addf : (⟨S1000000, .f32⟩ : BufTy).Contents (Elt F) → (⟨S1000000, .f32⟩ : BufTy).Contents (Elt F) → (⟨S1000000, .f32⟩ : BufTy).Contents (Elt F)),
    binary main_v178 main_v181 main_v182 (mulf : (⟨S1000000, .f32⟩ : BufTy).Contents (Elt F) → (⟨S1000000, .f32⟩ : BufTy).Contents (Elt F) → (⟨S1000000, .f32⟩ : BufTy).Contents (Elt F)),
    nullary main_cst_47 (constant S_ .f32 0x4038FFC7#32),
    unary main_cst_47 main_v183 (broadcastInDim S1000000 ![] bcast_S_S1000000 : (⟨S_, .f32⟩ : BufTy).Contents (Elt F) → (⟨S1000000, .f32⟩ : BufTy).Contents (Elt F)),
    binary main_v183 main_v154 main_v184 (mulf : (⟨S1000000, .f32⟩ : BufTy).Contents (Elt F) → (⟨S1000000, .f32⟩ : BufTy).Contents (Elt F) → (⟨S1000000, .f32⟩ : BufTy).Contents (Elt F)),
    binary main_v184 main_v150 main_v185 (mulf : (⟨S1000000, .f32⟩ : BufTy).Contents (Elt F) → (⟨S1000000, .f32⟩ : BufTy).Contents (Elt F) → (⟨S1000000, .f32⟩ : BufTy).Contents (Elt F)),
    nullary main_cst_48 (constant S_ .f32 0x3EEA01E8#32),
    unary main_cst_48 main_v186 (broadcastInDim S1000000 ![] bcast_S_S1000000 : (⟨S_, .f32⟩ : BufTy).Contents (Elt F) → (⟨S1000000, .f32⟩ : BufTy).Contents (Elt F)),
    binary main_v186 main_v148 main_v187 (mulf : (⟨S1000000, .f32⟩ : BufTy).Contents (Elt F) → (⟨S1000000, .f32⟩ : BufTy).Contents (Elt F) → (⟨S1000000, .f32⟩ : BufTy).Contents (Elt F)),
    nullary main_cst_49 (constant S_ .f32 0x40A00000#32) ]

set_option maxHeartbeats 40000000 in
/-- Operations 263 … 322 of 330, in order. -/
abbrev ops4 : List (HloOp τ sig (Elt F)) :=
  [ unary main_cst_49 main_v188 (broadcastInDim S1000000 ![] bcast_S_S1000000 : (⟨S_, .f32⟩ : BufTy).Contents (Elt F) → (⟨S1000000, .f32⟩ : BufTy).Contents (Elt F)),
    binary main_v188 main_v153 main_v189 (mulf : (⟨S1000000, .f32⟩ : BufTy).Contents (Elt F) → (⟨S1000000, .f32⟩ : BufTy).Contents (Elt F) → (⟨S1000000, .f32⟩ : BufTy).Contents (Elt F)),
    nullary main_cst_50 (constant S_ .f32 0x3F800000#32),
    unary main_cst_50 main_v190 (broadcastInDim S1000000 ![] bcast_S_S1000000 : (⟨S_, .f32⟩ : BufTy).Contents (Elt F) → (⟨S1000000, .f32⟩ : BufTy).Contents (Elt F)),
    binary main_v190 main_v189 main_v191 (subf : (⟨S1000000, .f32⟩ : BufTy).Contents (Elt F) → (⟨S1000000, .f32⟩ : BufTy).Contents (Elt F) → (⟨S1000000, .f32⟩ : BufTy).Contents (Elt F)),
    binary main_v187 main_v191 main_v192 (mulf : (⟨S1000000, .f32⟩ : BufTy).Contents (Elt F) → (⟨S1000000, .f32⟩ : BufTy).Contents (Elt F) → (⟨S1000000, .f32⟩ : BufTy).Contents (Elt F)),
    nullary main_cst_51 (constant S_ .f32 0x3EBF10F8#32),
    unary main_cst_51 main_v193 (broadcastInDim S1000000 ![] bcast_S_S1000000 : (⟨S_, .f32⟩ : BufTy).Contents (Elt F) → (⟨S1000000, .f32⟩ : BufTy).Contents (Elt F)),
    binary main_v193 main_v150 main_v194 (mulf : (⟨S1000000, .f32⟩ : BufTy).Contents (Elt F) → (⟨S1000000, .f32⟩ : BufTy).Contents (Elt F) → (⟨S1000000, .f32⟩ : BufTy).Contents (Elt F)),
    nullary main_cst_52 (constant S_ .f32 0x40A00000#32),
    unary main_cst_52 main_v195 (broadcastInDim S1000000 ![] bcast_S_S1000000 : (⟨S_, .f32⟩ : BufTy).Contents (Elt F) → (⟨S1000000, .f32⟩ : BufTy).Contents (Elt F)),
    binary main_v195 main_v153 main_v196 (mulf : (⟨S1000000, .f32⟩ : BufTy).Contents (Elt F) → (⟨S1000000, .f32⟩ : BufTy).Contents (Elt F) → (⟨S1000000, .f32⟩ : BufTy).Contents (Elt F)),
    nullary main_cst_53 (constant S_ .f32 0x40400000#32),
    unary main_cst_53 main_v197 (broadcastInDim S1000000 ![] bcast_S_S1000000 : (⟨S_, .f32⟩ : BufTy).Contents (Elt F) → (⟨S1000000, .f32⟩ : BufTy).Contents (Elt F)),
    binary main_v196 main_v197 main_v198 (subf : (⟨S1000000, .f32⟩ : BufTy).Contents (Elt F) → (⟨S1000000, .f32⟩ : BufTy).Contents (Elt F) → (⟨S1000000, .f32⟩ : BufTy).Contents (Elt F)),
    binary main_v194 main_v198 main_v199 (mulf : (⟨S1000000, .f32⟩ : BufTy).Contents (Elt F) → (⟨S1000000, .f32⟩ : BufTy).Contents (Elt F) → (⟨S1000000, .f32⟩ : BufTy).Contents (Elt F)),
    nullary main_cst_54 (constant S_ .f32 0x3EEA01E8#32),
    unary main_cst_54 main_v200 (broadcastInDim S1000000 ![] bcast_S_S1000000 : (⟨S_, .f32⟩ : BufTy).Contents (Elt F) → (⟨S1000000, .f32⟩ : BufTy).Contents (Elt F)),
    binary main_v200 main_v146 main_v201 (mulf : (⟨S1000000, .f32⟩ : BufTy).Contents (Elt F) → (⟨S1000000, .f32⟩ : BufTy).Contents (Elt F) → (⟨S1000000, .f32⟩ : BufTy).Contents (Elt F)),
    nullary main_cst_55 (constant S_ .f32 0x40A00000#32),
    unary main_cst_55 main_v202 (broadcastInDim S1000000 ![] bcast_S_S1000000 : (⟨S_, .f32⟩ : BufTy).Contents (Elt F) → (⟨S1000000, .f32⟩ : BufTy).Contents (Elt F)),
    binary main_v202 main_v153 main_v203 (mulf : (⟨S1000000, .f32⟩ : BufTy).Contents (Elt F) → (⟨S1000000, .f32⟩ : BufTy).Contents (Elt F) → (⟨S1000000, .f32⟩ : BufTy).Contents (Elt F)),
    nullary main_cst_56 (constant S_ .f32 0x3F800000#32),
    unary main_cst_56 main_v204 (broadcastInDim S1000000 ![] bcast_S_S1000000 : (⟨S_, .f32⟩ : BufTy).Contents (Elt F) → (⟨S1000000, .f32⟩ : BufTy).Contents (Elt F)),
    binary main_v204 main_v203 main_v205 (subf : (⟨S1000000, .f32⟩ : BufTy).Contents (Elt F) → (⟨S1000000, .f32⟩ : BufTy).Contents (Elt F) → (⟨S1000000, .f32⟩ : BufTy).Contents (Elt F)),
    binary main_v201 main_v205 main_v206 (mulf : (⟨S1000000, .f32⟩ : BufTy).Contents (Elt F) → (⟨S1000000, .f32⟩ : BufTy).Contents (Elt F) → (⟨S1000000, .f32⟩ : BufTy).Contents (Elt F)),
    nullary main_cst_57 (constant S_ .f32 0x3FB8FFC7#32),
    unary main_cst_57 main_v207 (broadcastInDim S1000000 ![] bcast_S_S1000000 : (⟨S_, .f32⟩ : BufTy).Contents (Elt F) → (⟨S1000000, .f32⟩ : BufTy).Contents (Elt F)),
    binary main_v207 main_v150 main_v208 (mulf : (⟨S1000000, .f32⟩ : BufTy).Contents (Elt F) → (⟨S1000000, .f32⟩ : BufTy).Contents (Elt F) → (⟨S1000000, .f32⟩ : BufTy).Contents (Elt F)),
    binary main_v151 main_v152 main_v209 (subf : (⟨S1000000, .f32⟩ : BufTy).Contents (Elt F) → (⟨S1000000, .f32⟩ : BufTy).Contents (Elt F) → (⟨S1000000, .f32⟩ : BufTy).Contents (Elt F)),
    binary main_v208 main_v209 main_v210 (mulf : (⟨S1000000, .f32⟩ : BufTy).Contents (Elt F) → (⟨S1000000, .f32⟩ : BufTy).Contents (Elt F) → (⟨S1000000, .f32⟩ : BufTy).Contents (Elt F)),
    nullary main_cst_58 (constant S_ .f32 0x3F170D19#32),
    unary main_cst_58 main_v211 (broadcastInDim S1000000 ![] bcast_S_S1000000 : (⟨S_, .f32⟩ : BufTy).Contents (Elt F) → (⟨S1000000, .f32⟩ : BufTy).Contents (Elt F)),
    binary main_v211 main_v146 main_v212 (mulf : (⟨S1000000, .f32⟩ : BufTy).Contents (Elt F) → (⟨S1000000, .f32⟩ : BufTy).Contents (Elt F) → (⟨S1000000, .f32⟩ : BufTy).Contents (Elt F)),
    unary main_v151 main_v213 (Host.negf : (⟨S1000000, .f32⟩ : BufTy).Contents (Elt F) → (⟨S1000000, .f32⟩ : BufTy).Contents (Elt F)),
    nullary main_cst_59 (constant S_ .f32 0x40400000#32),
    unary main_cst_59 main_v214 (broadcastInDim S1000000 ![] bcast_S_S1000000 : (⟨S_, .f32⟩ : BufTy).Contents (Elt F) → (⟨S1000000, .f32⟩ : BufTy).Contents (Elt F)),
    binary main_v214 main_v152 main_v215 (mulf : (⟨S1000000, .f32⟩ : BufTy).Contents (Elt F) → (⟨S1000000, .f32⟩ : BufTy).Contents (Elt F) → (⟨S1000000, .f32⟩ : BufTy).Contents (Elt F)),
    binary main_v213 main_v215 main_v216 (addf : (⟨S1000000, .f32⟩ : BufTy).Contents (Elt F) → (⟨S1000000, .f32⟩ : BufTy).Contents (Elt F) → (⟨S1000000, .f32⟩ : BufTy).Contents (Elt F)),
    binary main_v212 main_v216 main_v217 (mulf : (⟨S1000000, .f32⟩ : BufTy).Contents (Elt F) → (⟨S1000000, .f32⟩ : BufTy).Contents (Elt F) → (⟨S1000000, .f32⟩ : BufTy).Contents (Elt F)),
    unary main_v157 main_v218 (broadcastInDim S1000000x1 ![0] bcast_S1000000_S1000000x1_0 : (⟨S1000000, .f32⟩ : BufTy).Contents (Elt F) → (⟨S1000000x1, .f32⟩ : BufTy).Contents (Elt F)),
    unary main_v159 main_v219 (broadcastInDim S1000000x1 ![0] bcast_S1000000_S1000000x1_0 : (⟨S1000000, .f32⟩ : BufTy).Contents (Elt F) → (⟨S1000000x1, .f32⟩ : BufTy).Contents (Elt F)),
    unary main_v161 main_v220 (broadcastInDim S1000000x1 ![0] bcast_S1000000_S1000000x1_0 : (⟨S1000000, .f32⟩ : BufTy).Contents (Elt F) → (⟨S1000000x1, .f32⟩ : BufTy).Contents (Elt F)),
    unary main_v163 main_v221 (broadcastInDim S1000000x1 ![0] bcast_S1000000_S1000000x1_0 : (⟨S1000000, .f32⟩ : BufTy).Contents (Elt F) → (⟨S1000000x1, .f32⟩ : BufTy).Contents (Elt F)),
    unary main_v165 main_v222 (broadcastInDim S1000000x1 ![0] bcast_S1000000_S1000000x1_0 : (⟨S1000000, .f32⟩ : BufTy).Contents (Elt F) → (⟨S1000000x1, .f32⟩ : BufTy).Contents (Elt F)),
    unary main_v167 main_v223 (broadcastInDim S1000000x1 ![0] bcast_S1000000_S1000000x1_0 : (⟨S1000000, .f32⟩ : BufTy).Contents (Elt F) → (⟨S1000000x1, .f32⟩ : BufTy).Contents (Elt F)),
    unary main_v171 main_v224 (broadcastInDim S1000000x1 ![0] bcast_S1000000_S1000000x1_0 : (⟨S1000000, .f32⟩ : BufTy).Contents (Elt F) → (⟨S1000000x1, .f32⟩ : BufTy).Contents (Elt F)),
    unary main_v173 main_v225 (broadcastInDim S1000000x1 ![0] bcast_S1000000_S1000000x1_0 : (⟨S1000000, .f32⟩ : BufTy).Contents (Elt F) → (⟨S1000000x1, .f32⟩ : BufTy).Contents (Elt F)),
    unary main_v176 main_v226 (broadcastInDim S1000000x1 ![0] bcast_S1000000_S1000000x1_0 : (⟨S1000000, .f32⟩ : BufTy).Contents (Elt F) → (⟨S1000000x1, .f32⟩ : BufTy).Contents (Elt F)),
    unary main_v182 main_v227 (broadcastInDim S1000000x1 ![0] bcast_S1000000_S1000000x1_0 : (⟨S1000000, .f32⟩ : BufTy).Contents (Elt F) → (⟨S1000000x1, .f32⟩ : BufTy).Contents (Elt F)),
    unary main_v185 main_v228 (broadcastInDim S1000000x1 ![0] bcast_S1000000_S1000000x1_0 : (⟨S1000000, .f32⟩ : BufTy).Contents (Elt F) → (⟨S1000000x1, .f32⟩ : BufTy).Contents (Elt F)),
    unary main_v192 main_v229 (broadcastInDim S1000000x1 ![0] bcast_S1000000_S1000000x1_0 : (⟨S1000000, .f32⟩ : BufTy).Contents (Elt F) → (⟨S1000000x1, .f32⟩ : BufTy).Contents (Elt F)),
    unary main_v199 main_v230 (broadcastInDim S1000000x1 ![0] bcast_S1000000_S1000000x1_0 : (⟨S1000000, .f32⟩ : BufTy).Contents (Elt F) → (⟨S1000000x1, .f32⟩ : BufTy).Contents (Elt F)),
    unary main_v206 main_v231 (broadcastInDim S1000000x1 ![0] bcast_S1000000_S1000000x1_0 : (⟨S1000000, .f32⟩ : BufTy).Contents (Elt F) → (⟨S1000000x1, .f32⟩ : BufTy).Contents (Elt F)),
    unary main_v210 main_v232 (broadcastInDim S1000000x1 ![0] bcast_S1000000_S1000000x1_0 : (⟨S1000000, .f32⟩ : BufTy).Contents (Elt F) → (⟨S1000000x1, .f32⟩ : BufTy).Contents (Elt F)),
    unary main_v217 main_v233 (broadcastInDim S1000000x1 ![0] bcast_S1000000_S1000000x1_0 : (⟨S1000000, .f32⟩ : BufTy).Contents (Elt F) → (⟨S1000000x1, .f32⟩ : BufTy).Contents (Elt F)),
    nary ![main_v218, main_v219, main_v220, main_v221, main_v222, main_v223, main_v224, main_v225, main_v226, main_v227, main_v228, main_v229, main_v230, main_v231, main_v232, main_v233] main_v234 (fun u => concatenate S1000000x16 1 [⟨S1000000x1, u 0⟩, ⟨S1000000x1, u 1⟩, ⟨S1000000x1, u 2⟩, ⟨S1000000x1, u 3⟩, ⟨S1000000x1, u 4⟩, ⟨S1000000x1, u 5⟩, ⟨S1000000x1, u 6⟩, ⟨S1000000x1, u 7⟩, ⟨S1000000x1, u 8⟩, ⟨S1000000x1, u 9⟩, ⟨S1000000x1, u 10⟩, ⟨S1000000x1, u 11⟩, ⟨S1000000x1, u 12⟩, ⟨S1000000x1, u 13⟩, ⟨S1000000x1, u 14⟩, ⟨S1000000x1, u 15⟩] concatenates_S1000000x1_S1000000x1_S1000000x1_S1000000x1_S1000000x1_S1000000x1_S1000000x1_S1000000x1_S1000000x1_S1000000x1_S1000000x1_S1000000x1_S1000000x1_S1000000x1_S1000000x1_S1000000x1_S1000000x16_d1),
    unary main_v142 main_v235 ((extractStridedSlice S1000000x15 ![0, 1] · slices_S1000000x16_S1000000x15_0_1) : (⟨S1000000x16, .f32⟩ : BufTy).Contents (Elt F) → (⟨S1000000x15, .f32⟩ : BufTy).Contents (Elt F)),
    binary main_v234 main_v235 main_v236 ((fun a b => concatenate S1000000x31 1 [⟨S1000000x16, a⟩, ⟨S1000000x15, b⟩] concatenates_S1000000x16_S1000000x15_S1000000x31_d1) : (⟨S1000000x16, .f32⟩ : BufTy).Contents (Elt F) → (⟨S1000000x15, .f32⟩ : BufTy).Contents (Elt F) → (⟨S1000000x31, .f32⟩ : BufTy).Contents (Elt F)),
    binary main_v236 main_arg6 main_v237 ((fun l r => Host.dotGeneral dot_S1000000x31_S31x64_S1000000x64_1_0_0_1_n_n none l r) : (⟨S1000000x31, .f32⟩ : BufTy).Contents (Elt F) → (⟨S31x64, .f32⟩ : BufTy).Contents (Elt F) → (⟨S1000000x64, .f32⟩ : BufTy).Contents (Elt F)) ]

set_option maxHeartbeats 40000000 in
/-- Operations 323 … 330 of 330, in order. -/
abbrev ops5 : List (HloOp τ sig (Elt F)) :=
  [ TRef.nullary (.of main_call5_cst : TRef sig ⟨S_, .f32⟩) (constant S_ .f32 0x00000000#32),
    TRef.unary (.of main_call5_cst : TRef sig ⟨S_, .f32⟩) (.of main_call5_v0 : TRef sig ⟨S1000000x64, .f32⟩) (broadcastInDim S1000000x64 ![] bcast_S_S1000000x64),
    TRef.binary (.of main_v237 : TRef sig ⟨S1000000x64, .f32⟩) (.of main_call5_v0 : TRef sig ⟨S1000000x64, .f32⟩) (.of main_v238 : TRef sig ⟨S1000000x64, .f32⟩) maximumf,
    binary main_v238 main_arg7 main_v239 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    TRef.nullary (.of main_call6_cst : TRef sig ⟨S_, .f32⟩) (constant S_ .f32 0x00000000#32),
    TRef.unary (.of main_call6_cst : TRef sig ⟨S_, .f32⟩) (.of main_call6_v0 : TRef sig ⟨S1000000x64, .f32⟩) (broadcastInDim S1000000x64 ![] bcast_S_S1000000x64),
    TRef.binary (.of main_v239 : TRef sig ⟨S1000000x64, .f32⟩) (.of main_call6_v0 : TRef sig ⟨S1000000x64, .f32⟩) (.of main_v240 : TRef sig ⟨S1000000x64, .f32⟩) maximumf,
    binary main_v240 main_arg8 main_v241 ((fun l r => Host.dotGeneral dot_S1000000x64_S64x3_S1000000x3_1_0_0_1_n_n none l r) : (⟨S1000000x64, .f32⟩ : BufTy).Contents (Elt F) → (⟨S64x3, .f32⟩ : BufTy).Contents (Elt F) → (⟨S1000000x3, .f32⟩ : BufTy).Contents (Elt F)) ]

/-- The operations up to and including the sum across the eight corners (the sixteen encoding columns). -/
abbrev opsA : List (HloOp τ sig (Elt F)) := ops0 ++ (ops1 ++ ops2a)

/-- The operations after it: the two small networks. -/
abbrev opsB : List (HloOp τ sig (Elt F)) := ops2b ++ (ops3 ++ (ops4 ++ ops5))

/-- All 330 operations, in order. -/
abbrev ops : List (HloOp τ sig (Elt F)) := opsA ++ opsB

/-! ## The program is the list run in order -/

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq ops1 := rfl
set_option maxRecDepth 8192 in
set_option maxHeartbeats 4000000 in
theorem main_part2_eq (c : Dev nD) : main_part2 (F := F) c = seq (ops2a ++ ops2b) := rfl
set_option maxRecDepth 8192 in
set_option maxHeartbeats 4000000 in
theorem main_part3_eq (c : Dev nD) : main_part3 (F := F) c = seq ops3 := rfl
set_option maxRecDepth 8192 in
set_option maxHeartbeats 4000000 in
theorem main_part4_eq (c : Dev nD) : main_part4 (F := F) c = seq ops4 := rfl
set_option maxRecDepth 8192 in
set_option maxHeartbeats 4000000 in
theorem main_part5_eq (c : Dev nD) : main_part5 (F := F) c = seq ops5 := rfl

theorem main_eq (c : Dev nD) : main (F := F) c = seq ops := by
  have h : main (F := F) c = (main_part0 c >>= fun _ => main_part1 c >>= fun _ => main_part2 c >>= fun _ =>
      main_part3 c >>= fun _ => main_part4 c >>= fun _ => main_part5 c) := rfl
  rw [h, main_part0_eq c, main_part1_eq c, main_part2_eq c, main_part3_eq c, main_part4_eq c, main_part5_eq c]
  simp only [ops, opsA, opsB, seq_append, bind_assoc]

/-! ## Every operation touches TensorCore buffers only, and determines what it writes -/

set_option maxRecDepth 8192 in
theorem ops0_sub : (ops0 : List (HloOp τ sig (Elt F))).Forall fun op => op.bufs ⊆ tcRefs τ sig :=
  ⟨nullary_bufs_sub .., unary_bufs_sub .., unary_bufs_sub .., nullary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., reshape_bufs_sub .., binary_bufs_sub .., unary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., unary_bufs_sub .., unary_bufs_sub .., nary_bufs_sub .., binary_bufs_sub .., unary_bufs_sub .., reshape_bufs_sub .., unary_bufs_sub .., reshape_bufs_sub .., unary_bufs_sub .., reshape_bufs_sub .., nullary_bufs_sub ..⟩
set_option maxRecDepth 8192 in
theorem ops1_sub : (ops1 : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., unary_bufs_sub .., unary_bufs_sub .., unary_bufs_sub .., unary_bufs_sub .., unary_bufs_sub .., unary_bufs_sub .., unary_bufs_sub .., unary_bufs_sub .., nary_bufs_sub ..⟩
set_option maxRecDepth 8192 in
theorem ops2a_sub : (ops2a : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., reshape_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., reshape_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., reshape_bufs_sub .., unary_bufs_sub .., binary_bufs_sub .., binary_bufs_sub .., unary_bufs_sub .., unary_bufs_sub .., binary_bufs_sub .., nullary_bufs_sub .., binary_bufs_sub ..⟩
set_option maxRecDepth 8192 in
theorem ops2b_sub : (ops2b : List (HloOp τ sig (Elt F))).Forall fun op => op.bufs ⊆ tcRefs τ sig :=
  ⟨binary_bufs_sub .., nullary_bufs_sub .., unary_bufs_sub .., binary_bufs_sub .., binary_bufs_sub ..⟩
set_option maxRecDepth 8192 in
theorem ops3_sub : (ops3 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., binary_bufs_sub .., nullary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., nullary_bufs_sub ..⟩
set_option maxRecDepth 8192 in
theorem ops4_sub : (ops4 : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., unary_bufs_sub .., nullary_bufs_sub .., unary_bufs_sub .., binary_bufs_sub .., binary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., binary_bufs_sub .., binary_bufs_sub ..⟩
set_option maxRecDepth 8192 in
theorem ops5_sub : (ops5 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, opsA, opsB, List.mem_append] at h
    rcases h with (h | h | h) | (h | h | h | h)
    exacts [List.forall_iff_forall_mem.mp ops0_sub op h, List.forall_iff_forall_mem.mp ops1_sub op h, List.forall_iff_forall_mem.mp ops2a_sub op h, List.forall_iff_forall_mem.mp ops2b_sub op h, List.forall_iff_forall_mem.mp ops3_sub op h, List.forall_iff_forall_mem.mp ops4_sub op h, List.forall_iff_forall_mem.mp ops5_sub op h]

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops2a_fresh : (ops2a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops2b_fresh : (ops2b : List (HloOp τ sig (Elt F))).Forall fun op => op.fresh = ∅ :=
  ⟨rfl, rfl, rfl, rfl, rfl⟩
set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops5_fresh : (ops5 : List (HloOp τ sig (Elt F))).Forall fun op => op.fresh = ∅ :=
  ⟨rfl, rfl, rfl, rfl, rfl, rfl, rfl, rfl⟩

theorem ops_fresh : ∀ op ∈ (ops : List (HloOp τ sig (Elt F))), op.fresh = ∅ := fun op h => by
  simp only [ops, opsA, opsB, List.mem_append] at h
  rcases h with (h | h | h) | (h | h | h | h)
  exacts [List.forall_iff_forall_mem.mp ops0_fresh op h, List.forall_iff_forall_mem.mp ops1_fresh op h, List.forall_iff_forall_mem.mp ops2a_fresh op h, List.forall_iff_forall_mem.mp ops2b_fresh op h, List.forall_iff_forall_mem.mp ops3_fresh op h, List.forall_iff_forall_mem.mp ops4_fresh op h, List.forall_iff_forall_mem.mp ops5_fresh op h]

/-! ## The run -/

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of
    the host function terminates, and every final state has each TensorCore buffer at the fold of the
    operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

/-- The fold over the whole list is the fold over the second stretch from the fold over the first. -/
theorem after_ops (V : Valuation τ sig (Elt F)) : after ops V = after opsB (after opsA V) :=
  StableHlo.after_append opsA opsB V

/-! ## No operation writes an argument -/

/-- A single written buffer that is in a list of references lies in that list's set of device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers `ops0` writes, in order. -/
abbrev ops0_W : List (Ref sig .tc) := [main_cst, main_v0, main_v1, main_cst_0, main_v2, main_v3, main_v4, main_v5, main_v6, main_v7, main_cst_1, main_c, main_call0_v0, main_call0_v1, main_call0_v2, main_call0_v3, main_call0_v4, main_v8, main_v9, main_v10, main_v11, main_v12, main_v13, main_v14, main_v15, main_v16, main_v17, main_v18, main_c_2, main_v19, main_v20, main_c_3, main_v21, main_v22, main_v23, main_c_4, main_v24, main_v25, main_c_5, main_v26, main_v27, main_v28, main_c_6, main_v29, main_v30, main_c_7, main_v31, main_v32, main_v33, main_c_8, main_v34, main_v35, main_v36, main_v37, main_v38, main_v39, main_v40, main_v41, main_v42, main_v43, main_v44, main_v45, main_v46, main_v47, main_cst_9]
set_option maxRecDepth 8192 in
set_option maxHeartbeats 4000000 in
theorem ops0_writes : (ops0 : List (HloOp τ sig (Elt F))).Forall fun op =>
    op.writes ⊆ (ops0_W.map (Proc.devRef (τ := τ) .tc)).toFinset :=
  ⟨single_sub_of_mem (y := main_cst) (by decide), single_sub_of_mem (y := main_v0) (by decide), single_sub_of_mem (y := main_v1) (by decide), single_sub_of_mem (y := main_cst_0) (by decide), single_sub_of_mem (y := main_v2) (by decide), single_sub_of_mem (y := main_v3) (by decide), single_sub_of_mem (y := main_v4) (by decide), single_sub_of_mem (y := main_v5) (by decide), single_sub_of_mem (y := main_v6) (by decide), single_sub_of_mem (y := main_v7) (by decide), single_sub_of_mem (y := main_cst_1) (by decide), single_sub_of_mem (y := main_c) (by decide), single_sub_of_mem (y := main_call0_v0) (by decide), single_sub_of_mem (y := main_call0_v1) (by decide), single_sub_of_mem (y := main_call0_v2) (by decide), single_sub_of_mem (y := main_call0_v3) (by decide), single_sub_of_mem (y := main_call0_v4) (by decide), single_sub_of_mem (y := main_v8) (by decide), single_sub_of_mem (y := main_v9) (by decide), single_sub_of_mem (y := main_v10) (by decide), single_sub_of_mem (y := main_v11) (by decide), single_sub_of_mem (y := main_v12) (by decide), single_sub_of_mem (y := main_v13) (by decide), single_sub_of_mem (y := main_v14) (by decide), single_sub_of_mem (y := main_v15) (by decide), single_sub_of_mem (y := main_v16) (by decide), single_sub_of_mem (y := main_v17) (by decide), single_sub_of_mem (y := main_v18) (by decide), single_sub_of_mem (y := main_c_2) (by decide), single_sub_of_mem (y := main_v19) (by decide), single_sub_of_mem (y := main_v20) (by decide), single_sub_of_mem (y := main_c_3) (by decide), single_sub_of_mem (y := main_v21) (by decide), single_sub_of_mem (y := main_v22) (by decide), single_sub_of_mem (y := main_v23) (by decide), single_sub_of_mem (y := main_c_4) (by decide), single_sub_of_mem (y := main_v24) (by decide), single_sub_of_mem (y := main_v25) (by decide), single_sub_of_mem (y := main_c_5) (by decide), single_sub_of_mem (y := main_v26) (by decide), single_sub_of_mem (y := main_v27) (by decide), single_sub_of_mem (y := main_v28) (by decide), single_sub_of_mem (y := main_c_6) (by decide), single_sub_of_mem (y := main_v29) (by decide), single_sub_of_mem (y := main_v30) (by decide), single_sub_of_mem (y := main_c_7) (by decide), single_sub_of_mem (y := main_v31) (by decide), single_sub_of_mem (y := main_v32) (by decide), single_sub_of_mem (y := main_v33) (by decide), single_sub_of_mem (y := main_c_8) (by decide), single_sub_of_mem (y := main_v34) (by decide), single_sub_of_mem (y := main_v35) (by decide), single_sub_of_mem (y := main_v36) (by decide), single_sub_of_mem (y := main_v37) (by decide), single_sub_of_mem (y := main_v38) (by decide), single_sub_of_mem (y := main_v39) (by decide), single_sub_of_mem (y := main_v40) (by decide), single_sub_of_mem (y := main_v41) (by decide), single_sub_of_mem (y := main_v42) (by decide), single_sub_of_mem (y := main_v43) (by decide), single_sub_of_mem (y := main_v44) (by decide), single_sub_of_mem (y := main_v45) (by decide), single_sub_of_mem (y := main_v46) (by decide), single_sub_of_mem (y := main_v47) (by decide), single_sub_of_mem (y := main_cst_9) (by decide)⟩
/-- The buffers `ops1` writes, in order. -/
abbrev ops1_W : List (Ref sig .tc) := [main_v48, main_v49, main_cst_10, main_v50, main_v51, main_v52, main_cst_11, main_v53, main_v54, main_v55, main_cst_12, main_v56, main_v57, main_cst_13, main_v58, main_v59, main_v60, main_v61, main_cst_14, main_v62, main_v63, main_v64, main_cst_15, main_v65, main_v66, main_v67, main_cst_16, main_v68, main_v69, main_v70, main_v71, main_cst_17, main_v72, main_v73, main_v74, main_cst_18, main_v75, main_v76, main_v77, main_cst_19, main_v78, main_v79, main_v80, main_v81, main_v82, main_cst_20, main_v83, main_v84, main_v85, main_v86, main_v87, main_v88, main_v89, main_v90, main_v91, main_v92, main_v93, main_v94, main_v95, main_v96]
set_option maxRecDepth 8192 in
set_option maxHeartbeats 4000000 in
theorem ops1_writes : (ops1 : List (HloOp τ sig (Elt F))).Forall fun op =>
    op.writes ⊆ (ops1_W.map (Proc.devRef (τ := τ) .tc)).toFinset :=
  ⟨single_sub_of_mem (y := main_v48) (by decide), single_sub_of_mem (y := main_v49) (by decide), single_sub_of_mem (y := main_cst_10) (by decide), single_sub_of_mem (y := main_v50) (by decide), single_sub_of_mem (y := main_v51) (by decide), single_sub_of_mem (y := main_v52) (by decide), single_sub_of_mem (y := main_cst_11) (by decide), single_sub_of_mem (y := main_v53) (by decide), single_sub_of_mem (y := main_v54) (by decide), single_sub_of_mem (y := main_v55) (by decide), single_sub_of_mem (y := main_cst_12) (by decide), single_sub_of_mem (y := main_v56) (by decide), single_sub_of_mem (y := main_v57) (by decide), single_sub_of_mem (y := main_cst_13) (by decide), single_sub_of_mem (y := main_v58) (by decide), single_sub_of_mem (y := main_v59) (by decide), single_sub_of_mem (y := main_v60) (by decide), single_sub_of_mem (y := main_v61) (by decide), single_sub_of_mem (y := main_cst_14) (by decide), single_sub_of_mem (y := main_v62) (by decide), single_sub_of_mem (y := main_v63) (by decide), single_sub_of_mem (y := main_v64) (by decide), single_sub_of_mem (y := main_cst_15) (by decide), single_sub_of_mem (y := main_v65) (by decide), single_sub_of_mem (y := main_v66) (by decide), single_sub_of_mem (y := main_v67) (by decide), single_sub_of_mem (y := main_cst_16) (by decide), single_sub_of_mem (y := main_v68) (by decide), single_sub_of_mem (y := main_v69) (by decide), single_sub_of_mem (y := main_v70) (by decide), single_sub_of_mem (y := main_v71) (by decide), single_sub_of_mem (y := main_cst_17) (by decide), single_sub_of_mem (y := main_v72) (by decide), single_sub_of_mem (y := main_v73) (by decide), single_sub_of_mem (y := main_v74) (by decide), single_sub_of_mem (y := main_cst_18) (by decide), single_sub_of_mem (y := main_v75) (by decide), single_sub_of_mem (y := main_v76) (by decide), single_sub_of_mem (y := main_v77) (by decide), single_sub_of_mem (y := main_cst_19) (by decide), single_sub_of_mem (y := main_v78) (by decide), single_sub_of_mem (y := main_v79) (by decide), single_sub_of_mem (y := main_v80) (by decide), single_sub_of_mem (y := main_v81) (by decide), single_sub_of_mem (y := main_v82) (by decide), single_sub_of_mem (y := main_cst_20) (by decide), single_sub_of_mem (y := main_v83) (by decide), single_sub_of_mem (y := main_v84) (by decide), single_sub_of_mem (y := main_v85) (by decide), single_sub_of_mem (y := main_v86) (by decide), single_sub_of_mem (y := main_v87) (by decide), single_sub_of_mem (y := main_v88) (by decide), single_sub_of_mem (y := main_v89) (by decide), single_sub_of_mem (y := main_v90) (by decide), single_sub_of_mem (y := main_v91) (by decide), single_sub_of_mem (y := main_v92) (by decide), single_sub_of_mem (y := main_v93) (by decide), single_sub_of_mem (y := main_v94) (by decide), single_sub_of_mem (y := main_v95) (by decide), single_sub_of_mem (y := main_v96) (by decide)⟩
/-- The buffers `ops2a` writes, in order. -/
abbrev ops2a_W : List (Ref sig .tc) := [main_cst_21, main_cst_22, main_call1_v0, main_call1_v1, main_call1_v2, main_call1_v3, main_call1_v4, main_v97, main_cst_23, main_v98, main_v99, main_cst_24, main_v100, main_v101, main_cst_25, main_v102, main_v103, main_v104, main_v105, main_c_26, main_c_27, main_call2_v0, main_call2_v1, main_call2_v2, main_call2_v3, main_call2_v4, main_v106, main_v107, main_c_28, main_c_29, main_call3_v0, main_call3_v1, main_call3_v2, main_call3_v3, main_call3_v4, main_v108, main_v109, main_c_30, main_v110, main_v111, main_c_31, main_v112, main_v113, main_v114, main_v115, main_v116, main_v117, main_v118, main_v119, main_v120, main_v121, main_v122, main_c_32, main_v123, main_v124, main_c_33, main_v125, main_v126, main_v127, main_v128, main_v129, main_v130, main_v131, main_v132, main_v133, main_v134, main_v135, main_v136, main_v137, main_v138, main_cst_34, main_v139]
set_option maxRecDepth 8192 in
set_option maxHeartbeats 4000000 in
theorem ops2a_writes : (ops2a : List (HloOp τ sig (Elt F))).Forall fun op =>
    op.writes ⊆ (ops2a_W.map (Proc.devRef (τ := τ) .tc)).toFinset :=
  ⟨single_sub_of_mem (y := main_cst_21) (by decide), single_sub_of_mem (y := main_cst_22) (by decide), single_sub_of_mem (y := main_call1_v0) (by decide), single_sub_of_mem (y := main_call1_v1) (by decide), single_sub_of_mem (y := main_call1_v2) (by decide), single_sub_of_mem (y := main_call1_v3) (by decide), single_sub_of_mem (y := main_call1_v4) (by decide), single_sub_of_mem (y := main_v97) (by decide), single_sub_of_mem (y := main_cst_23) (by decide), single_sub_of_mem (y := main_v98) (by decide), single_sub_of_mem (y := main_v99) (by decide), single_sub_of_mem (y := main_cst_24) (by decide), single_sub_of_mem (y := main_v100) (by decide), single_sub_of_mem (y := main_v101) (by decide), single_sub_of_mem (y := main_cst_25) (by decide), single_sub_of_mem (y := main_v102) (by decide), single_sub_of_mem (y := main_v103) (by decide), single_sub_of_mem (y := main_v104) (by decide), single_sub_of_mem (y := main_v105) (by decide), single_sub_of_mem (y := main_c_26) (by decide), single_sub_of_mem (y := main_c_27) (by decide), single_sub_of_mem (y := main_call2_v0) (by decide), single_sub_of_mem (y := main_call2_v1) (by decide), single_sub_of_mem (y := main_call2_v2) (by decide), single_sub_of_mem (y := main_call2_v3) (by decide), single_sub_of_mem (y := main_call2_v4) (by decide), single_sub_of_mem (y := main_v106) (by decide), single_sub_of_mem (y := main_v107) (by decide), single_sub_of_mem (y := main_c_28) (by decide), single_sub_of_mem (y := main_c_29) (by decide), single_sub_of_mem (y := main_call3_v0) (by decide), single_sub_of_mem (y := main_call3_v1) (by decide), single_sub_of_mem (y := main_call3_v2) (by decide), single_sub_of_mem (y := main_call3_v3) (by decide), single_sub_of_mem (y := main_call3_v4) (by decide), single_sub_of_mem (y := main_v108) (by decide), single_sub_of_mem (y := main_v109) (by decide), single_sub_of_mem (y := main_c_30) (by decide), single_sub_of_mem (y := main_v110) (by decide), single_sub_of_mem (y := main_v111) (by decide), single_sub_of_mem (y := main_c_31) (by decide), single_sub_of_mem (y := main_v112) (by decide), single_sub_of_mem (y := main_v113) (by decide), single_sub_of_mem (y := main_v114) (by decide), single_sub_of_mem (y := main_v115) (by decide), single_sub_of_mem (y := main_v116) (by decide), single_sub_of_mem (y := main_v117) (by decide), single_sub_of_mem (y := main_v118) (by decide), single_sub_of_mem (y := main_v119) (by decide), single_sub_of_mem (y := main_v120) (by decide), single_sub_of_mem (y := main_v121) (by decide), single_sub_of_mem (y := main_v122) (by decide), single_sub_of_mem (y := main_c_32) (by decide), single_sub_of_mem (y := main_v123) (by decide), single_sub_of_mem (y := main_v124) (by decide), single_sub_of_mem (y := main_c_33) (by decide), single_sub_of_mem (y := main_v125) (by decide), single_sub_of_mem (y := main_v126) (by decide), single_sub_of_mem (y := main_v127) (by decide), single_sub_of_mem (y := main_v128) (by decide), single_sub_of_mem (y := main_v129) (by decide), single_sub_of_mem (y := main_v130) (by decide), single_sub_of_mem (y := main_v131) (by decide), single_sub_of_mem (y := main_v132) (by decide), single_sub_of_mem (y := main_v133) (by decide), single_sub_of_mem (y := main_v134) (by decide), single_sub_of_mem (y := main_v135) (by decide), single_sub_of_mem (y := main_v136) (by decide), single_sub_of_mem (y := main_v137) (by decide), single_sub_of_mem (y := main_v138) (by decide), single_sub_of_mem (y := main_cst_34) (by decide), single_sub_of_mem (y := main_v139) (by decide)⟩
/-- The buffers `ops2b` writes, in order. -/
abbrev ops2b_W : List (Ref sig .tc) := [main_v140, main_call4_cst, main_call4_v0, main_v141, main_v142]
set_option maxRecDepth 8192 in
set_option maxHeartbeats 4000000 in
theorem ops2b_writes : (ops2b : List (HloOp τ sig (Elt F))).Forall fun op =>
    op.writes ⊆ (ops2b_W.map (Proc.devRef (τ := τ) .tc)).toFinset :=
  ⟨single_sub_of_mem (y := main_v140) (by decide), single_sub_of_mem (y := main_call4_cst) (by decide), single_sub_of_mem (y := main_call4_v0) (by decide), single_sub_of_mem (y := main_v141) (by decide), single_sub_of_mem (y := main_v142) (by decide)⟩
/-- The buffers `ops3` writes, in order. -/
abbrev ops3_W : List (Ref sig .tc) := [main_v143, main_v144, main_v145, main_v146, main_v147, main_v148, main_v149, main_v150, main_v151, main_v152, main_v153, main_v154, main_v155, main_v156, main_cst_35, main_v157, main_cst_36, main_v158, main_v159, main_cst_37, main_v160, main_v161, main_cst_38, main_v162, main_v163, main_cst_39, main_v164, main_v165, main_cst_40, main_v166, main_v167, main_cst_41, main_v168, main_v169, main_cst_42, main_v170, main_v171, main_cst_43, main_v172, main_v173, main_v174, main_cst_44, main_v175, main_v176, main_cst_45, main_v177, main_v178, main_cst_46, main_v179, main_v180, main_v181, main_v182, main_cst_47, main_v183, main_v184, main_v185, main_cst_48, main_v186, main_v187, main_cst_49]
set_option maxRecDepth 8192 in
set_option maxHeartbeats 4000000 in
theorem ops3_writes : (ops3 : List (HloOp τ sig (Elt F))).Forall fun op =>
    op.writes ⊆ (ops3_W.map (Proc.devRef (τ := τ) .tc)).toFinset :=
  ⟨single_sub_of_mem (y := main_v143) (by decide), single_sub_of_mem (y := main_v144) (by decide), single_sub_of_mem (y := main_v145) (by decide), single_sub_of_mem (y := main_v146) (by decide), single_sub_of_mem (y := main_v147) (by decide), single_sub_of_mem (y := main_v148) (by decide), single_sub_of_mem (y := main_v149) (by decide), single_sub_of_mem (y := main_v150) (by decide), single_sub_of_mem (y := main_v151) (by decide), single_sub_of_mem (y := main_v152) (by decide), single_sub_of_mem (y := main_v153) (by decide), single_sub_of_mem (y := main_v154) (by decide), single_sub_of_mem (y := main_v155) (by decide), single_sub_of_mem (y := main_v156) (by decide), single_sub_of_mem (y := main_cst_35) (by decide), single_sub_of_mem (y := main_v157) (by decide), single_sub_of_mem (y := main_cst_36) (by decide), single_sub_of_mem (y := main_v158) (by decide), single_sub_of_mem (y := main_v159) (by decide), single_sub_of_mem (y := main_cst_37) (by decide), single_sub_of_mem (y := main_v160) (by decide), single_sub_of_mem (y := main_v161) (by decide), single_sub_of_mem (y := main_cst_38) (by decide), single_sub_of_mem (y := main_v162) (by decide), single_sub_of_mem (y := main_v163) (by decide), single_sub_of_mem (y := main_cst_39) (by decide), single_sub_of_mem (y := main_v164) (by decide), single_sub_of_mem (y := main_v165) (by decide), single_sub_of_mem (y := main_cst_40) (by decide), single_sub_of_mem (y := main_v166) (by decide), single_sub_of_mem (y := main_v167) (by decide), single_sub_of_mem (y := main_cst_41) (by decide), single_sub_of_mem (y := main_v168) (by decide), single_sub_of_mem (y := main_v169) (by decide), single_sub_of_mem (y := main_cst_42) (by decide), single_sub_of_mem (y := main_v170) (by decide), single_sub_of_mem (y := main_v171) (by decide), single_sub_of_mem (y := main_cst_43) (by decide), single_sub_of_mem (y := main_v172) (by decide), single_sub_of_mem (y := main_v173) (by decide), single_sub_of_mem (y := main_v174) (by decide), single_sub_of_mem (y := main_cst_44) (by decide), single_sub_of_mem (y := main_v175) (by decide), single_sub_of_mem (y := main_v176) (by decide), single_sub_of_mem (y := main_cst_45) (by decide), single_sub_of_mem (y := main_v177) (by decide), single_sub_of_mem (y := main_v178) (by decide), single_sub_of_mem (y := main_cst_46) (by decide), single_sub_of_mem (y := main_v179) (by decide), single_sub_of_mem (y := main_v180) (by decide), single_sub_of_mem (y := main_v181) (by decide), single_sub_of_mem (y := main_v182) (by decide), single_sub_of_mem (y := main_cst_47) (by decide), single_sub_of_mem (y := main_v183) (by decide), single_sub_of_mem (y := main_v184) (by decide), single_sub_of_mem (y := main_v185) (by decide), single_sub_of_mem (y := main_cst_48) (by decide), single_sub_of_mem (y := main_v186) (by decide), single_sub_of_mem (y := main_v187) (by decide), single_sub_of_mem (y := main_cst_49) (by decide)⟩
/-- The buffers `ops4` writes, in order. -/
abbrev ops4_W : List (Ref sig .tc) := [main_v188, main_v189, main_cst_50, main_v190, main_v191, main_v192, main_cst_51, main_v193, main_v194, main_cst_52, main_v195, main_v196, main_cst_53, main_v197, main_v198, main_v199, main_cst_54, main_v200, main_v201, main_cst_55, main_v202, main_v203, main_cst_56, main_v204, main_v205, main_v206, main_cst_57, main_v207, main_v208, main_v209, main_v210, main_cst_58, main_v211, main_v212, main_v213, main_cst_59, main_v214, main_v215, main_v216, main_v217, main_v218, main_v219, main_v220, main_v221, main_v222, main_v223, main_v224, main_v225, main_v226, main_v227, main_v228, main_v229, main_v230, main_v231, main_v232, main_v233, main_v234, main_v235, main_v236, main_v237]
set_option maxRecDepth 8192 in
set_option maxHeartbeats 4000000 in
theorem ops4_writes : (ops4 : List (HloOp τ sig (Elt F))).Forall fun op =>
    op.writes ⊆ (ops4_W.map (Proc.devRef (τ := τ) .tc)).toFinset :=
  ⟨single_sub_of_mem (y := main_v188) (by decide), single_sub_of_mem (y := main_v189) (by decide), single_sub_of_mem (y := main_cst_50) (by decide), single_sub_of_mem (y := main_v190) (by decide), single_sub_of_mem (y := main_v191) (by decide), single_sub_of_mem (y := main_v192) (by decide), single_sub_of_mem (y := main_cst_51) (by decide), single_sub_of_mem (y := main_v193) (by decide), single_sub_of_mem (y := main_v194) (by decide), single_sub_of_mem (y := main_cst_52) (by decide), single_sub_of_mem (y := main_v195) (by decide), single_sub_of_mem (y := main_v196) (by decide), single_sub_of_mem (y := main_cst_53) (by decide), single_sub_of_mem (y := main_v197) (by decide), single_sub_of_mem (y := main_v198) (by decide), single_sub_of_mem (y := main_v199) (by decide), single_sub_of_mem (y := main_cst_54) (by decide), single_sub_of_mem (y := main_v200) (by decide), single_sub_of_mem (y := main_v201) (by decide), single_sub_of_mem (y := main_cst_55) (by decide), single_sub_of_mem (y := main_v202) (by decide), single_sub_of_mem (y := main_v203) (by decide), single_sub_of_mem (y := main_cst_56) (by decide), single_sub_of_mem (y := main_v204) (by decide), single_sub_of_mem (y := main_v205) (by decide), single_sub_of_mem (y := main_v206) (by decide), single_sub_of_mem (y := main_cst_57) (by decide), single_sub_of_mem (y := main_v207) (by decide), single_sub_of_mem (y := main_v208) (by decide), single_sub_of_mem (y := main_v209) (by decide), single_sub_of_mem (y := main_v210) (by decide), single_sub_of_mem (y := main_cst_58) (by decide), single_sub_of_mem (y := main_v211) (by decide), single_sub_of_mem (y := main_v212) (by decide), single_sub_of_mem (y := main_v213) (by decide), single_sub_of_mem (y := main_cst_59) (by decide), single_sub_of_mem (y := main_v214) (by decide), single_sub_of_mem (y := main_v215) (by decide), single_sub_of_mem (y := main_v216) (by decide), single_sub_of_mem (y := main_v217) (by decide), single_sub_of_mem (y := main_v218) (by decide), single_sub_of_mem (y := main_v219) (by decide), single_sub_of_mem (y := main_v220) (by decide), single_sub_of_mem (y := main_v221) (by decide), single_sub_of_mem (y := main_v222) (by decide), single_sub_of_mem (y := main_v223) (by decide), single_sub_of_mem (y := main_v224) (by decide), single_sub_of_mem (y := main_v225) (by decide), single_sub_of_mem (y := main_v226) (by decide), single_sub_of_mem (y := main_v227) (by decide), single_sub_of_mem (y := main_v228) (by decide), single_sub_of_mem (y := main_v229) (by decide), single_sub_of_mem (y := main_v230) (by decide), single_sub_of_mem (y := main_v231) (by decide), single_sub_of_mem (y := main_v232) (by decide), single_sub_of_mem (y := main_v233) (by decide), single_sub_of_mem (y := main_v234) (by decide), single_sub_of_mem (y := main_v235) (by decide), single_sub_of_mem (y := main_v236) (by decide), single_sub_of_mem (y := main_v237) (by decide)⟩
/-- The buffers `ops5` writes, in order. -/
abbrev ops5_W : List (Ref sig .tc) := [main_call5_cst, main_call5_v0, main_v238, main_v239, main_call6_cst, main_call6_v0, main_v240, main_v241]
set_option maxRecDepth 8192 in
set_option maxHeartbeats 4000000 in
theorem ops5_writes : (ops5 : List (HloOp τ sig (Elt F))).Forall fun op =>
    op.writes ⊆ (ops5_W.map (Proc.devRef (τ := τ) .tc)).toFinset :=
  ⟨single_sub_of_mem (y := main_call5_cst) (by decide), single_sub_of_mem (y := main_call5_v0) (by decide), single_sub_of_mem (y := main_v238) (by decide), single_sub_of_mem (y := main_v239) (by decide), single_sub_of_mem (y := main_call6_cst) (by decide), single_sub_of_mem (y := main_call6_v0) (by decide), single_sub_of_mem (y := main_v240) (by decide), single_sub_of_mem (y := main_v241) (by decide)⟩

/-- A reference none of the seven stretches writes keeps its contents through the whole list. -/
theorem kept (V : Valuation τ sig (Elt F)) (r : Ref sig .tc) (h0 : r ∉ ops0_W) (h1 : r ∉ ops1_W) (h2 : r ∉ ops2a_W) (h3 : r ∉ ops2b_W) (h4 : r ∉ ops3_W) (h5 : r ∉ ops4_W) (h6 : r ∉ ops5_W) :
    after ops V (Proc.devRef .tc r) = V (Proc.devRef .tc r) := by
  simp only [ops, opsA, opsB, StableHlo.after_append]
  rw [after_of_writes_sub ops5 _ ops5_writes h6, after_of_writes_sub ops4 _ ops4_writes h5, after_of_writes_sub ops3 _ ops3_writes h4, after_of_writes_sub ops2b _ ops2b_writes h3, after_of_writes_sub ops2a _ ops2a_writes h2, after_of_writes_sub ops1 _ ops1_writes h1, after_of_writes_sub ops0 _ ops0_writes h0]

theorem kept_arg0 (V : Valuation τ sig (Elt F)) :
    after ops V (Proc.devRef .tc main_arg0) = V (Proc.devRef .tc main_arg0) :=
  kept V main_arg0 (by decide) (by decide) (by decide) (by decide) (by decide) (by decide) (by decide)
theorem kept_arg1 (V : Valuation τ sig (Elt F)) :
    after ops V (Proc.devRef .tc main_arg1) = V (Proc.devRef .tc main_arg1) :=
  kept V main_arg1 (by decide) (by decide) (by decide) (by decide) (by decide) (by decide) (by decide)
theorem kept_arg2 (V : Valuation τ sig (Elt F)) :
    after ops V (Proc.devRef .tc main_arg2) = V (Proc.devRef .tc main_arg2) :=
  kept V main_arg2 (by decide) (by decide) (by decide) (by decide) (by decide) (by decide) (by decide)
theorem kept_arg3 (V : Valuation τ sig (Elt F)) :
    after ops V (Proc.devRef .tc main_arg3) = V (Proc.devRef .tc main_arg3) :=
  kept V main_arg3 (by decide) (by decide) (by decide) (by decide) (by decide) (by decide) (by decide)
theorem kept_arg4 (V : Valuation τ sig (Elt F)) :
    after ops V (Proc.devRef .tc main_arg4) = V (Proc.devRef .tc main_arg4) :=
  kept V main_arg4 (by decide) (by decide) (by decide) (by decide) (by decide) (by decide) (by decide)
theorem kept_arg5 (V : Valuation τ sig (Elt F)) :
    after ops V (Proc.devRef .tc main_arg5) = V (Proc.devRef .tc main_arg5) :=
  kept V main_arg5 (by decide) (by decide) (by decide) (by decide) (by decide) (by decide) (by decide)
theorem kept_arg6 (V : Valuation τ sig (Elt F)) :
    after ops V (Proc.devRef .tc main_arg6) = V (Proc.devRef .tc main_arg6) :=
  kept V main_arg6 (by decide) (by decide) (by decide) (by decide) (by decide) (by decide) (by decide)
theorem kept_arg7 (V : Valuation τ sig (Elt F)) :
    after ops V (Proc.devRef .tc main_arg7) = V (Proc.devRef .tc main_arg7) :=
  kept V main_arg7 (by decide) (by decide) (by decide) (by decide) (by decide) (by decide) (by decide)
theorem kept_arg8 (V : Valuation τ sig (Elt F)) :
    after ops V (Proc.devRef .tc main_arg8) = V (Proc.devRef .tc main_arg8) :=
  kept V main_arg8 (by decide) (by decide) (by decide) (by decide) (by decide) (by decide) (by decide)

end Cert.ReferenceIdeal.HRun

end
-- ==== Proof.RefTail.lean ====
/- The second stretch of the reference's host function read back: from any contents of the buffers it reads
   (the sixteen encoding columns' array, the view directions, the five weight matrices), the density output and
   the colour output are the operations' composed terms. The density network's sixteen features, the
   spherical-harmonic encoding of the directions and the two outputs are named. -/
import proofs.«133790_j23845658428386_2_alg».proof.Proof.RefRun

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

/-- The density network's sixteen features: the encoding through the first matrix, the maximum with zero,
    the second matrix. -/
def refFeat (Fv : (⟨S1000000x16, .f32⟩ : BufTy).Contents (Elt F)) (W1 : (⟨S16x64, .f32⟩ : BufTy).Contents (Elt F)) (W2 : (⟨S64x16, .f32⟩ : BufTy).Contents (Elt F)) :
    (⟨S1000000x16, .f32⟩ : BufTy).Contents (Elt F) :=
  Host.dotGeneral dot_S1000000x64_S64x16_S1000000x16_1_0_0_1_n_n none (maximumf (Host.dotGeneral dot_S1000000x16_S16x64_S1000000x64_1_0_0_1_n_n none Fv W1) (broadcastInDim S1000000x64 ![] bcast_S_S1000000x64 (constant S_ .f32 0x00000000#32))) W2

/-- The three coordinates of the directions, each as a flat vector. -/
def refX (D : (⟨S1000000x3, .f32⟩ : BufTy).Contents (Elt F)) : (⟨S1000000, .f32⟩ : BufTy).Contents (Elt F) :=
  shapeCast S1000000 (extractStridedSlice S1000000x1 ![0, 0] D slices_S1000000x3_S1000000x1_0_0) shapeCasts_S1000000x1_S1000000
@[inherit_doc refX]
def refY (D : (⟨S1000000x3, .f32⟩ : BufTy).Contents (Elt F)) : (⟨S1000000, .f32⟩ : BufTy).Contents (Elt F) :=
  shapeCast S1000000 (extractStridedSlice S1000000x1 ![0, 1] D slices_S1000000x3_S1000000x1_0_1) shapeCasts_S1000000x1_S1000000
@[inherit_doc refX]
def refZ (D : (⟨S1000000x3, .f32⟩ : BufTy).Contents (Elt F)) : (⟨S1000000, .f32⟩ : BufTy).Contents (Elt F) :=
  shapeCast S1000000 (extractStridedSlice S1000000x1 ![0, 2] D slices_S1000000x3_S1000000x1_0_2) shapeCasts_S1000000x1_S1000000

/-- The sixteen spherical-harmonic columns of the directions, side by side. -/
def refEnc (D : (⟨S1000000x3, .f32⟩ : BufTy).Contents (Elt F)) : (⟨S1000000x16, .f32⟩ : BufTy).Contents (Elt F) :=
  concatenate S1000000x16 1 [⟨S1000000x1, (broadcastInDim S1000000x1 ![0] bcast_S1000000_S1000000x1_0 (broadcastInDim S1000000 ![] bcast_S_S1000000 (constant S_ .f32 0x3E906EBB#32)))⟩, ⟨S1000000x1, (broadcastInDim S1000000x1 ![0] bcast_S1000000_S1000000x1_0 (mulf (broadcastInDim S1000000 ![] bcast_S_S1000000 (constant S_ .f32 0xBEFA2A1C#32)) (refY D)))⟩, ⟨S1000000x1, (broadcastInDim S1000000x1 ![0] bcast_S1000000_S1000000x1_0 (mulf (broadcastInDim S1000000 ![] bcast_S_S1000000 (constant S_ .f32 0x3EFA2A1C#32)) (refZ D)))⟩, ⟨S1000000x1, (broadcastInDim S1000000x1 ![0] bcast_S1000000_S1000000x1_0 (mulf (broadcastInDim S1000000 ![] bcast_S_S1000000 (constant S_ .f32 0xBEFA2A1C#32)) (refX D)))⟩, ⟨S1000000x1, (broadcastInDim S1000000x1 ![0] bcast_S1000000_S1000000x1_0 (mulf (broadcastInDim S1000000 ![] bcast_S_S1000000 (constant S_ .f32 0x3F8BD8A1#32)) (mulf (refX D) (refY D))))⟩, ⟨S1000000x1, (broadcastInDim S1000000x1 ![0] bcast_S1000000_S1000000x1_0 (mulf (broadcastInDim S1000000 ![] bcast_S_S1000000 (constant S_ .f32 0xBF8BD8A1#32)) (mulf (refY D) (refZ D))))⟩, ⟨S1000000x1, (broadcastInDim S1000000x1 ![0] bcast_S1000000_S1000000x1_0 (subf (mulf (broadcastInDim S1000000 ![] bcast_S_S1000000 (constant S_ .f32 0x3F723881#32)) (mulf (refZ D) (refZ D))) (broadcastInDim S1000000 ![] bcast_S_S1000000 (constant S_ .f32 0x3EA17B01#32))))⟩, ⟨S1000000x1, (broadcastInDim S1000000x1 ![0] bcast_S1000000_S1000000x1_0 (mulf (broadcastInDim S1000000 ![] bcast_S_S1000000 (constant S_ .f32 0xBF8BD8A1#32)) (mulf (refX D) (refZ D))))⟩, ⟨S1000000x1, (broadcastInDim S1000000x1 ![0] bcast_S1000000_S1000000x1_0 (mulf (broadcastInDim S1000000 ![] bcast_S_S1000000 (constant S_ .f32 0x3F0BD8A1#32)) (subf (mulf (refX D) (refX D)) (mulf (refY D) (refY D)))))⟩, ⟨S1000000x1, (broadcastInDim S1000000x1 ![0] bcast_S1000000_S1000000x1_0 (mulf (mulf (broadcastInDim S1000000 ![] bcast_S_S1000000 (constant S_ .f32 0x3F170D19#32)) (refY D)) (addf (mulf (broadcastInDim S1000000 ![] bcast_S_S1000000 (constant S_ .f32 0xC0400000#32)) (mulf (refX D) (refX D))) (mulf (refY D) (refY D)))))⟩, ⟨S1000000x1, (broadcastInDim S1000000x1 ![0] bcast_S1000000_S1000000x1_0 (mulf (mulf (broadcastInDim S1000000 ![] bcast_S_S1000000 (constant S_ .f32 0x4038FFC7#32)) (mulf (refX D) (refY D))) (refZ D)))⟩, ⟨S1000000x1, (broadcastInDim S1000000x1 ![0] bcast_S1000000_S1000000x1_0 (mulf (mulf (broadcastInDim S1000000 ![] bcast_S_S1000000 (constant S_ .f32 0x3EEA01E8#32)) (refY D)) (subf (broadcastInDim S1000000 ![] bcast_S_S1000000 (constant S_ .f32 0x3F800000#32)) (mulf (broadcastInDim S1000000 ![] bcast_S_S1000000 (constant S_ .f32 0x40A00000#32)) (mulf (refZ D) (refZ D))))))⟩, ⟨S1000000x1, (broadcastInDim S1000000x1 ![0] bcast_S1000000_S1000000x1_0 (mulf (mulf (broadcastInDim S1000000 ![] bcast_S_S1000000 (constant S_ .f32 0x3EBF10F8#32)) (refZ D)) (subf (mulf (broadcastInDim S1000000 ![] bcast_S_S1000000 (constant S_ .f32 0x40A00000#32)) (mulf (refZ D) (refZ D))) (broadcastInDim S1000000 ![] bcast_S_S1000000 (constant S_ .f32 0x40400000#32)))))⟩, ⟨S1000000x1, (broadcastInDim S1000000x1 ![0] bcast_S1000000_S1000000x1_0 (mulf (mulf (broadcastInDim S1000000 ![] bcast_S_S1000000 (constant S_ .f32 0x3EEA01E8#32)) (refX D)) (subf (broadcastInDim S1000000 ![] bcast_S_S1000000 (constant S_ .f32 0x3F800000#32)) (mulf (broadcastInDim S1000000 ![] bcast_S_S1000000 (constant S_ .f32 0x40A00000#32)) (mulf (refZ D) (refZ D))))))⟩, ⟨S1000000x1, (broadcastInDim S1000000x1 ![0] bcast_S1000000_S1000000x1_0 (mulf (mulf (broadcastInDim S1000000 ![] bcast_S_S1000000 (constant S_ .f32 0x3FB8FFC7#32)) (refZ D)) (subf (mulf (refX D) (refX D)) (mulf (refY D) (refY D)))))⟩, ⟨S1000000x1, (broadcastInDim S1000000x1 ![0] bcast_S1000000_S1000000x1_0 (mulf (mulf (broadcastInDim S1000000 ![] bcast_S_S1000000 (constant S_ .f32 0x3F170D19#32)) (refX D)) (addf (Host.negf (mulf (refX D) (refX D))) (mulf (broadcastInDim S1000000 ![] bcast_S_S1000000 (constant S_ .f32 0x40400000#32)) (mulf (refY D) (refY D))))))⟩] concatenates_S1000000x1_S1000000x1_S1000000x1_S1000000x1_S1000000x1_S1000000x1_S1000000x1_S1000000x1_S1000000x1_S1000000x1_S1000000x1_S1000000x1_S1000000x1_S1000000x1_S1000000x1_S1000000x1_S1000000x16_d1

/-- The density output: column 0 of the features, flattened. -/
def sigTerm (Fv : (⟨S1000000x16, .f32⟩ : BufTy).Contents (Elt F)) (W1 : (⟨S16x64, .f32⟩ : BufTy).Contents (Elt F)) (W2 : (⟨S64x16, .f32⟩ : BufTy).Contents (Elt F)) :
    (⟨S1000000, .f32⟩ : BufTy).Contents (Elt F) :=
  shapeCast S1000000 (extractStridedSlice S1000000x1 ![0, 0] (refFeat Fv W1 W2) slices_S1000000x16_S1000000x1_0_0) shapeCasts_S1000000x1_S1000000

/-- The colour output: the direction encoding beside columns 1 … 15 of the features, through three matrices
    with the maximum with zero after the first two. -/
def colTerm (Fv : (⟨S1000000x16, .f32⟩ : BufTy).Contents (Elt F)) (D : (⟨S1000000x3, .f32⟩ : BufTy).Contents (Elt F)) (W1 : (⟨S16x64, .f32⟩ : BufTy).Contents (Elt F)) (W2 : (⟨S64x16, .f32⟩ : BufTy).Contents (Elt F))
    (C1 : (⟨S31x64, .f32⟩ : BufTy).Contents (Elt F)) (C2 : (⟨S64x64, .f32⟩ : BufTy).Contents (Elt F)) (C3 : (⟨S64x3, .f32⟩ : BufTy).Contents (Elt F)) : (⟨S1000000x3, .f32⟩ : BufTy).Contents (Elt F) :=
  Host.dotGeneral dot_S1000000x64_S64x3_S1000000x3_1_0_0_1_n_n none (maximumf (Host.dotGeneral dot_S1000000x64_S64x64_S1000000x64_1_0_0_1_n_n none (maximumf (Host.dotGeneral dot_S1000000x31_S31x64_S1000000x64_1_0_0_1_n_n none (concatenate S1000000x31 1 [⟨S1000000x16, (refEnc D)⟩, ⟨S1000000x15, (extractStridedSlice S1000000x15 ![0, 1] (refFeat Fv W1 W2) slices_S1000000x16_S1000000x15_0_1)⟩] concatenates_S1000000x16_S1000000x15_S1000000x31_d1) C1) (broadcastInDim S1000000x64 ![] bcast_S_S1000000x64 (constant S_ .f32 0x00000000#32))) C2) (broadcastInDim S1000000x64 ![] bcast_S_S1000000x64 (constant S_ .f32 0x00000000#32))) C3

/-- An operation over a literal family of sixteen references: its result with each operand's contents at its
    own reference, so that the operands' contents can be rewritten in turn. -/
theorem nary16_result {x0 x1 x2 x3 x4 x5 x6 x7 x8 x9 x10 x11 x12 x13 x14 x15 y : Ref sig .tc}
    (f : ((k : Fin 16) → ((![x0, x1, x2, x3, x4, x5, x6, x7, x8, x9, x10, x11, x12, x13, x14, x15] : Fin 16 → Ref sig .tc) k).ty.Contents (Elt F)) → y.ty.Contents (Elt F)) (hxs hy)
    (V : Valuation τ sig (Elt F)) :
    (nary (τ := τ) ![x0, x1, x2, x3, x4, x5, x6, x7, x8, x9, x10, x11, x12, x13, x14, x15] y f hxs hy).result V (Proc.devRef .tc y)
      = f (Fin.cons (V (Proc.devRef .tc x0)) (Fin.cons (V (Proc.devRef .tc x1)) (Fin.cons (V (Proc.devRef .tc x2)) (Fin.cons (V (Proc.devRef .tc x3)) (Fin.cons (V (Proc.devRef .tc x4)) (Fin.cons (V (Proc.devRef .tc x5)) (Fin.cons (V (Proc.devRef .tc x6)) (Fin.cons (V (Proc.devRef .tc x7)) (Fin.cons (V (Proc.devRef .tc x8)) (Fin.cons (V (Proc.devRef .tc x9)) (Fin.cons (V (Proc.devRef .tc x10)) (Fin.cons (V (Proc.devRef .tc x11)) (Fin.cons (V (Proc.devRef .tc x12)) (Fin.cons (V (Proc.devRef .tc x13)) (Fin.cons (V (Proc.devRef .tc x14)) (Fin.cons (V (Proc.devRef .tc x15)) (fun i => i.elim0))))))))))))))))) := by
  rw [nary_result]; congr 1; funext k; fin_cases k <;> rfl

theorem nary16_result' {x0 x1 x2 x3 x4 x5 x6 x7 x8 x9 x10 x11 x12 x13 x14 x15 y : Ref sig .tc}
    (f : ((k : Fin 16) → ((![x0, x1, x2, x3, x4, x5, x6, x7, x8, x9, x10, x11, x12, x13, x14, x15] : Fin 16 → Ref sig .tc) k).ty.Contents (Elt F)) → y.ty.Contents (Elt F)) (hxs hy)
    (V : Valuation τ sig (Elt F)) :
    (nary (τ := τ) ![x0, x1, x2, x3, x4, x5, x6, x7, x8, x9, x10, x11, x12, x13, x14, x15] y f hxs hy).result V (no_index (Proc.devRef .tc y))
      = f (Fin.cons (V (Proc.devRef .tc x0)) (Fin.cons (V (Proc.devRef .tc x1)) (Fin.cons (V (Proc.devRef .tc x2)) (Fin.cons (V (Proc.devRef .tc x3)) (Fin.cons (V (Proc.devRef .tc x4)) (Fin.cons (V (Proc.devRef .tc x5)) (Fin.cons (V (Proc.devRef .tc x6)) (Fin.cons (V (Proc.devRef .tc x7)) (Fin.cons (V (Proc.devRef .tc x8)) (Fin.cons (V (Proc.devRef .tc x9)) (Fin.cons (V (Proc.devRef .tc x10)) (Fin.cons (V (Proc.devRef .tc x11)) (Fin.cons (V (Proc.devRef .tc x12)) (Fin.cons (V (Proc.devRef .tc x13)) (Fin.cons (V (Proc.devRef .tc x14)) (Fin.cons (V (Proc.devRef .tc x15)) (fun i => i.elim0))))))))))))))))) :=
  nary16_result f hxs hy V

set_option maxRecDepth 8192 in
set_option maxHeartbeats 4000000 in
theorem tail_sig (W : Valuation τ sig (Elt F)) :
    after opsB W (Proc.devRef .tc main_v144)
      = sigTerm (W (Proc.devRef .tc main_v139)) (W (Proc.devRef .tc main_arg4)) (W (Proc.devRef .tc main_arg5)) := by
  simp only [opsB, StableHlo.after_append]
  rw [after_of_writes_sub ops5 _ ops5_writes (by decide), after_of_writes_sub ops4 _ ops4_writes (by decide)]
  simp only [ops2b, ops3]
  simp (disch := decide) only [after_cons, after_nil,
    nullary_result', unary_result', binary_result', ternary_result', reshape_result', nary16_result',
    nullary_result_ne', unary_result_ne', binary_result_ne', ternary_result_ne', reshape_result_ne', nary_result_ne']
  rfl

set_option maxRecDepth 8192 in
set_option maxHeartbeats 40000000 in
theorem tail_col (W : Valuation τ sig (Elt F)) :
    after opsB W (Proc.devRef .tc main_v241)
      = colTerm (W (Proc.devRef .tc main_v139)) (W (Proc.devRef .tc main_arg1)) (W (Proc.devRef .tc main_arg4)) (W (Proc.devRef .tc main_arg5))
          (W (Proc.devRef .tc main_arg6)) (W (Proc.devRef .tc main_arg7)) (W (Proc.devRef .tc main_arg8)) := by
  simp only [opsB, StableHlo.after_append]
  simp only [ops2b, ops3, ops4, ops5]
  simp (disch := decide) only [after_cons, after_nil,
    nullary_result', unary_result', binary_result', ternary_result', reshape_result', nary16_result',
    nullary_result_ne', unary_result_ne', binary_result_ne', ternary_result_ne', reshape_result_ne', nary_result_ne']
  rfl

end Cert.ReferenceIdeal.HRun

end
-- ==== Proof.RefRow.lean ====
/- The reference's two outputs read at one entry. Every operation of the second stretch acts row by row — the
   matrix products contract over the feature axis, the spherical-harmonic terms are pointwise in the three direction
   coordinates of the row, the joins place columns side by side — so entry n of the density output is entry 0 of
   the density head on row n, and entry (n, j) of the colour output is output j of the colour head on row n. -/
import proofs.«133790_j23845658428386_2_alg».proof.Proof.RefTail
import proofs.«133790_j23845658428386_2_alg».proof.Proof.RowSpec
import proofs.«133790_j23845658428386_2_alg».proof.Proof.LibPlainProduct
import Idealize.ShloMosaic.Lib.Pipeline.Value
import Idealize.ShloMosaic.Lib.ValueLayout
import Idealize.ShloMosaic.Lib.ValueIdx

noncomputable section

namespace Cert.ReferenceIdeal.Row

open Idealize.ShloMosaic Idealize.ShloMosaic.ValueIdx Cert.ReferenceIdeal Cert.ReferenceIdeal.Gen Cert.ReferenceIdeal.HRun
  Cert.RowSpec Cert.LibPlainProduct

/-- A host product whose dimension numbers are the plain ones, at entry (a, b). -/
theorem dot_entry {m k n : Nat} {φ₁ φ₂ : FTy} (d : DotDims ⟨2, ![m, k]⟩ ⟨2, ![k, n]⟩ ⟨2, ![m, n]⟩) (hd : d = DotDims.plain m k n)
    (A : FVec Ideal ⟨2, ![m, k]⟩ φ₁) (B : FVec Ideal ⟨2, ![k, n]⟩ φ₂) (a : Fin m) (b : Fin n) :
    Host.dotGeneral d none A B (ix2 a b) = ∑ c : Fin k, A (ix2 a c) * B (ix2 c b) := by
  subst hd; exact dotGeneral_plain_entry none A B a b

/-- A constant spread over a shape reads, at every index, the constant's value. -/
theorem bcs_entry {t : Shape} (dims : Fin S_.rank → Fin t.rank) (h : S_.BroadcastsInDim t dims) (w : BitVec 32) (j : t.Idx) :
    broadcastInDim t dims h (constant (F := Ideal) S_ .f32 w) j = lit w := rfl

/-- The host's negation, entry by entry. -/
theorem hnegf_apply {s : Shape} {φ : FTy} (a : FVec Ideal s φ) (i : s.Idx) : Host.negf a i = -(a i) := rfl

/-- One layer followed by the cut at zero, at entry (a, b). -/
theorem cutLayer_entry {m k n : Nat} (d : DotDims ⟨2, ![m, k]⟩ ⟨2, ![k, n]⟩ ⟨2, ![m, n]⟩) (hd : d = DotDims.plain m k n)
    (X : FVec Ideal ⟨2, ![m, k]⟩ .f32) (W : FVec Ideal ⟨2, ![k, n]⟩ .f32) (h : S_.BroadcastsInDim ⟨2, ![m, n]⟩ ![])
    (a : Fin m) (b : Fin n) :
    maximumf (Host.dotGeneral d none X W) (broadcastInDim ⟨2, ![m, n]⟩ ![] h (constant S_ .f32 0x00000000#32)) (ix2 a b)
      = max (∑ c : Fin k, X (ix2 a c) * W (ix2 c b)) 0 := by
  show max (Host.dotGeneral d none X W (ix2 a b)) (Ideal.ofBits .f32 0x00000000#32) = _
  rw [dot_entry d hd, Ideal.ofBits_zero_f32]

/-- Column c of an n × w array, cut out and flattened, reads at r the array's entry (r, c). -/
theorem coord_entry {α : Type} {n w : Nat} (o : Nat) (X : (⟨2, ![n, w]⟩ : Shape).Idx → α)
    (h : (⟨2, ![n, w]⟩ : Shape).Slices ![0, o] ⟨2, ![n, 1]⟩) (h' : (⟨2, ![n, 1]⟩ : Shape).ShapeCasts ⟨1, ![n]⟩)
    (r : Fin n) (c : Fin w) (hc : c.val = o) :
    shapeCast ⟨1, ![n]⟩ (extractStridedSlice ⟨2, ![n, 1]⟩ ![0, o] X h) h' (ix1 r) = X (ix2 r c) :=
  (shapeCast_apply _ h' (ix1 r) (ix2 r (0 : Fin 1)) (by
    rw [Shape.rowMajor_val_two, Shape.rowMajor_val_one]
    show r.val * 1 + 0 = r.val
    omega)).trans (slice2_axis1_apply o X h r (0 : Fin 1) c (by rw [hc]; rfl))

/-- A length-n vector spread along a new unit axis reads, in row r, the vector's entry r. -/
theorem column_entry {α : Type} {n : Nat} (v : (⟨1, ![n]⟩ : Shape).Idx → α)
    (h : (⟨1, ![n]⟩ : Shape).BroadcastsInDim ⟨2, ![n, 1]⟩ ![0]) (r : Fin n) :
    broadcastInDim ⟨2, ![n, 1]⟩ ![0] h v (ix2 r (0 : Fin 1)) = v (ix1 r) :=
  broadcastInDim_apply ![0] h v _ (ix1 r) (fun a => by
    match a with
    | ⟨0, _⟩ =>
      show r.val = if n = 1 then 0 else r.val
      by_cases hn : n = 1
      · rw [if_pos hn]; have := r.isLt; omega
      · rw [if_neg hn])

variable (Fv : FVec Ideal S1000000x16 .f32) (D : FVec Ideal S1000000x3 .f32) (W1 : FVec Ideal S16x64 .f32) (W2 : FVec Ideal S64x16 .f32)
  (C1 : FVec Ideal S31x64 .f32) (C2 : FVec Ideal S64x64 .f32) (C3 : FVec Ideal S64x3 .f32)

/-- The density head's output at entry (n, q). -/
theorem feat_entry (n : Fin 1000000) (q : Fin 16) : refFeat (F := Ideal) Fv W1 W2 (ix2 n q) = feat Fv W1 W2 n q := by
  unfold refFeat
  refine (dot_entry dot_S1000000x64_S64x16_S1000000x16_1_0_0_1_n_n rfl _ _ n q).trans ?_
  show _ = ∑ k : Fin 64, cut (dense (rows Fv) W1) n k * W2 (ix2 k q)
  refine Finset.sum_congr rfl fun c _ => congrArg (· * W2 (ix2 c q)) ?_
  exact cutLayer_entry dot_S1000000x16_S16x64_S1000000x64_1_0_0_1_n_n rfl Fv W1 _ n c

/-- The three direction coordinates of row n. -/
theorem refX_entry (n : Fin 1000000) : refX (F := Ideal) D (ix1 n) = D (ix2 n 0) := by
  unfold refX; exact coord_entry 0 D _ _ n 0 rfl
theorem refY_entry (n : Fin 1000000) : refY (F := Ideal) D (ix1 n) = D (ix2 n 1) := by
  unfold refY; exact coord_entry 1 D _ _ n 1 rfl
theorem refZ_entry (n : Fin 1000000) : refZ (F := Ideal) D (ix1 n) = D (ix2 n 2) := by
  unfold refZ; exact coord_entry 2 D _ _ n 2 rfl

/-- The sixteen coefficient vectors the reference joins, in order. -/
def cols : Fin 16 → FVec Ideal S1000000 .f32 :=
  ![broadcastInDim S1000000 ![] bcast_S_S1000000 (constant (F := Ideal) S_ .f32 0x3E906EBB#32),
    mulf (broadcastInDim S1000000 ![] bcast_S_S1000000 (constant (F := Ideal) S_ .f32 0xBEFA2A1C#32)) (refY (F := Ideal) D),
    mulf (broadcastInDim S1000000 ![] bcast_S_S1000000 (constant (F := Ideal) S_ .f32 0x3EFA2A1C#32)) (refZ (F := Ideal) D),
    mulf (broadcastInDim S1000000 ![] bcast_S_S1000000 (constant (F := Ideal) S_ .f32 0xBEFA2A1C#32)) (refX (F := Ideal) D),
    mulf (broadcastInDim S1000000 ![] bcast_S_S1000000 (constant (F := Ideal) S_ .f32 0x3F8BD8A1#32)) (mulf (refX (F := Ideal) D) (refY (F := Ideal) D)),
    mulf (broadcastInDim S1000000 ![] bcast_S_S1000000 (constant (F := Ideal) S_ .f32 0xBF8BD8A1#32)) (mulf (refY (F := Ideal) D) (refZ (F := Ideal) D)),
    subf (mulf (broadcastInDim S1000000 ![] bcast_S_S1000000 (constant (F := Ideal) S_ .f32 0x3F723881#32)) (mulf (refZ (F := Ideal) D) (refZ (F := Ideal) D))) (broadcastInDim S1000000 ![] bcast_S_S1000000 (constant (F := Ideal) S_ .f32 0x3EA17B01#32)),
    mulf (broadcastInDim S1000000 ![] bcast_S_S1000000 (constant (F := Ideal) S_ .f32 0xBF8BD8A1#32)) (mulf (refX (F := Ideal) D) (refZ (F := Ideal) D)),
    mulf (broadcastInDim S1000000 ![] bcast_S_S1000000 (constant (F := Ideal) S_ .f32 0x3F0BD8A1#32)) (subf (mulf (refX (F := Ideal) D) (refX (F := Ideal) D)) (mulf (refY (F := Ideal) D) (refY (F := Ideal) D))),
    mulf (mulf (broadcastInDim S1000000 ![] bcast_S_S1000000 (constant (F := Ideal) S_ .f32 0x3F170D19#32)) (refY (F := Ideal) D)) (addf (mulf (broadcastInDim S1000000 ![] bcast_S_S1000000 (constant (F := Ideal) S_ .f32 0xC0400000#32)) (mulf (refX (F := Ideal) D) (refX (F := Ideal) D))) (mulf (refY (F := Ideal) D) (refY (F := Ideal) D))),
    mulf (mulf (broadcastInDim S1000000 ![] bcast_S_S1000000 (constant (F := Ideal) S_ .f32 0x4038FFC7#32)) (mulf (refX (F := Ideal) D) (refY (F := Ideal) D))) (refZ (F := Ideal) D),
    mulf (mulf (broadcastInDim S1000000 ![] bcast_S_S1000000 (constant (F := Ideal) S_ .f32 0x3EEA01E8#32)) (refY (F := Ideal) D)) (subf (broadcastInDim S1000000 ![] bcast_S_S1000000 (constant (F := Ideal) S_ .f32 0x3F800000#32)) (mulf (broadcastInDim S1000000 ![] bcast_S_S1000000 (constant (F := Ideal) S_ .f32 0x40A00000#32)) (mulf (refZ (F := Ideal) D) (refZ (F := Ideal) D)))),
    mulf (mulf (broadcastInDim S1000000 ![] bcast_S_S1000000 (constant (F := Ideal) S_ .f32 0x3EBF10F8#32)) (refZ (F := Ideal) D)) (subf (mulf (broadcastInDim S1000000 ![] bcast_S_S1000000 (constant (F := Ideal) S_ .f32 0x40A00000#32)) (mulf (refZ (F := Ideal) D) (refZ (F := Ideal) D))) (broadcastInDim S1000000 ![] bcast_S_S1000000 (constant (F := Ideal) S_ .f32 0x40400000#32))),
    mulf (mulf (broadcastInDim S1000000 ![] bcast_S_S1000000 (constant (F := Ideal) S_ .f32 0x3EEA01E8#32)) (refX (F := Ideal) D)) (subf (broadcastInDim S1000000 ![] bcast_S_S1000000 (constant (F := Ideal) S_ .f32 0x3F800000#32)) (mulf (broadcastInDim S1000000 ![] bcast_S_S1000000 (constant (F := Ideal) S_ .f32 0x40A00000#32)) (mulf (refZ (F := Ideal) D) (refZ (F := Ideal) D)))),
    mulf (mulf (broadcastInDim S1000000 ![] bcast_S_S1000000 (constant (F := Ideal) S_ .f32 0x3FB8FFC7#32)) (refZ (F := Ideal) D)) (subf (mulf (refX (F := Ideal) D) (refX (F := Ideal) D)) (mulf (refY (F := Ideal) D) (refY (F := Ideal) D))),
    mulf (mulf (broadcastInDim S1000000 ![] bcast_S_S1000000 (constant (F := Ideal) S_ .f32 0x3F170D19#32)) (refX (F := Ideal) D)) (addf (Host.negf (mulf (refX (F := Ideal) D) (refX (F := Ideal) D))) (mulf (broadcastInDim S1000000 ![] bcast_S_S1000000 (constant (F := Ideal) S_ .f32 0x40400000#32)) (mulf (refY (F := Ideal) D) (refY (F := Ideal) D))))]

/-- Each coefficient vector at row n, in the row's three direction coordinates. -/
theorem col0_entry (n : Fin 1000000) :
    (broadcastInDim S1000000 ![] bcast_S_S1000000 (constant (F := Ideal) S_ .f32 0x3E906EBB#32) : FVec Ideal S1000000 .f32) (ix1 n)
      = lit 0x3E906EBB#32 := by
  simp only [mulf_apply, addf_apply, subf_apply, hnegf_apply, bcs_entry, refX_entry, refY_entry, refZ_entry]
theorem col1_entry (n : Fin 1000000) :
    (mulf (broadcastInDim S1000000 ![] bcast_S_S1000000 (constant (F := Ideal) S_ .f32 0xBEFA2A1C#32)) (refY (F := Ideal) D) : FVec Ideal S1000000 .f32) (ix1 n)
      = lit 0xBEFA2A1C#32 * D (ix2 n 1) := by
  simp only [mulf_apply, addf_apply, subf_apply, hnegf_apply, bcs_entry, refX_entry, refY_entry, refZ_entry]
theorem col2_entry (n : Fin 1000000) :
    (mulf (broadcastInDim S1000000 ![] bcast_S_S1000000 (constant (F := Ideal) S_ .f32 0x3EFA2A1C#32)) (refZ (F := Ideal) D) : FVec Ideal S1000000 .f32) (ix1 n)
      = lit 0x3EFA2A1C#32 * D (ix2 n 2) := by
  simp only [mulf_apply, addf_apply, subf_apply, hnegf_apply, bcs_entry, refX_entry, refY_entry, refZ_entry]
theorem col3_entry (n : Fin 1000000) :
    (mulf (broadcastInDim S1000000 ![] bcast_S_S1000000 (constant (F := Ideal) S_ .f32 0xBEFA2A1C#32)) (refX (F := Ideal) D) : FVec Ideal S1000000 .f32) (ix1 n)
      = lit 0xBEFA2A1C#32 * D (ix2 n 0) := by
  simp only [mulf_apply, addf_apply, subf_apply, hnegf_apply, bcs_entry, refX_entry, refY_entry, refZ_entry]
theorem col4_entry (n : Fin 1000000) :
    (mulf (broadcastInDim S1000000 ![] bcast_S_S1000000 (constant (F := Ideal) S_ .f32 0x3F8BD8A1#32)) (mulf (refX (F := Ideal) D) (refY (F := Ideal) D)) : FVec Ideal S1000000 .f32) (ix1 n)
      = lit 0x3F8BD8A1#32 * (D (ix2 n 0) * D (ix2 n 1)) := by
  simp only [mulf_apply, addf_apply, subf_apply, hnegf_apply, bcs_entry, refX_entry, refY_entry, refZ_entry]
theorem col5_entry (n : Fin 1000000) :
    (mulf (broadcastInDim S1000000 ![] bcast_S_S1000000 (constant (F := Ideal) S_ .f32 0xBF8BD8A1#32)) (mulf (refY (F := Ideal) D) (refZ (F := Ideal) D)) : FVec Ideal S1000000 .f32) (ix1 n)
      = lit 0xBF8BD8A1#32 * (D (ix2 n 1) * D (ix2 n 2)) := by
  simp only [mulf_apply, addf_apply, subf_apply, hnegf_apply, bcs_entry, refX_entry, refY_entry, refZ_entry]
theorem col6_entry (n : Fin 1000000) :
    (subf (mulf (broadcastInDim S1000000 ![] bcast_S_S1000000 (constant (F := Ideal) S_ .f32 0x3F723881#32)) (mulf (refZ (F := Ideal) D) (refZ (F := Ideal) D))) (broadcastInDim S1000000 ![] bcast_S_S1000000 (constant (F := Ideal) S_ .f32 0x3EA17B01#32)) : FVec Ideal S1000000 .f32) (ix1 n)
      = lit 0x3F723881#32 * (D (ix2 n 2) * D (ix2 n 2)) - lit 0x3EA17B01#32 := by
  simp only [mulf_apply, addf_apply, subf_apply, hnegf_apply, bcs_entry, refX_entry, refY_entry, refZ_entry]
theorem col7_entry (n : Fin 1000000) :
    (mulf (broadcastInDim S1000000 ![] bcast_S_S1000000 (constant (F := Ideal) S_ .f32 0xBF8BD8A1#32)) (mulf (refX (F := Ideal) D) (refZ (F := Ideal) D)) : FVec Ideal S1000000 .f32) (ix1 n)
      = lit 0xBF8BD8A1#32 * (D (ix2 n 0) * D (ix2 n 2)) := by
  simp only [mulf_apply, addf_apply, subf_apply, hnegf_apply, bcs_entry, refX_entry, refY_entry, refZ_entry]
theorem col8_entry (n : Fin 1000000) :
    (mulf (broadcastInDim S1000000 ![] bcast_S_S1000000 (constant (F := Ideal) S_ .f32 0x3F0BD8A1#32)) (subf (mulf (refX (F := Ideal) D) (refX (F := Ideal) D)) (mulf (refY (F := Ideal) D) (refY (F := Ideal) D))) : FVec Ideal S1000000 .f32) (ix1 n)
      = lit 0x3F0BD8A1#32 * (D (ix2 n 0) * D (ix2 n 0) - D (ix2 n 1) * D (ix2 n 1)) := by
  simp only [mulf_apply, addf_apply, subf_apply, hnegf_apply, bcs_entry, refX_entry, refY_entry, refZ_entry]
theorem col9_entry (n : Fin 1000000) :
    (mulf (mulf (broadcastInDim S1000000 ![] bcast_S_S1000000 (constant (F := Ideal) S_ .f32 0x3F170D19#32)) (refY (F := Ideal) D)) (addf (mulf (broadcastInDim S1000000 ![] bcast_S_S1000000 (constant (F := Ideal) S_ .f32 0xC0400000#32)) (mulf (refX (F := Ideal) D) (refX (F := Ideal) D))) (mulf (refY (F := Ideal) D) (refY (F := Ideal) D))) : FVec Ideal S1000000 .f32) (ix1 n)
      = lit 0x3F170D19#32 * D (ix2 n 1) * (lit 0xC0400000#32 * (D (ix2 n 0) * D (ix2 n 0)) + D (ix2 n 1) * D (ix2 n 1)) := by
  simp only [mulf_apply, addf_apply, subf_apply, hnegf_apply, bcs_entry, refX_entry, refY_entry, refZ_entry]
theorem col10_entry (n : Fin 1000000) :
    (mulf (mulf (broadcastInDim S1000000 ![] bcast_S_S1000000 (constant (F := Ideal) S_ .f32 0x4038FFC7#32)) (mulf (refX (F := Ideal) D) (refY (F := Ideal) D))) (refZ (F := Ideal) D) : FVec Ideal S1000000 .f32) (ix1 n)
      = lit 0x4038FFC7#32 * (D (ix2 n 0) * D (ix2 n 1)) * D (ix2 n 2) := by
  simp only [mulf_apply, addf_apply, subf_apply, hnegf_apply, bcs_entry, refX_entry, refY_entry, refZ_entry]
theorem col11_entry (n : Fin 1000000) :
    (mulf (mulf (broadcastInDim S1000000 ![] bcast_S_S1000000 (constant (F := Ideal) S_ .f32 0x3EEA01E8#32)) (refY (F := Ideal) D)) (subf (broadcastInDim S1000000 ![] bcast_S_S1000000 (constant (F := Ideal) S_ .f32 0x3F800000#32)) (mulf (broadcastInDim S1000000 ![] bcast_S_S1000000 (constant (F := Ideal) S_ .f32 0x40A00000#32)) (mulf (refZ (F := Ideal) D) (refZ (F := Ideal) D)))) : FVec Ideal S1000000 .f32) (ix1 n)
      = lit 0x3EEA01E8#32 * D (ix2 n 1) * (lit 0x3F800000#32 - lit 0x40A00000#32 * (D (ix2 n 2) * D (ix2 n 2))) := by
  simp only [mulf_apply, addf_apply, subf_apply, hnegf_apply, bcs_entry, refX_entry, refY_entry, refZ_entry]
theorem col12_entry (n : Fin 1000000) :
    (mulf (mulf (broadcastInDim S1000000 ![] bcast_S_S1000000 (constant (F := Ideal) S_ .f32 0x3EBF10F8#32)) (refZ (F := Ideal) D)) (subf (mulf (broadcastInDim S1000000 ![] bcast_S_S1000000 (constant (F := Ideal) S_ .f32 0x40A00000#32)) (mulf (refZ (F := Ideal) D) (refZ (F := Ideal) D))) (broadcastInDim S1000000 ![] bcast_S_S1000000 (constant (F := Ideal) S_ .f32 0x40400000#32))) : FVec Ideal S1000000 .f32) (ix1 n)
      = lit 0x3EBF10F8#32 * D (ix2 n 2) * (lit 0x40A00000#32 * (D (ix2 n 2) * D (ix2 n 2)) - lit 0x40400000#32) := by
  simp only [mulf_apply, addf_apply, subf_apply, hnegf_apply, bcs_entry, refX_entry, refY_entry, refZ_entry]
theorem col13_entry (n : Fin 1000000) :
    (mulf (mulf (broadcastInDim S1000000 ![] bcast_S_S1000000 (constant (F := Ideal) S_ .f32 0x3EEA01E8#32)) (refX (F := Ideal) D)) (subf (broadcastInDim S1000000 ![] bcast_S_S1000000 (constant (F := Ideal) S_ .f32 0x3F800000#32)) (mulf (broadcastInDim S1000000 ![] bcast_S_S1000000 (constant (F := Ideal) S_ .f32 0x40A00000#32)) (mulf (refZ (F := Ideal) D) (refZ (F := Ideal) D)))) : FVec Ideal S1000000 .f32) (ix1 n)
      = lit 0x3EEA01E8#32 * D (ix2 n 0) * (lit 0x3F800000#32 - lit 0x40A00000#32 * (D (ix2 n 2) * D (ix2 n 2))) := by
  simp only [mulf_apply, addf_apply, subf_apply, hnegf_apply, bcs_entry, refX_entry, refY_entry, refZ_entry]
theorem col14_entry (n : Fin 1000000) :
    (mulf (mulf (broadcastInDim S1000000 ![] bcast_S_S1000000 (constant (F := Ideal) S_ .f32 0x3FB8FFC7#32)) (refZ (F := Ideal) D)) (subf (mulf (refX (F := Ideal) D) (refX (F := Ideal) D)) (mulf (refY (F := Ideal) D) (refY (F := Ideal) D))) : FVec Ideal S1000000 .f32) (ix1 n)
      = lit 0x3FB8FFC7#32 * D (ix2 n 2) * (D (ix2 n 0) * D (ix2 n 0) - D (ix2 n 1) * D (ix2 n 1)) := by
  simp only [mulf_apply, addf_apply, subf_apply, hnegf_apply, bcs_entry, refX_entry, refY_entry, refZ_entry]
theorem col15_entry (n : Fin 1000000) :
    (mulf (mulf (broadcastInDim S1000000 ![] bcast_S_S1000000 (constant (F := Ideal) S_ .f32 0x3F170D19#32)) (refX (F := Ideal) D)) (addf (Host.negf (mulf (refX (F := Ideal) D) (refX (F := Ideal) D))) (mulf (broadcastInDim S1000000 ![] bcast_S_S1000000 (constant (F := Ideal) S_ .f32 0x40400000#32)) (mulf (refY (F := Ideal) D) (refY (F := Ideal) D)))) : FVec Ideal S1000000 .f32) (ix1 n)
      = lit 0x3F170D19#32 * D (ix2 n 0) * (-(D (ix2 n 0) * D (ix2 n 0)) + lit 0x40400000#32 * (D (ix2 n 1) * D (ix2 n 1))) := by
  simp only [mulf_apply, addf_apply, subf_apply, hnegf_apply, bcs_entry, refX_entry, refY_entry, refZ_entry]

/-- Together: coefficient vector q at row n is coefficient q of the row's direction. -/
theorem cols_entry (n : Fin 1000000) (q : Fin 16) :
    cols D q (ix1 n) = sh (D (ix2 n 0)) (D (ix2 n 1)) (D (ix2 n 2)) q := by
  fin_cases q
  · exact col0_entry n
  · exact col1_entry D n
  · exact col2_entry D n
  · exact col3_entry D n
  · exact col4_entry D n
  · exact col5_entry D n
  · exact col6_entry D n
  · exact col7_entry D n
  · exact col8_entry D n
  · exact col9_entry D n
  · exact col10_entry D n
  · exact col11_entry D n
  · exact col12_entry D n
  · exact col13_entry D n
  · exact col14_entry D n
  · exact col15_entry D n

attribute [local irreducible] concatenate broadcastInDim in
/-- Entry (n, q) of the joined encoding is coefficient q of row n's direction: column q of the join is the q-th
    vector spread along a unit axis. -/
theorem enc_entry (n : Fin 1000000) (q : Fin 16) :
    refEnc (F := Ideal) D (ix2 n q) = sh (D (ix2 n 0)) (D (ix2 n 1)) (D (ix2 n 2)) q := by
  unfold refEnc
  show concatenate S1000000x16 1 (List.ofFn fun k : Fin 16 =>
      (⟨S1000000x1, broadcastInDim S1000000x1 ![0] bcast_S1000000_S1000000x1_0 (cols D k)⟩ : (s : Shape) × (s.Idx → EReal))) _ (ix2 n q) = _
  refine (concatenate_ofFn_unit_apply (t := S1000000x16) (s₁ := S1000000x1) 1
    (fun k : Fin 16 => (broadcastInDim S1000000x1 ![0] bcast_S1000000_S1000000x1_0 (cols D k) : S1000000x1.Idx → EReal)) _ rfl rfl (ix2 n q) q rfl
    (ix2 n (0 : Fin 1)) (fun b hb => ?_)).trans ?_
  · match b with
    | ⟨0, _⟩ => rfl
    | ⟨1, _⟩ => exact absurd rfl hb
  · exact (column_entry _ _ n).trans (cols_entry D n q)

/-- The colour head's input: the encoding, then columns 1 … 15 of the density head's output. Entry (n, p) is
    entry p of row n's joined input. -/
theorem join_entry (n : Fin 1000000) (p : Fin 31) :
    concatenate S1000000x31 1 [⟨S1000000x16, refEnc (F := Ideal) D⟩,
        ⟨S1000000x15, extractStridedSlice S1000000x15 ![0, 1] (refFeat (F := Ideal) Fv W1 W2) slices_S1000000x16_S1000000x15_0_1⟩]
      concatenates_S1000000x16_S1000000x15_S1000000x31_d1 (ix2 n p) = joined Fv D W1 W2 n p := by
  unfold joined
  by_cases hp : p.val < 16
  · rw [dif_pos hp]
    refine (concatenate_pair_apply_left (t := S1000000x31) (s₁ := S1000000x16) (s₂ := S1000000x15) 1 _ _ _ (ix2 n p) rfl
      (ix2 n (⟨p.val, hp⟩ : Fin 16)) (fun b => ?_)).trans ?_
    · match b with
      | ⟨0, _⟩ => rfl
      | ⟨1, _⟩ => rfl
    · exact enc_entry D n ⟨p.val, hp⟩
  · rw [dif_neg hp]
    have hp31 := p.isLt
    refine (concatenate_pair_apply_right (t := S1000000x31) (s₁ := S1000000x16) (s₂ := S1000000x15) 1 _ _ _ (ix2 n p) rfl rfl
      (ix2 n (⟨p.val - 16, by omega⟩ : Fin 15)) (fun b hb => ?_) ?_).trans ?_
    · match b with
      | ⟨0, _⟩ => rfl
      | ⟨1, _⟩ => exact absurd rfl hb
    · show p.val - 16 + 16 = p.val
      omega
    · refine (slice2_axis1_apply 1 _ _ n (⟨p.val - 16, by omega⟩ : Fin 15) (⟨p.val - 15, by omega⟩ : Fin 16)
        (by show p.val - 15 = 1 + (p.val - 16); omega)).trans ?_
      exact feat_entry Fv W1 W2 n _

/-- Entry n of the density output is entry 0 of the density head on row n. -/
theorem sig_entry (n : Fin 1000000) : sigTerm (F := Ideal) Fv W1 W2 (ix1 n) = Cert.RowSpec.feat Fv W1 W2 n 0 := by
  unfold sigTerm
  exact (coord_entry 0 _ _ _ n (0 : Fin 16) rfl).trans (feat_entry Fv W1 W2 n 0)

/-- Entry (n, j) of the colour output is output j of the colour head on row n. -/
theorem col_entry (n : Fin 1000000) (j : Fin 3) :
    colTerm (F := Ideal) Fv D W1 W2 C1 C2 C3 (ix2 n j) = Cert.RowSpec.colour Fv D W1 W2 C1 C2 C3 n j := by
  unfold colTerm
  refine (dot_entry dot_S1000000x64_S64x3_S1000000x3_1_0_0_1_n_n rfl _ _ n j).trans ?_
  show _ = ∑ k : Fin 64, cut (dense (cut (dense (joined Fv D W1 W2) C1)) C2) n k * C3 (ix2 k j)
  refine Finset.sum_congr rfl fun c _ => congrArg (· * C3 (ix2 c j)) ?_
  refine (cutLayer_entry dot_S1000000x64_S64x64_S1000000x64_1_0_0_1_n_n rfl _ C2 _ n c).trans ?_
  show _ = max (∑ k : Fin 64, cut (dense (joined Fv D W1 W2) C1) n k * C2 (ix2 k c)) 0
  refine congrArg (max · 0) (Finset.sum_congr rfl fun c2 _ => congrArg (· * C2 (ix2 c2 c)) ?_)
  refine (cutLayer_entry dot_S1000000x31_S31x64_S1000000x64_1_0_0_1_n_n rfl _ C1 _ n c2).trans ?_
  show _ = max (∑ k : Fin 31, joined Fv D W1 W2 n k * C1 (ix2 k c2)) 0
  refine congrArg (max · 0) (Finset.sum_congr rfl fun p _ => congrArg (· * C1 (ix2 p c2)) ?_)
  exact join_entry Fv D W1 W2 n p

end Cert.ReferenceIdeal.Row

end
-- ==== Proof.RefKept.lean ====
/- No operation of the first stretch of the reference's host function writes an argument: each argument buffer
   holds after that stretch what it held before. -/
import proofs.«133790_j23845658428386_2_alg».proof.Proof.RefRun

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

/-- A reference none of the first stretch's three pieces writes keeps its contents through it. -/
theorem keptA (V : Valuation τ sig (Elt F)) (r : Ref sig .tc) (h0 : r ∉ ops0_W) (h1 : r ∉ ops1_W) (h2 : r ∉ ops2a_W) :
    after opsA V (Proc.devRef .tc r) = V (Proc.devRef .tc r) := by
  simp only [opsA, StableHlo.after_append]
  rw [after_of_writes_sub ops2a _ ops2a_writes h2, after_of_writes_sub ops1 _ ops1_writes h1,
    after_of_writes_sub ops0 _ ops0_writes h0]

theorem keptA_arg0 (V : Valuation τ sig (Elt F)) :
    after opsA V (Proc.devRef .tc main_arg0) = V (Proc.devRef .tc main_arg0) :=
  keptA V main_arg0 (by decide) (by decide) (by decide)
theorem keptA_arg1 (V : Valuation τ sig (Elt F)) :
    after opsA V (Proc.devRef .tc main_arg1) = V (Proc.devRef .tc main_arg1) :=
  keptA V main_arg1 (by decide) (by decide) (by decide)
theorem keptA_arg2 (V : Valuation τ sig (Elt F)) :
    after opsA V (Proc.devRef .tc main_arg2) = V (Proc.devRef .tc main_arg2) :=
  keptA V main_arg2 (by decide) (by decide) (by decide)
theorem keptA_arg3 (V : Valuation τ sig (Elt F)) :
    after opsA V (Proc.devRef .tc main_arg3) = V (Proc.devRef .tc main_arg3) :=
  keptA V main_arg3 (by decide) (by decide) (by decide)
theorem keptA_arg4 (V : Valuation τ sig (Elt F)) :
    after opsA V (Proc.devRef .tc main_arg4) = V (Proc.devRef .tc main_arg4) :=
  keptA V main_arg4 (by decide) (by decide) (by decide)
theorem keptA_arg5 (V : Valuation τ sig (Elt F)) :
    after opsA V (Proc.devRef .tc main_arg5) = V (Proc.devRef .tc main_arg5) :=
  keptA V main_arg5 (by decide) (by decide) (by decide)
theorem keptA_arg6 (V : Valuation τ sig (Elt F)) :
    after opsA V (Proc.devRef .tc main_arg6) = V (Proc.devRef .tc main_arg6) :=
  keptA V main_arg6 (by decide) (by decide) (by decide)
theorem keptA_arg7 (V : Valuation τ sig (Elt F)) :
    after opsA V (Proc.devRef .tc main_arg7) = V (Proc.devRef .tc main_arg7) :=
  keptA V main_arg7 (by decide) (by decide) (by decide)
theorem keptA_arg8 (V : Valuation τ sig (Elt F)) :
    after opsA V (Proc.devRef .tc main_arg8) = V (Proc.devRef .tc main_arg8) :=
  keptA V main_arg8 (by decide) (by decide) (by decide)

end Cert.ReferenceIdeal.HRun

end
-- ==== Proof.RefValue.lean ====
/-
  What the reference program returns, as functions of its argument arrays.

  The reference is one straight line of host operations.  Its first stretch computes the blended feature array from
  the sample positions, the grid and the feature table; its second stretch applies the two heads to that array and to
  the directions.  The run leaves every buffer at the operations' composed value of the launch contents, so the two
  results are the second stretch's terms of the feature array, the directions and the weights — the arguments are
  written by no operation —, and read at an index they are the row-wise network of `Cert.RowSpec`.
-/
import proofs.«133790_j23845658428386_2_alg».proof.Proof.RefTail
import proofs.«133790_j23845658428386_2_alg».proof.Proof.RefRow
import proofs.«133790_j23845658428386_2_alg».proof.Proof.RefKept

noncomputable section

namespace Cert.ReferenceIdeal.HValue

open Cert.ReferenceIdeal Cert.ReferenceIdeal.Gen Cert.ReferenceIdeal.HRun Cert.ReferenceIdeal.Row Cert.RowSpec
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The blended feature array the first stretch leaves. -/
def FvR (c : Dev nD) : S1000000x16.Idx → EReal := after opsA (launchContents m c) (Proc.devRef .tc main_v139)

/-- The density vector the program returns. -/
def sigR (c : Dev nD) : S1000000.Idx → EReal :=
  sigTerm (F := Ideal) (FvR m c) (m ((c.tc : Thread nD τ).loc main_arg4)) (m ((c.tc : Thread nD τ).loc main_arg5))

/-- The colour array the program returns. -/
def colR (c : Dev nD) : S1000000x3.Idx → EReal :=
  colTerm (F := Ideal) (FvR m c) (m ((c.tc : Thread nD τ).loc main_arg1)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8))

theorem res144 (c : Dev nD) : (after ops (launchContents m c) (Proc.devRef .tc main_v144) : S1000000.Idx → Elt Ideal .f32) = sigR m c := by
  rw [after_ops, tail_sig, keptA_arg4, keptA_arg5]
  rfl

theorem res241 (c : Dev nD) : (after ops (launchContents m c) (Proc.devRef .tc main_v241) : S1000000x3.Idx → Elt Ideal .f32) = colR m c := by
  rw [after_ops, tail_col, keptA_arg1, keptA_arg4, keptA_arg5, keptA_arg6, keptA_arg7, keptA_arg8]
  rfl

/-- THE REFERENCE'S RUN, READ: every weakly fair execution terminates with the two results at the density vector and
    the colour array above, and every argument array as launched. -/
theorem run : θ_run defs (onTc (τ := τ) (main (F := Ideal))) ⟨m, fun _ => 0, ρ⟩ fun r => ∀ c : Dev nD,
      (r.2.mem ((c.tc : Thread nD τ).loc main_v144) : S1000000.Idx → Elt Ideal .f32) = sigR m c
      ∧ (r.2.mem ((c.tc : Thread nD τ).loc main_v241) : S1000000x3.Idx → Elt Ideal .f32) = colR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v144).trans (res144 m c), (h c main_v241).trans (res241 m c),
      (h c main_arg0).trans (kept_arg0 _), (h c main_arg1).trans (kept_arg1 _), (h c main_arg2).trans (kept_arg2 _),
      (h c main_arg3).trans (kept_arg3 _), (h c main_arg4).trans (kept_arg4 _), (h c main_arg5).trans (kept_arg5 _),
      (h c main_arg6).trans (kept_arg6 _), (h c main_arg7).trans (kept_arg7 _), (h c main_arg8).trans (kept_arg8 _)⟩)
    (run_all m ρ)

/-- Entry n of the density vector: the density head's output 0 on sample n. -/
theorem sigR_entry (c : Dev nD) (n : Fin 1000000) :
    sigR m c (ix1 n) = feat (FvR m c) (m ((c.tc : Thread nD τ).loc main_arg4)) (m ((c.tc : Thread nD τ).loc main_arg5)) n 0 :=
  sig_entry _ _ _ n

/-- Entry (n, j) of the colour array: the colour head's output j on sample n. -/
theorem colR_entry (c : Dev nD) (n : Fin 1000000) (j : Fin 3) :
    colR m c (ix2 n j) = colour (FvR m c) (m ((c.tc : Thread nD τ).loc main_arg1)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) n j :=
  col_entry _ _ _ _ _ _ _ n j

end Cert.ReferenceIdeal.HValue

end
-- ==== Proof.ChainTail.lean ====
/- The last stretch of the host computation of the sixteen blended grid features, as both programs run it: from
   the eight gathered corner values per sample, the eight blending weights and the feature table, clip the corner
   values to [-1, 1], scale them to table rows, take the rows below and above, blend the two looked-up feature rows
   linearly, weigh by the blending weights and add up the eight corners. The two programs list the same operations
   over their own buffers; each one's fold over its list is one and the same composed term of what it reads, so
   from equal inputs the two results agree entry by entry (the kernel's final change of number format is the
   identity on the extended reals). -/
import proofs.«133790_j23845658428386_2_alg».proof.Proof.Gen.KernelIdeal.Launch
import proofs.«133790_j23845658428386_2_alg».proof.Proof.RefRun
import Idealize.ShloMosaic.Lib.ValueIdx

noncomputable section

namespace Cert.HostChain

open Idealize.ShloMosaic Idealize.ShloMosaic.TcCoe Idealize.SL.Sem Idealize.ShloMosaic.StableHlo Idealize.ShloMosaic.ValueIdx

section Reference

open Cert.ReferenceIdeal Cert.ReferenceIdeal.Gen

/-- The stretch's composed term, over the reference's shapes and facts: the sixteen features from the corner values `G`, the weights `w`, the table `T` and the two clipping bounds. -/
def tailR {F : FTy → Type} [FloatOps F] (G w : (⟨S1000000x8, .f32⟩ : BufTy).Contents (Elt F)) (T : (⟨S65536x16, .f32⟩ : BufTy).Contents (Elt F))
    (cm cp : (⟨S_, .f32⟩ : BufTy).Contents (Elt F)) : (⟨S1000000x16, .f32⟩ : BufTy).Contents (Elt F) :=
  Host.reduceAdd (mulf (broadcastInDim S1000000x8x16 ![0, 1, 2] bcast_S1000000x8x1_S1000000x8x16_0_1_2 (broadcastInDim S1000000x8x1 ![0, 1] bcast_S1000000x8_S1000000x8x1_0_1 w)) (addf (mulf (shapeCast S1000000x8x16 (Host.gather gather_S65536x16_S8000000x1_S8000000x16_1_0_n_n_0_1_116 T (broadcastInDim S8000000x1 ![0] bcast_S8000000_S8000000x1_0 (select (cmpi .slt (fptosi 32 (minimumf (broadcastInDim S8000000 ![] bcast_S_S8000000 (sitofp .f32 (constantI S_ 32 65535#32))) (maximumf (broadcastInDim S8000000 ![] bcast_S_S8000000 (sitofp .f32 (constantI S_ 32 0#32))) (Host.floor (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000))))) (broadcastInDim S8000000 ![] bcast_S_S8000000 (constantI S_ 32 0#32))) (addi (fptosi 32 (minimumf (broadcastInDim S8000000 ![] bcast_S_S8000000 (sitofp .f32 (constantI S_ 32 65535#32))) (maximumf (broadcastInDim S8000000 ![] bcast_S_S8000000 (sitofp .f32 (constantI S_ 32 0#32))) (Host.floor (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000))))) (broadcastInDim S8000000 ![] bcast_S_S8000000 (constantI S_ 32 65536#32))) (fptosi 32 (minimumf (broadcastInDim S8000000 ![] bcast_S_S8000000 (sitofp .f32 (constantI S_ 32 65535#32))) (maximumf (broadcastInDim S8000000 ![] bcast_S_S8000000 (sitofp .f32 (constantI S_ 32 0#32))) (Host.floor (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000)))))))) shapeCasts_S8000000x16_S1000000x8x16) (broadcastInDim S1000000x8x16 ![0, 1, 2] bcast_S1000000x8x1_S1000000x8x16_0_1_2 (shapeCast S1000000x8x1 (subf (minimumf (broadcastInDim S8000000 ![] bcast_S_S8000000 (sitofp .f32 (constantI S_ 32 65535#32))) (maximumf (broadcastInDim S8000000 ![] bcast_S_S8000000 (sitofp .f32 (constantI S_ 32 0#32))) (Host.ceil (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000)))) (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000)) shapeCasts_S8000000_S1000000x8x1))) (mulf (shapeCast S1000000x8x16 (Host.gather gather_S65536x16_S8000000x1_S8000000x16_1_0_n_n_0_1_116 T (broadcastInDim S8000000x1 ![0] bcast_S8000000_S8000000x1_0 (select (cmpi .slt (fptosi 32 (minimumf (broadcastInDim S8000000 ![] bcast_S_S8000000 (sitofp .f32 (constantI S_ 32 65535#32))) (maximumf (broadcastInDim S8000000 ![] bcast_S_S8000000 (sitofp .f32 (constantI S_ 32 0#32))) (Host.ceil (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000))))) (broadcastInDim S8000000 ![] bcast_S_S8000000 (constantI S_ 32 0#32))) (addi (fptosi 32 (minimumf (broadcastInDim S8000000 ![] bcast_S_S8000000 (sitofp .f32 (constantI S_ 32 65535#32))) (maximumf (broadcastInDim S8000000 ![] bcast_S_S8000000 (sitofp .f32 (constantI S_ 32 0#32))) (Host.ceil (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000))))) (broadcastInDim S8000000 ![] bcast_S_S8000000 (constantI S_ 32 65536#32))) (fptosi 32 (minimumf (broadcastInDim S8000000 ![] bcast_S_S8000000 (sitofp .f32 (constantI S_ 32 65535#32))) (maximumf (broadcastInDim S8000000 ![] bcast_S_S8000000 (sitofp .f32 (constantI S_ 32 0#32))) (Host.ceil (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000)))))))) shapeCasts_S8000000x16_S1000000x8x16) (broadcastInDim S1000000x8x16 ![0, 1, 2] bcast_S1000000x8x1_S1000000x8x16_0_1_2 (shapeCast S1000000x8x1 (subf (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000) (minimumf (broadcastInDim S8000000 ![] bcast_S_S8000000 (sitofp .f32 (constantI S_ 32 65535#32))) (maximumf (broadcastInDim S8000000 ![] bcast_S_S8000000 (sitofp .f32 (constantI S_ 32 0#32))) (Host.floor (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000))))) shapeCasts_S8000000_S1000000x8x1))))) (constant S_ .f32 0x00000000#32) reducesTo_S1000000x8x16_S1000000x16_d1 h_S_

attribute [local irreducible] Host.gather Host.reduceAdd in
set_option maxRecDepth 8192 in
set_option maxHeartbeats 2000000 in
/-- The reference's stretch, read back. -/
theorem ref_tail (WR : Valuation τ sig (Elt Ideal)) :
    after HRun.ops2a WR (Proc.devRef .tc main_v139)
      = tailR (F := Ideal) (WR (Proc.devRef .tc main_v41)) (WR (Proc.devRef .tc main_v96)) (WR (Proc.devRef .tc main_arg3))
          (constant (F := Ideal) S_ .f32 0xBF800000#32) (constant (F := Ideal) S_ .f32 0x3F800000#32) := by
  simp only [HRun.ops2a]
  simp (disch := decide) only [after_cons, after_nil,
    nullary_result', unary_result', binary_result', ternary_result', reshape_result',
    nullary_result_ne', unary_result_ne', binary_result_ne', ternary_result_ne', reshape_result_ne']
  rfl

end Reference

section Kernel

open Cert.KernelIdeal Cert.KernelIdeal.Gen

/-- The same composed term over the kernel program's shapes and facts. -/
def tailK {F : FTy → Type} [FloatOps F] (G w : (⟨S1000000x8, .f32⟩ : BufTy).Contents (Elt F)) (T : (⟨S65536x16, .f32⟩ : BufTy).Contents (Elt F))
    (cm cp : (⟨S_, .f32⟩ : BufTy).Contents (Elt F)) : (⟨S1000000x16, .f32⟩ : BufTy).Contents (Elt F) :=
  Host.reduceAdd (mulf (broadcastInDim S1000000x8x16 ![0, 1, 2] bcast_S1000000x8x1_S1000000x8x16_0_1_2 (broadcastInDim S1000000x8x1 ![0, 1] bcast_S1000000x8_S1000000x8x1_0_1 w)) (addf (mulf (shapeCast S1000000x8x16 (Host.gather gather_S65536x16_S8000000x1_S8000000x16_1_0_n_n_0_1_116 T (broadcastInDim S8000000x1 ![0] bcast_S8000000_S8000000x1_0 (select (cmpi .slt (fptosi 32 (minimumf (broadcastInDim S8000000 ![] bcast_S_S8000000 (sitofp .f32 (constantI S_ 32 65535#32))) (maximumf (broadcastInDim S8000000 ![] bcast_S_S8000000 (sitofp .f32 (constantI S_ 32 0#32))) (Host.floor (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000))))) (broadcastInDim S8000000 ![] bcast_S_S8000000 (constantI S_ 32 0#32))) (addi (fptosi 32 (minimumf (broadcastInDim S8000000 ![] bcast_S_S8000000 (sitofp .f32 (constantI S_ 32 65535#32))) (maximumf (broadcastInDim S8000000 ![] bcast_S_S8000000 (sitofp .f32 (constantI S_ 32 0#32))) (Host.floor (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000))))) (broadcastInDim S8000000 ![] bcast_S_S8000000 (constantI S_ 32 65536#32))) (fptosi 32 (minimumf (broadcastInDim S8000000 ![] bcast_S_S8000000 (sitofp .f32 (constantI S_ 32 65535#32))) (maximumf (broadcastInDim S8000000 ![] bcast_S_S8000000 (sitofp .f32 (constantI S_ 32 0#32))) (Host.floor (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000)))))))) shapeCasts_S8000000x16_S1000000x8x16) (broadcastInDim S1000000x8x16 ![0, 1, 2] bcast_S1000000x8x1_S1000000x8x16_0_1_2 (shapeCast S1000000x8x1 (subf (minimumf (broadcastInDim S8000000 ![] bcast_S_S8000000 (sitofp .f32 (constantI S_ 32 65535#32))) (maximumf (broadcastInDim S8000000 ![] bcast_S_S8000000 (sitofp .f32 (constantI S_ 32 0#32))) (Host.ceil (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000)))) (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000)) shapeCasts_S8000000_S1000000x8x1))) (mulf (shapeCast S1000000x8x16 (Host.gather gather_S65536x16_S8000000x1_S8000000x16_1_0_n_n_0_1_116 T (broadcastInDim S8000000x1 ![0] bcast_S8000000_S8000000x1_0 (select (cmpi .slt (fptosi 32 (minimumf (broadcastInDim S8000000 ![] bcast_S_S8000000 (sitofp .f32 (constantI S_ 32 65535#32))) (maximumf (broadcastInDim S8000000 ![] bcast_S_S8000000 (sitofp .f32 (constantI S_ 32 0#32))) (Host.ceil (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000))))) (broadcastInDim S8000000 ![] bcast_S_S8000000 (constantI S_ 32 0#32))) (addi (fptosi 32 (minimumf (broadcastInDim S8000000 ![] bcast_S_S8000000 (sitofp .f32 (constantI S_ 32 65535#32))) (maximumf (broadcastInDim S8000000 ![] bcast_S_S8000000 (sitofp .f32 (constantI S_ 32 0#32))) (Host.ceil (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000))))) (broadcastInDim S8000000 ![] bcast_S_S8000000 (constantI S_ 32 65536#32))) (fptosi 32 (minimumf (broadcastInDim S8000000 ![] bcast_S_S8000000 (sitofp .f32 (constantI S_ 32 65535#32))) (maximumf (broadcastInDim S8000000 ![] bcast_S_S8000000 (sitofp .f32 (constantI S_ 32 0#32))) (Host.ceil (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000)))))))) shapeCasts_S8000000x16_S1000000x8x16) (broadcastInDim S1000000x8x16 ![0, 1, 2] bcast_S1000000x8x1_S1000000x8x16_0_1_2 (shapeCast S1000000x8x1 (subf (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000) (minimumf (broadcastInDim S8000000 ![] bcast_S_S8000000 (sitofp .f32 (constantI S_ 32 65535#32))) (maximumf (broadcastInDim S8000000 ![] bcast_S_S8000000 (sitofp .f32 (constantI S_ 32 0#32))) (Host.floor (shapeCast S8000000 (Host.divf (mulf (addf (minimumf (broadcastInDim S1000000x8 ![] bcast_S_S1000000x8 (id cp)) (maximumf (broadcastInDim S1000000x8 ![] bcast_S_S1000000x8 (id cm)) G)) (broadcastInDim S1000000x8 ![] bcast_S_S1000000x8 (constant S_ .f32 0x3F800000#32))) (broadcastInDim S1000000x8 ![] bcast_S_S1000000x8 (constant S_ .f32 0x47800000#32))) (broadcastInDim S1000000x8 ![] bcast_S_S1000000x8 (constant S_ .f32 0x40000000#32))) shapeCasts_S1000000x8_S8000000))))) shapeCasts_S8000000_S1000000x8x1))))) (constant S_ .f32 0x00000000#32) reducesTo_S1000000x8x16_S1000000x16_d1 h_S_

attribute [local irreducible] Host.gather Host.reduceAdd in
set_option maxRecDepth 8192 in
set_option maxHeartbeats 2000000 in
/-- The kernel program's stretch, read back: the composed term, then the change of number format. -/
theorem ker_tail (WK : Valuation τ sig (Elt Ideal)) :
    after (hostOps0_3 ++ (hostOps0_4 ++ (hostOps0_5 ++ (hostOps0_6 ++ (hostOps0_7 ++ hostOps0_8))))) WK (Proc.devRef .tc main_v138)
      = (truncf .bf16 (tailK (F := Ideal) (WK (Proc.devRef .tc main_v39)) (WK (Proc.devRef .tc main_v94)) (WK (Proc.devRef .tc main_arg3))
          (WK (Proc.devRef .tc main_cst_20)) (WK (Proc.devRef .tc main_cst_21))) bitsLt_bf16_f32 : FVec Ideal S1000000x16 .bf16) := by
  simp only [StableHlo.after_append]
  simp only [hostOps0_3, hostOps0_4, hostOps0_5, hostOps0_6, hostOps0_7, hostOps0_8]
  simp (disch := decide) only [after_cons, after_nil,
    nullary_result', unary_result', binary_result', ternary_result', reshape_result',
    nullary_result_ne', unary_result_ne', binary_result_ne', ternary_result_ne', reshape_result_ne']
  rfl

end Kernel

attribute [local irreducible] Host.gather Host.reduceAdd in
set_option maxRecDepth 8192 in
set_option maxHeartbeats 2000000 in
/-- The two spellings of the composed term are one function: the two programs' shapes and dimension records are
    the same literals. -/
theorem tail_cross (G w : FVec Ideal ⟨2, ![1000000, 8]⟩ .f32) (T : FVec Ideal ⟨2, ![65536, 16]⟩ .f32) (cm cp : FVec Ideal ⟨0, ![]⟩ .f32) :
    tailK (F := Ideal) G w T cm cp = tailR (F := Ideal) G w T cm cp := rfl

/-- From equal inputs — the gathered corner values, the blending weights, the feature table, and the kernel program's
    two clipping bounds holding the reference's constants — the two programs' feature arrays agree at every entry. -/
theorem chain_tail (WK : Valuation Cert.KernelIdeal.τ Cert.KernelIdeal.sig (Elt Ideal)) (WR : Valuation Cert.ReferenceIdeal.τ Cert.ReferenceIdeal.sig (Elt Ideal))
    (hGn : WR (Proc.devRef .tc Cert.ReferenceIdeal.main_v41) = WK (Proc.devRef .tc Cert.KernelIdeal.main_v39))
    (hw : WR (Proc.devRef .tc Cert.ReferenceIdeal.main_v96) = WK (Proc.devRef .tc Cert.KernelIdeal.main_v94))
    (hF : WR (Proc.devRef .tc Cert.ReferenceIdeal.main_arg3) = WK (Proc.devRef .tc Cert.KernelIdeal.main_arg3))
    (hc20 : WK (Proc.devRef .tc Cert.KernelIdeal.main_cst_20) = constant (F := Ideal) Cert.KernelIdeal.S_ .f32 0xBF800000#32)
    (hc21 : WK (Proc.devRef .tc Cert.KernelIdeal.main_cst_21) = constant (F := Ideal) Cert.KernelIdeal.S_ .f32 0x3F800000#32)
    (i : (⟨2, ![1000000, 16]⟩ : Shape).Idx) :
    (StableHlo.after (Cert.KernelIdeal.Gen.hostOps0_3 ++ (Cert.KernelIdeal.Gen.hostOps0_4 ++ (Cert.KernelIdeal.Gen.hostOps0_5 ++ (Cert.KernelIdeal.Gen.hostOps0_6 ++ (Cert.KernelIdeal.Gen.hostOps0_7 ++ Cert.KernelIdeal.Gen.hostOps0_8))))) WK (Proc.devRef .tc Cert.KernelIdeal.main_v138) : (⟨2, ![1000000, 16]⟩ : Shape).Idx → EReal) i
      = (StableHlo.after Cert.ReferenceIdeal.HRun.ops2a WR (Proc.devRef .tc Cert.ReferenceIdeal.main_v139) : (⟨2, ![1000000, 16]⟩ : Shape).Idx → EReal) i := by
  rw [ker_tail WK, ref_tail WR, hGn, hw, hF, hc20, hc21]
  refine Eq.trans (truncf_apply (ψ := .bf16) (φ := .f32) _ (by decide) i) ?_
  exact congrFun (tail_cross _ _ _ _ _) i

end Cert.HostChain

end
-- ==== Proof.ChainHead.lean ====
/- The first stretch of the host computation, as both programs run it, read back where the later stretches need it:
   the eight trilinear blending weights of every sample (products of the sample's three in-cell offsets or their
   complements, set side by side) are one composed term of the sample points in both programs; the kernel
   program's two clipping bounds hold their constants; and neither program's first stretch writes the feature table. -/
import proofs.«133790_j23845658428386_2_alg».proof.Proof.Gen.KernelIdeal.Launch
import proofs.«133790_j23845658428386_2_alg».proof.Proof.RefRun
import Idealize.ShloMosaic.PureOps.Ideal
import Idealize.ShloMosaic.Lib.ValueIdx

noncomputable section

namespace Cert.HostChain

open Idealize.ShloMosaic Idealize.ShloMosaic.TcCoe Idealize.SL.Sem Idealize.ShloMosaic.StableHlo

/-- An operation over a literal family of eight references: its result with each operand's contents at its own
    reference, so that the operands' contents can be rewritten in turn. -/
theorem nary8_result {τ : Topo} {sig : RefSig} {Val : EltTy → Type} {x0 x1 x2 x3 x4 x5 x6 x7 y : Ref sig .tc}
    (f : ((k : Fin 8) → ((![x0, x1, x2, x3, x4, x5, x6, x7] : Fin 8 → Ref sig .tc) k).ty.Contents Val) → y.ty.Contents Val) (hxs hy)
    (V : Valuation τ sig Val) :
    (nary (τ := τ) ![x0, x1, x2, x3, x4, x5, x6, x7] y f hxs hy).result V (Proc.devRef .tc y)
      = f (Fin.cons (V (Proc.devRef .tc x0)) (Fin.cons (V (Proc.devRef .tc x1)) (Fin.cons (V (Proc.devRef .tc x2)) (Fin.cons (V (Proc.devRef .tc x3)) (Fin.cons (V (Proc.devRef .tc x4)) (Fin.cons (V (Proc.devRef .tc x5)) (Fin.cons (V (Proc.devRef .tc x6)) (Fin.cons (V (Proc.devRef .tc x7)) (fun i => i.elim0))))))))) := by
  rw [nary_result]; congr 1; funext k; fin_cases k <;> rfl

theorem nary8_result' {τ : Topo} {sig : RefSig} {Val : EltTy → Type} {x0 x1 x2 x3 x4 x5 x6 x7 y : Ref sig .tc}
    (f : ((k : Fin 8) → ((![x0, x1, x2, x3, x4, x5, x6, x7] : Fin 8 → Ref sig .tc) k).ty.Contents Val) → y.ty.Contents Val) (hxs hy)
    (V : Valuation τ sig Val) :
    (nary (τ := τ) ![x0, x1, x2, x3, x4, x5, x6, x7] y f hxs hy).result V (no_index (Proc.devRef .tc y))
      = f (Fin.cons (V (Proc.devRef .tc x0)) (Fin.cons (V (Proc.devRef .tc x1)) (Fin.cons (V (Proc.devRef .tc x2)) (Fin.cons (V (Proc.devRef .tc x3)) (Fin.cons (V (Proc.devRef .tc x4)) (Fin.cons (V (Proc.devRef .tc x5)) (Fin.cons (V (Proc.devRef .tc x6)) (Fin.cons (V (Proc.devRef .tc x7)) (fun i => i.elim0))))))))) :=
  nary8_result f hxs hy V

/-- A single written buffer that is in a list of references lies in that list's set of device buffers. -/
theorem head_single_sub {τ : Topo} {sig : RefSig} {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

section Reference

open Cert.ReferenceIdeal Cert.ReferenceIdeal.Gen

/-- The offsets of the sample points inside their grid cells, over the reference's shapes and facts: the points less the
    clipped floor of the points shifted by half the corner table's first row. -/
def offsR {F : FTy → Type} [FloatOps F] (P : (⟨S1000000x3, .f32⟩ : BufTy).Contents (Elt F)) (C : (⟨S8x3, .f32⟩ : BufTy).Contents (Elt F)) : (⟨S1000000x3, .f32⟩ : BufTy).Contents (Elt F) :=
  subf P (shapeCast S1000000x3 (extractStridedSlice S1000000x1x3 ![0, 0, 0] (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32)))))))) slices_S1000000x8x3_S1000000x1x3_0_0_0) shapeCasts_S1000000x1x3_S1000000x3)

/-- The eight trilinear blending weights of every sample, side by side, over the reference's shapes and facts. -/
def weightsR {F : FTy → Type} [FloatOps F] (P : (⟨S1000000x3, .f32⟩ : BufTy).Contents (Elt F)) (C : (⟨S8x3, .f32⟩ : BufTy).Contents (Elt F)) : (⟨S1000000x8, .f32⟩ : BufTy).Contents (Elt F) :=
  concatenate S1000000x8 1 [⟨S1000000x1, (broadcastInDim S1000000x1 ![0] bcast_S1000000_S1000000x1_0 (mulf (mulf (subf (broadcastInDim S1000000 ![] bcast_S_S1000000 (constant S_ .f32 0x3F800000#32)) (shapeCast S1000000 (extractStridedSlice S1000000x1 ![0, 0] (offsR P C) slices_S1000000x3_S1000000x1_0_0) shapeCasts_S1000000x1_S1000000)) (subf (broadcastInDim S1000000 ![] bcast_S_S1000000 (constant S_ .f32 0x3F800000#32)) (shapeCast S1000000 (extractStridedSlice S1000000x1 ![0, 1] (offsR P C) slices_S1000000x3_S1000000x1_0_1) shapeCasts_S1000000x1_S1000000))) (subf (broadcastInDim S1000000 ![] bcast_S_S1000000 (constant S_ .f32 0x3F800000#32)) (shapeCast S1000000 (extractStridedSlice S1000000x1 ![0, 2] (offsR P C) slices_S1000000x3_S1000000x1_0_2) shapeCasts_S1000000x1_S1000000))))⟩, ⟨S1000000x1, (broadcastInDim S1000000x1 ![0] bcast_S1000000_S1000000x1_0 (mulf (mulf (subf (broadcastInDim S1000000 ![] bcast_S_S1000000 (constant S_ .f32 0x3F800000#32)) (shapeCast S1000000 (extractStridedSlice S1000000x1 ![0, 0] (offsR P C) slices_S1000000x3_S1000000x1_0_0) shapeCasts_S1000000x1_S1000000)) (subf (broadcastInDim S1000000 ![] bcast_S_S1000000 (constant S_ .f32 0x3F800000#32)) (shapeCast S1000000 (extractStridedSlice S1000000x1 ![0, 1] (offsR P C) slices_S1000000x3_S1000000x1_0_1) shapeCasts_S1000000x1_S1000000))) (shapeCast S1000000 (extractStridedSlice S1000000x1 ![0, 2] (offsR P C) slices_S1000000x3_S1000000x1_0_2) shapeCasts_S1000000x1_S1000000)))⟩, ⟨S1000000x1, (broadcastInDim S1000000x1 ![0] bcast_S1000000_S1000000x1_0 (mulf (mulf (subf (broadcastInDim S1000000 ![] bcast_S_S1000000 (constant S_ .f32 0x3F800000#32)) (shapeCast S1000000 (extractStridedSlice S1000000x1 ![0, 0] (offsR P C) slices_S1000000x3_S1000000x1_0_0) shapeCasts_S1000000x1_S1000000)) (shapeCast S1000000 (extractStridedSlice S1000000x1 ![0, 1] (offsR P C) slices_S1000000x3_S1000000x1_0_1) shapeCasts_S1000000x1_S1000000)) (subf (broadcastInDim S1000000 ![] bcast_S_S1000000 (constant S_ .f32 0x3F800000#32)) (shapeCast S1000000 (extractStridedSlice S1000000x1 ![0, 2] (offsR P C) slices_S1000000x3_S1000000x1_0_2) shapeCasts_S1000000x1_S1000000))))⟩, ⟨S1000000x1, (broadcastInDim S1000000x1 ![0] bcast_S1000000_S1000000x1_0 (mulf (mulf (subf (broadcastInDim S1000000 ![] bcast_S_S1000000 (constant S_ .f32 0x3F800000#32)) (shapeCast S1000000 (extractStridedSlice S1000000x1 ![0, 0] (offsR P C) slices_S1000000x3_S1000000x1_0_0) shapeCasts_S1000000x1_S1000000)) (shapeCast S1000000 (extractStridedSlice S1000000x1 ![0, 1] (offsR P C) slices_S1000000x3_S1000000x1_0_1) shapeCasts_S1000000x1_S1000000)) (shapeCast S1000000 (extractStridedSlice S1000000x1 ![0, 2] (offsR P C) slices_S1000000x3_S1000000x1_0_2) shapeCasts_S1000000x1_S1000000)))⟩, ⟨S1000000x1, (broadcastInDim S1000000x1 ![0] bcast_S1000000_S1000000x1_0 (mulf (mulf (shapeCast S1000000 (extractStridedSlice S1000000x1 ![0, 0] (offsR P C) slices_S1000000x3_S1000000x1_0_0) shapeCasts_S1000000x1_S1000000) (subf (broadcastInDim S1000000 ![] bcast_S_S1000000 (constant S_ .f32 0x3F800000#32)) (shapeCast S1000000 (extractStridedSlice S1000000x1 ![0, 1] (offsR P C) slices_S1000000x3_S1000000x1_0_1) shapeCasts_S1000000x1_S1000000))) (subf (broadcastInDim S1000000 ![] bcast_S_S1000000 (constant S_ .f32 0x3F800000#32)) (shapeCast S1000000 (extractStridedSlice S1000000x1 ![0, 2] (offsR P C) slices_S1000000x3_S1000000x1_0_2) shapeCasts_S1000000x1_S1000000))))⟩, ⟨S1000000x1, (broadcastInDim S1000000x1 ![0] bcast_S1000000_S1000000x1_0 (mulf (mulf (shapeCast S1000000 (extractStridedSlice S1000000x1 ![0, 0] (offsR P C) slices_S1000000x3_S1000000x1_0_0) shapeCasts_S1000000x1_S1000000) (subf (broadcastInDim S1000000 ![] bcast_S_S1000000 (constant S_ .f32 0x3F800000#32)) (shapeCast S1000000 (extractStridedSlice S1000000x1 ![0, 1] (offsR P C) slices_S1000000x3_S1000000x1_0_1) shapeCasts_S1000000x1_S1000000))) (shapeCast S1000000 (extractStridedSlice S1000000x1 ![0, 2] (offsR P C) slices_S1000000x3_S1000000x1_0_2) shapeCasts_S1000000x1_S1000000)))⟩, ⟨S1000000x1, (broadcastInDim S1000000x1 ![0] bcast_S1000000_S1000000x1_0 (mulf (mulf (shapeCast S1000000 (extractStridedSlice S1000000x1 ![0, 0] (offsR P C) slices_S1000000x3_S1000000x1_0_0) shapeCasts_S1000000x1_S1000000) (shapeCast S1000000 (extractStridedSlice S1000000x1 ![0, 1] (offsR P C) slices_S1000000x3_S1000000x1_0_1) shapeCasts_S1000000x1_S1000000)) (subf (broadcastInDim S1000000 ![] bcast_S_S1000000 (constant S_ .f32 0x3F800000#32)) (shapeCast S1000000 (extractStridedSlice S1000000x1 ![0, 2] (offsR P C) slices_S1000000x3_S1000000x1_0_2) shapeCasts_S1000000x1_S1000000))))⟩, ⟨S1000000x1, (broadcastInDim S1000000x1 ![0] bcast_S1000000_S1000000x1_0 (mulf (mulf (shapeCast S1000000 (extractStridedSlice S1000000x1 ![0, 0] (offsR P C) slices_S1000000x3_S1000000x1_0_0) shapeCasts_S1000000x1_S1000000) (shapeCast S1000000 (extractStridedSlice S1000000x1 ![0, 1] (offsR P C) slices_S1000000x3_S1000000x1_0_1) shapeCasts_S1000000x1_S1000000)) (shapeCast S1000000 (extractStridedSlice S1000000x1 ![0, 2] (offsR P C) slices_S1000000x3_S1000000x1_0_2) shapeCasts_S1000000x1_S1000000)))⟩] concatenates_S1000000x1_S1000000x1_S1000000x1_S1000000x1_S1000000x1_S1000000x1_S1000000x1_S1000000x1_S1000000x8_d1

attribute [local irreducible] Host.gather Host.reduceAdd in
set_option maxRecDepth 8192 in
set_option maxHeartbeats 2000000 in
/-- The reference's weights, read back. -/
theorem ref_weights (VR : Valuation τ sig (Elt Ideal)) :
    after (HRun.ops0 ++ HRun.ops1) VR (Proc.devRef .tc main_v96)
      = weightsR (F := Ideal) (VR (Proc.devRef .tc main_arg0)) (fun i => FloatOps.ofBits (F := Ideal) .f32 (lit0 (S8x3.rowMajor i))) := by
  simp only [StableHlo.after_append]
  simp only [HRun.ops0, HRun.ops1]
  simp (disch := decide) only [after_cons, after_nil,
    nullary_result', unary_result', binary_result', ternary_result', reshape_result', nary8_result',
    nullary_result_ne', unary_result_ne', binary_result_ne', ternary_result_ne', reshape_result_ne', nary_result_ne']
  rfl

/-- The reference's first stretch does not write the feature table. -/
theorem head_arg3R (VR : Valuation τ sig (Elt Ideal)) :
    after (HRun.ops0 ++ HRun.ops1) VR (Proc.devRef .tc main_arg3) = VR (Proc.devRef .tc main_arg3) := by
  simp only [StableHlo.after_append]
  rw [after_of_writes_sub HRun.ops1 _ HRun.ops1_writes (by decide), after_of_writes_sub HRun.ops0 _ HRun.ops0_writes (by decide)]

end Reference

section Kernel

open Cert.KernelIdeal Cert.KernelIdeal.Gen

/-- The offsets of the sample points inside their grid cells, over the kernel program's shapes and facts: the points less the
    clipped floor of the points shifted by half the corner table's first row. -/
def offsK {F : FTy → Type} [FloatOps F] (P : (⟨S1000000x3, .f32⟩ : BufTy).Contents (Elt F)) (C : (⟨S8x3, .f32⟩ : BufTy).Contents (Elt F)) : (⟨S1000000x3, .f32⟩ : BufTy).Contents (Elt F) :=
  subf P (shapeCast S1000000x3 (extractStridedSlice S1000000x1x3 ![0, 0, 0] (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32)))))))) slices_S1000000x8x3_S1000000x1x3_0_0_0) shapeCasts_S1000000x1x3_S1000000x3)

/-- The eight trilinear blending weights of every sample, side by side, over the kernel program's shapes and facts. -/
def weightsK {F : FTy → Type} [FloatOps F] (P : (⟨S1000000x3, .f32⟩ : BufTy).Contents (Elt F)) (C : (⟨S8x3, .f32⟩ : BufTy).Contents (Elt F)) : (⟨S1000000x8, .f32⟩ : BufTy).Contents (Elt F) :=
  concatenate S1000000x8 1 [⟨S1000000x1, (broadcastInDim S1000000x1 ![0] bcast_S1000000_S1000000x1_0 (mulf (mulf (subf (broadcastInDim S1000000 ![] bcast_S_S1000000 (constant S_ .f32 0x3F800000#32)) (shapeCast S1000000 (extractStridedSlice S1000000x1 ![0, 0] (offsK P C) slices_S1000000x3_S1000000x1_0_0) shapeCasts_S1000000x1_S1000000)) (subf (broadcastInDim S1000000 ![] bcast_S_S1000000 (constant S_ .f32 0x3F800000#32)) (shapeCast S1000000 (extractStridedSlice S1000000x1 ![0, 1] (offsK P C) slices_S1000000x3_S1000000x1_0_1) shapeCasts_S1000000x1_S1000000))) (subf (broadcastInDim S1000000 ![] bcast_S_S1000000 (constant S_ .f32 0x3F800000#32)) (shapeCast S1000000 (extractStridedSlice S1000000x1 ![0, 2] (offsK P C) slices_S1000000x3_S1000000x1_0_2) shapeCasts_S1000000x1_S1000000))))⟩, ⟨S1000000x1, (broadcastInDim S1000000x1 ![0] bcast_S1000000_S1000000x1_0 (mulf (mulf (subf (broadcastInDim S1000000 ![] bcast_S_S1000000 (constant S_ .f32 0x3F800000#32)) (shapeCast S1000000 (extractStridedSlice S1000000x1 ![0, 0] (offsK P C) slices_S1000000x3_S1000000x1_0_0) shapeCasts_S1000000x1_S1000000)) (subf (broadcastInDim S1000000 ![] bcast_S_S1000000 (constant S_ .f32 0x3F800000#32)) (shapeCast S1000000 (extractStridedSlice S1000000x1 ![0, 1] (offsK P C) slices_S1000000x3_S1000000x1_0_1) shapeCasts_S1000000x1_S1000000))) (shapeCast S1000000 (extractStridedSlice S1000000x1 ![0, 2] (offsK P C) slices_S1000000x3_S1000000x1_0_2) shapeCasts_S1000000x1_S1000000)))⟩, ⟨S1000000x1, (broadcastInDim S1000000x1 ![0] bcast_S1000000_S1000000x1_0 (mulf (mulf (subf (broadcastInDim S1000000 ![] bcast_S_S1000000 (constant S_ .f32 0x3F800000#32)) (shapeCast S1000000 (extractStridedSlice S1000000x1 ![0, 0] (offsK P C) slices_S1000000x3_S1000000x1_0_0) shapeCasts_S1000000x1_S1000000)) (shapeCast S1000000 (extractStridedSlice S1000000x1 ![0, 1] (offsK P C) slices_S1000000x3_S1000000x1_0_1) shapeCasts_S1000000x1_S1000000)) (subf (broadcastInDim S1000000 ![] bcast_S_S1000000 (constant S_ .f32 0x3F800000#32)) (shapeCast S1000000 (extractStridedSlice S1000000x1 ![0, 2] (offsK P C) slices_S1000000x3_S1000000x1_0_2) shapeCasts_S1000000x1_S1000000))))⟩, ⟨S1000000x1, (broadcastInDim S1000000x1 ![0] bcast_S1000000_S1000000x1_0 (mulf (mulf (subf (broadcastInDim S1000000 ![] bcast_S_S1000000 (constant S_ .f32 0x3F800000#32)) (shapeCast S1000000 (extractStridedSlice S1000000x1 ![0, 0] (offsK P C) slices_S1000000x3_S1000000x1_0_0) shapeCasts_S1000000x1_S1000000)) (shapeCast S1000000 (extractStridedSlice S1000000x1 ![0, 1] (offsK P C) slices_S1000000x3_S1000000x1_0_1) shapeCasts_S1000000x1_S1000000)) (shapeCast S1000000 (extractStridedSlice S1000000x1 ![0, 2] (offsK P C) slices_S1000000x3_S1000000x1_0_2) shapeCasts_S1000000x1_S1000000)))⟩, ⟨S1000000x1, (broadcastInDim S1000000x1 ![0] bcast_S1000000_S1000000x1_0 (mulf (mulf (shapeCast S1000000 (extractStridedSlice S1000000x1 ![0, 0] (offsK P C) slices_S1000000x3_S1000000x1_0_0) shapeCasts_S1000000x1_S1000000) (subf (broadcastInDim S1000000 ![] bcast_S_S1000000 (constant S_ .f32 0x3F800000#32)) (shapeCast S1000000 (extractStridedSlice S1000000x1 ![0, 1] (offsK P C) slices_S1000000x3_S1000000x1_0_1) shapeCasts_S1000000x1_S1000000))) (subf (broadcastInDim S1000000 ![] bcast_S_S1000000 (constant S_ .f32 0x3F800000#32)) (shapeCast S1000000 (extractStridedSlice S1000000x1 ![0, 2] (offsK P C) slices_S1000000x3_S1000000x1_0_2) shapeCasts_S1000000x1_S1000000))))⟩, ⟨S1000000x1, (broadcastInDim S1000000x1 ![0] bcast_S1000000_S1000000x1_0 (mulf (mulf (shapeCast S1000000 (extractStridedSlice S1000000x1 ![0, 0] (offsK P C) slices_S1000000x3_S1000000x1_0_0) shapeCasts_S1000000x1_S1000000) (subf (broadcastInDim S1000000 ![] bcast_S_S1000000 (constant S_ .f32 0x3F800000#32)) (shapeCast S1000000 (extractStridedSlice S1000000x1 ![0, 1] (offsK P C) slices_S1000000x3_S1000000x1_0_1) shapeCasts_S1000000x1_S1000000))) (shapeCast S1000000 (extractStridedSlice S1000000x1 ![0, 2] (offsK P C) slices_S1000000x3_S1000000x1_0_2) shapeCasts_S1000000x1_S1000000)))⟩, ⟨S1000000x1, (broadcastInDim S1000000x1 ![0] bcast_S1000000_S1000000x1_0 (mulf (mulf (shapeCast S1000000 (extractStridedSlice S1000000x1 ![0, 0] (offsK P C) slices_S1000000x3_S1000000x1_0_0) shapeCasts_S1000000x1_S1000000) (shapeCast S1000000 (extractStridedSlice S1000000x1 ![0, 1] (offsK P C) slices_S1000000x3_S1000000x1_0_1) shapeCasts_S1000000x1_S1000000)) (subf (broadcastInDim S1000000 ![] bcast_S_S1000000 (constant S_ .f32 0x3F800000#32)) (shapeCast S1000000 (extractStridedSlice S1000000x1 ![0, 2] (offsK P C) slices_S1000000x3_S1000000x1_0_2) shapeCasts_S1000000x1_S1000000))))⟩, ⟨S1000000x1, (broadcastInDim S1000000x1 ![0] bcast_S1000000_S1000000x1_0 (mulf (mulf (shapeCast S1000000 (extractStridedSlice S1000000x1 ![0, 0] (offsK P C) slices_S1000000x3_S1000000x1_0_0) shapeCasts_S1000000x1_S1000000) (shapeCast S1000000 (extractStridedSlice S1000000x1 ![0, 1] (offsK P C) slices_S1000000x3_S1000000x1_0_1) shapeCasts_S1000000x1_S1000000)) (shapeCast S1000000 (extractStridedSlice S1000000x1 ![0, 2] (offsK P C) slices_S1000000x3_S1000000x1_0_2) shapeCasts_S1000000x1_S1000000)))⟩] concatenates_S1000000x1_S1000000x1_S1000000x1_S1000000x1_S1000000x1_S1000000x1_S1000000x1_S1000000x1_S1000000x8_d1

attribute [local irreducible] Host.gather Host.reduceAdd in
set_option maxRecDepth 8192 in
set_option maxHeartbeats 2000000 in
/-- The kernel program's weights, read back. -/
theorem ker_weights (VK : Valuation τ sig (Elt Ideal)) :
    after (hostOps0 ++ (hostOps0_1 ++ hostOps0_2)) VK (Proc.devRef .tc main_v94)
      = weightsK (F := Ideal) (VK (Proc.devRef .tc main_arg0)) (fun i => FloatOps.ofBits (F := Ideal) .f32 (lit0 (S8x3.rowMajor i))) := by
  simp only [StableHlo.after_append]
  simp only [hostOps0, hostOps0_1, hostOps0_2]
  simp (disch := decide) only [after_cons, after_nil,
    nullary_result', unary_result', binary_result', ternary_result', reshape_result', nary8_result',
    nullary_result_ne', unary_result_ne', binary_result_ne', ternary_result_ne', reshape_result_ne', nary_result_ne']
  rfl

set_option maxRecDepth 8192 in
set_option maxHeartbeats 2000000 in
/-- The kernel program's two clipping bounds after its first stretch. -/
theorem head_cst20 (VK : Valuation τ sig (Elt Ideal)) :
    after (hostOps0 ++ (hostOps0_1 ++ hostOps0_2)) VK (Proc.devRef .tc main_cst_20) = constant (F := Ideal) S_ .f32 0xBF800000#32 := by
  simp only [StableHlo.after_append]
  simp only [hostOps0_2]
  simp (disch := decide) only [after_cons, after_nil,
    nullary_result', unary_result', binary_result', ternary_result', reshape_result', nary8_result',
    nullary_result_ne', unary_result_ne', binary_result_ne', ternary_result_ne', reshape_result_ne', nary_result_ne']

set_option maxRecDepth 8192 in
set_option maxHeartbeats 2000000 in
@[inherit_doc head_cst20]
theorem head_cst21 (VK : Valuation τ sig (Elt Ideal)) :
    after (hostOps0 ++ (hostOps0_1 ++ hostOps0_2)) VK (Proc.devRef .tc main_cst_21) = constant (F := Ideal) S_ .f32 0x3F800000#32 := by
  simp only [StableHlo.after_append]
  simp only [hostOps0_2]
  simp (disch := decide) only [after_cons, after_nil,
    nullary_result', unary_result', binary_result', ternary_result', reshape_result', nary8_result',
    nullary_result_ne', unary_result_ne', binary_result_ne', ternary_result_ne', reshape_result_ne', nary_result_ne']

/-- The buffers `hostOps0` writes, in order. -/
abbrev headK0_W : List (Ref sig .tc) := [main_cst, main_v0, main_v1, main_cst_0, main_v2, main_v3, main_v4, main_v5, main_v6, main_v7, main_cst_1, main_c]
set_option maxRecDepth 8192 in
set_option maxHeartbeats 4000000 in
theorem headK0_writes : (hostOps0 : List (HloOp τ sig (Elt Ideal))).Forall fun op =>
    op.writes ⊆ (headK0_W.map (Proc.devRef (τ := τ) .tc)).toFinset :=
  ⟨head_single_sub (y := main_cst) (by decide), head_single_sub (y := main_v0) (by decide), head_single_sub (y := main_v1) (by decide), head_single_sub (y := main_cst_0) (by decide), head_single_sub (y := main_v2) (by decide), head_single_sub (y := main_v3) (by decide), head_single_sub (y := main_v4) (by decide), head_single_sub (y := main_v5) (by decide), head_single_sub (y := main_v6) (by decide), head_single_sub (y := main_v7) (by decide), head_single_sub (y := main_cst_1) (by decide), head_single_sub (y := main_c) (by decide)⟩
/-- The buffers `hostOps0_1` writes, in order. -/
abbrev headK1_W : List (Ref sig .tc) := [main_call0_v0, main_call0_v1, main_call0_v2, main_call0_v3, main_call0_v4, main_v8]
set_option maxRecDepth 8192 in
set_option maxHeartbeats 4000000 in
theorem headK1_writes : (hostOps0_1 : List (HloOp τ sig (Elt Ideal))).Forall fun op =>
    op.writes ⊆ (headK1_W.map (Proc.devRef (τ := τ) .tc)).toFinset :=
  ⟨head_single_sub (y := main_call0_v0) (by decide), head_single_sub (y := main_call0_v1) (by decide), head_single_sub (y := main_call0_v2) (by decide), head_single_sub (y := main_call0_v3) (by decide), head_single_sub (y := main_call0_v4) (by decide), head_single_sub (y := main_v8) (by decide)⟩
/-- The buffers `hostOps0_2` writes, in order. -/
abbrev headK2_W : List (Ref sig .tc) := [main_v9, main_v10, main_v11, main_v12, main_v13, main_v14, main_v15, main_v16, main_v17, main_v18, main_v19, main_c_2, main_v20, main_v21, main_c_3, main_v22, main_v23, main_v24, main_c_4, main_v25, main_v26, main_c_5, main_v27, main_v28, main_v29, main_c_6, main_v30, main_v31, main_c_7, main_v32, main_v33, main_v34, main_v35, main_v36, main_v37, main_v38, main_v39, main_v40, main_v41, main_v42, main_v43, main_v44, main_v45, main_cst_8, main_v46, main_v47, main_cst_9, main_v48, main_v49, main_v50, main_cst_10, main_v51, main_v52, main_v53, main_cst_11, main_v54, main_v55, main_cst_12, main_v56, main_v57, main_v58, main_v59, main_cst_13, main_v60, main_v61, main_v62, main_cst_14, main_v63, main_v64, main_v65, main_cst_15, main_v66, main_v67, main_v68, main_v69, main_cst_16, main_v70, main_v71, main_v72, main_cst_17, main_v73, main_v74, main_v75, main_cst_18, main_v76, main_v77, main_v78, main_v79, main_v80, main_cst_19, main_v81, main_v82, main_v83, main_v84, main_v85, main_v86, main_v87, main_v88, main_v89, main_v90, main_v91, main_v92, main_v93, main_v94, main_cst_20, main_cst_21]
set_option maxRecDepth 8192 in
set_option maxHeartbeats 4000000 in
theorem headK2_writes : (hostOps0_2 : List (HloOp τ sig (Elt Ideal))).Forall fun op =>
    op.writes ⊆ (headK2_W.map (Proc.devRef (τ := τ) .tc)).toFinset :=
  ⟨head_single_sub (y := main_v9) (by decide), head_single_sub (y := main_v10) (by decide), head_single_sub (y := main_v11) (by decide), head_single_sub (y := main_v12) (by decide), head_single_sub (y := main_v13) (by decide), head_single_sub (y := main_v14) (by decide), head_single_sub (y := main_v15) (by decide), head_single_sub (y := main_v16) (by decide), head_single_sub (y := main_v17) (by decide), head_single_sub (y := main_v18) (by decide), head_single_sub (y := main_v19) (by decide), head_single_sub (y := main_c_2) (by decide), head_single_sub (y := main_v20) (by decide), head_single_sub (y := main_v21) (by decide), head_single_sub (y := main_c_3) (by decide), head_single_sub (y := main_v22) (by decide), head_single_sub (y := main_v23) (by decide), head_single_sub (y := main_v24) (by decide), head_single_sub (y := main_c_4) (by decide), head_single_sub (y := main_v25) (by decide), head_single_sub (y := main_v26) (by decide), head_single_sub (y := main_c_5) (by decide), head_single_sub (y := main_v27) (by decide), head_single_sub (y := main_v28) (by decide), head_single_sub (y := main_v29) (by decide), head_single_sub (y := main_c_6) (by decide), head_single_sub (y := main_v30) (by decide), head_single_sub (y := main_v31) (by decide), head_single_sub (y := main_c_7) (by decide), head_single_sub (y := main_v32) (by decide), head_single_sub (y := main_v33) (by decide), head_single_sub (y := main_v34) (by decide), head_single_sub (y := main_v35) (by decide), head_single_sub (y := main_v36) (by decide), head_single_sub (y := main_v37) (by decide), head_single_sub (y := main_v38) (by decide), head_single_sub (y := main_v39) (by decide), head_single_sub (y := main_v40) (by decide), head_single_sub (y := main_v41) (by decide), head_single_sub (y := main_v42) (by decide), head_single_sub (y := main_v43) (by decide), head_single_sub (y := main_v44) (by decide), head_single_sub (y := main_v45) (by decide), head_single_sub (y := main_cst_8) (by decide), head_single_sub (y := main_v46) (by decide), head_single_sub (y := main_v47) (by decide), head_single_sub (y := main_cst_9) (by decide), head_single_sub (y := main_v48) (by decide), head_single_sub (y := main_v49) (by decide), head_single_sub (y := main_v50) (by decide), head_single_sub (y := main_cst_10) (by decide), head_single_sub (y := main_v51) (by decide), head_single_sub (y := main_v52) (by decide), head_single_sub (y := main_v53) (by decide), head_single_sub (y := main_cst_11) (by decide), head_single_sub (y := main_v54) (by decide), head_single_sub (y := main_v55) (by decide), head_single_sub (y := main_cst_12) (by decide), head_single_sub (y := main_v56) (by decide), head_single_sub (y := main_v57) (by decide), head_single_sub (y := main_v58) (by decide), head_single_sub (y := main_v59) (by decide), head_single_sub (y := main_cst_13) (by decide), head_single_sub (y := main_v60) (by decide), head_single_sub (y := main_v61) (by decide), head_single_sub (y := main_v62) (by decide), head_single_sub (y := main_cst_14) (by decide), head_single_sub (y := main_v63) (by decide), head_single_sub (y := main_v64) (by decide), head_single_sub (y := main_v65) (by decide), head_single_sub (y := main_cst_15) (by decide), head_single_sub (y := main_v66) (by decide), head_single_sub (y := main_v67) (by decide), head_single_sub (y := main_v68) (by decide), head_single_sub (y := main_v69) (by decide), head_single_sub (y := main_cst_16) (by decide), head_single_sub (y := main_v70) (by decide), head_single_sub (y := main_v71) (by decide), head_single_sub (y := main_v72) (by decide), head_single_sub (y := main_cst_17) (by decide), head_single_sub (y := main_v73) (by decide), head_single_sub (y := main_v74) (by decide), head_single_sub (y := main_v75) (by decide), head_single_sub (y := main_cst_18) (by decide), head_single_sub (y := main_v76) (by decide), head_single_sub (y := main_v77) (by decide), head_single_sub (y := main_v78) (by decide), head_single_sub (y := main_v79) (by decide), head_single_sub (y := main_v80) (by decide), head_single_sub (y := main_cst_19) (by decide), head_single_sub (y := main_v81) (by decide), head_single_sub (y := main_v82) (by decide), head_single_sub (y := main_v83) (by decide), head_single_sub (y := main_v84) (by decide), head_single_sub (y := main_v85) (by decide), head_single_sub (y := main_v86) (by decide), head_single_sub (y := main_v87) (by decide), head_single_sub (y := main_v88) (by decide), head_single_sub (y := main_v89) (by decide), head_single_sub (y := main_v90) (by decide), head_single_sub (y := main_v91) (by decide), head_single_sub (y := main_v92) (by decide), head_single_sub (y := main_v93) (by decide), head_single_sub (y := main_v94) (by decide), head_single_sub (y := main_cst_20) (by decide), head_single_sub (y := main_cst_21) (by decide)⟩

/-- The kernel program's first stretch does not write the feature table. -/
theorem head_arg3K (VK : Valuation τ sig (Elt Ideal)) :
    after (hostOps0 ++ (hostOps0_1 ++ hostOps0_2)) VK (Proc.devRef .tc main_arg3) = VK (Proc.devRef .tc main_arg3) := by
  simp only [StableHlo.after_append]
  rw [after_of_writes_sub hostOps0_2 _ headK2_writes (by decide), after_of_writes_sub hostOps0_1 _ headK1_writes (by decide),
    after_of_writes_sub hostOps0 _ headK0_writes (by decide)]

end Kernel

attribute [local irreducible] Host.gather Host.reduceAdd in
set_option maxRecDepth 8192 in
set_option maxHeartbeats 2000000 in
/-- The two spellings of the weights are one function: the two programs' shapes and facts are the same literals. -/
theorem weights_cross (P : FVec Ideal ⟨2, ![1000000, 3]⟩ .f32) (C : FVec Ideal ⟨2, ![8, 3]⟩ .f32) :
    weightsR (F := Ideal) P C = weightsK (F := Ideal) P C := rfl

/-- The two programs carry the same table of the eight corners' signs. -/
theorem head_table_eq :
    (fun i => FloatOps.ofBits (F := Ideal) .f32 (Cert.ReferenceIdeal.lit0 (Cert.ReferenceIdeal.S8x3.rowMajor i)) : FVec Ideal ⟨2, ![8, 3]⟩ .f32)
      = fun i => FloatOps.ofBits (F := Ideal) .f32 (Cert.KernelIdeal.lit0 (Cert.KernelIdeal.S8x3.rowMajor i)) := by
  have h : Cert.ReferenceIdeal.lit0 = Cert.KernelIdeal.lit0 := funext fun j => by fin_cases j <;> rfl
  rw [h]

/-- From the same sample points the two programs compute the same blending weights. -/
theorem head_weights (VK : Valuation Cert.KernelIdeal.τ Cert.KernelIdeal.sig (Elt Ideal)) (VR : Valuation Cert.ReferenceIdeal.τ Cert.ReferenceIdeal.sig (Elt Ideal))
    (h0 : VR (Proc.devRef .tc Cert.ReferenceIdeal.main_arg0) = VK (Proc.devRef .tc Cert.KernelIdeal.main_arg0)) :
    after (Cert.ReferenceIdeal.HRun.ops0 ++ Cert.ReferenceIdeal.HRun.ops1) VR (Proc.devRef .tc Cert.ReferenceIdeal.main_v96)
      = after (Cert.KernelIdeal.Gen.hostOps0 ++ (Cert.KernelIdeal.Gen.hostOps0_1 ++ Cert.KernelIdeal.Gen.hostOps0_2)) VK (Proc.devRef .tc Cert.KernelIdeal.main_v94) := by
  rw [ref_weights VR, ker_weights VK, h0, head_table_eq]
  exact weights_cross _ _

end Cert.HostChain

end
-- ==== Proof.ChainJoin.lean ====
/-
  The two programs' host chains leave the same blended feature array.

  Each chain is cut after the trilinear weights.  Up to the cut the two texts differ only in how the grid is read
  (through a reshape with three index columns, or in place with a fourth column of zeros): the grid entries read are
  the same.  After the cut the texts are the same, applied to the same grid values, weights and feature table.
-/
import proofs.«133790_j23845658428386_2_alg».proof.Proof.ChainTail
import proofs.«133790_j23845658428386_2_alg».proof.Proof.ChainHead

noncomputable section

namespace Cert.HostChain

open Idealize.ShloMosaic Idealize.ShloMosaic.StableHlo

/-- The feature arrays agree once the grid values at the cut agree. -/
theorem fvals_eq_of_gather (VK : Valuation Cert.KernelIdeal.τ Cert.KernelIdeal.sig (Elt Ideal)) (VR : Valuation Cert.ReferenceIdeal.τ Cert.ReferenceIdeal.sig (Elt Ideal))
    (h0 : VR (Proc.devRef .tc Cert.ReferenceIdeal.main_arg0) = VK (Proc.devRef .tc Cert.KernelIdeal.main_arg0))
    (h3 : VR (Proc.devRef .tc Cert.ReferenceIdeal.main_arg3) = VK (Proc.devRef .tc Cert.KernelIdeal.main_arg3))
    (hg : after (Cert.ReferenceIdeal.HRun.ops0 ++ Cert.ReferenceIdeal.HRun.ops1) VR (Proc.devRef .tc Cert.ReferenceIdeal.main_v41)
      = after (Cert.KernelIdeal.Gen.hostOps0 ++ (Cert.KernelIdeal.Gen.hostOps0_1 ++ Cert.KernelIdeal.Gen.hostOps0_2)) VK (Proc.devRef .tc Cert.KernelIdeal.main_v39))
    (i : (⟨2, ![1000000, 16]⟩ : Shape).Idx) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8]) VK (Proc.devRef .tc Cert.KernelIdeal.main_v138) : (⟨2, ![1000000, 16]⟩ : Shape).Idx → EReal) i
      = (StableHlo.after Cert.ReferenceIdeal.HRun.opsA VR (Proc.devRef .tc Cert.ReferenceIdeal.main_v139) : (⟨2, ![1000000, 16]⟩ : Shape).Idx → EReal) i := by
  have hK : List.flatten [Cert.KernelIdeal.Gen.hostOps0 (F := Ideal), Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8]
      = (Cert.KernelIdeal.Gen.hostOps0 ++ (Cert.KernelIdeal.Gen.hostOps0_1 ++ Cert.KernelIdeal.Gen.hostOps0_2))
        ++ (Cert.KernelIdeal.Gen.hostOps0_3 ++ (Cert.KernelIdeal.Gen.hostOps0_4 ++ (Cert.KernelIdeal.Gen.hostOps0_5 ++ (Cert.KernelIdeal.Gen.hostOps0_6 ++ (Cert.KernelIdeal.Gen.hostOps0_7 ++ Cert.KernelIdeal.Gen.hostOps0_8))))) := by
    simp only [List.flatten_cons, List.flatten_nil, List.append_nil, List.append_assoc]
  have hR : (Cert.ReferenceIdeal.HRun.opsA (F := Ideal)) = (Cert.ReferenceIdeal.HRun.ops0 ++ Cert.ReferenceIdeal.HRun.ops1) ++ Cert.ReferenceIdeal.HRun.ops2a := by
    simp only [Cert.ReferenceIdeal.HRun.opsA, List.append_assoc]
  rw [hK, hR, StableHlo.after_append, StableHlo.after_append]
  exact chain_tail _ _ hg (head_weights VK VR h0) ((head_arg3R VR).trans (h3.trans (head_arg3K VK).symm)) (head_cst20 VK) (head_cst21 VK) i

end Cert.HostChain

end
-- ==== Proof.ChainGather.lean ====
/- The grid lookup at the eight corners of every sample's cell, as both programs run it. The kernel program drops the
   grid's trailing unit axis and looks up with three index columns; the reference keeps the axis and adds a fourth
   column of zeros. The three index columns are one composed term of the sample points in both programs, a unit
   axis's clamped start is zero, so the two lookups read the same grid elements. -/
import proofs.«133790_j23845658428386_2_alg».proof.Proof.ChainHead
import Idealize.ShloMosaic.Lib.ValueIdx
import Idealize.ShloMosaic.Lib.Pipeline.Value

noncomputable section

namespace Cert.HostChain

section GatherFacts

open Idealize.ShloMosaic Idealize.ShloMosaic.ValueIdx

variable [Cert.KernelIdeal.Facts] [Cert.ReferenceIdeal.Facts]
variable {α : Type}

local notation "dK" => Cert.KernelIdeal.gather_S256x256x256_S1000000x8x3_S1000000x8_n_012_n_n_012_2_111
local notation "dR" => Cert.ReferenceIdeal.gather_S256x256x256x1_S1000000x8x4_S1000000x8_n_0123_n_n_0123_2_1111

/-- The start-indices index at which result index `j` reads component `c` of its start vector: `j`'s two coordinates, then `c`. -/
theorem siIdxK (j : (⟨2, ![1000000, 8]⟩ : Shape).Idx) (c : Fin 3) (hc : c.val < (dK).startIndexMap.length) :
    (dK).siIdx j ⟨c.val, hc⟩ = ix3 (n0 := 1000000) (n1 := 8) (n2 := 3) (j 0) (j 1) c := by
  funext b; refine Fin.ext ?_
  match b with
  | ⟨0, _⟩ => rfl
  | ⟨1, _⟩ => rfl
  | ⟨2, _⟩ => rfl

/-- The start-indices index at which result index `j` reads component `c` of its start vector: `j`'s two coordinates, then `c`. -/
theorem siIdxR (j : (⟨2, ![1000000, 8]⟩ : Shape).Idx) (c : Fin 4) (hc : c.val < (dR).startIndexMap.length) :
    (dR).siIdx j ⟨c.val, hc⟩ = ix3 (n0 := 1000000) (n1 := 8) (n2 := 4) (j 0) (j 1) c := by
  funext b; refine Fin.ext ?_
  match b with
  | ⟨0, _⟩ => rfl
  | ⟨1, _⟩ => rfl
  | ⟨2, _⟩ => rfl

theorem startK_0 (I : IVec (⟨3, ![1000000, 8, 3]⟩ : Shape) 32) (j : (⟨2, ![1000000, 8]⟩ : Shape).Idx) :
    (dK).start j I ⟨0, by decide⟩ = min (I (ix3 (n0 := 1000000) (n1 := 8) (n2 := 3) (j 0) (j 1) ⟨0, by decide⟩)).toInt.toNat 255 := by
  have hmem : (⟨0, by decide⟩ : Fin 3) ∈ (dK).startIndexMap := (show (⟨0, by decide⟩ : Fin 3) ∈ ([0, 1, 2] : List (Fin 3)) from by decide)
  unfold GatherDims.start
  rw [dif_pos hmem]
  have hsi := siIdxK j ⟨0, by decide⟩ (show 0 < ([0, 1, 2] : List (Fin 3)).length from by decide)
  exact congrArg (fun x => min (I x).toInt.toNat 255) hsi

theorem startK_1 (I : IVec (⟨3, ![1000000, 8, 3]⟩ : Shape) 32) (j : (⟨2, ![1000000, 8]⟩ : Shape).Idx) :
    (dK).start j I ⟨1, by decide⟩ = min (I (ix3 (n0 := 1000000) (n1 := 8) (n2 := 3) (j 0) (j 1) ⟨1, by decide⟩)).toInt.toNat 255 := by
  have hmem : (⟨1, by decide⟩ : Fin 3) ∈ (dK).startIndexMap := (show (⟨1, by decide⟩ : Fin 3) ∈ ([0, 1, 2] : List (Fin 3)) from by decide)
  unfold GatherDims.start
  rw [dif_pos hmem]
  have hsi := siIdxK j ⟨1, by decide⟩ (show 1 < ([0, 1, 2] : List (Fin 3)).length from by decide)
  exact congrArg (fun x => min (I x).toInt.toNat 255) hsi

theorem startK_2 (I : IVec (⟨3, ![1000000, 8, 3]⟩ : Shape) 32) (j : (⟨2, ![1000000, 8]⟩ : Shape).Idx) :
    (dK).start j I ⟨2, by decide⟩ = min (I (ix3 (n0 := 1000000) (n1 := 8) (n2 := 3) (j 0) (j 1) ⟨2, by decide⟩)).toInt.toNat 255 := by
  have hmem : (⟨2, by decide⟩ : Fin 3) ∈ (dK).startIndexMap := (show (⟨2, by decide⟩ : Fin 3) ∈ ([0, 1, 2] : List (Fin 3)) from by decide)
  unfold GatherDims.start
  rw [dif_pos hmem]
  have hsi := siIdxK j ⟨2, by decide⟩ (show 2 < ([0, 1, 2] : List (Fin 3)).length from by decide)
  exact congrArg (fun x => min (I x).toInt.toNat 255) hsi

theorem startR_0 (I : IVec (⟨3, ![1000000, 8, 4]⟩ : Shape) 32) (j : (⟨2, ![1000000, 8]⟩ : Shape).Idx) :
    (dR).start j I ⟨0, by decide⟩ = min (I (ix3 (n0 := 1000000) (n1 := 8) (n2 := 4) (j 0) (j 1) ⟨0, by decide⟩)).toInt.toNat 255 := by
  have hmem : (⟨0, by decide⟩ : Fin 4) ∈ (dR).startIndexMap := (show (⟨0, by decide⟩ : Fin 4) ∈ ([0, 1, 2, 3] : List (Fin 4)) from by decide)
  unfold GatherDims.start
  rw [dif_pos hmem]
  have hsi := siIdxR j ⟨0, by decide⟩ (show 0 < ([0, 1, 2, 3] : List (Fin 4)).length from by decide)
  exact congrArg (fun x => min (I x).toInt.toNat 255) hsi

theorem startR_1 (I : IVec (⟨3, ![1000000, 8, 4]⟩ : Shape) 32) (j : (⟨2, ![1000000, 8]⟩ : Shape).Idx) :
    (dR).start j I ⟨1, by decide⟩ = min (I (ix3 (n0 := 1000000) (n1 := 8) (n2 := 4) (j 0) (j 1) ⟨1, by decide⟩)).toInt.toNat 255 := by
  have hmem : (⟨1, by decide⟩ : Fin 4) ∈ (dR).startIndexMap := (show (⟨1, by decide⟩ : Fin 4) ∈ ([0, 1, 2, 3] : List (Fin 4)) from by decide)
  unfold GatherDims.start
  rw [dif_pos hmem]
  have hsi := siIdxR j ⟨1, by decide⟩ (show 1 < ([0, 1, 2, 3] : List (Fin 4)).length from by decide)
  exact congrArg (fun x => min (I x).toInt.toNat 255) hsi

theorem startR_2 (I : IVec (⟨3, ![1000000, 8, 4]⟩ : Shape) 32) (j : (⟨2, ![1000000, 8]⟩ : Shape).Idx) :
    (dR).start j I ⟨2, by decide⟩ = min (I (ix3 (n0 := 1000000) (n1 := 8) (n2 := 4) (j 0) (j 1) ⟨2, by decide⟩)).toInt.toNat 255 := by
  have hmem : (⟨2, by decide⟩ : Fin 4) ∈ (dR).startIndexMap := (show (⟨2, by decide⟩ : Fin 4) ∈ ([0, 1, 2, 3] : List (Fin 4)) from by decide)
  unfold GatherDims.start
  rw [dif_pos hmem]
  have hsi := siIdxR j ⟨2, by decide⟩ (show 2 < ([0, 1, 2, 3] : List (Fin 4)).length from by decide)
  exact congrArg (fun x => min (I x).toInt.toNat 255) hsi

theorem startR_3 (I : IVec (⟨3, ![1000000, 8, 4]⟩ : Shape) 32) (j : (⟨2, ![1000000, 8]⟩ : Shape).Idx) :
    (dR).start j I ⟨3, by decide⟩ = min (I (ix3 (n0 := 1000000) (n1 := 8) (n2 := 4) (j 0) (j 1) ⟨3, by decide⟩)).toInt.toNat 0 := by
  have hmem : (⟨3, by decide⟩ : Fin 4) ∈ (dR).startIndexMap := (show (⟨3, by decide⟩ : Fin 4) ∈ ([0, 1, 2, 3] : List (Fin 4)) from by decide)
  unfold GatherDims.start
  rw [dif_pos hmem]
  have hsi := siIdxR j ⟨3, by decide⟩ (show 3 < ([0, 1, 2, 3] : List (Fin 4)).length from by decide)
  exact congrArg (fun x => min (I x).toInt.toNat 0) hsi

/-- The operand index the three-column gather reads, axis by axis: the clamped start (no batching axis, every axis collapsed). -/
theorem operandIdxK_val (I : IVec (⟨3, ![1000000, 8, 3]⟩ : Shape) 32) (j : (⟨2, ![1000000, 8]⟩ : Shape).Idx) (a : Fin 3) :
    ((dK).operandIdx j I a).val = (dK).start j I a := by
  have hcol : ∀ a : Fin 3, a ∈ ([0, 1, 2] : List (Fin 3)) := by decide
  show (dK).start j I a + (dK).batchCoord j a + (dK).offCoord j a = _
  rw [GatherDims.batchCoord_eq_zero _ _ _ (show a ∉ ([] : List (Fin 3)) from List.not_mem_nil),
    GatherDims.offCoord_eq_zero _ _ _ (fun h => ((GatherDims.mem_sKept _ _).mp h).1 (hcol a))]
  rfl

/-- The same for the four-column gather. -/
theorem operandIdxR_val (I : IVec (⟨3, ![1000000, 8, 4]⟩ : Shape) 32) (j : (⟨2, ![1000000, 8]⟩ : Shape).Idx) (a : Fin 4) :
    ((dR).operandIdx j I a).val = (dR).start j I a := by
  have hcol : ∀ a : Fin 4, a ∈ ([0, 1, 2, 3] : List (Fin 4)) := by decide
  show (dR).start j I a + (dR).batchCoord j a + (dR).offCoord j a = _
  rw [GatherDims.batchCoord_eq_zero _ _ _ (show a ∉ ([] : List (Fin 4)) from List.not_mem_nil),
    GatherDims.offCoord_eq_zero _ _ _ (fun h => ((GatherDims.mem_sKept _ _).mp h).1 (hcol a))]
  rfl

/-- Reading a grid with a trailing unit axis through three start columns equals reading it through four whose last
    column is anything: the fourth axis has extent one, so its clamped start is zero, and the first three starts are the
    same clamped values. `G3` is the grid without its unit axis. -/
theorem gather_eq (G : (⟨4, ![256, 256, 256, 1]⟩ : Shape).Idx → α) (G3 : (⟨3, ![256, 256, 256]⟩ : Shape).Idx → α)
    (hG : ∀ i : (⟨3, ![256, 256, 256]⟩ : Shape).Idx,
      G3 i = G (ix4 (n0 := 256) (n1 := 256) (n2 := 256) (n3 := 1) (i 0) (i 1) (i 2) ⟨0, by decide⟩))
    (IK : IVec (⟨3, ![1000000, 8, 3]⟩ : Shape) 32) (IR : IVec (⟨3, ![1000000, 8, 4]⟩ : Shape) 32)
    (hI : ∀ (r : Fin 1000000) (k : Fin 8) (c : Fin 3),
      IK (ix3 (n0 := 1000000) (n1 := 8) (n2 := 3) r k c) = IR (ix3 (n0 := 1000000) (n1 := 8) (n2 := 4) r k c.castSucc)) :
    Host.gather (dK) G3 IK = Host.gather (dR) G IR := by
  funext j
  unfold Host.gather
  rw [hG]
  congr 1
  funext a
  refine Fin.ext ?_
  match a with
  | ⟨0, _⟩ =>
    show ((dK).operandIdx j IK ⟨0, by decide⟩).val = ((dR).operandIdx j IR ⟨0, by decide⟩).val
    rw [operandIdxK_val, operandIdxR_val, startK_0, startR_0]
    exact congrArg (fun v : BitVec 32 => min v.toInt.toNat 255) (hI (j 0) (j 1) ⟨0, by decide⟩)
  | ⟨1, _⟩ =>
    show ((dK).operandIdx j IK ⟨1, by decide⟩).val = ((dR).operandIdx j IR ⟨1, by decide⟩).val
    rw [operandIdxK_val, operandIdxR_val, startK_1, startR_1]
    exact congrArg (fun v : BitVec 32 => min v.toInt.toNat 255) (hI (j 0) (j 1) ⟨1, by decide⟩)
  | ⟨2, _⟩ =>
    show ((dK).operandIdx j IK ⟨2, by decide⟩).val = ((dR).operandIdx j IR ⟨2, by decide⟩).val
    rw [operandIdxK_val, operandIdxR_val, startK_2, startR_2]
    exact congrArg (fun v : BitVec 32 => min v.toInt.toNat 255) (hI (j 0) (j 1) ⟨2, by decide⟩)
  | ⟨3, _⟩ =>
    show 0 = ((dR).operandIdx j IR ⟨3, by decide⟩).val
    rw [operandIdxR_val, startR_3]; exact (Nat.min_zero _).symm

/-- A reshape that drops a trailing unit axis keeps every element at its three leading coordinates. -/
theorem shapeCast_drop_unit (G : (⟨4, ![256, 256, 256, 1]⟩ : Shape).Idx → α)
    (h : (⟨4, ![256, 256, 256, 1]⟩ : Shape).ShapeCasts (⟨3, ![256, 256, 256]⟩ : Shape)) (i : (⟨3, ![256, 256, 256]⟩ : Shape).Idx) :
    shapeCast (⟨3, ![256, 256, 256]⟩ : Shape) G h i = G (ix4 (n0 := 256) (n1 := 256) (n2 := 256) (n3 := 1) (i 0) (i 1) (i 2) ⟨0, by decide⟩) := by
  apply shapeCast_apply
  rw [Shape.rowMajor_val_four, Shape.rowMajor_val_three]
  show (((i 0).val * 256 + (i 1).val) * 256 + (i 2).val) * 1 + 0 = ((i 0).val * 256 + (i 1).val) * 256 + (i 2).val
  omega

section Concat
variable {β : Type}

theorem concat3_at_0 (p0 p1 p2 : (⟨3, ![1000000, 8, 1]⟩ : Shape).Idx → β)
    (h : Shape.Concatenates (([(⟨(⟨3, ![1000000, 8, 1]⟩ : Shape), p0⟩ : (s : Shape) × (s.Idx → β)), (⟨(⟨3, ![1000000, 8, 1]⟩ : Shape), p1⟩ : (s : Shape) × (s.Idx → β)), (⟨(⟨3, ![1000000, 8, 1]⟩ : Shape), p2⟩ : (s : Shape) × (s.Idx → β))]).map (·.1)) (⟨3, ![1000000, 8, 3]⟩ : Shape) (2 : Fin 3)) (r : Fin 1000000) (k : Fin 8) :
    concatenate (⟨3, ![1000000, 8, 3]⟩ : Shape) (2 : Fin 3) [(⟨(⟨3, ![1000000, 8, 1]⟩ : Shape), p0⟩ : (s : Shape) × (s.Idx → β)), (⟨(⟨3, ![1000000, 8, 1]⟩ : Shape), p1⟩ : (s : Shape) × (s.Idx → β)), (⟨(⟨3, ![1000000, 8, 1]⟩ : Shape), p2⟩ : (s : Shape) × (s.Idx → β))] h (ix3 (n0 := 1000000) (n1 := 8) (n2 := 3) r k ⟨0, by decide⟩)
      = p0 (ix3 (n0 := 1000000) (n1 := 8) (n2 := 1) r k ⟨0, by decide⟩) := by
  refine concatenate_apply_piece (2 : Fin 3) [(⟨(⟨3, ![1000000, 8, 1]⟩ : Shape), p0⟩ : (s : Shape) × (s.Idx → β)), (⟨(⟨3, ![1000000, 8, 1]⟩ : Shape), p1⟩ : (s : Shape) × (s.Idx → β)), (⟨(⟨3, ![1000000, 8, 1]⟩ : Shape), p2⟩ : (s : Shape) × (s.Idx → β))] h (ix3 (n0 := 1000000) (n1 := 8) (n2 := 3) r k ⟨0, by decide⟩) 0 (Nat.lt_of_lt_of_le (show 0 < 3 from by decide) (Nat.le_of_ble_eq_true rfl)) (⟨3, ![1000000, 8, 1]⟩ : Shape) p0 rfl rfl 0 rfl
    (ix3 (n0 := 1000000) (n1 := 8) (n2 := 1) r k ⟨0, by decide⟩) ?_ rfl
  intro b hb
  match b with
  | ⟨0, _⟩ => rfl
  | ⟨1, _⟩ => rfl
  | ⟨2, _⟩ => exact absurd rfl hb

theorem concat3_at_1 (p0 p1 p2 : (⟨3, ![1000000, 8, 1]⟩ : Shape).Idx → β)
    (h : Shape.Concatenates (([(⟨(⟨3, ![1000000, 8, 1]⟩ : Shape), p0⟩ : (s : Shape) × (s.Idx → β)), (⟨(⟨3, ![1000000, 8, 1]⟩ : Shape), p1⟩ : (s : Shape) × (s.Idx → β)), (⟨(⟨3, ![1000000, 8, 1]⟩ : Shape), p2⟩ : (s : Shape) × (s.Idx → β))]).map (·.1)) (⟨3, ![1000000, 8, 3]⟩ : Shape) (2 : Fin 3)) (r : Fin 1000000) (k : Fin 8) :
    concatenate (⟨3, ![1000000, 8, 3]⟩ : Shape) (2 : Fin 3) [(⟨(⟨3, ![1000000, 8, 1]⟩ : Shape), p0⟩ : (s : Shape) × (s.Idx → β)), (⟨(⟨3, ![1000000, 8, 1]⟩ : Shape), p1⟩ : (s : Shape) × (s.Idx → β)), (⟨(⟨3, ![1000000, 8, 1]⟩ : Shape), p2⟩ : (s : Shape) × (s.Idx → β))] h (ix3 (n0 := 1000000) (n1 := 8) (n2 := 3) r k ⟨1, by decide⟩)
      = p1 (ix3 (n0 := 1000000) (n1 := 8) (n2 := 1) r k ⟨0, by decide⟩) := by
  refine concatenate_apply_piece (2 : Fin 3) [(⟨(⟨3, ![1000000, 8, 1]⟩ : Shape), p0⟩ : (s : Shape) × (s.Idx → β)), (⟨(⟨3, ![1000000, 8, 1]⟩ : Shape), p1⟩ : (s : Shape) × (s.Idx → β)), (⟨(⟨3, ![1000000, 8, 1]⟩ : Shape), p2⟩ : (s : Shape) × (s.Idx → β))] h (ix3 (n0 := 1000000) (n1 := 8) (n2 := 3) r k ⟨1, by decide⟩) 1 (Nat.lt_of_lt_of_le (show 1 < 3 from by decide) (Nat.le_of_ble_eq_true rfl)) (⟨3, ![1000000, 8, 1]⟩ : Shape) p1 rfl rfl 1 rfl
    (ix3 (n0 := 1000000) (n1 := 8) (n2 := 1) r k ⟨0, by decide⟩) ?_ rfl
  intro b hb
  match b with
  | ⟨0, _⟩ => rfl
  | ⟨1, _⟩ => rfl
  | ⟨2, _⟩ => exact absurd rfl hb

theorem concat3_at_2 (p0 p1 p2 : (⟨3, ![1000000, 8, 1]⟩ : Shape).Idx → β)
    (h : Shape.Concatenates (([(⟨(⟨3, ![1000000, 8, 1]⟩ : Shape), p0⟩ : (s : Shape) × (s.Idx → β)), (⟨(⟨3, ![1000000, 8, 1]⟩ : Shape), p1⟩ : (s : Shape) × (s.Idx → β)), (⟨(⟨3, ![1000000, 8, 1]⟩ : Shape), p2⟩ : (s : Shape) × (s.Idx → β))]).map (·.1)) (⟨3, ![1000000, 8, 3]⟩ : Shape) (2 : Fin 3)) (r : Fin 1000000) (k : Fin 8) :
    concatenate (⟨3, ![1000000, 8, 3]⟩ : Shape) (2 : Fin 3) [(⟨(⟨3, ![1000000, 8, 1]⟩ : Shape), p0⟩ : (s : Shape) × (s.Idx → β)), (⟨(⟨3, ![1000000, 8, 1]⟩ : Shape), p1⟩ : (s : Shape) × (s.Idx → β)), (⟨(⟨3, ![1000000, 8, 1]⟩ : Shape), p2⟩ : (s : Shape) × (s.Idx → β))] h (ix3 (n0 := 1000000) (n1 := 8) (n2 := 3) r k ⟨2, by decide⟩)
      = p2 (ix3 (n0 := 1000000) (n1 := 8) (n2 := 1) r k ⟨0, by decide⟩) := by
  refine concatenate_apply_piece (2 : Fin 3) [(⟨(⟨3, ![1000000, 8, 1]⟩ : Shape), p0⟩ : (s : Shape) × (s.Idx → β)), (⟨(⟨3, ![1000000, 8, 1]⟩ : Shape), p1⟩ : (s : Shape) × (s.Idx → β)), (⟨(⟨3, ![1000000, 8, 1]⟩ : Shape), p2⟩ : (s : Shape) × (s.Idx → β))] h (ix3 (n0 := 1000000) (n1 := 8) (n2 := 3) r k ⟨2, by decide⟩) 2 (Nat.lt_of_lt_of_le (show 2 < 3 from by decide) (Nat.le_of_ble_eq_true rfl)) (⟨3, ![1000000, 8, 1]⟩ : Shape) p2 rfl rfl 2 rfl
    (ix3 (n0 := 1000000) (n1 := 8) (n2 := 1) r k ⟨0, by decide⟩) ?_ rfl
  intro b hb
  match b with
  | ⟨0, _⟩ => rfl
  | ⟨1, _⟩ => rfl
  | ⟨2, _⟩ => exact absurd rfl hb

theorem concat4_at_0 (p0 p1 p2 p3 : (⟨3, ![1000000, 8, 1]⟩ : Shape).Idx → β)
    (h : Shape.Concatenates (([(⟨(⟨3, ![1000000, 8, 1]⟩ : Shape), p0⟩ : (s : Shape) × (s.Idx → β)), (⟨(⟨3, ![1000000, 8, 1]⟩ : Shape), p1⟩ : (s : Shape) × (s.Idx → β)), (⟨(⟨3, ![1000000, 8, 1]⟩ : Shape), p2⟩ : (s : Shape) × (s.Idx → β)), (⟨(⟨3, ![1000000, 8, 1]⟩ : Shape), p3⟩ : (s : Shape) × (s.Idx → β))]).map (·.1)) (⟨3, ![1000000, 8, 4]⟩ : Shape) (2 : Fin 3)) (r : Fin 1000000) (k : Fin 8) :
    concatenate (⟨3, ![1000000, 8, 4]⟩ : Shape) (2 : Fin 3) [(⟨(⟨3, ![1000000, 8, 1]⟩ : Shape), p0⟩ : (s : Shape) × (s.Idx → β)), (⟨(⟨3, ![1000000, 8, 1]⟩ : Shape), p1⟩ : (s : Shape) × (s.Idx → β)), (⟨(⟨3, ![1000000, 8, 1]⟩ : Shape), p2⟩ : (s : Shape) × (s.Idx → β)), (⟨(⟨3, ![1000000, 8, 1]⟩ : Shape), p3⟩ : (s : Shape) × (s.Idx → β))] h (ix3 (n0 := 1000000) (n1 := 8) (n2 := 4) r k ⟨0, by decide⟩)
      = p0 (ix3 (n0 := 1000000) (n1 := 8) (n2 := 1) r k ⟨0, by decide⟩) := by
  refine concatenate_apply_piece (2 : Fin 3) [(⟨(⟨3, ![1000000, 8, 1]⟩ : Shape), p0⟩ : (s : Shape) × (s.Idx → β)), (⟨(⟨3, ![1000000, 8, 1]⟩ : Shape), p1⟩ : (s : Shape) × (s.Idx → β)), (⟨(⟨3, ![1000000, 8, 1]⟩ : Shape), p2⟩ : (s : Shape) × (s.Idx → β)), (⟨(⟨3, ![1000000, 8, 1]⟩ : Shape), p3⟩ : (s : Shape) × (s.Idx → β))] h (ix3 (n0 := 1000000) (n1 := 8) (n2 := 4) r k ⟨0, by decide⟩) 0 (Nat.lt_of_lt_of_le (show 0 < 3 from by decide) (Nat.le_of_ble_eq_true rfl)) (⟨3, ![1000000, 8, 1]⟩ : Shape) p0 rfl rfl 0 rfl
    (ix3 (n0 := 1000000) (n1 := 8) (n2 := 1) r k ⟨0, by decide⟩) ?_ rfl
  intro b hb
  match b with
  | ⟨0, _⟩ => rfl
  | ⟨1, _⟩ => rfl
  | ⟨2, _⟩ => exact absurd rfl hb

theorem concat4_at_1 (p0 p1 p2 p3 : (⟨3, ![1000000, 8, 1]⟩ : Shape).Idx → β)
    (h : Shape.Concatenates (([(⟨(⟨3, ![1000000, 8, 1]⟩ : Shape), p0⟩ : (s : Shape) × (s.Idx → β)), (⟨(⟨3, ![1000000, 8, 1]⟩ : Shape), p1⟩ : (s : Shape) × (s.Idx → β)), (⟨(⟨3, ![1000000, 8, 1]⟩ : Shape), p2⟩ : (s : Shape) × (s.Idx → β)), (⟨(⟨3, ![1000000, 8, 1]⟩ : Shape), p3⟩ : (s : Shape) × (s.Idx → β))]).map (·.1)) (⟨3, ![1000000, 8, 4]⟩ : Shape) (2 : Fin 3)) (r : Fin 1000000) (k : Fin 8) :
    concatenate (⟨3, ![1000000, 8, 4]⟩ : Shape) (2 : Fin 3) [(⟨(⟨3, ![1000000, 8, 1]⟩ : Shape), p0⟩ : (s : Shape) × (s.Idx → β)), (⟨(⟨3, ![1000000, 8, 1]⟩ : Shape), p1⟩ : (s : Shape) × (s.Idx → β)), (⟨(⟨3, ![1000000, 8, 1]⟩ : Shape), p2⟩ : (s : Shape) × (s.Idx → β)), (⟨(⟨3, ![1000000, 8, 1]⟩ : Shape), p3⟩ : (s : Shape) × (s.Idx → β))] h (ix3 (n0 := 1000000) (n1 := 8) (n2 := 4) r k ⟨1, by decide⟩)
      = p1 (ix3 (n0 := 1000000) (n1 := 8) (n2 := 1) r k ⟨0, by decide⟩) := by
  refine concatenate_apply_piece (2 : Fin 3) [(⟨(⟨3, ![1000000, 8, 1]⟩ : Shape), p0⟩ : (s : Shape) × (s.Idx → β)), (⟨(⟨3, ![1000000, 8, 1]⟩ : Shape), p1⟩ : (s : Shape) × (s.Idx → β)), (⟨(⟨3, ![1000000, 8, 1]⟩ : Shape), p2⟩ : (s : Shape) × (s.Idx → β)), (⟨(⟨3, ![1000000, 8, 1]⟩ : Shape), p3⟩ : (s : Shape) × (s.Idx → β))] h (ix3 (n0 := 1000000) (n1 := 8) (n2 := 4) r k ⟨1, by decide⟩) 1 (Nat.lt_of_lt_of_le (show 1 < 3 from by decide) (Nat.le_of_ble_eq_true rfl)) (⟨3, ![1000000, 8, 1]⟩ : Shape) p1 rfl rfl 1 rfl
    (ix3 (n0 := 1000000) (n1 := 8) (n2 := 1) r k ⟨0, by decide⟩) ?_ rfl
  intro b hb
  match b with
  | ⟨0, _⟩ => rfl
  | ⟨1, _⟩ => rfl
  | ⟨2, _⟩ => exact absurd rfl hb

theorem concat4_at_2 (p0 p1 p2 p3 : (⟨3, ![1000000, 8, 1]⟩ : Shape).Idx → β)
    (h : Shape.Concatenates (([(⟨(⟨3, ![1000000, 8, 1]⟩ : Shape), p0⟩ : (s : Shape) × (s.Idx → β)), (⟨(⟨3, ![1000000, 8, 1]⟩ : Shape), p1⟩ : (s : Shape) × (s.Idx → β)), (⟨(⟨3, ![1000000, 8, 1]⟩ : Shape), p2⟩ : (s : Shape) × (s.Idx → β)), (⟨(⟨3, ![1000000, 8, 1]⟩ : Shape), p3⟩ : (s : Shape) × (s.Idx → β))]).map (·.1)) (⟨3, ![1000000, 8, 4]⟩ : Shape) (2 : Fin 3)) (r : Fin 1000000) (k : Fin 8) :
    concatenate (⟨3, ![1000000, 8, 4]⟩ : Shape) (2 : Fin 3) [(⟨(⟨3, ![1000000, 8, 1]⟩ : Shape), p0⟩ : (s : Shape) × (s.Idx → β)), (⟨(⟨3, ![1000000, 8, 1]⟩ : Shape), p1⟩ : (s : Shape) × (s.Idx → β)), (⟨(⟨3, ![1000000, 8, 1]⟩ : Shape), p2⟩ : (s : Shape) × (s.Idx → β)), (⟨(⟨3, ![1000000, 8, 1]⟩ : Shape), p3⟩ : (s : Shape) × (s.Idx → β))] h (ix3 (n0 := 1000000) (n1 := 8) (n2 := 4) r k ⟨2, by decide⟩)
      = p2 (ix3 (n0 := 1000000) (n1 := 8) (n2 := 1) r k ⟨0, by decide⟩) := by
  refine concatenate_apply_piece (2 : Fin 3) [(⟨(⟨3, ![1000000, 8, 1]⟩ : Shape), p0⟩ : (s : Shape) × (s.Idx → β)), (⟨(⟨3, ![1000000, 8, 1]⟩ : Shape), p1⟩ : (s : Shape) × (s.Idx → β)), (⟨(⟨3, ![1000000, 8, 1]⟩ : Shape), p2⟩ : (s : Shape) × (s.Idx → β)), (⟨(⟨3, ![1000000, 8, 1]⟩ : Shape), p3⟩ : (s : Shape) × (s.Idx → β))] h (ix3 (n0 := 1000000) (n1 := 8) (n2 := 4) r k ⟨2, by decide⟩) 2 (Nat.lt_of_lt_of_le (show 2 < 3 from by decide) (Nat.le_of_ble_eq_true rfl)) (⟨3, ![1000000, 8, 1]⟩ : Shape) p2 rfl rfl 2 rfl
    (ix3 (n0 := 1000000) (n1 := 8) (n2 := 1) r k ⟨0, by decide⟩) ?_ rfl
  intro b hb
  match b with
  | ⟨0, _⟩ => rfl
  | ⟨1, _⟩ => rfl
  | ⟨2, _⟩ => exact absurd rfl hb

/-- A three-column index array and a four-column one built from the same first three columns agree on those columns. -/
theorem concat_agree (p0 p1 p2 p3 : (⟨3, ![1000000, 8, 1]⟩ : Shape).Idx → β)
    (h3 : Shape.Concatenates (([(⟨(⟨3, ![1000000, 8, 1]⟩ : Shape), p0⟩ : (s : Shape) × (s.Idx → β)), ⟨(⟨3, ![1000000, 8, 1]⟩ : Shape), p1⟩, ⟨(⟨3, ![1000000, 8, 1]⟩ : Shape), p2⟩]).map (·.1)) (⟨3, ![1000000, 8, 3]⟩ : Shape) (2 : Fin 3))
    (h4 : Shape.Concatenates (([(⟨(⟨3, ![1000000, 8, 1]⟩ : Shape), p0⟩ : (s : Shape) × (s.Idx → β)), ⟨(⟨3, ![1000000, 8, 1]⟩ : Shape), p1⟩, ⟨(⟨3, ![1000000, 8, 1]⟩ : Shape), p2⟩, ⟨(⟨3, ![1000000, 8, 1]⟩ : Shape), p3⟩]).map (·.1)) (⟨3, ![1000000, 8, 4]⟩ : Shape) (2 : Fin 3))
    (r : Fin 1000000) (k : Fin 8) (c : Fin 3) :
    concatenate (⟨3, ![1000000, 8, 3]⟩ : Shape) (2 : Fin 3) [⟨(⟨3, ![1000000, 8, 1]⟩ : Shape), p0⟩, ⟨(⟨3, ![1000000, 8, 1]⟩ : Shape), p1⟩, ⟨(⟨3, ![1000000, 8, 1]⟩ : Shape), p2⟩] h3 (ix3 (n0 := 1000000) (n1 := 8) (n2 := 3) r k c)
      = concatenate (⟨3, ![1000000, 8, 4]⟩ : Shape) (2 : Fin 3) [⟨(⟨3, ![1000000, 8, 1]⟩ : Shape), p0⟩, ⟨(⟨3, ![1000000, 8, 1]⟩ : Shape), p1⟩, ⟨(⟨3, ![1000000, 8, 1]⟩ : Shape), p2⟩, ⟨(⟨3, ![1000000, 8, 1]⟩ : Shape), p3⟩] h4 (ix3 (n0 := 1000000) (n1 := 8) (n2 := 4) r k c.castSucc) := by
  match c with
  | ⟨0, _⟩ => exact (concat3_at_0 p0 p1 p2 h3 r k).trans (concat4_at_0 p0 p1 p2 p3 h4 r k).symm
  | ⟨1, _⟩ => exact (concat3_at_1 p0 p1 p2 h3 r k).trans (concat4_at_1 p0 p1 p2 p3 h4 r k).symm
  | ⟨2, _⟩ => exact (concat3_at_2 p0 p1 p2 h3 r k).trans (concat4_at_2 p0 p1 p2 p3 h4 r k).symm

end Concat

end GatherFacts

open Idealize.ShloMosaic Idealize.ShloMosaic.TcCoe Idealize.SL.Sem Idealize.ShloMosaic.StableHlo

/-- An operation over a literal family of three references: its result with each operand's contents at its own
    reference, so that the operands' contents can be rewritten in turn. -/
theorem nary3_result {τ : Topo} {sig : RefSig} {Val : EltTy → Type} {x0 x1 x2 y : Ref sig .tc}
    (f : ((k : Fin 3) → ((![x0, x1, x2] : Fin 3 → Ref sig .tc) k).ty.Contents Val) → y.ty.Contents Val) (hxs hy)
    (V : Valuation τ sig Val) :
    (nary (τ := τ) ![x0, x1, x2] y f hxs hy).result V (Proc.devRef .tc y)
      = f (Fin.cons (V (Proc.devRef .tc x0)) (Fin.cons (V (Proc.devRef .tc x1)) (Fin.cons (V (Proc.devRef .tc x2)) (fun i => i.elim0)))) := by
  rw [nary_result]; congr 1; funext k; fin_cases k <;> rfl

theorem nary3_result' {τ : Topo} {sig : RefSig} {Val : EltTy → Type} {x0 x1 x2 y : Ref sig .tc}
    (f : ((k : Fin 3) → ((![x0, x1, x2] : Fin 3 → Ref sig .tc) k).ty.Contents Val) → y.ty.Contents Val) (hxs hy)
    (V : Valuation τ sig Val) :
    (nary (τ := τ) ![x0, x1, x2] y f hxs hy).result V (no_index (Proc.devRef .tc y))
      = f (Fin.cons (V (Proc.devRef .tc x0)) (Fin.cons (V (Proc.devRef .tc x1)) (Fin.cons (V (Proc.devRef .tc x2)) (fun i => i.elim0)))) :=
  nary3_result f hxs hy V

section Reference

open Cert.ReferenceIdeal Cert.ReferenceIdeal.Gen

/-- Column 0 of the grid indices of the eight corners of every sample's cell, over the reference's shapes and facts: the
    clipped floor of the shifted points as integers, coordinate 0, negative values wrapped by 256, as a unit-width column. -/
def pieceR0 {F : FTy → Type} [FloatOps F] (P : (⟨S1000000x3, .f32⟩ : BufTy).Contents (Elt F)) (C : (⟨S8x3, .f32⟩ : BufTy).Contents (Elt F)) : (⟨S1000000x8x1, .i32⟩ : BufTy).Contents (Elt F) :=
  broadcastInDim S1000000x8x1 ![0, 1] bcast_S1000000x8_S1000000x8x1_0_1 (select (cmpi .slt (shapeCast S1000000x8 (extractStridedSlice S1000000x8x1 ![0, 0, 0] (fptosi 32 (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32))))))))) slices_S1000000x8x3_S1000000x8x1_0_0_0) shapeCasts_S1000000x8x1_S1000000x8) (broadcastInDim S1000000x8 ![] bcast_S_S1000000x8 (constantI S_ 32 0#32))) (addi (shapeCast S1000000x8 (extractStridedSlice S1000000x8x1 ![0, 0, 0] (fptosi 32 (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32))))))))) slices_S1000000x8x3_S1000000x8x1_0_0_0) shapeCasts_S1000000x8x1_S1000000x8) (broadcastInDim S1000000x8 ![] bcast_S_S1000000x8 (constantI S_ 32 256#32))) (shapeCast S1000000x8 (extractStridedSlice S1000000x8x1 ![0, 0, 0] (fptosi 32 (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32))))))))) slices_S1000000x8x3_S1000000x8x1_0_0_0) shapeCasts_S1000000x8x1_S1000000x8))

/-- Column 1 of the grid indices of the eight corners of every sample's cell, over the reference's shapes and facts: the
    clipped floor of the shifted points as integers, coordinate 1, negative values wrapped by 256, as a unit-width column. -/
def pieceR1 {F : FTy → Type} [FloatOps F] (P : (⟨S1000000x3, .f32⟩ : BufTy).Contents (Elt F)) (C : (⟨S8x3, .f32⟩ : BufTy).Contents (Elt F)) : (⟨S1000000x8x1, .i32⟩ : BufTy).Contents (Elt F) :=
  broadcastInDim S1000000x8x1 ![0, 1] bcast_S1000000x8_S1000000x8x1_0_1 (select (cmpi .slt (shapeCast S1000000x8 (extractStridedSlice S1000000x8x1 ![0, 0, 1] (fptosi 32 (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32))))))))) slices_S1000000x8x3_S1000000x8x1_0_0_1) shapeCasts_S1000000x8x1_S1000000x8) (broadcastInDim S1000000x8 ![] bcast_S_S1000000x8 (constantI S_ 32 0#32))) (addi (shapeCast S1000000x8 (extractStridedSlice S1000000x8x1 ![0, 0, 1] (fptosi 32 (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32))))))))) slices_S1000000x8x3_S1000000x8x1_0_0_1) shapeCasts_S1000000x8x1_S1000000x8) (broadcastInDim S1000000x8 ![] bcast_S_S1000000x8 (constantI S_ 32 256#32))) (shapeCast S1000000x8 (extractStridedSlice S1000000x8x1 ![0, 0, 1] (fptosi 32 (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32))))))))) slices_S1000000x8x3_S1000000x8x1_0_0_1) shapeCasts_S1000000x8x1_S1000000x8))

/-- Column 2 of the grid indices of the eight corners of every sample's cell, over the reference's shapes and facts: the
    clipped floor of the shifted points as integers, coordinate 2, negative values wrapped by 256, as a unit-width column. -/
def pieceR2 {F : FTy → Type} [FloatOps F] (P : (⟨S1000000x3, .f32⟩ : BufTy).Contents (Elt F)) (C : (⟨S8x3, .f32⟩ : BufTy).Contents (Elt F)) : (⟨S1000000x8x1, .i32⟩ : BufTy).Contents (Elt F) :=
  broadcastInDim S1000000x8x1 ![0, 1] bcast_S1000000x8_S1000000x8x1_0_1 (select (cmpi .slt (shapeCast S1000000x8 (extractStridedSlice S1000000x8x1 ![0, 0, 2] (fptosi 32 (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32))))))))) slices_S1000000x8x3_S1000000x8x1_0_0_2) shapeCasts_S1000000x8x1_S1000000x8) (broadcastInDim S1000000x8 ![] bcast_S_S1000000x8 (constantI S_ 32 0#32))) (addi (shapeCast S1000000x8 (extractStridedSlice S1000000x8x1 ![0, 0, 2] (fptosi 32 (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32))))))))) slices_S1000000x8x3_S1000000x8x1_0_0_2) shapeCasts_S1000000x8x1_S1000000x8) (broadcastInDim S1000000x8 ![] bcast_S_S1000000x8 (constantI S_ 32 256#32))) (shapeCast S1000000x8 (extractStridedSlice S1000000x8x1 ![0, 0, 2] (fptosi 32 (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32))))))))) slices_S1000000x8x3_S1000000x8x1_0_0_2) shapeCasts_S1000000x8x1_S1000000x8))

attribute [local irreducible] Host.gather concatenate in
set_option maxRecDepth 8192 in
set_option maxHeartbeats 2000000 in
/-- The reference's grid lookup, read back: the grid with its unit axis, four index columns. -/
theorem ref_gather (VR : Valuation τ sig (Elt Ideal)) :
    after (HRun.ops0 ++ HRun.ops1) VR (Proc.devRef .tc main_v41)
      = Host.gather gather_S256x256x256x1_S1000000x8x4_S1000000x8_n_0123_n_n_0123_2_1111 (VR (Proc.devRef .tc main_arg2))
          (concatenate S1000000x8x4 2 [⟨S1000000x8x1, pieceR0 (F := Ideal) (VR (Proc.devRef .tc main_arg0)) (fun i => FloatOps.ofBits (F := Ideal) .f32 (lit0 (S8x3.rowMajor i)))⟩,
            ⟨S1000000x8x1, pieceR1 (F := Ideal) (VR (Proc.devRef .tc main_arg0)) (fun i => FloatOps.ofBits (F := Ideal) .f32 (lit0 (S8x3.rowMajor i)))⟩,
            ⟨S1000000x8x1, pieceR2 (F := Ideal) (VR (Proc.devRef .tc main_arg0)) (fun i => FloatOps.ofBits (F := Ideal) .f32 (lit0 (S8x3.rowMajor i)))⟩,
            ⟨S1000000x8x1, broadcastInDim S1000000x8x1 ![0, 1] bcast_S1000000x8_S1000000x8x1_0_1 (id (broadcastInDim S1000000x8 ![] bcast_S_S1000000x8 (constantI S_ 32 0#32)))⟩]
            concatenates_S1000000x8x1_S1000000x8x1_S1000000x8x1_S1000000x8x1_S1000000x8x4_d2) := by
  simp only [StableHlo.after_append]
  simp only [HRun.ops0, HRun.ops1]
  simp (disch := decide) only [after_cons, after_nil,
    nullary_result', unary_result', binary_result', ternary_result', reshape_result', nary3_result', nary4_result',
    nullary_result_ne', unary_result_ne', binary_result_ne', ternary_result_ne', reshape_result_ne', nary_result_ne']
  rfl

end Reference

section Kernel

open Cert.KernelIdeal Cert.KernelIdeal.Gen

/-- Column 0 of the grid indices of the eight corners of every sample's cell, over the kernel program's shapes and facts: the
    clipped floor of the shifted points as integers, coordinate 0, negative values wrapped by 256, as a unit-width column. -/
def pieceK0 {F : FTy → Type} [FloatOps F] (P : (⟨S1000000x3, .f32⟩ : BufTy).Contents (Elt F)) (C : (⟨S8x3, .f32⟩ : BufTy).Contents (Elt F)) : (⟨S1000000x8x1, .i32⟩ : BufTy).Contents (Elt F) :=
  broadcastInDim S1000000x8x1 ![0, 1] bcast_S1000000x8_S1000000x8x1_0_1 (select (cmpi .slt (shapeCast S1000000x8 (extractStridedSlice S1000000x8x1 ![0, 0, 0] (fptosi 32 (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32))))))))) slices_S1000000x8x3_S1000000x8x1_0_0_0) shapeCasts_S1000000x8x1_S1000000x8) (broadcastInDim S1000000x8 ![] bcast_S_S1000000x8 (constantI S_ 32 0#32))) (addi (shapeCast S1000000x8 (extractStridedSlice S1000000x8x1 ![0, 0, 0] (fptosi 32 (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32))))))))) slices_S1000000x8x3_S1000000x8x1_0_0_0) shapeCasts_S1000000x8x1_S1000000x8) (broadcastInDim S1000000x8 ![] bcast_S_S1000000x8 (constantI S_ 32 256#32))) (shapeCast S1000000x8 (extractStridedSlice S1000000x8x1 ![0, 0, 0] (fptosi 32 (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32))))))))) slices_S1000000x8x3_S1000000x8x1_0_0_0) shapeCasts_S1000000x8x1_S1000000x8))

/-- Column 1 of the grid indices of the eight corners of every sample's cell, over the kernel program's shapes and facts: the
    clipped floor of the shifted points as integers, coordinate 1, negative values wrapped by 256, as a unit-width column. -/
def pieceK1 {F : FTy → Type} [FloatOps F] (P : (⟨S1000000x3, .f32⟩ : BufTy).Contents (Elt F)) (C : (⟨S8x3, .f32⟩ : BufTy).Contents (Elt F)) : (⟨S1000000x8x1, .i32⟩ : BufTy).Contents (Elt F) :=
  broadcastInDim S1000000x8x1 ![0, 1] bcast_S1000000x8_S1000000x8x1_0_1 (select (cmpi .slt (shapeCast S1000000x8 (extractStridedSlice S1000000x8x1 ![0, 0, 1] (fptosi 32 (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32))))))))) slices_S1000000x8x3_S1000000x8x1_0_0_1) shapeCasts_S1000000x8x1_S1000000x8) (broadcastInDim S1000000x8 ![] bcast_S_S1000000x8 (constantI S_ 32 0#32))) (addi (shapeCast S1000000x8 (extractStridedSlice S1000000x8x1 ![0, 0, 1] (fptosi 32 (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32))))))))) slices_S1000000x8x3_S1000000x8x1_0_0_1) shapeCasts_S1000000x8x1_S1000000x8) (broadcastInDim S1000000x8 ![] bcast_S_S1000000x8 (constantI S_ 32 256#32))) (shapeCast S1000000x8 (extractStridedSlice S1000000x8x1 ![0, 0, 1] (fptosi 32 (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32))))))))) slices_S1000000x8x3_S1000000x8x1_0_0_1) shapeCasts_S1000000x8x1_S1000000x8))

/-- Column 2 of the grid indices of the eight corners of every sample's cell, over the kernel program's shapes and facts: the
    clipped floor of the shifted points as integers, coordinate 2, negative values wrapped by 256, as a unit-width column. -/
def pieceK2 {F : FTy → Type} [FloatOps F] (P : (⟨S1000000x3, .f32⟩ : BufTy).Contents (Elt F)) (C : (⟨S8x3, .f32⟩ : BufTy).Contents (Elt F)) : (⟨S1000000x8x1, .i32⟩ : BufTy).Contents (Elt F) :=
  broadcastInDim S1000000x8x1 ![0, 1] bcast_S1000000x8_S1000000x8x1_0_1 (select (cmpi .slt (shapeCast S1000000x8 (extractStridedSlice S1000000x8x1 ![0, 0, 2] (fptosi 32 (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32))))))))) slices_S1000000x8x3_S1000000x8x1_0_0_2) shapeCasts_S1000000x8x1_S1000000x8) (broadcastInDim S1000000x8 ![] bcast_S_S1000000x8 (constantI S_ 32 0#32))) (addi (shapeCast S1000000x8 (extractStridedSlice S1000000x8x1 ![0, 0, 2] (fptosi 32 (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32))))))))) slices_S1000000x8x3_S1000000x8x1_0_0_2) shapeCasts_S1000000x8x1_S1000000x8) (broadcastInDim S1000000x8 ![] bcast_S_S1000000x8 (constantI S_ 32 256#32))) (shapeCast S1000000x8 (extractStridedSlice S1000000x8x1 ![0, 0, 2] (fptosi 32 (minimumf (broadcastInDim S1000000x8x3 ![] bcast_S_S1000000x8x3 (sitofp .f32 (constantI S_ 32 255#32))) (maximumf (broadcastInDim S1000000x8x3 ![] bcast_S_S1000000x8x3 (id (constant S_ .f32 0x00000000#32))) (Host.floor (addf (broadcastInDim S1000000x8x3 ![0, 1, 2] bcast_S1000000x1x3_S1000000x8x3_0_1_2 (broadcastInDim S1000000x1x3 ![0, 2] bcast_S1000000x3_S1000000x1x3_0_2 P)) (broadcastInDim S1000000x8x3 ![0, 1, 2] bcast_S1x8x3_S1000000x8x3_0_1_2 (Host.divf (broadcastInDim S1x8x3 ![1, 2] bcast_S8x3_S1x8x3_1_2 C) (broadcastInDim S1x8x3 ![] bcast_S_S1x8x3 (constant S_ .f32 0x40000000#32))))))))) slices_S1000000x8x3_S1000000x8x1_0_0_2) shapeCasts_S1000000x8x1_S1000000x8))

attribute [local irreducible] Host.gather concatenate in
set_option maxRecDepth 8192 in
set_option maxHeartbeats 2000000 in
/-- The kernel program's grid lookup, read back: the grid without its unit axis, three index columns. -/
theorem ker_gather (VK : Valuation τ sig (Elt Ideal)) :
    after (hostOps0 ++ (hostOps0_1 ++ hostOps0_2)) VK (Proc.devRef .tc main_v39)
      = Host.gather gather_S256x256x256_S1000000x8x3_S1000000x8_n_012_n_n_012_2_111
          (shapeCast S256x256x256 (VK (Proc.devRef .tc main_arg2)) shapeCasts_S256x256x256x1_S256x256x256)
          (concatenate S1000000x8x3 2 [⟨S1000000x8x1, pieceK0 (F := Ideal) (VK (Proc.devRef .tc main_arg0)) (fun i => FloatOps.ofBits (F := Ideal) .f32 (lit0 (S8x3.rowMajor i)))⟩,
            ⟨S1000000x8x1, pieceK1 (F := Ideal) (VK (Proc.devRef .tc main_arg0)) (fun i => FloatOps.ofBits (F := Ideal) .f32 (lit0 (S8x3.rowMajor i)))⟩,
            ⟨S1000000x8x1, pieceK2 (F := Ideal) (VK (Proc.devRef .tc main_arg0)) (fun i => FloatOps.ofBits (F := Ideal) .f32 (lit0 (S8x3.rowMajor i)))⟩]
            concatenates_S1000000x8x1_S1000000x8x1_S1000000x8x1_S1000000x8x3_d2) := by
  simp only [StableHlo.after_append]
  simp only [hostOps0, hostOps0_1, hostOps0_2]
  simp (disch := decide) only [after_cons, after_nil,
    nullary_result', unary_result', binary_result', ternary_result', reshape_result', nary3_result', nary4_result',
    nullary_result_ne', unary_result_ne', binary_result_ne', ternary_result_ne', reshape_result_ne', nary_result_ne']
  rfl

end Kernel

attribute [local irreducible] Host.gather Host.reduceAdd concatenate in
set_option maxRecDepth 8192 in
set_option maxHeartbeats 2000000 in
/-- The two spellings of index column 0 are one function. -/
theorem piece_cross0 (P : FVec Ideal ⟨2, ![1000000, 3]⟩ .f32) (C : FVec Ideal ⟨2, ![8, 3]⟩ .f32) :
    pieceK0 (F := Ideal) P C = pieceR0 (F := Ideal) P C := rfl

attribute [local irreducible] Host.gather Host.reduceAdd concatenate in
set_option maxRecDepth 8192 in
set_option maxHeartbeats 2000000 in
/-- The two spellings of index column 1 are one function. -/
theorem piece_cross1 (P : FVec Ideal ⟨2, ![1000000, 3]⟩ .f32) (C : FVec Ideal ⟨2, ![8, 3]⟩ .f32) :
    pieceK1 (F := Ideal) P C = pieceR1 (F := Ideal) P C := rfl

attribute [local irreducible] Host.gather Host.reduceAdd concatenate in
set_option maxRecDepth 8192 in
set_option maxHeartbeats 2000000 in
/-- The two spellings of index column 2 are one function. -/
theorem piece_cross2 (P : FVec Ideal ⟨2, ![1000000, 3]⟩ .f32) (C : FVec Ideal ⟨2, ![8, 3]⟩ .f32) :
    pieceK2 (F := Ideal) P C = pieceR2 (F := Ideal) P C := rfl

/-- From the same sample points and the same grid the two programs look up the same corner values. -/
theorem head_gather (VK : Valuation Cert.KernelIdeal.τ Cert.KernelIdeal.sig (Elt Ideal)) (VR : Valuation Cert.ReferenceIdeal.τ Cert.ReferenceIdeal.sig (Elt Ideal))
    (h0 : VR (Proc.devRef .tc Cert.ReferenceIdeal.main_arg0) = VK (Proc.devRef .tc Cert.KernelIdeal.main_arg0))
    (h2 : VR (Proc.devRef .tc Cert.ReferenceIdeal.main_arg2) = VK (Proc.devRef .tc Cert.KernelIdeal.main_arg2)) :
    after (Cert.ReferenceIdeal.HRun.ops0 ++ Cert.ReferenceIdeal.HRun.ops1) VR (Proc.devRef .tc Cert.ReferenceIdeal.main_v41)
      = after (Cert.KernelIdeal.Gen.hostOps0 ++ (Cert.KernelIdeal.Gen.hostOps0_1 ++ Cert.KernelIdeal.Gen.hostOps0_2)) VK (Proc.devRef .tc Cert.KernelIdeal.main_v39) := by
  rw [ref_gather VR, ker_gather VK, h0, h2, head_table_eq, piece_cross0, piece_cross1, piece_cross2]
  exact (gather_eq _ _ (shapeCast_drop_unit _ _) _ _ (fun r k c => concat_agree _ _ _ _ _ _ r k c)).symm

end Cert.HostChain

end
-- ==== Proof.HostChain.lean ====
/-
  The region's feature array is the reference's: the chains' join (`fvals_eq_of_gather`) at the grid values the two
  reads of the grid give (`head_gather`).
-/
import proofs.«133790_j23845658428386_2_alg».proof.Proof.ChainJoin
import proofs.«133790_j23845658428386_2_alg».proof.Proof.ChainGather

noncomputable section

namespace Cert.HostChain

open Idealize.ShloMosaic Idealize.ShloMosaic.StableHlo

/-- From valuations that agree on the sample positions, the grid and the feature table, the kernel program's
    window-0 array and the reference's feature array agree entry by entry. -/
theorem fvals_eq (VK : Valuation Cert.KernelIdeal.τ Cert.KernelIdeal.sig (Elt Ideal)) (VR : Valuation Cert.ReferenceIdeal.τ Cert.ReferenceIdeal.sig (Elt Ideal))
    (h0 : VR (Proc.devRef .tc Cert.ReferenceIdeal.main_arg0) = VK (Proc.devRef .tc Cert.KernelIdeal.main_arg0))
    (h2 : VR (Proc.devRef .tc Cert.ReferenceIdeal.main_arg2) = VK (Proc.devRef .tc Cert.KernelIdeal.main_arg2))
    (h3 : VR (Proc.devRef .tc Cert.ReferenceIdeal.main_arg3) = VK (Proc.devRef .tc Cert.KernelIdeal.main_arg3))
    (i : (⟨2, ![1000000, 16]⟩ : Shape).Idx) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8]) VK (Proc.devRef .tc Cert.KernelIdeal.main_v138) : (⟨2, ![1000000, 16]⟩ : Shape).Idx → EReal) i
      = (StableHlo.after Cert.ReferenceIdeal.HRun.opsA VR (Proc.devRef .tc Cert.ReferenceIdeal.main_v139) : (⟨2, ![1000000, 16]⟩ : Shape).Idx → EReal) i :=
  fvals_eq_of_gather VK VR h0 h3 (head_gather VK VR h0 h2) i

end Cert.HostChain

end
-- ==== Proof.lean ====
/-
  A learned-hash radiance field evaluated at a million samples: the kernel program and its reference return the
  same density vector and the same colour array on the extended reals.

  Both programs first blend, on the host, sixteen features per sample out of a feature table, addressed through a
  256³ grid at the eight corners around the sample's position; they apply the same operations in the same order,
  except that one reads the grid through a reshape with three index columns and the other reads it in place with a
  fourth index column of zeros — the same entries (`Cert.HostChain.fvals_eq`).  The kernel program then hands the
  feature array (narrowed to sixteen bits, which changes nothing on the extended reals) to a region that applies the
  two small networks to 4000 samples per grid point (`Cert.KernelIdeal.HValue`), the reference applies them to all
  samples at once (`Cert.ReferenceIdeal.HValue`); both are, sample by sample, the row-wise network of
  `Cert.RowSpec`: finite sums of products, which do not depend on how the samples are grouped nor on the order of
  the additions.  No step needs the inputs to be finite.  The three frames are the programs' runs with the results
  dropped; the idealization rewrote nothing.
-/
import proofs.«133790_j23845658428386_2_alg».proof.Defs
import proofs.«133790_j23845658428386_2_alg».proof.Proof.Gen.Kernel
import proofs.«133790_j23845658428386_2_alg».proof.Proof.Gen.KernelIdeal
import proofs.«133790_j23845658428386_2_alg».proof.Proof.Gen.ReferenceIdeal
import proofs.«133790_j23845658428386_2_alg».proof.Proof.Gen.Pre_finite_inputs
import proofs.«133790_j23845658428386_2_alg».proof.Proof.KFrame
import proofs.«133790_j23845658428386_2_alg».proof.Proof.ValueK
import proofs.«133790_j23845658428386_2_alg».proof.Proof.RefValue
import proofs.«133790_j23845658428386_2_alg».proof.Proof.HostChain

noncomputable section

namespace Cert.Proof

open Idealize.ShloMosaic Idealize.ShloMosaic.TcCoe Idealize.SL.Sem Idealize.ShloMosaic.ValueIdx Cert.RowSpec

theorem frame_p : Cert.frame_Kernel := fun m ρ _ => Cert.Kernel.HFrame.frame m ρ

theorem frame_pi : Cert.frame_KernelIdeal := fun m ρ _ => Cert.KernelIdeal.HFrame.frame m ρ

theorem frame_ri : Cert.frame_ReferenceIdeal := fun m ρ _ =>
  (θ_run Cert.ReferenceIdeal.defs _ _).mono (fun _ h c => (h c).2.2) (Cert.ReferenceIdeal.HValue.run m ρ)

theorem preserves : Cert.preserves_Kernel_KernelIdeal := trivial

section Bridge

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- From memories that agree on the sample positions, the grid and the feature table, the region's feature array is
    the reference's. -/
theorem feats_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.KernelIdeal.HFrame.V m c Cert.KernelIdeal.main_v138 : (⟨2, ![1000000, 16]⟩ : Shape).Idx → EReal)
      = Cert.ReferenceIdeal.HValue.FvR m' c :=
  funext fun i => Cert.HostChain.fvals_eq (fun b => m (c, b)) (fun b => m' (c, b)) h0 h2 h3 i

end Bridge

theorem algebraic : Cert.algebraic_KernelIdeal_ReferenceIdeal := by
  intro m ρ m' ρ' _ hagree
  refine ⟨fun c => Cert.KernelIdeal.HValue.sigK m c, fun c => Cert.KernelIdeal.HValue.colK m c,
    Cert.KernelIdeal.HValue.run m ρ, ?_⟩
  refine (θ_run Cert.ReferenceIdeal.defs _ _).mono (fun _ h c => ⟨(h c).1.trans ?_, (h c).2.1.trans ?_, (h c).2.2⟩)
    (Cert.ReferenceIdeal.HValue.run m' ρ')
  · obtain ⟨a0, a1, a2, a3, a4, a5, a6, a7, a8⟩ := hagree c
    show Cert.ReferenceIdeal.HValue.sigR m' c = Cert.KernelIdeal.HValue.sigK m c
    funext i
    obtain ⟨n, rfl⟩ : ∃ n : Fin 1000000, i = ix1 n := ⟨i 0, eq_ix1 i⟩
    rw [Cert.ReferenceIdeal.HValue.sigR_entry, Cert.KernelIdeal.HValue.sigK_entry, feats_eq m m' c a0 a2 a3,
      Cert.KernelIdeal.HFrame.V_main_arg4, Cert.KernelIdeal.HFrame.V_main_arg5, a4, a5]
  · obtain ⟨a0, a1, a2, a3, a4, a5, a6, a7, a8⟩ := hagree c
    show Cert.ReferenceIdeal.HValue.colR m' c = Cert.KernelIdeal.HValue.colK m c
    funext i
    obtain ⟨n, j, rfl⟩ : ∃ (n : Fin 1000000) (j : Fin 3), i = ix2 n j := ⟨i 0, i 1, eq_ix2 i⟩
    rw [Cert.ReferenceIdeal.HValue.colR_entry, Cert.KernelIdeal.HValue.colK_entry, feats_eq m m' c a0 a2 a3,
      Cert.KernelIdeal.HFrame.V_main_arg1, Cert.KernelIdeal.HFrame.V_main_arg4, Cert.KernelIdeal.HFrame.V_main_arg5,
      Cert.KernelIdeal.HFrame.V_main_arg6, Cert.KernelIdeal.HFrame.V_main_arg7, Cert.KernelIdeal.HFrame.V_main_arg8,
      a1, a4, a5, a6, a7, a8]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
